-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x128 : Shape := ⟨2, ![4, 128]⟩
abbrev S2x160000 : Shape := ⟨2, ![2, 160000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S2x160000 32 := broadcastInDim S2x160000 ![] bcast_S_S2x160000 main_c_16
  let main_v45 : IVec S2x160000 1 := cmpi .sge main_arg1 main_v44
  let main_c_17 : IVec S_ 32 := constantI S_ 32 9999#32
  let main_v46 : IVec S2x160000 32 := broadcastInDim S2x160000 ![] bcast_S_S2x160000 main_c_17
  let main_v47 : IVec S2x160000 1 := cmpi .sle main_arg1 main_v46
  let main_v48 : IVec S2x160000 1 := andi main_v45 main_v47
  let main_c_18 : IVec S_ 1 := constantI S_ 1 1#1
  let main_v49 : IVec S_ 1 := (fun x v => Host.reduce IntOp.andi x v reducesTo_S2x160000_S_d0_1 h_S_) main_v48 main_c_18
  let main_v50 : IVec S_ 1 := andi main_v43 main_v49
  main_v50

def fn_part1 {F : FTy → Type} [FloatOps F] (main_arg1 : IVec S2x160000 32) (main_arg5 : FVec F S64x64 .f32) (main_arg6 : FVec F S64x64 .f32) (main_arg7 : FVec F S64 .f32) (main_arg8 : FVec F S64x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S4x128 .f32) (main_arg1 : IVec S2x160000 32) (main_arg2 : FVec F S128x64 .f32) (main_arg3 : FVec F S128x64 .f32) (main_arg4 : FVec F S64 .f32) (main_arg5 : FVec F S64x64 .f32) (main_arg6 : FVec F S64x64 .f32) (main_arg7 : FVec F S64 .f32) (main_arg8 : FVec F S64x2 .f32) (main_arg9 : FVec F S2 .f32) : IVec S_ 1 :=
  let main_v0 : FVec F S4x128 .f32 := Host.absf main_arg0
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_v13 main_v16
-- ==== Kernel.lean ====
abbrev S4x128 : Shape := ⟨2, ![4, 128]⟩
abbrev S2x160000 : Shape := ⟨2, ![2, 160000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S2x8x10240 : Shape := ⟨3, ![2, 8, 10240]⟩
abbrev S2x4992 : Shape := ⟨2, ![2, 4992]⟩
abbrev S2x128 : Shape := ⟨2, ![2, 128]⟩
abbrev S10240 : Shape := ⟨1, ![10240]⟩
abbrev S640 : Shape := ⟨1, ![640]⟩
abbrev S16x10240 : Shape := ⟨2, ![16, 10240]⟩
abbrev S_ : Shape := ⟨0, ![]⟩
abbrev S16 : Shape := ⟨1, ![16]⟩
abbrev S1x16 : Shape := ⟨2, ![1, 16]⟩
abbrev S1x10240 : Shape := ⟨2, ![1, 10240]⟩
abbrev S1x640 : Shape := ⟨2, ![1, 640]⟩
abbrev S1x1x640 : Shape := ⟨3, ![1, 1, 640]⟩
abbrev S1x64 : Shape := ⟨2, ![1, 64]⟩
abbrev S1x2 : Shape := ⟨2, ![1, 2]⟩
abbrev S4x2 : Shape := ⟨2, ![4, 2]⟩
abbrev S1x8x10240 : Shape := ⟨3, ![1, 8, 10240]⟩
abbrev S64x1 : Shape := ⟨2, ![64, 1]⟩
abbrev S128x4 : Shape := ⟨2, ![128, 4]⟩
abbrev S64x4 : Shape := ⟨2, ![64, 4]⟩
abbrev S1x1x10240 : Shape := ⟨3, ![1, 1, 10240]⟩
abbrev S64x10240 : Shape := ⟨2, ![64, 10240]⟩

abbrev nBuf : Table → Nat
  | .hbm => 15
  | .local .tc .vmem => 12
  | .shared => 1
  | .local .scVector .vmem => 5
  | _ => 0

abbrev bufTy : (tb : Table) → Fin (nBuf tb) → BufTy
  | .hbm, ⟨0, _⟩ => ⟨S4x128, .f32⟩
  | .hbm, ⟨1, _⟩ => ⟨S2x160000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S2x8x10240, .f32⟩
  | .hbm, ⟨11, _⟩ => ⟨S1x64, .f32⟩
  | .hbm, ⟨12, _⟩ => ⟨S1x64, .f32⟩
  | .hbm, ⟨13, _⟩ => ⟨S1x2, .f32⟩
  | .hbm, ⟨14, _⟩ => ⟨S4x2, .f32⟩
  | .local .tc .vmem, ⟨0, _⟩ => ⟨S4x128, .f32⟩
  | .local .tc .vmem, ⟨1, _⟩ => ⟨S128x64, .f32⟩
  | .local .tc .vmem, ⟨2, _⟩ => ⟨S128x64, .f32⟩
  | .local .tc .vmem, ⟨3, _⟩ => ⟨S1x64, .f32⟩
  | .local .tc .vmem, ⟨4, _⟩ => ⟨S64x64, .f32⟩
  | .local .tc .vmem, ⟨5, _⟩ => ⟨S64x64, .f32⟩
  | .local .tc .vmem, ⟨6, _⟩ => ⟨S1x64, .f32⟩
  | .local .tc .vmem, ⟨7, _⟩ => ⟨S64x2, .f32⟩
  | .local .tc .vmem, ⟨8, _⟩ => ⟨S1x2, .f32⟩
  | .local .tc .vmem, ⟨9, _⟩ => ⟨S1x8x10240, .f32⟩
  | .local .tc .vmem, ⟨10, _⟩ => ⟨S1x8x10240, .f32⟩
  | .local .tc .vmem, ⟨11, _⟩ => ⟨S4x2, .f32⟩
  | .shared, ⟨0, _⟩ => ⟨S16x10240, .f32⟩
  | .local .scVector .vmem, ⟨0, _⟩ => ⟨S2x4992, .i32⟩
  | .local .scVector .vmem, ⟨1, _⟩ => ⟨S2x128, .i32⟩
  | .local .scVector .vmem, ⟨2, _⟩ => ⟨S10240, .f32⟩
  | .local .scVector .vmem, ⟨3, _⟩ => ⟨S640, .f32⟩
  | .local .scVector .vmem, ⟨4, _⟩ => ⟨S640, .f32⟩
  | _, _ => ⟨S4x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 5 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_arg1_scv : Ref sig .scVector := ⟨.hbm, 1, rfl⟩
abbrev main_v0_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4992_i32 : BitVec 32 := 4992#32
  let v4 : BitVec 32 := Scalar.muli v1 c4992_i32
  ![0, v4.toNat]
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v7 : BitVec 1 := Scalar.cmpi .slt v1 c2_i32
  let v8 : BitVec 32 := Scalar.extui v7
  let c0_i32_2 : BitVec 32 := 0#32
  let v9 : BitVec 1 := Scalar.cmpi .ne v8 c0_i32_2
  v9

def k0_off2 (i : grid0.Coords) : Fin 2 → Nat :=
  let c0_i32_30_r0 : BitVec 32 := 0#32
  let c1248_i32 : BitVec 32 := 1248#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v26 : BitVec 32 := Scalar.addi c1248_i32 v1
  let c128_i32 : BitVec 32 := 128#32
  let v27 : BitVec 32 := Scalar.muli v26 c128_i32
  ![0, v27.toNat]
@[reducible] def k0_t1_loop : Scf.Loop 32 :=
  let c0_i32_4 : BitVec 32 := 0#32
  let c640_i32 : BitVec 32 := 640#32
  let v10 : BitVec 32 := Scalar.addi c0_i32_4 c640_i32
  let c1_i32 : BitVec 32 := 1#32
  ⟨c0_i32_4, v10, c1_i32⟩
def k0_off3 (k0_t1 : Fin k0_t1_loop.trips) : Fin 1 → Nat :=
  let c0_i32_4 : BitVec 32 := 0#32
  let c1_i32 : BitVec 32 := 1#32
  let arg11 : BitVec 32 := Scf.iv c0_i32_4 c1_i32 k0_t1
  let c16_i32_30 : BitVec 32 := 16#32
  let v26 : BitVec 32 := Scalar.muli arg11 c16_i32_30
  let v27 : Index := Scalar.indexCast v26
  ![v27.toNat]
@[reducible] def k0_t2_loop : Scf.Loop 32 :=
  let c0_i32_9 : BitVec 32 := 0#32
  let c312_i32 : BitVec 32 := 312#32
  let v14 : BitVec 32 := Scalar.addi c0_i32_9 c312_i32
  let c1_i32_10 : BitVec 32 := 1#32
  ⟨c0_i32_9, v14, c1_i32_10⟩
def k0_off4 (k0_t2 : Fin k0_t2_loop.trips) : Fin 2 → Nat :=
  let c0_i32_31 : BitVec 32 := 0#32
  let v27 : Index := Scalar.indexCast c0_i32_31
  let c0_i32_9 : BitVec 32 := 0#32
  let c1_i32_10 : BitVec 32 := 1#32
  let arg11 : BitVec 32 := Scf.iv c0_i32_9 c1_i32_10 k0_t2
  let c16_i32_30 : BitVec 32 := 16#32
  let v26 : BitVec 32 := Scalar.muli arg11 c16_i32_30
  let v28 : Index := Scalar.indexCast v26
  ![0, v28.toNat]

def k0_chk1 (v29 : IVec S16 32) : Prop :=
  (∀ a x, ((![v29] : Fin 1 → IVec S16 32) a x).toNat < S10240.size a)
instance k0_chk1.dec : ∀ (v29 : IVec S16 32), Decidable (k0_chk1 v29) := fun v29 => decidable_of_iff' _ (Iff.of_eq (k0_chk1.eq_1 v29))
theorem k0_idx1_inb : ∀ (v29 : IVec S16 32) (k0_hw1 : k0_chk1 v29), ∀ a x, ((![v29] : Fin 1 → IVec S16 32) a x).toNat < S10240.size a := fun v29 k0_hw1 => k0_hw1
@[reducible] def k0_t3_loop : Scf.Loop 32 :=
  let c0_i32_13 : BitVec 32 := 0#32
  let c312_i32_14 : BitVec 32 := 312#32
  let v16 : BitVec 32 := Scalar.addi c0_i32_13 c312_i32_14
  let c1_i32_15 : BitVec 32 := 1#32
  ⟨c0_i32_13, v16, c1_i32_15⟩
def k0_off5 (k0_t3 : Fin k0_t3_loop.trips) : Fin 2 → Nat :=
  let c1_i32_31 : BitVec 32 := 1#32
  let v27 : Index := Scalar.indexCast c1_i32_31
  let c0_i32_13 : BitVec 32 := 0#32
  let c1_i32_15 : BitVec 32 := 1#32
  let arg11 : BitVec 32 := Scf.iv c0_i32_13 c1_i32_15 k0_t3
  let c16_i32_30 : BitVec 32 := 16#32
  let v26 : BitVec 32 := Scalar.muli arg11 c16_i32_30
  let v28 : Index := Scalar.indexCast v26
  ![1, v28.toNat]

def k0_chk2 (v29 : IVec S16 32) : Prop :=
  (∀ a x, ((![v29] : Fin 1 → IVec S16 32) a x).toNat < S10240.size a)
instance k0_chk2.dec : ∀ (v29 : IVec S16 32), Decidable (k0_chk2 v29) := fun v29 => decidable_of_iff' _ (Iff.of_eq (k0_chk2.eq_1 v29))
theorem k0_idx2_inb : ∀ (v29 : IVec S16 32) (k0_hw2 : k0_chk2 v29), ∀ a x, ((![v29] : Fin 1 → IVec S16 32) a x).toNat < S10240.size a := fun v29 k0_hw2 => k0_hw2
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_17 : BitVec 32 := 2#32
  let v18 : BitVec 1 := Scalar.cmpi .slt v1 c2_i32_17
  let v19 : BitVec 32 := Scalar.extui v18
  let c0_i32_18 : BitVec 32 := 0#32
  let v20 : BitVec 1 := Scalar.cmpi .ne v19 c0_i32_18
  v20

@[reducible] def k0_t4_loop : Scf.Loop 32 :=
  let c0_i32_31 : BitVec 32 := 0#32
  let c8_i32 : BitVec 32 := 8#32
  let v26 : BitVec 32 := Scalar.addi c0_i32_31 c8_i32
  let c1_i32_32 : BitVec 32 := 1#32
  ⟨c0_i32_31, v26, c1_i32_32⟩
def k0_off6 (k0_t4 : Fin k0_t4_loop.trips) : Fin 2 → Nat :=
  let c0_i32_40 : BitVec 32 := 0#32
  let v31 : Index := Scalar.indexCast c0_i32_40
  let c0_i32_31 : BitVec 32 := 0#32
  let c1_i32_32 : BitVec 32 := 1#32
  let arg11 : BitVec 32 := Scf.iv c0_i32_31 c1_i32_32 k0_t4
  let c16_i32_39 : BitVec 32 := 16#32
  let v30 : BitVec 32 := Scalar.muli arg11 c16_i32_39
  let v32 : Index := Scalar.indexCast v30
  ![0, v32.toNat]

def k0_chk3 (i : grid0.Coords) (v33 : IVec S16 32) : Prop :=
  (∀ (k0_h2 : k0_cond2 i = 1#1), ∀ a x, ((![v33] : Fin 1 → IVec S16 32) a x).toNat < S10240.size a)
instance k0_chk3.dec : ∀ (i : grid0.Coords) (v33 : IVec S16 32), Decidable (k0_chk3 i v33) := fun i v33 => decidable_of_iff' _ (Iff.of_eq (k0_chk3.eq_1 i v33))
theorem k0_idx3_inb : ∀ (i : grid0.Coords) (v33 : IVec S16 32) (k0_hw3 : k0_chk3 i v33), ∀ (k0_h2 : k0_cond2 i = 1#1), ∀ a x, ((![v33] : Fin 1 → IVec S16 32) a x).toNat < S10240.size a := fun i v33 k0_hw3 k0_h2 => k0_hw3 k0_h2
@[reducible] def k0_t5_loop : Scf.Loop 32 :=
  let c0_i32_35 : BitVec 32 := 0#32
  let c8_i32_36 : BitVec 32 := 8#32
  let v28 : BitVec 32 := Scalar.addi c0_i32_35 c8_i32_36
  let c1_i32_37 : BitVec 32 := 1#32
  ⟨c0_i32_35, v28, c1_i32_37⟩
def k0_off7 (k0_t5 : Fin k0_t5_loop.trips) : Fin 2 → Nat :=
  let c1_i32_40 : BitVec 32 := 1#32
  let v31 : Index := Scalar.indexCast c1_i32_40
  let c0_i32_35 : BitVec 32 := 0#32
  let c1_i32_37 : BitVec 32 := 1#32
  let arg11 : BitVec 32 := Scf.iv c0_i32_35 c1_i32_37 k0_t5
  let c16_i32_39 : BitVec 32 := 16#32
  let v30 : BitVec 32 := Scalar.muli arg11 c16_i32_39
  let v32 : Index := Scalar.indexCast v30
  ![1, v32.toNat]

def k0_chk4 (i : grid0.Coords) (v33 : IVec S16 32) : Prop :=
  (∀ (k0_h2 : k0_cond2 i = 1#1), ∀ a x, ((![v33] : Fin 1 → IVec S16 32) a x).toNat < S10240.size a)
instance k0_chk4.dec : ∀ (i : grid0.Coords) (v33 : IVec S16 32), Decidable (k0_chk4 i v33) := fun i v33 => decidable_of_iff' _ (Iff.of_eq (k0_chk4.eq_1 i v33))
theorem k0_idx4_inb : ∀ (i : grid0.Coords) (v33 : IVec S16 32) (k0_hw4 : k0_chk4 i v33), ∀ (k0_h2 : k0_cond2 i = 1#1), ∀ a x, ((![v33] : Fin 1 → IVec S16 32) a x).toNat < S10240.size a := fun i v33 k0_hw4 k0_h2 => k0_hw4 k0_h2
def k0_off8 (i : grid0.Coords) : Fin 2 → Nat :=
  let arg1 : BitVec 32 := BitVec.ofNat 32 (i 1).val
  let c0_i32_30_r1 : BitVec 32 := 0#32
  ![arg1.toNat, 0]
@[reducible] def k0_t6_loop : Scf.Loop 32 :=
  let c0_i32_20 : BitVec 32 := 0#32
  let c40_i32 : BitVec 32 := 40#32
  let v21 : BitVec 32 := Scalar.addi c0_i32_20 c40_i32
  let c1_i32_21 : BitVec 32 := 1#32
  ⟨c0_i32_20, v21, c1_i32_21⟩
def k0_off9 (k0_t6 : Fin k0_t6_loop.trips) : Fin 1 → Nat :=
  let c0_i32_20 : BitVec 32 := 0#32
  let c1_i32_21 : BitVec 32 := 1#32
  let arg11 : BitVec 32 := Scf.iv c0_i32_20 c1_i32_21 k0_t6
  let c16_i32_30 : BitVec 32 := 16#32
  let v26 : BitVec 32 := Scalar.muli arg11 c16_i32_30
  let v27 : Index := Scalar.indexCast v26
  ![v27.toNat]
@[reducible] def k0_t7_loop : Scf.Loop 32 :=
  let c0_i32_24 : BitVec 32 := 0#32
  let c16_i32_25 : BitVec 32 := 16#32
  let v23 : BitVec 32 := Scalar.addi c0_i32_24 c16_i32_25
  let c1_i32_26 : BitVec 32 := 1#32
  ⟨c0_i32_24, v23, c1_i32_26⟩
def k0_off10 (i : grid0.Coords) (k0_t7 : Fin k0_t7_loop.trips) : Fin 2 → Nat :=
  let c0_i32_24 : BitVec 32 := 0#32
  let c1_i32_26 : BitVec 32 := 1#32
  let arg11 : BitVec 32 := Scf.iv c0_i32_24 c1_i32_26 k0_t7
  let arg1 : BitVec 32 := BitVec.ofNat 32 (i 1).val
  let c640_i32_30 : BitVec 32 := 640#32
  let v26 : BitVec 32 := Scalar.muli arg1 c640_i32_30
  ![arg11.toNat, v26.toNat]
@[reducible] def k0_t8_loop : Scf.Loop 32 :=
  let c0_i32_32 : BitVec 32 := 0#32
  let c40_i32_33 : BitVec 32 := 40#32
  let v27 : BitVec 32 := Scalar.addi c0_i32_32 c40_i32_33
  let c1_i32_34 : BitVec 32 := 1#32
  ⟨c0_i32_32, v27, c1_i32_34⟩
def k0_off11 (k0_t8 : Fin k0_t8_loop.trips) : Fin 1 → Nat :=
  let c0_i32_32 : BitVec 32 := 0#32
  let c1_i32_34 : BitVec 32 := 1#32
  let arg13 : BitVec 32 := Scf.iv c0_i32_32 c1_i32_34 k0_t8
  let c16_i32_37 : BitVec 32 := 16#32
  let v29 : BitVec 32 := Scalar.muli arg13 c16_i32_37
  let v30 : Index := Scalar.indexCast v29
  ![v30.toNat]
def k0_off12 (i : grid0.Coords) : Fin 3 → Nat :=
  let arg0 : BitVec 32 := BitVec.ofNat 32 (i 0).val
  let c0_i32_29 : BitVec 32 := 0#32
  let arg1 : BitVec 32 := BitVec.ofNat 32 (i 1).val
  let c640_i32_28 : BitVec 32 := 640#32
  let v25 : BitVec 32 := Scalar.muli arg1 c640_i32_28
  ![arg0.toNat, 0, v25.toNat]
abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x8x10240 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x8x10240 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x2 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S1x16 : 0 < S1x16.numel
  shapeCasts_S1x16_S16 : S1x16.ShapeCasts S16
  h_S10240 : 0 < S10240.numel
  squeezes_S1x10240_S10240 : S1x10240.Squeezes S10240
  squeezes_S1x640_S640 : S1x640.Squeezes S640
  squeezes_S1x1x640_S640 : S1x1x640.Squeezes S640
  shapeCasts_S64_S1x64 : S64.ShapeCasts S1x64
  shapeCasts_S2_S1x2 : S2.ShapeCasts S1x2
  inb_S4x128_S4x128_0_0 : ∀ a, (![0, 0] : Fin 2 → Nat) a + S4x128.size a ≤ S4x128.size a
  h_S4x128 : 0 < S4x128.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  inb_S128x64_S128x64_0_0 : ∀ a, (![0, 0] : Fin 2 → Nat) a + S128x64.size a ≤ S128x64.size a
  h_S128x64 : 0 < S128x64.numel
  transposes_S4x128_p1_0_S128x4 : S4x128.Transposes [1, 0] S128x4
  broadcasts_S64x1_S64x4 : S64x1.Broadcasts S64x4
  inb_S1x8x10240_S1x1x10240_0_0_0 : ∀ a, (![0, 0, 0] : Fin 3 → Nat) a + S1x1x10240.size a ≤ S1x8x10240.size a
  h_S1x1x10240 : 0 < S1x1x10240.numel
  shapeCasts_S1x1x10240_S1x10240 : S1x1x10240.ShapeCasts S1x10240
  iota_S1x10240_d1_w32 : S1x10240.Iotas .tc 32 [1]
  natLt_1_32 : 1 < 32
  slices_S64x4_o0_0_S64x1 : S64x4.Slices ![0, 0] S64x1
  broadcasts_S64x1_S64x10240 : S64x1.Broadcasts S64x10240
  broadcasts_S1x10240_S64x10240 : S1x10240.Broadcasts S64x10240
  slices_S64x4_o0_2_S64x1 : S64x4.Slices ![0, 2] S64x1
  slices_S64x4_o0_1_S64x1 : S64x4.Slices ![0, 1] S64x1
  slices_S64x4_o0_3_S64x1 : S64x4.Slices ![0, 3] S64x1
  reduces_S64x10240_S64 : S64x10240.Reduces [1] S64
  shapeCasts_S64_S64x1 : S64.ShapeCasts S64x1
  concatenates_S64x1_S64x1_S64x2_d1 : Shape.Concatenates [S64x1, S64x1] S64x2 1
  slices_S64x4_o0_0_S64x2 : S64x4.Slices ![0, 0] S64x2
  broadcasts_S64x1_S64x2 : S64x1.Broadcasts S64x2
  concatenates_S64x2_S64x2_S64x4_d1 : Shape.Concatenates [S64x2, S64x2] S64x4 1
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4x2 : S1x2.Broadcasts S4x2
  inb_S4x2_S4x2_0_0 : ∀ a, (![0, 0] : Fin 2 → Nat) a + S4x2.size a ≤ S4x2.size a
  h_S4x2 : 0 < S4x2.numel
  dot_S128x64_S128x4_S64x4_0_0_1_1_n_n_wf : DotDims.WF S128x64 S128x4 S64x4 [0] [0] [1] [1] [] []
  dot_S64x64_S64x4_S64x4_0_0_1_1_n_n_wf : DotDims.WF S64x64 S64x4 S64x4 [0] [0] [1] [1] [] []
  dot_S64x64_S64x10240_S64x10240_0_0_1_1_n_n_wf : DotDims.WF S64x64 S64x10240 S64x10240 [0] [0] [1] [1] [] []
  dot_S64x64_S64x2_S64x2_0_0_1_1_n_n_wf : DotDims.WF S64x64 S64x2 S64x2 [0] [0] [1] [1] [] []
  dot_S64x4_S64x2_S4x2_0_0_1_1_n_n_wf : DotDims.WF S64x4 S64x2 S4x2 [0] [0] [1] [1] [] []
  hcc0_scratch6 : 0 + S_.numel ≤ 17
  hcc0_scoped0 : 1 + S_.numel ≤ 17
  hcc0_scoped1 : 2 + S_.numel ≤ 17
  hcc0_scoped2 : 3 + S_.numel ≤ 17
  hcc0_scoped3 : 4 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2x4992.size a ≤ S2x160000.size a
  k0_off2_inb : ∀ i : grid0.Coords, ∀ (k0_h1 : k0_cond1 i = 1#1), ∀ a, (k0_off2 i) a + S2x128.size a ≤ S2x160000.size a
  k0_t1_ok : k0_t1_loop.OK
  k0_off3_inb : ∀ k0_t1 : Fin k0_t1_loop.trips, ∀ a, (k0_off3 k0_t1) a + S16.size a ≤ S10240.size a
  k0_t2_ok : k0_t2_loop.OK
  k0_off4_inb : ∀ k0_t2 : Fin k0_t2_loop.trips, ∀ a, (k0_off4 k0_t2) a + S1x16.size a ≤ S2x4992.size a
  k0_t3_ok : k0_t3_loop.OK
  k0_off5_inb : ∀ k0_t3 : Fin k0_t3_loop.trips, ∀ a, (k0_off5 k0_t3) a + S1x16.size a ≤ S2x4992.size a
  k0_t4_ok : ∀ i : grid0.Coords, ∀ (k0_h2 : k0_cond2 i = 1#1), k0_t4_loop.OK
  k0_off6_inb : ∀ (i : grid0.Coords) (k0_t4 : Fin k0_t4_loop.trips), ∀ (k0_h2 : k0_cond2 i = 1#1), ∀ a, (k0_off6 k0_t4) a + S1x16.size a ≤ S2x128.size a
  k0_t5_ok : ∀ i : grid0.Coords, ∀ (k0_h2 : k0_cond2 i = 1#1), k0_t5_loop.OK
  k0_off7_inb : ∀ (i : grid0.Coords) (k0_t5 : Fin k0_t5_loop.trips), ∀ (k0_h2 : k0_cond2 i = 1#1), ∀ a, (k0_off7 k0_t5) a + S1x16.size a ≤ S2x128.size a
  k0_off8_inb : ∀ i : grid0.Coords, ∀ a, (k0_off8 i) a + S1x10240.size a ≤ S16x10240.size a
  k0_t6_ok : k0_t6_loop.OK
  k0_off9_inb : ∀ k0_t6 : Fin k0_t6_loop.trips, ∀ a, (k0_off9 k0_t6) a + S16.size a ≤ S640.size a
  k0_t7_ok : k0_t7_loop.OK
  k0_off10_inb : ∀ (i : grid0.Coords) (k0_t7 : Fin k0_t7_loop.trips), ∀ a, (k0_off10 i k0_t7) a + S1x640.size a ≤ S16x10240.size a
  k0_t8_ok : k0_t8_loop.OK
  k0_off11_inb : ∀ k0_t8 : Fin k0_t8_loop.trips, ∀ a, (k0_off11 k0_t8) a + S16.size a ≤ S640.size a
  k0_off12_inb : ∀ i : grid0.Coords, ∀ a, (k0_off12 i) a + S1x1x640.size a ≤ S2x8x10240.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x128.size a ≤ S4x128.size a
  hwx1_0 : ∀ i : grid1.Coords, EltTy.bits .f32 = 32 ∨ (Rect.block (s := S4x128) S4x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x2.size a ≤ S64x2.size a
  hwx1_7 : ∀ i : grid1.Coords, EltTy.bits .f32 = 32 ∨ (Rect.block (s := S64x2) S64x2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2.size a ≤ S1x2.size a
  hwx1_8 : ∀ i : grid1.Coords, EltTy.bits .f32 = 32 ∨ (Rect.block (s := S1x2) S1x2.size (cc1_transform_8 i) (hinb1_8 i)).WholeWords (EltTy.packing .f32)
  hstage1_9 : ∀ j, (stage1_9 j).IsWhole
  nbuf1_9 : grid1.bufCount reads1_9 false = 1
  hreads1_9 : ∀ i i' : grid1.Coords, (∀ a, reads1_9 a = true → i a = i' a) → cc1_transform_9 i = cc1_transform_9 i'
  hinb1_9 : ∀ (i : grid1.Coords) a, (cc1_transform_9 i a + 1) * S1x8x10240.size a ≤ S2x8x10240.size a
  hwx1_9 : ∀ i : grid1.Coords, EltTy.bits .f32 = 32 ∨ (Rect.block (s := S2x8x10240) S1x8x10240.size (cc1_transform_9 i) (hinb1_9 i)).WholeWords (EltTy.packing .f32)
  hstage1_10 : ∀ j, (stage1_10 j).IsWhole
  nbuf1_10 : grid1.bufCount reads1_10 false = 1
  hreads1_10 : ∀ i i' : grid1.Coords, (∀ a, reads1_10 a = true → i a = i' a) → cc1_transform_10 i = cc1_transform_10 i'
  hinb1_10 : ∀ (i : grid1.Coords) a, (cc1_transform_10 i a + 1) * S1x8x10240.size a ≤ S2x8x10240.size a
  hwx1_10 : ∀ i : grid1.Coords, EltTy.bits .f32 = 32 ∨ (Rect.block (s := S2x8x10240) S1x8x10240.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4x2.size a ≤ S4x2.size a
  hwx1_11 : ∀ i : grid1.Coords, EltTy.bits .f32 = 32 ∨ (Rect.block (s := S4x2) S4x2.size (cc1_transform_11 i) (hinb1_11 i)).WholeWords (EltTy.packing .f32)

variable [Facts₀]

abbrev cc0_scratch6 : DmaSems sig S_ := SemArray.consecutive 0 S_ hcc0_scratch6
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
def dot_S128x64_S128x4_S64x4_0_0_1_1_n_n : DotDims S128x64 S128x4 S64x4 where
  lhsContracting := [0]
  rhsContracting := [0]
  lhsNonContracting := [1]
  rhsNonContracting := [1]
  lhsBatch := []
  rhsBatch := []
  wf := dot_S128x64_S128x4_S64x4_0_0_1_1_n_n_wf
def dot_S64x64_S64x4_S64x4_0_0_1_1_n_n : DotDims S64x64 S64x4 S64x4 where
  lhsContracting := [0]
  rhsContracting := [0]
  lhsNonContracting := [1]
  rhsNonContracting := [1]
  lhsBatch := []
  rhsBatch := []
  wf := dot_S64x64_S64x4_S64x4_0_0_1_1_n_n_wf
def dot_S64x64_S64x10240_S64x10240_0_0_1_1_n_n : DotDims S64x64 S64x10240 S64x10240 where
  lhsContracting := [0]
  rhsContracting := [0]
  lhsNonContracting := [1]
  rhsNonContracting := [1]
  lhsBatch := []
  rhsBatch := []
  wf := dot_S64x64_S64x10240_S64x10240_0_0_1_1_n_n_wf
def dot_S64x64_S64x2_S64x2_0_0_1_1_n_n : DotDims S64x64 S64x2 S64x2 where
  lhsContracting := [0]
  rhsContracting := [0]
  lhsNonContracting := [1]
  rhsNonContracting := [1]
  lhsBatch := []
  rhsBatch := []
  wf := dot_S64x64_S64x2_S64x2_0_0_1_1_n_n_wf
def dot_S64x4_S64x2_S4x2_0_0_1_1_n_n : DotDims S64x4 S64x2 S4x2 where
  lhsContracting := [0]
  rhsContracting := [0]
  lhsNonContracting := [1]
  rhsNonContracting := [1]
  lhsBatch := []
  rhsBatch := []
  wf := dot_S64x4_S64x2_S4x2_0_0_1_1_n_n_wf

abbrev win1_0 : Pipeline.Window sig grid1 :=
  Pipeline.Window.ofSpec (Memref.whole main_arg0) S4x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v0) S1x8x10240.size cc1_transform_9 reads1_9 false false 1 stage1_9 sem1_9
    hrank1 hreads1_9 hinb1_9 nbuf1_9 (Memref.isWhole_whole _) hwx1_9 hstage1_9

abbrev win1_10 : Pipeline.Window sig grid1 :=
  Pipeline.Window.ofSpec (Memref.whole main_v0) S1x8x10240.size cc1_transform_10 reads1_10 false false 1 stage1_10 sem1_10
    hrank1 hreads1_10 hinb1_10 nbuf1_10 (Memref.isWhole_whole _) hwx1_10 hstage1_10

abbrev win1_11 : Pipeline.Window sig grid1 :=
  Pipeline.Window.ofSpec (Memref.whole main_v4) S4x2.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S4x128 : Shape := ⟨2, ![4, 128]⟩
abbrev S2x160000 : Shape := ⟨2, ![2, 160000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S4x1x128 : Shape := ⟨3, ![4, 1, 128]⟩
abbrev S4x10000x128 : Shape := ⟨3, ![4, 10000, 128]⟩
abbrev S40000x128 : Shape := ⟨2, ![40000, 128]⟩
abbrev S4 : Shape := ⟨1, ![4]⟩
abbrev S_ : Shape := ⟨0, ![]⟩
abbrev S4x1x1 : Shape := ⟨3, ![4, 1, 1]⟩
abbrev S1x2x160000 : Shape := ⟨3, ![1, 2, 160000]⟩
abbrev S4x2x160000 : Shape := ⟨3, ![4, 2, 160000]⟩
abbrev S2x640000 : Shape := ⟨2, ![2, 640000]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S40000x64 : Shape := ⟨2, ![40000, 64]⟩
abbrev S1x64 : Shape := ⟨2, ![1, 64]⟩
abbrev S640000x64 : Shape := ⟨2, ![640000, 64]⟩
abbrev S4x10000x64 : Shape := ⟨3, ![4, 10000, 64]⟩
abbrev S4x64 : Shape := ⟨2, ![4, 64]⟩
abbrev S4x2 : Shape := ⟨2, ![4, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S2x160000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S4x1x128, .f32⟩
  | .hbm, ⟨11, _⟩ => ⟨S4x10000x128, .f32⟩
  | .hbm, ⟨12, _⟩ => ⟨S40000x128, .f32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4x1x1, .i32⟩
  | .hbm, ⟨18, _⟩ => ⟨S1x2x160000, .i32⟩
  | .hbm, ⟨19, _⟩ => ⟨S4x2x160000, .i32⟩
  | .hbm, ⟨20, _⟩ => ⟨S4x2x160000, .i32⟩
  | .hbm, ⟨21, _⟩ => ⟨S4x2x160000, .i32⟩
  | .hbm, ⟨22, _⟩ => ⟨S2x640000, .i32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S40000x128, .f32⟩
  | .hbm, ⟨38, _⟩ => ⟨S640000x1, .i32⟩
  | .hbm, ⟨39, _⟩ => ⟨S40000x128, .f32⟩
  | .hbm, ⟨40, _⟩ => ⟨S40000x64, .f32⟩
  | .hbm, ⟨41, _⟩ => ⟨S1x64, .f32⟩
  | .hbm, ⟨42, _⟩ => ⟨S40000x64, .f32⟩
  | .hbm, ⟨43, _⟩ => ⟨S40000x64, .f32⟩
  | .hbm, ⟨44, _⟩ => ⟨S40000x64, .f32⟩
  | .hbm, ⟨45, _⟩ => ⟨S40000x64, .f32⟩
  | .hbm, ⟨46, _⟩ => ⟨S_, .f32⟩
  | .hbm, ⟨47, _⟩ => ⟨S40000x64, .f32⟩
  | .hbm, ⟨48, _⟩ => ⟨S40000x64, .f32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x64, .f32⟩
  | .hbm, ⟨58, _⟩ => ⟨S_, .f32⟩
  | .hbm, ⟨59, _⟩ => ⟨S40000x64, .f32⟩
  | .hbm, ⟨60, _⟩ => ⟨S640000x1, .i32⟩
  | .hbm, ⟨61, _⟩ => ⟨S40000x64, .f32⟩
  | .hbm, ⟨62, _⟩ => ⟨S40000x64, .f32⟩
  | .hbm, ⟨63, _⟩ => ⟨S1x64, .f32⟩
  | .hbm, ⟨64, _⟩ => ⟨S40000x64, .f32⟩
  | .hbm, ⟨65, _⟩ => ⟨S40000x64, .f32⟩
  | .hbm, ⟨66, _⟩ => ⟨S40000x64, .f32⟩
  | .hbm, ⟨67, _⟩ => ⟨S40000x64, .f32⟩
  | .hbm, ⟨68, _⟩ => ⟨S_, .f32⟩
  | .hbm, ⟨69, _⟩ => ⟨S40000x64, .f32⟩
  | .hbm, ⟨70, _⟩ => ⟨S40000x64, .f32⟩
  | .hbm, ⟨71, _⟩ => ⟨S4x10000x64, .f32⟩
  | .hbm, ⟨72, _⟩ => ⟨S_, .f32⟩
  | .hbm, ⟨73, _⟩ => ⟨S4x64, .f32⟩
  | .hbm, ⟨74, _⟩ => ⟨S_, .f32⟩
  | .hbm, ⟨75, _⟩ => ⟨S4x64, .f32⟩
  | .hbm, ⟨76, _⟩ => ⟨S4x64, .f32⟩
  | .hbm, ⟨77, _⟩ => ⟨S4x2, .f32⟩
  | .hbm, ⟨78, _⟩ => ⟨S1x2, .f32⟩
  | .hbm, ⟨79, _⟩ => ⟨S4x2, .f32⟩
  | .hbm, ⟨80, _⟩ => ⟨S4x2, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_c_2 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]

class Facts₀ : Prop where
  bcast_S4x128_S4x1x128_0_2 : S4x128.BroadcastsInDim S4x1x128 (![0, 2] : Fin 2 → Fin S4x1x128.rank)
  bcast_S4x1x128_S4x10000x128_0_1_2 : S4x1x128.BroadcastsInDim S4x10000x128 (![0, 1, 2] : Fin 3 → Fin S4x10000x128.rank)
  shapeCasts_S4x10000x128_S40000x128 : S4x10000x128.ShapeCasts S40000x128
  bcast_S_S4 : S_.BroadcastsInDim S4 (![] : Fin 0 → Fin S4.rank)
  shapeCasts_S4_S4x1x1 : S4.ShapeCasts S4x1x1
  bcast_S2x160000_S1x2x160000_1_2 : S2x160000.BroadcastsInDim S1x2x160000 (![1, 2] : Fin 2 → Fin S1x2x160000.rank)
  bcast_S1x2x160000_S4x2x160000_0_1_2 : S1x2x160000.BroadcastsInDim S4x2x160000 (![0, 1, 2] : Fin 3 → Fin S4x2x160000.rank)
  bcast_S4x1x1_S4x2x160000_0_1_2 : S4x1x1.BroadcastsInDim S4x2x160000 (![0, 1, 2] : Fin 3 → Fin S4x2x160000.rank)
  shapeCasts_S4x2x160000_S2x640000 : S4x2x160000.ShapeCasts S2x640000
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S40000x64 : S_.BroadcastsInDim S40000x64 (![] : Fin 0 → Fin S40000x64.rank)
  shapeCasts_S40000x64_S4x10000x64 : S40000x64.ShapeCasts S4x10000x64
  reducesTo_S4x10000x64_S4x64_d1 : S4x10000x64.ReducesTo [1] S4x64
  h_S_ : 0 < S_.numel
  bcast_S_S4x64 : S_.BroadcastsInDim S4x64 (![] : Fin 0 → Fin S4x64.rank)
  bcast_S2_S1x2_1 : S2.BroadcastsInDim S1x2 (![1] : Fin 1 → Fin S1x2.rank)
  bcast_S1x2_S4x2_0_1 : S1x2.BroadcastsInDim S4x2 (![0, 1] : Fin 2 → Fin S4x2.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x64_S40000x64_1_0_0_1_n_n_wf : DotDims.WF S40000x128 S128x64 S40000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  dot_S40000x64_S64x64_S40000x64_1_0_0_1_n_n_wf : DotDims.WF S40000x64 S64x64 S40000x64 [1] [0] [0] [1] [] []
  dot_S4x64_S64x2_S4x2_1_0_0_1_n_n_wf : DotDims.WF S4x64 S64x2 S4x2 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def dot_S4x64_S64x2_S4x2_1_0_0_1_n_n : DotDims S4x64 S64x2 S4x2 where
  lhsContracting := [1]
  rhsContracting := [0]
  lhsNonContracting := [0]
  rhsNonContracting := [1]
  lhsBatch := []
  rhsBatch := []
  wf := dot_S4x64_S64x2_S4x2_1_0_0_1_n_n_wf

class Facts : Prop extends Facts₀ where

variable [Facts]
-- ==== Proof.HistSetup.lean ====
/-
  The histogram kernel's program as the SparseCore launch theorem sees it, and the ghost state its proof is written over:
  three libraries of rounds side by side — the launch handshakes', the subcore barrier's cells', the TensorCore region's
  staging cells' — and the local transfers' counters.
-/
import proofs.«210354_g33337536152245_cont_8to1_b_1126_28_alg».proof.Defs
import proofs.«210354_g33337536152245_cont_8to1_b_1126_28_alg».proof.Proof.Gen.KernelIdeal
import proofs.«210354_g33337536152245_cont_8to1_b_1126_28_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore region's staging cells' rounds library. -/
def ER : Emb UR (MT nD τ sig (HIx 1) (Elt F) ℕ UU ℕ) :=
  (((Emb.inl : Emb UR (UR × Counters)).trans (Emb.inr : Emb (UR × Counters) (UB × (UR × Counters)))).trans (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The arrays and the pieces of them the kernel addresses -/

abbrev eiLoc (d : Dev nD) : Loc nD τ sig := (SparseCore.T d).loc main_arg1
abbrev tLoc (d : Dev nD) : Loc nD τ sig := (SparseCore.T d).loc main_v0
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

abbrev eiV : Memref sig .scVector .hbm S2x160000 .i32 := Memref.whole main_arg1_scv
abbrev tV : Memref sig .scVector .hbm S2x8x10240 .f32 := Memref.whole main_v0_scv
abbrev shV : Memref sig .scVector .shared S16x10240 .f32 := Memref.whole cc0_scratch5
abbrev idxV : Memref sig .scVector .vmem S2x4992 .i32 := Memref.whole cc0_scratch0
abbrev extV : Memref sig .scVector .vmem S2x128 .i32 := Memref.whole cc0_scratch1
abbrev histV : Memref sig .scVector .vmem S10240 .f32 := Memref.whole cc0_scratch2
abbrev accV : Memref sig .scVector .vmem S640 .f32 := Memref.whole cc0_scratch3
abbrev bufV : Memref sig .scVector .vmem S640 .f32 := Memref.whole cc0_scratch4

def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
theorem trips7 : k0_t7_loop.trips = 16 := by decide

/-- The 640 columns of row 0 of SparseCore `L 0`'s plane of the output that tile `L` writes, as the task addresses them. -/
abbrev tOutK (L : grid0.Coords) : Memref sig .scVector .hbm S640 .f32 :=
  ((tV).slice (Rect.unit (s := S2x8x10240) (k0_off12 L) S1x1x640.size (k0_off12_inb L)) (fun _ => rfl)).squeeze S640 squeezes_S1x1x640_S640
/-- Row `L 1` of the shared scratch, which tile `L` fills with its counts. -/
abbrev shRowK (L : grid0.Coords) : Memref sig .scVector .shared S10240 .f32 :=
  ((shV).slice (Rect.unit (s := S16x10240) (k0_off8 L) S1x10240.size (k0_off8_inb L)) (fun _ => rfl)).squeeze S10240 squeezes_S1x10240_S10240
/-- The 640 columns of row `t` of the shared scratch that tile `L` adds up. -/
abbrev shBlkK (L : grid0.Coords) (t : Fin k0_t7_loop.trips) : Memref sig .scVector .shared S640 .f32 :=
  ((shV).slice (Rect.unit (s := S16x10240) (k0_off10 L t) S1x640.size (k0_off10_inb L t)) (fun _ => rfl)).squeeze S640 squeezes_S1x640_S640

abbrev tOutSet (L : grid0.Coords) : Finset S2x8x10240.Idx := (tOutK L).view.set
abbrev shRowSet (L : grid0.Coords) : Finset S16x10240.Idx := (shRowK L).view.set
abbrev shBlkSet (L : grid0.Coords) (t : Fin k0_t7_loop.trips) : Finset S16x10240.Idx := (shBlkK L t).view.set
/-- SparseCore `c`'s plane of the output. -/
def tCoreSet (c : Fin 2) : Finset S2x8x10240.Idx := Finset.univ.filter fun j => (j 0).val = c.val

/-! ## The barrier cells -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

variable (SH : (d : Dev nD) → (c : Fin τ.nSC) → Buf (Elt F) (shLoc d c))

/-- What tile `n`'s arrival at tile `(c, j)`'s barrier hands over: the 640 columns of ITS row of the shared scratch that
    tile `j` will add up, filled and waited for, at the contents every row ends at. -/
def bPay (g : GSem nD τ sig) (n : ℕ) : sProp 𝕄 :=
  match g with
  | ((d, .scVector c j), _) =>
    if h : c.val < grid0.bound 0 ∧ j.val < grid0.bound 1 ∧ n < k0_t7_loop.trips then
      shLoc d c ↦[shBlkSet (coordsV ⟨c.val, h.1⟩ ⟨j.val, h.2.1⟩) ⟨n, h.2.2⟩]{fullShare} SH d c
    else iprop(emp)
  | _ => iprop(emp)

/-- The barrier cells' schedule: one round on each, of one unit duty per tile of the SparseCore (named by its number),
    each handing over its piece of the shared scratch. -/
def bRd : Rounds.Schedule (GSem nD τ sig) ℕ 𝕄 where
  duties g r := if isBar g ∧ r = 0 then (Finset.univ : Finset (Fin τ.nSub)).image Fin.val else ∅
  amount _ _ _ := 1
  payload g _ n := bPay SH g n
  amount_pos _ _ _ _ := Nat.one_pos

instance bRd_payload_storable (g : GSem nD τ sig) (r n : ℕ) : BI.Storable (upEmb : UEmb _ 𝕄) ((bRd SH).payload g r n) := by
  show BI.Storable upEmb (bPay SH g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd SH).duties (bcell d c j) 0 = (Finset.univ : Finset (Fin τ.nSub)).image Fin.val := by
  simp [bRd, isBar]
theorem bRd_mem₀ (d : Dev nD) (c : Fin τ.nSC) (j i : Fin τ.nSub) : i.val ∈ (bRd SH).duties (bcell d c j) 0 := by
  rw [bRd_duties₀]; exact Finset.mem_image_of_mem _ (Finset.mem_univ i)
theorem bRd_expect (d : Dev nD) (c : Fin τ.nSC) (j : Fin τ.nSub) : 0 + grid0.bound 1 = (bRd SH).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd SH) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

variable (m : (ℓ : Loc nD τ sig) → Buf (Elt F) ℓ) (CH : Dev nD → Fin 2 → Fin 10240 → Elt F .f32)

/-- A SparseCore's read share of the edge list, and a tile's of that. -/
abbrev coreShare (c : Fin 2) : PosShare TreeShare := Transfers.shareTok fullShare 2 c
abbrev tileShare (c : Fin 2) (i : Fin 16) : PosShare TreeShare := Transfers.shareTok (coreShare c) 16 i

abbrev cOf (c : Fin ((K (F := F)).nCore 0)) : Fin 2 := Fin.cast nCore_zero c
abbrev iOf (i : Fin ((K (F := F)).nSub 0)) : Fin 16 := Fin.cast nSub_zero i
abbrev LOf (c : Fin ((K (F := F)).nCore 0)) (i : Fin ((K (F := F)).nSub 0)) : grid0.Coords := coordsV (cOf c) (iOf i)

/-- The one SparseCore call hands core `c` a read share of the edge list and its plane of the output, and gets them back,
    row 0 of the plane at the core's counts; each task is handed a share of the share, its 640 columns of that row, and
    its row of the shared scratch, and hands back the columns at its sums and the 640-column strip of the shared scratch
    it added up; each task's proof consumes its barrier kit; each tile owes its arrivals. -/
def P : (K (F := F)).Pay (nD := nD) (Val := Elt F) (Name := ℕ) (U := UU) where
  st := fun q d c => match q with
    | 0 => iprop((eiLoc d ↦{coreShare (cOf c)} m (eiLoc d)) ∗ tLoc d ↦[tCoreSet (cOf c)]{fullShare} m (tLoc d))
  dn := fun q d c => match q with
    | 0 => iprop((eiLoc d ↦{coreShare (cOf c)} m (eiLoc d))
        ∗ ∃ f : Buf (Elt F) (tLoc d), ⌜∀ n : Fin 10240, f (ValueIdx.ix3 (cOf c) (0 : Fin 8) n) = CH d (cOf c) n⌝ ∗ tLoc d ↦[tCoreSet (cOf c)]{fullShare} f)
  go := fun q d c i => match q with
    | 0 => iprop((eiLoc d ↦{tileShare (cOf c) (iOf i)} m (eiLoc d)) ∗ (tLoc d ↦[tOutSet (LOf c i)]{fullShare} m (tLoc d))
        ∗ ∃ f, shLoc d ((K (F := F)).core 0 c) ↦[shRowSet (LOf c i)]{fullShare} f)
  td := fun q d c i => match q with
    | 0 => iprop((eiLoc d ↦{tileShare (cOf c) (iOf i)} m (eiLoc d))
        ∗ (∃ f : Buf (Elt F) (tLoc d), ⌜∀ j : Fin 640, f (ValueIdx.ix3 (cOf c) (0 : Fin 8) ⟨(iOf i).val * 640 + j.val, by have := (iOf i).isLt; have := j.isLt; omega⟩) = CH d (cOf c) ⟨(iOf i).val * 640 + j.val, by have := (iOf i).isLt; have := j.isLt; omega⟩⌝
            ∗ tLoc d ↦[tOutSet (LOf c i)]{fullShare} f)
        ∗ bigSep Finset.univ fun t : Fin k0_t7_loop.trips => iprop(∃ f, shLoc d ((K (F := F)).core 0 c) ↦[shBlkSet (LOf c i) t]{fullShare} f))
  x := fun _ thr => match thr with
    | (d, .scVector c i) => if c.val < 2 then bkit SH d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) SH m CH).IsStorable where
  st q d c := match q with
    | 0 => by unfold P; dsimp only; infer_instance
  dn q d c := match q with
    | 0 => by unfold P; dsimp only; infer_instance
  go q d c i := match q with
    | 0 => by unfold P; dsimp only; infer_instance
  td q d c i := match q with
    | 0 => by unfold P; dsimp only; infer_instance

end Cert.KernelIdeal.Hist

end
-- ==== Proof.HistLaunchDefs.lean ====
/-
  The launch's interface: the element of the ghost state the program is launched from, and the assertion @main's proof
  ends with on each device — the ten arguments at the launch contents, the result at a named value.
-/
import proofs.«210354_g33337536152245_cont_8to1_b_1126_28_alg».proof.Proof.HistSetup

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The barrier cells of both SparseCores and their duty tokens -/

abbrev DCI : Type := Dev nD × Fin τ.nSC × Fin τ.nSub
abbrev bcell₃ (x : DCI) : GSem nD τ sig := bcell x.1 x.2.1 x.2.2

/-- Every tile's barrier cell, of every SparseCore of every device. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)

/-- The element of the ghost state the program is launched from: the handshake cells' rounds, the barrier cells' rounds,
    the TensorCore region's staging cells' element `uR`, no transfer counted. -/
def u₀ (uR : UR) : UU := (initOf (K (F := F)).hsCells (K (F := F)).hsToks, (initOf bCells bToks, (uR, 1)))

/-! ## What @main's proof ends with -/

/-- The ten arguments of @main. -/
def argRefs : Finset (Ref sig .tc) :=
  {main_arg0, main_arg1, main_arg2, main_arg3, main_arg4, main_arg5, main_arg6, main_arg7, main_arg8, main_arg9}

variable (m : (ℓ : Loc nD τ sig) → Buf (Elt F) ℓ) (OUT : (d : Dev nD) → Buf (Elt F) ((SparseCore.T d).loc main_v4))

/-- Device `d`'s TensorCore ends holding the ten arguments whole at the launch contents and the result whole at `OUT d`. -/
def FIN (d : Dev nD) : sProp 𝕄 :=
  iprop((bigSep argRefs fun b => (SparseCore.T d).loc b ↦{fullShare} m ((SparseCore.T d).loc b))
    ∗ (SparseCore.T d).loc main_v4 ↦{fullShare} OUT d)

/-- What the final memory then says on device `d`: the result is `OUT d`, the arguments are the launch's. -/
def fq (d : Dev nD) (s' : Phys nD τ sig (Elt F)) : Prop :=
  s'.mem.mem ((SparseCore.T d).loc main_v4) = OUT d ∧ ∀ b ∈ argRefs, s'.mem.mem ((SparseCore.T d).loc b) = m ((SparseCore.T d).loc b)

end Cert.KernelIdeal.Hist

end
-- ==== Proof.HistMainDefs.lean ====
/-
  @main on the TensorCore: what its proof starts from beyond the launch's deal — the ghost state of the one pipeline
  region's staging cells and the duty tokens of its transfers —, the rounds library's launch element those come from,
  and the value the region's one store leaves in the result, as a term of the arguments' contents and the two
  SparseCores' counts.
-/
import proofs.«210354_g33337536152245_cont_8to1_b_1126_28_alg».proof.Proof.HistLaunchDefs
import proofs.«210354_g33337536152245_cont_8to1_b_1126_28_alg».proof.Proof.Gen.KernelIdeal.Launch
import proofs.«210354_g33337536152245_cont_8to1_b_1126_28_alg».proof.Proof.Gen.KernelIdeal.Points
import Idealize.ShloMosaic.Lib.Pipeline.Regions

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The region's staging cells -/

/-- The pipeline has no prefetched table: its one admissible contents. -/
abbrev adm : (p : Fin 1) → (pcfgs (F := F) p).Adm := fun p => (cfgs p).toPCfg_adm

/-- The rounds library's launch element at the region's staging cells and the transfers its loop issues. -/
def uR : UR := initOf (Pipeline.cells cfgs cellOf_inj) (Pipeline.launchToks cfgs cellOf_inj)

/-- What @main's proof starts from beyond the launch's deal: the staging cells' launch ghost state and the duty tokens
    of the region's transfers, on device `d`. -/
def G (d : Dev nD) : sProp 𝕄 :=
  iprop(Pipeline.cellsGhost cfgs (ER (F := F)) 0 d ∗ Pipeline.toksInit cfgs (ER (F := F)) 0 d)

/-- The launch element funds every device's staging cells' ghost state and tokens. -/
theorem hG : BI.own (ER (F := F) uR) ⊢ iprop(|==> bigSep Finset.univ (G (F := F))) := by
  unfold uR G
  iintro Hu
  imod (Pipeline.fund_ghost cfgs (ER (F := F)) cellOf_inj) $$ Hu with ⟨Hg, Ht⟩
  imodintro
  rw [bigSep_sep']
  isplitl [Hg]
  · iapply (Entails.of_eq (bigSep_congr fun d _ => (bigSep_univ_of_subsingleton (0 : Fin 1) : (bigSep Finset.univ fun p : Fin 1 => Pipeline.cellsGhost cfgs (ER (F := F)) p d) = _))); iexact Hg
  · iapply (Entails.of_eq (bigSep_congr fun d _ => (bigSep_univ_of_subsingleton (0 : Fin 1) : (bigSep Finset.univ fun p : Fin 1 => (Pipeline.toksInit cfgs (ER (F := F)) p d : sProp 𝕄)) = _))); iexact Ht

/-! ## The value the region stores -/

/-- The region body's one stored value as a term of its eleven loads. -/
def headOutF (v0 : Vec F S4x128 .f32) (v1 : Vec F S64x64 .f32) (v2 v5 : Vec F S1x64 .f32) (v8 v11 : Vec F S128x64 .f32) (v18 : Vec F S64x64 .f32)
    (v20 v22 : Vec F S1x1x10240 .f32) (v86 : Vec F S64x2 .f32) (v88 : Vec F S1x2 .f32) : FVec F S4x2 .f32 :=
  k1_pay1 (k1_pay10 v1 (k1_pay2 v5) (k1_pay3 v0 v8) (k1_pay4 v0 v2 v11) (k1_pay6 v0 v2 v11 v18) (k1_pay7 v20 v22) (k1_pay8 (F := F)) (k1_pay9 v0 v8 v20 v22))
    (k1_pay11 v1 (k1_pay2 v5) (k1_pay5 v0 v2 v11)) (Scalar.ofBits .f32 0x00000000#32) v86 v88

variable (m : (ℓ : Loc nD τ sig) → Buf (Elt F) ℓ) (CH : Dev nD → Fin 2 → Fin 10240 → Elt F .f32)

/-- A bias vector as the one-row matrix the region is handed. -/
abbrev rowOf64 (b : Vec F S64 .f32) : Vec F S1x64 .f32 := shapeCast S1x64 b shapeCasts_S64_S1x64
abbrev rowOf2 (b : Vec F S2 .f32) : Vec F S1x2 .f32 := shapeCast S1x2 b shapeCasts_S2_S1x2

/-- A SparseCore's counts as the one row of its plane the region's body loads. -/
abbrev countRow (d : Dev nD) (c : Fin 2) : Vec F S1x1x10240 .f32 := fun j => CH d c ⟨(j 2).val, (j 2).isLt⟩

/-- The result on device `d`: the body's stored value at the arguments' launch contents and the two SparseCores' counts. -/
def OUT (d : Dev nD) : Buf (Elt F) ((SparseCore.T (τ := τ) d).loc main_v4) :=
  headOutF (m ((SparseCore.T d).loc main_arg0)) (m ((SparseCore.T d).loc main_arg6))
    (rowOf64 (m ((SparseCore.T d).loc main_arg4))) (rowOf64 (m ((SparseCore.T d).loc main_arg7)))
    (m ((SparseCore.T d).loc main_arg2)) (m ((SparseCore.T d).loc main_arg3)) (m ((SparseCore.T d).loc main_arg5))
    (countRow CH d 0) (countRow CH d 1) (m ((SparseCore.T d).loc main_arg8)) (rowOf2 (m ((SparseCore.T d).loc main_arg9)))

end Cert.KernelIdeal.Hist

end
-- ==== Proof.HistMainHost.lean ====
/-
  @main's host side on the TensorCore: the unscoped buffers one by one, a reshape at the launch contents, and what the one
  SparseCore call is handed and hands back — the edge list's read shares split and rejoined, the output's two planes
  split and joined again at the SparseCores' counts.
-/
import proofs.«210354_g33337536152245_cont_8to1_b_1126_28_alg».proof.Proof.HistMainDefs

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (CH : Dev nD → Fin 2 → Fin 10240 → Elt F .f32)

/-! ## The TensorCore's unscoped buffers -/

/-- The TensorCore names fifteen unscoped buffers: the ten arguments and five results. -/
theorem ucRefs_eq : (Finset.univ.filter fun b : Ref sig .tc => ¬ b.isScoped)
    = {main_arg0, main_arg1, main_arg2, main_arg3, main_arg4, main_arg5, main_arg6, main_arg7, main_arg8, main_arg9, main_v0, main_v1, main_v2, main_v3, main_v4} := by decide

/-- The unscoped buffers at a valuation, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_arg5 ↦{fullShare} W main_arg5)
      ∗ ((SparseCore.T d).loc main_arg6 ↦{fullShare} W main_arg6) ∗ ((SparseCore.T d).loc main_arg7 ↦{fullShare} W main_arg7)
      ∗ ((SparseCore.T d).loc main_arg8 ↦{fullShare} W main_arg8) ∗ ((SparseCore.T d).loc main_arg9 ↦{fullShare} W main_arg9)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)
      ∗ ((SparseCore.T d).loc main_v4 ↦{fullShare} W main_v4)) := by
  unfold unscopedBufs
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Over the two SparseCores, one by one. -/
theorem bigSep_fin2 {M : Type} [URA M] (Φ : Fin 2 → sProp M) : bigSep Finset.univ Φ = iprop(Φ 0 ∗ Φ 1) :=
  bigSep_univ_eq_bigSepL [(0 : Fin 2), (1 : Fin 2)] (by decide) (by decide) Φ

/-! ## A reshape at the launch contents -/

section Reshape

variable {Λ : Labels} {defs : Defs nD τ sig (Elt F) Λ} (𝒱' : Variants)

/-- `%y = reshape %x` with both buffers held whole at the launch contents: `x` is kept and `y` holds `x`'s elements
    in row-major order at its own shape. -/
theorem wp_reshape_m (d : Dev nD) (x y : Ref sig .tc) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    (hxy : x ≠ y) {α : Type} {hp : (SparseCore.T (τ := τ) d).2.kind.runsHlo = true}
    {k : ((b : (StableHlo.reshape (τ := τ) (Val := Elt F) x y he hn hx hy).writes) → b.1.ty.Contents (Elt F)) → Prog (TpuEff nD τ sig (Elt F) Λ (SparseCore.T (τ := τ) d).2) α}
    {Q : α → sProp 𝕄} :
    iprop(boundary (SparseCore.T d) ∗ ((SparseCore.T d).loc x ↦{fullShare} m ((SparseCore.T d).loc x)) ∗ ((SparseCore.T d).loc y ↦{fullShare} m ((SparseCore.T d).loc y)))
      ⊢ iprop((iprop(boundary (SparseCore.T d) ∗ ((SparseCore.T d).loc x ↦{fullShare} m ((SparseCore.T d).loc x))
              ∗ ((SparseCore.T d).loc y ↦{fullShare} (fun i => he ▸ shapeCast y.ty.shape (m ((SparseCore.T d).loc x)) hn i)))
            -∗ wp frame (wpE defs 𝒱' (SparseCore.T d) none) Set.univ (k ((StableHlo.reshape (τ := τ) (Val := Elt F) x y he hn hx hy).fn fun b => m (d, b.1))) Q)
        -∗ wp frame (wpE defs 𝒱' (SparseCore.T d) none) Set.univ (hlo hp (StableHlo.reshape x y he hn hx hy) k) Q) := by
  have hne : (Proc.devRef (τ := τ) .tc x) ≠ Proc.devRef .tc y := StableHlo.devRef_ne_of_ne hxy
  have h := StableHlo.wp_hlo_within (defs := defs) 𝒱' (SparseCore.T (τ := τ) d) none Set.univ (hp := hp) (op := StableHlo.reshape (τ := τ) (Val := Elt F) x y he hn hx hy)
    (k := k) (S := (StableHlo.reshape (τ := τ) (Val := Elt F) x y he hn hx hy).bufs) (Finset.Subset.refl _) (V := fun b => m (d, b)) (Q := Q) rfl
  have e1 : (bigSep (StableHlo.reshape (τ := τ) (Val := Elt F) x y he hn hx hy).bufs fun b => (((SparseCore.T (τ := τ) d).1, b) ↦{fullShare} (fun b => m (d, b)) b : sProp 𝕄))
      = iprop(((SparseCore.T d).loc x ↦{fullShare} m ((SparseCore.T d).loc x)) ∗ ((SparseCore.T d).loc y ↦{fullShare} m ((SparseCore.T d).loc y))) := by
    rw [StableHlo.reshape_bufs, SparseCore.bigSep_insert' (by rw [Finset.mem_singleton]; exact hne), bigSep_singleton]
  have e2 : (bigSep (StableHlo.reshape (τ := τ) (Val := Elt F) x y he hn hx hy).bufs fun b => (((SparseCore.T (τ := τ) d).1, b) ↦{fullShare} (StableHlo.reshape (τ := τ) (Val := Elt F) x y he hn hx hy).result (fun b => m (d, b)) b : sProp 𝕄))
      = iprop(((SparseCore.T d).loc x ↦{fullShare} m ((SparseCore.T d).loc x))
          ∗ ((SparseCore.T d).loc y ↦{fullShare} (fun i => he ▸ shapeCast y.ty.shape (m ((SparseCore.T d).loc x)) hn i))) := by
    rw [StableHlo.reshape_bufs, SparseCore.bigSep_insert' (by rw [Finset.mem_singleton]; exact hne), bigSep_singleton,
      StableHlo.reshape_result', StableHlo.reshape_result_ne' he hn hx hy _ hxy]
  unfold StableHlo.held at h
  rw [e1, e2] at h
  exact h

end Reshape

/-! ## What the SparseCore call is handed, and hands back -/

theorem st_eq (SH : (d : Dev nD) → (c : Fin τ.nSC) → Buf (Elt F) (shLoc d c)) (d : Dev nD) (c : Fin ((K (F := F)).nCore 0)) :
    (P SH m CH).st 0 d c = iprop((eiLoc d ↦{coreShare (cOf c)} m (eiLoc d)) ∗ tLoc d ↦[tCoreSet (cOf c)]{fullShare} m (tLoc d)) := rfl

theorem dn_eq (SH : (d : Dev nD) → (c : Fin τ.nSC) → Buf (Elt F) (shLoc d c)) (d : Dev nD) (c : Fin ((K (F := F)).nCore 0)) :
    (P SH m CH).dn 0 d c = iprop((eiLoc d ↦{coreShare (cOf c)} m (eiLoc d))
        ∗ ∃ f : Buf (Elt F) (tLoc d), ⌜∀ n : Fin 10240, f (ValueIdx.ix3 (cOf c) (0 : Fin 8) n) = CH d (cOf c) n⌝ ∗ tLoc d ↦[tCoreSet (cOf c)]{fullShare} f) := rfl

/-- The two planes are disjoint, -/
theorem planes_disjoint : Disjoint (tCoreSet 0) (tCoreSet 1) := by
  rw [Finset.disjoint_left]; intro j h0 h1
  unfold tCoreSet at h0 h1
  rw [Finset.mem_filter] at h0 h1
  have := h0.2; have := h1.2; simp_all

/-- and make up the array. -/
theorem planes_cover : tCoreSet 0 ∪ tCoreSet 1 = (Finset.univ : Finset S2x8x10240.Idx) := by
  ext j
  simp only [Finset.mem_union, Finset.mem_univ, iff_true]
  unfold tCoreSet
  simp only [Finset.mem_filter, Finset.mem_univ, true_and]
  have : (j 0).val < 2 := (j 0).isLt
  show (j 0).val = 0 ∨ (j 0).val = 1
  omega

end Cert.KernelIdeal.Hist

end
-- ==== Proof.HistMainCall.lean ====
/-
  Around the one SparseCore call on the TensorCore: the edge list's full share as the remainder and the two SparseCores'
  read shares, the output as its two planes, what the call is handed and hands back one SparseCore at a time, and the
  two planes joined again into the whole output at the counts.
-/
import proofs.«210354_g33337536152245_cont_8to1_b_1126_28_alg».proof.Proof.HistMainHost

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)

/-- The output is its two planes. -/
theorem planes_split (d : Dev nD) (g : Buf (Elt F) (tLoc d)) :
    (tLoc d ↦{fullShare} g : sProp 𝕄) ⊣⊢ iprop((tLoc d ↦[tCoreSet 0]{fullShare} g) ∗ tLoc d ↦[tCoreSet 1]{fullShare} g) := by
  have h : (tLoc d ↦[tCoreSet 0 ∪ tCoreSet 1]{fullShare} g : sProp 𝕄) ⊣⊢ iprop((tLoc d ↦[tCoreSet 0]{fullShare} g) ∗ tLoc d ↦[tCoreSet 1]{fullShare} g) :=
    pointsTo_union planes_disjoint
  rw [planes_cover] at h
  exact h

/-- Two planes at different contents are the whole output at the contents pieced together. -/
theorem planes_join (d : Dev nD) (g0 g1 : Buf (Elt F) (tLoc d)) :
    iprop((tLoc d ↦[tCoreSet 0]{fullShare} g0) ∗ tLoc d ↦[tCoreSet 1]{fullShare} g1)
      ⊢ (tLoc d ↦{fullShare} (tCoreSet 1).piecewise g1 g0 : sProp 𝕄) := by
  have h : iprop((tLoc d ↦[tCoreSet 0]{fullShare} g0) ∗ tLoc d ↦[tCoreSet 1]{fullShare} g1)
      ⊢ (tLoc d ↦[tCoreSet 0 ∪ tCoreSet 1]{fullShare} (tCoreSet 1).piecewise g1 g0 : sProp 𝕄) := pointsTo_join planes_disjoint
  rw [planes_cover] at h
  exact h

/-- The pieced contents read each plane's own. -/
theorem piece_apply (d : Dev nD) (g0 g1 : Buf (Elt F) (tLoc d))
    (h0 : ∀ n : Fin 10240, g0 (ValueIdx.ix3 (0 : Fin 2) (0 : Fin 8) n) = CH d 0 n) (h1 : ∀ n : Fin 10240, g1 (ValueIdx.ix3 (1 : Fin 2) (0 : Fin 8) n) = CH d 1 n)
    (c : Fin 2) (n : Fin 10240) : ((tCoreSet 1).piecewise g1 g0 : Buf (Elt F) (tLoc d)) (ValueIdx.ix3 c (0 : Fin 8) n) = CH d c n := by
  match c with
  | ⟨0, _⟩ =>
    rw [Finset.piecewise_eq_of_notMem _ _ _ (by unfold tCoreSet; rw [Finset.mem_filter]; rintro ⟨-, h⟩; exact absurd h Nat.zero_ne_one)]
    exact h0 n
  | ⟨1, _⟩ =>
    rw [Finset.piecewise_eq_of_mem _ _ _ (by unfold tCoreSet; rw [Finset.mem_filter]; exact ⟨Finset.mem_univ _, rfl⟩)]
    exact h1 n

/-- What the call is handed, one SparseCore at a time, -/
theorem st0_eq (d : Dev nD) : (bigSep Finset.univ fun c : Fin ((K (F := F)).nCore 0) => (P SH m CH).st 0 d c)
    = iprop(((eiLoc d ↦{coreShare 0} m (eiLoc d)) ∗ tLoc d ↦[tCoreSet 0]{fullShare} m (tLoc d))
        ∗ ((eiLoc d ↦{coreShare 1} m (eiLoc d)) ∗ tLoc d ↦[tCoreSet 1]{fullShare} m (tLoc d))) :=
  bigSep_fin2 (M := 𝕄) fun c : Fin 2 => (P SH m CH).st 0 d c

/-- and hands back. -/
theorem dn0_eq (d : Dev nD) : (bigSep Finset.univ fun c : Fin ((K (F := F)).nCore 0) => (P SH m CH).dn 0 d c)
    = iprop(((eiLoc d ↦{coreShare 0} m (eiLoc d))
          ∗ ∃ g : Buf (Elt F) (tLoc d), ⌜∀ n : Fin 10240, g (ValueIdx.ix3 (0 : Fin 2) (0 : Fin 8) n) = CH d 0 n⌝ ∗ tLoc d ↦[tCoreSet 0]{fullShare} g)
        ∗ ((eiLoc d ↦{coreShare 1} m (eiLoc d))
          ∗ ∃ g : Buf (Elt F) (tLoc d), ⌜∀ n : Fin 10240, g (ValueIdx.ix3 (1 : Fin 2) (0 : Fin 8) n) = CH d 1 n⌝ ∗ tLoc d ↦[tCoreSet 1]{fullShare} g)) :=
  bigSep_fin2 (M := 𝕄) fun c : Fin 2 => (P SH m CH).dn 0 d c

/-- The edge list's two read shares, one by one. -/
theorem toks2_eq (d : Dev nD) : (bigSep Finset.univ fun i : Fin 2 => (eiLoc d ↦{Transfers.shareTok fullShare 2 i} m (eiLoc d) : sProp 𝕄))
    = iprop((eiLoc d ↦{coreShare 0} m (eiLoc d)) ∗ eiLoc d ↦{coreShare 1} m (eiLoc d)) :=
  bigSep_fin2 _

end Cert.KernelIdeal.Hist

end
-- ==== Proof.HistMainBody.lean ====
/-
  The TensorCore region's body, run once on whole staging buffers: eleven loads and one store. Each input buffer is
  kept; the result's buffer is left at the stored value, the named term of the loaded blocks.
-/
import proofs.«210354_g33337536152245_cont_8to1_b_1126_28_alg».proof.Proof.HistMainDefs
import Idealize.ShloMosaic.Lib.Pipeline.FrameBody
import Idealize.ShloMosaic.Lib.Pipeline.Value
import Idealize.ShloMosaic.Lib.Tactic

set_option maxRecDepth 16384

noncomputable section

namespace Cert.KernelIdeal.Hist

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

theorem hz2 : (![0, 0] : Fin 2 → Nat) = fun _ => 0 := funext fun a => by fin_cases a <;> rfl

/-- Row 0 of a SparseCore's plane, as the body loads it out of the staged block. -/
abbrev rRow : Rect S1x8x10240 := Rect.unit (s := S1x8x10240) ![0, 0, 0] S1x1x10240.size inb_S1x8x10240_S1x1x10240_0_0_0

/-- The value the body stores, from the eleven staged blocks in the windows' order. -/
def bodyOut (x0 : Vec F S4x128 .f32) (x1 x2 : Vec F S128x64 .f32) (x3 : Vec F S1x64 .f32) (x4 x5 : Vec F S64x64 .f32) (x6 : Vec F S1x64 .f32)
    (x7 : Vec F S64x2 .f32) (x8 : Vec F S1x2 .f32) (x9 x10 : Vec F S1x8x10240 .f32) : Vec F S4x2 .f32 :=
  headOutF x0 x5 x3 x6 x1 x2 x4 (View.ld x9 rRow) (View.ld x10 rRow) x7 x8

set_option maxHeartbeats 1000000 in
/-- The body on whole staging memrefs, the inputs' at contents `xW` and the result's at anything, runs to the inputs' as
    they were and the result's at `bodyOut` of the inputs'. -/
theorem sound_kernel (c : Dev nD) (E : Set ℕ) (i : grid1.Coords)
    (arg1 : Memref sig .tc .vmem S4x128 .f32) (harg1 : arg1.IsWhole) (arg2 : Memref sig .tc .vmem S128x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x2 .f32) (harg8 : arg8.IsWhole)
    (arg9 : Memref sig .tc .vmem S1x2 .f32) (harg9 : arg9.IsWhole) (arg10 : Memref sig .tc .vmem S1x8x10240 .f32) (harg10 : arg10.IsWhole)
    (arg11 : Memref sig .tc .vmem S1x8x10240 .f32) (harg11 : arg11.IsWhole) (arg12 : Memref sig .tc .vmem S4x2 .f32) (harg12 : arg12.IsWhole)
    (x0 : Vec F S4x128 .f32) (x1 x2 : Vec F S128x64 .f32) (x3 : Vec F S1x64 .f32) (x4 x5 : Vec F S64x64 .f32) (x6 : Vec F S1x64 .f32)
    (x7 : Vec F S64x2 .f32) (x8 : Vec F S1x2 .f32) (x9 x10 : Vec F S1x8x10240 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (bodyOut x0 x1 x2 x3 x4 x5 x6 x7 x8 x9 x10)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  rw [View.read_writes_eq_canon _ _ _ (fun y => ⟨_, List.mem_singleton_self _, View.mem_set_unit_zero (S := S4x2) hz2 inb_S4x2_S4x2_0_0 y⟩),
    View.canon_unit_zero (S := S4x2) hz2 inb_S4x2_S4x2_0_0]
  unfold bodyOut headOutF
  sl_unfold_run_names
  simp only [View.readAt_eq_ld, View.ld_unit_zero (S := S4x128) hz2, View.ld_unit_zero (S := S128x64) hz2, View.ld_unit_zero (S := S1x64) hz2,
    View.ld_unit_zero (S := S64x64) hz2, View.ld_unit_zero (S := S64x2) hz2, View.ld_unit_zero (S := S1x2) hz2]
  rfl

end Cert.KernelIdeal.Hist

end
-- ==== Proof.HistMainDat.lean ====
/-
  The TensorCore region's proof data: what each window's array holds when the region is entered (the arguments at the
  launch contents, the three reshaped biases, the SparseCore call's output at the counts, the result at anything), what
  each staging buffer holds after the body (an input's its block, the result's the stored value), and the body
  obligation at the region's one point.
-/
import proofs.«210354_g33337536152245_cont_8to1_b_1126_28_alg».proof.Proof.HistMainBody
import Idealize.ShloMosaic.Lib.Pipeline.Regions

set_option maxRecDepth 16384

noncomputable section

namespace Cert.KernelIdeal.Hist

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (CH : Dev nD → Fin 2 → Fin 10240 → Elt F .f32)
variable (f : (d : Dev nD) → Buf (Elt F) (tLoc d))

/-- What each window's array holds when the region is entered. -/
def entryA (c : Dev nD) : (w : Fin cfg1.W) → Buf (Elt F) ((cfg1.win w).arr.view.loc (c : Thread nD τ))
  | ⟨0, _⟩ => m ((c : Thread nD τ).loc main_arg0)
  | ⟨1, _⟩ => m ((c : Thread nD τ).loc main_arg2)
  | ⟨2, _⟩ => m ((c : Thread nD τ).loc main_arg3)
  | ⟨3, _⟩ => rowOf64 (m ((c : Thread nD τ).loc main_arg4))
  | ⟨4, _⟩ => m ((c : Thread nD τ).loc main_arg5)
  | ⟨5, _⟩ => m ((c : Thread nD τ).loc main_arg6)
  | ⟨6, _⟩ => rowOf64 (m ((c : Thread nD τ).loc main_arg7))
  | ⟨7, _⟩ => m ((c : Thread nD τ).loc main_arg8)
  | ⟨8, _⟩ => rowOf2 (m ((c : Thread nD τ).loc main_arg9))
  | ⟨9, _⟩ => f c
  | ⟨10, _⟩ => f c
  | ⟨11, _⟩ => m ((c : Thread nD τ).loc main_v4)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (entryA m f c w)

/-- The share each input array is held at: the SparseCore call's output, staged by two windows, half each. -/
def inShare : Fin cfg1.W → PosShare TreeShare
  | ⟨0, _⟩ => fullShare | ⟨1, _⟩ => fullShare | ⟨2, _⟩ => fullShare | ⟨3, _⟩ => fullShare | ⟨4, _⟩ => fullShare | ⟨5, _⟩ => fullShare
  | ⟨6, _⟩ => fullShare | ⟨7, _⟩ => fullShare | ⟨8, _⟩ => fullShare
  | ⟨9, _⟩ => Transfers.shareDrop fullShare 1
  | ⟨10, _⟩ => Transfers.shareTok fullShare 1 0
  | ⟨11, _⟩ => fullShare

/-- The proof data of the one pipeline on core `c`. -/
def dats (_ : Fin 1) (c : Dev nD) : Dat τ (Elt F) (HIx 1) ℕ UU ℕ cfg1 c where
  A w := entryA m f c w
  after w t := match w with
    | ⟨0, _⟩ => iblk m f c 0 t
    | ⟨1, _⟩ => iblk m f c 1 t
    | ⟨2, _⟩ => iblk m f c 2 t
    | ⟨3, _⟩ => iblk m f c 3 t
    | ⟨4, _⟩ => iblk m f c 4 t
    | ⟨5, _⟩ => iblk m f c 5 t
    | ⟨6, _⟩ => iblk m f c 6 t
    | ⟨7, _⟩ => iblk m f c 7 t
    | ⟨8, _⟩ => iblk m f c 8 t
    | ⟨9, _⟩ => iblk m f c 9 t
    | ⟨10, _⟩ => iblk m f c 10 t
    | ⟨11, _⟩ => bodyOut (iblk m f c 0 t) (iblk m f c 1 t) (iblk m f c 2 t) (iblk m f c 3 t) (iblk m f c 4 t) (iblk m f c 5 t) (iblk m f c 6 t)
        (iblk m f c 7 t) (iblk m f c 8 t) (iblk m f c 9 t) (iblk m f c 10 t)
  Φ _ := iprop(emp)
  q := inShare
  owed _ := 0
  recorded _ := {p | (K (F := F)).lev ((c : Thread nD τ), p.1) p.2 ≤ 8}

theorem A_eq (c : Dev nD) (w : Fin cfg1.W) : (dats m f 0 c).A w = entryA m f c w := by dsimp only [dats]

theorem after1_0 (c : Dev nD) (t : Fin cfg1.N) : (dats m f 0 c).after 0 t = iblk m f c 0 t := by dsimp only [dats]
theorem after1_1 (c : Dev nD) (t : Fin cfg1.N) : (dats m f 0 c).after 1 t = iblk m f c 1 t := by dsimp only [dats]
theorem after1_2 (c : Dev nD) (t : Fin cfg1.N) : (dats m f 0 c).after 2 t = iblk m f c 2 t := by dsimp only [dats]
theorem after1_3 (c : Dev nD) (t : Fin cfg1.N) : (dats m f 0 c).after 3 t = iblk m f c 3 t := by dsimp only [dats]
theorem after1_4 (c : Dev nD) (t : Fin cfg1.N) : (dats m f 0 c).after 4 t = iblk m f c 4 t := by dsimp only [dats]
theorem after1_5 (c : Dev nD) (t : Fin cfg1.N) : (dats m f 0 c).after 5 t = iblk m f c 5 t := by dsimp only [dats]
theorem after1_6 (c : Dev nD) (t : Fin cfg1.N) : (dats m f 0 c).after 6 t = iblk m f c 6 t := by dsimp only [dats]
theorem after1_7 (c : Dev nD) (t : Fin cfg1.N) : (dats m f 0 c).after 7 t = iblk m f c 7 t := by dsimp only [dats]
theorem after1_8 (c : Dev nD) (t : Fin cfg1.N) : (dats m f 0 c).after 8 t = iblk m f c 8 t := by dsimp only [dats]
theorem after1_9 (c : Dev nD) (t : Fin cfg1.N) : (dats m f 0 c).after 9 t = iblk m f c 9 t := by dsimp only [dats]
theorem after1_10 (c : Dev nD) (t : Fin cfg1.N) : (dats m f 0 c).after 10 t = iblk m f c 10 t := by dsimp only [dats]
theorem after1_11 (c : Dev nD) (t : Fin cfg1.N) : (dats m f 0 c).after 11 t
    = bodyOut (iblk m f c 0 t) (iblk m f c 1 t) (iblk m f c 2 t) (iblk m f c 3 t) (iblk m f c 4 t) (iblk m f c 5 t) (iblk m f c 6 t)
        (iblk m f c 7 t) (iblk m f c 8 t) (iblk m f c 9 t) (iblk m f c 10 t) := by dsimp only [dats]

/-- Each input's staging buffer holds its block when the body runs: it is fetched at the one point. -/
theorem before1_0 (c : Dev nD) (t : Fin cfg1.N) (d) : (dats m f 0 c).before 0 t d = iblk m f c 0 t := by
  unfold Dat.before; rw [if_pos (fetch1_0 t)]; rfl
theorem before1_1 (c : Dev nD) (t : Fin cfg1.N) (d) : (dats m f 0 c).before 1 t d = iblk m f c 1 t := by
  unfold Dat.before; rw [if_pos (fetch1_1 t)]; rfl
theorem before1_2 (c : Dev nD) (t : Fin cfg1.N) (d) : (dats m f 0 c).before 2 t d = iblk m f c 2 t := by
  unfold Dat.before; rw [if_pos (fetch1_2 t)]; rfl
theorem before1_3 (c : Dev nD) (t : Fin cfg1.N) (d) : (dats m f 0 c).before 3 t d = iblk m f c 3 t := by
  unfold Dat.before; rw [if_pos (fetch1_3 t)]; rfl
theorem before1_4 (c : Dev nD) (t : Fin cfg1.N) (d) : (dats m f 0 c).before 4 t d = iblk m f c 4 t := by
  unfold Dat.before; rw [if_pos (fetch1_4 t)]; rfl
theorem before1_5 (c : Dev nD) (t : Fin cfg1.N) (d) : (dats m f 0 c).before 5 t d = iblk m f c 5 t := by
  unfold Dat.before; rw [if_pos (fetch1_5 t)]; rfl
theorem before1_6 (c : Dev nD) (t : Fin cfg1.N) (d) : (dats m f 0 c).before 6 t d = iblk m f c 6 t := by
  unfold Dat.before; rw [if_pos (fetch1_6 t)]; rfl
theorem before1_7 (c : Dev nD) (t : Fin cfg1.N) (d) : (dats m f 0 c).before 7 t d = iblk m f c 7 t := by
  unfold Dat.before; rw [if_pos (fetch1_7 t)]; rfl
theorem before1_8 (c : Dev nD) (t : Fin cfg1.N) (d) : (dats m f 0 c).before 8 t d = iblk m f c 8 t := by
  unfold Dat.before; rw [if_pos (fetch1_8 t)]; rfl
theorem before1_9 (c : Dev nD) (t : Fin cfg1.N) (d) : (dats m f 0 c).before 9 t d = iblk m f c 9 t := by
  unfold Dat.before; rw [if_pos (fetch1_9 t)]; rfl
theorem before1_10 (c : Dev nD) (t : Fin cfg1.N) (d) : (dats m f 0 c).before 10 t d = iblk m f c 10 t := by
  unfold Dat.before; rw [if_pos (fetch1_10 t)]; rfl

/-! ## The body obligation -/

/-- What the body is called with at point `t`, the windows one by one, -/
def bodyPre (c : Dev nD) (t : Fin cfg1.N) : sProp 𝕄 :=
  iprop((dats m f 0 c).Φ t.castSucc ∗ (dats m f 0 c).owesAt none t.castSucc
    ∗ (∃ d, owns (c : Thread nD τ) (st1_0 t) fullShare ((dats m f 0 c).before 0 t d))
    ∗ (∃ d, owns (c : Thread nD τ) (st1_1 t) fullShare ((dats m f 0 c).before 1 t d))
    ∗ (∃ d, owns (c : Thread nD τ) (st1_2 t) fullShare ((dats m f 0 c).before 2 t d))
    ∗ (∃ d, owns (c : Thread nD τ) (st1_3 t) fullShare ((dats m f 0 c).before 3 t d))
    ∗ (∃ d, owns (c : Thread nD τ) (st1_4 t) fullShare ((dats m f 0 c).before 4 t d))
    ∗ (∃ d, owns (c : Thread nD τ) (st1_5 t) fullShare ((dats m f 0 c).before 5 t d))
    ∗ (∃ d, owns (c : Thread nD τ) (st1_6 t) fullShare ((dats m f 0 c).before 6 t d))
    ∗ (∃ d, owns (c : Thread nD τ) (st1_7 t) fullShare ((dats m f 0 c).before 7 t d))
    ∗ (∃ d, owns (c : Thread nD τ) (st1_8 t) fullShare ((dats m f 0 c).before 8 t d))
    ∗ (∃ d, owns (c : Thread nD τ) (st1_9 t) fullShare ((dats m f 0 c).before 9 t d))
    ∗ (∃ d, owns (c : Thread nD τ) (st1_10 t) fullShare ((dats m f 0 c).before 10 t d))
    ∗ (∃ d, owns (c : Thread nD τ) (st1_11 t) fullShare ((dats m f 0 c).before 11 t d)))

/-- and what it returns. -/
def bodyPost (c : Dev nD) (t : Fin cfg1.N) : sProp 𝕄 :=
  iprop((dats m f 0 c).Φ t.succ ∗ (dats m f 0 c).owesAt none t.succ
    ∗ owns (c : Thread nD τ) (st1_0 t) fullShare ((dats m f 0 c).after 0 t)
    ∗ owns (c : Thread nD τ) (st1_1 t) fullShare ((dats m f 0 c).after 1 t)
    ∗ owns (c : Thread nD τ) (st1_2 t) fullShare ((dats m f 0 c).after 2 t)
    ∗ owns (c : Thread nD τ) (st1_3 t) fullShare ((dats m f 0 c).after 3 t)
    ∗ owns (c : Thread nD τ) (st1_4 t) fullShare ((dats m f 0 c).after 4 t)
    ∗ owns (c : Thread nD τ) (st1_5 t) fullShare ((dats m f 0 c).after 5 t)
    ∗ owns (c : Thread nD τ) (st1_6 t) fullShare ((dats m f 0 c).after 6 t)
    ∗ owns (c : Thread nD τ) (st1_7 t) fullShare ((dats m f 0 c).after 7 t)
    ∗ owns (c : Thread nD τ) (st1_8 t) fullShare ((dats m f 0 c).after 8 t)
    ∗ owns (c : Thread nD τ) (st1_9 t) fullShare ((dats m f 0 c).after 9 t)
    ∗ owns (c : Thread nD τ) (st1_10 t) fullShare ((dats m f 0 c).after 10 t)
    ∗ owns (c : Thread nD τ) (st1_11 t) fullShare ((dats m f 0 c).after 11 t))

/-- The body at the point: the inputs' memrefs hold their blocks, so the body's run applies; the invariant and the core's
    `owes` pass through unread. -/
theorem sound_body (c : Dev nD) (t : Fin cfg1.N) :
    bodyPre m f c t ⊢ wp frame (wpE (defs₀ (F := F)) Variants.none c none) Set.univ (bodyAt1 t) (fun _ => bodyPost m f c t) := by
  unfold bodyPre bodyPost bodyAt1
  simp only [before1_0, before1_1, before1_2, before1_3, before1_4, before1_5, before1_6, before1_7, before1_8, before1_9, before1_10]
  rw [show (dats m f 0 c).Φ t.succ = (dats m f 0 c).Φ t.castSucc from rfl,
    show (dats m f 0 c).owesAt none t.succ = (dats m f 0 c).owesAt none t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid1.coords t) _ _ _ _ _ _ _ _ _ _ _ _ _ _ _ _ _ _ _ _ _ _ _ _
    (iblk m f c 0 t) (iblk m f c 1 t) (iblk m f c 2 t) (iblk m f c 3 t) (iblk m f c 4 t) (iblk m f c 5 t) (iblk m f c 6 t)
    (iblk m f c 7 t) (iblk m f c 8 t) (iblk m f c 9 t) (iblk m f c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at the region's point. -/
theorem body_obligation (c : Dev nD) : BodyObligation (dats (F := F) m f 0 c) (defs₀ (F := F)) Variants.none none Set.univ := fun t => by
  rw [bigSep_W1, bigSep_W1]
  exact sound_body m f c t

end Cert.KernelIdeal.Hist

end
-- ==== Proof.HistMainRegion.lean ====
/-
  The TensorCore region on the TensorCore of a SparseCore program: the arrays of its twelve windows one by one (the
  SparseCore call's output, staged by two windows, half a share each), what the result's array holds after the one
  write-back — the body's stored value at the arguments' contents and the counts —, the region as the pipeline
  library's record, and its step under the SparseCore program's body table.
-/
import proofs.«210354_g33337536152245_cont_8to1_b_1126_28_alg».proof.Proof.HistMainDat

set_option maxRecDepth 16384

noncomputable section

namespace Cert.KernelIdeal.Hist

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

open Idealize.ShloMosaic.SparseCore (T)

variable (m : (ℓ : Loc nD τ sig) → Buf (Elt F) ℓ) (CH : Dev nD → Fin 2 → Fin 10240 → Elt F .f32)
variable (f : (d : Dev nD) → Buf (Elt F) (tLoc d))

/-! ## The windows' arrays, one by one -/

/-- The share each window's array is held at. -/
theorem share1_0 (c : Dev nD) : (dats m f 0 c).share 0 = fullShare := by
  unfold Dat.share; rw [if_neg (by decide)]; rfl
theorem share1_1 (c : Dev nD) : (dats m f 0 c).share 1 = fullShare := by
  unfold Dat.share; rw [if_neg (by decide)]; rfl
theorem share1_2 (c : Dev nD) : (dats m f 0 c).share 2 = fullShare := by
  unfold Dat.share; rw [if_neg (by decide)]; rfl
theorem share1_3 (c : Dev nD) : (dats m f 0 c).share 3 = fullShare := by
  unfold Dat.share; rw [if_neg (by decide)]; rfl
theorem share1_4 (c : Dev nD) : (dats m f 0 c).share 4 = fullShare := by
  unfold Dat.share; rw [if_neg (by decide)]; rfl
theorem share1_5 (c : Dev nD) : (dats m f 0 c).share 5 = fullShare := by
  unfold Dat.share; rw [if_neg (by decide)]; rfl
theorem share1_6 (c : Dev nD) : (dats m f 0 c).share 6 = fullShare := by
  unfold Dat.share; rw [if_neg (by decide)]; rfl
theorem share1_7 (c : Dev nD) : (dats m f 0 c).share 7 = fullShare := by
  unfold Dat.share; rw [if_neg (by decide)]; rfl
theorem share1_8 (c : Dev nD) : (dats m f 0 c).share 8 = fullShare := by
  unfold Dat.share; rw [if_neg (by decide)]; rfl
theorem share1_9 (c : Dev nD) : (dats m f 0 c).share 9 = Transfers.shareDrop fullShare 1 := by
  unfold Dat.share; rw [if_neg (by decide)]; rfl
theorem share1_10 (c : Dev nD) : (dats m f 0 c).share 10 = Transfers.shareTok fullShare 1 0 := by
  unfold Dat.share; rw [if_neg (by decide)]; rfl
theorem share1_11 (c : Dev nD) : (dats m f 0 c).share 11 = fullShare := by
  unfold Dat.share; rw [if_pos (by decide)]

set_option maxHeartbeats 1600000 in
/-- The pipeline's arrays at contents `X`, window by window: whole buffers, the SparseCore call's output twice at half a share. -/
theorem arrays_chain (c : Dev nD) (X : (w : Fin cfg1.W) → Buf (Elt F) ((cfg1.win w).arr.view.loc (c : Thread nD τ))) :
    (dats m f 0 c).arrays X = iprop((((c : Thread nD τ).loc main_arg0) ↦{fullShare} X 0)
      ∗ (((c : Thread nD τ).loc main_arg2) ↦{fullShare} X 1)
      ∗ (((c : Thread nD τ).loc main_arg3) ↦{fullShare} X 2)
      ∗ (((c : Thread nD τ).loc main_v1) ↦{fullShare} X 3)
      ∗ (((c : Thread nD τ).loc main_arg5) ↦{fullShare} X 4)
      ∗ (((c : Thread nD τ).loc main_arg6) ↦{fullShare} X 5)
      ∗ (((c : Thread nD τ).loc main_v2) ↦{fullShare} X 6)
      ∗ (((c : Thread nD τ).loc main_arg8) ↦{fullShare} X 7)
      ∗ (((c : Thread nD τ).loc main_v3) ↦{fullShare} X 8)
      ∗ (((c : Thread nD τ).loc main_v0) ↦{Transfers.shareDrop fullShare 1} X 9)
      ∗ (((c : Thread nD τ).loc main_v0) ↦{Transfers.shareTok fullShare 1 0} X 10)
      ∗ (((c : Thread nD τ).loc main_v4) ↦{fullShare} X 11)) := by
  unfold Dat.arrays
  rw [bigSep_W1, (arr_whole1 0).set_eq_univ, (arr_whole1 1).set_eq_univ, (arr_whole1 2).set_eq_univ, (arr_whole1 3).set_eq_univ, (arr_whole1 4).set_eq_univ,
    (arr_whole1 5).set_eq_univ, (arr_whole1 6).set_eq_univ, (arr_whole1 7).set_eq_univ, (arr_whole1 8).set_eq_univ, (arr_whole1 9).set_eq_univ,
    (arr_whole1 11).set_eq_univ]
  rw [share1_0 m f c, share1_1 m f c, share1_2 m f c, share1_3 m f c, share1_4 m f c, share1_5 m f c, share1_6 m f c, share1_7 m f c, share1_8 m f c,
    share1_9 m f c, share1_10 m f c, share1_11 m f c]

/-! ## The blocks the body finds, and the value it leaves -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_9 : ∀ t : Fin cfg1.N, win1_9.index t (0 : Fin 3) = 0 ∧ win1_9.index t (1 : Fin 3) = 0 ∧ win1_9.index t (2 : Fin 3) = 0 :=
  (by decide +kernel : ∀ t : Fin grid1.N, _)
theorem idx1_10 : ∀ t : Fin cfg1.N, win1_10.index t (0 : Fin 3) = 1 ∧ win1_10.index t (1 : Fin 3) = 0 ∧ win1_10.index t (2 : Fin 3) = 0 :=
  (by decide +kernel : ∀ t : Fin grid1.N, _)

/-- A whole-array window's block is the array. -/
theorem iblk1_0 (c : Dev nD) (t : Fin cfg1.N) : iblk m f c 0 t = entryA m f c 0 := by
  funext j
  show entryA m f c 0 (((cfg1.win 0).blk t).view.emb j) = entryA m f c 0 j
  congr 1; funext a; apply Fin.ext
  obtain ⟨e0, e1⟩ := idx1_0 t
  match a with
  | ⟨0, _⟩ => show win1_0.index t (0 : Fin 2) * 4 + 1 * (j 0).val = (j 0).val; omega
  | ⟨1, _⟩ => show win1_0.index t (1 : Fin 2) * 128 + 1 * (j 1).val = (j 1).val; omega
theorem iblk1_1 (c : Dev nD) (t : Fin cfg1.N) : iblk m f c 1 t = entryA m f c 1 := by
  funext j
  show entryA m f c 1 (((cfg1.win 1).blk t).view.emb j) = entryA m f c 1 j
  congr 1; funext a; apply Fin.ext
  obtain ⟨e0, e1⟩ := idx1_1 t
  match a with
  | ⟨0, _⟩ => show win1_1.index t (0 : Fin 2) * 128 + 1 * (j 0).val = (j 0).val; omega
  | ⟨1, _⟩ => show win1_1.index t (1 : Fin 2) * 64 + 1 * (j 1).val = (j 1).val; omega
theorem iblk1_2 (c : Dev nD) (t : Fin cfg1.N) : iblk m f c 2 t = entryA m f c 2 := by
  funext j
  show entryA m f c 2 (((cfg1.win 2).blk t).view.emb j) = entryA m f c 2 j
  congr 1; funext a; apply Fin.ext
  obtain ⟨e0, e1⟩ := idx1_2 t
  match a with
  | ⟨0, _⟩ => show win1_2.index t (0 : Fin 2) * 128 + 1 * (j 0).val = (j 0).val; omega
  | ⟨1, _⟩ => show win1_2.index t (1 : Fin 2) * 64 + 1 * (j 1).val = (j 1).val; omega
theorem iblk1_3 (c : Dev nD) (t : Fin cfg1.N) : iblk m f c 3 t = entryA m f c 3 := by
  funext j
  show entryA m f c 3 (((cfg1.win 3).blk t).view.emb j) = entryA m f c 3 j
  congr 1; funext a; apply Fin.ext
  obtain ⟨e0, e1⟩ := idx1_3 t
  match a with
  | ⟨0, _⟩ => show win1_3.index t (0 : Fin 2) * 1 + 1 * (j 0).val = (j 0).val; omega
  | ⟨1, _⟩ => show win1_3.index t (1 : Fin 2) * 64 + 1 * (j 1).val = (j 1).val; omega
theorem iblk1_4 (c : Dev nD) (t : Fin cfg1.N) : iblk m f c 4 t = entryA m f c 4 := by
  funext j
  show entryA m f c 4 (((cfg1.win 4).blk t).view.emb j) = entryA m f c 4 j
  congr 1; funext a; apply Fin.ext
  obtain ⟨e0, e1⟩ := idx1_4 t
  match a with
  | ⟨0, _⟩ => show win1_4.index t (0 : Fin 2) * 64 + 1 * (j 0).val = (j 0).val; omega
  | ⟨1, _⟩ => show win1_4.index t (1 : Fin 2) * 64 + 1 * (j 1).val = (j 1).val; omega
theorem iblk1_5 (c : Dev nD) (t : Fin cfg1.N) : iblk m f c 5 t = entryA m f c 5 := by
  funext j
  show entryA m f c 5 (((cfg1.win 5).blk t).view.emb j) = entryA m f c 5 j
  congr 1; funext a; apply Fin.ext
  obtain ⟨e0, e1⟩ := idx1_5 t
  match a with
  | ⟨0, _⟩ => show win1_5.index t (0 : Fin 2) * 64 + 1 * (j 0).val = (j 0).val; omega
  | ⟨1, _⟩ => show win1_5.index t (1 : Fin 2) * 64 + 1 * (j 1).val = (j 1).val; omega
theorem iblk1_6 (c : Dev nD) (t : Fin cfg1.N) : iblk m f c 6 t = entryA m f c 6 := by
  funext j
  show entryA m f c 6 (((cfg1.win 6).blk t).view.emb j) = entryA m f c 6 j
  congr 1; funext a; apply Fin.ext
  obtain ⟨e0, e1⟩ := idx1_6 t
  match a with
  | ⟨0, _⟩ => show win1_6.index t (0 : Fin 2) * 1 + 1 * (j 0).val = (j 0).val; omega
  | ⟨1, _⟩ => show win1_6.index t (1 : Fin 2) * 64 + 1 * (j 1).val = (j 1).val; omega
theorem iblk1_7 (c : Dev nD) (t : Fin cfg1.N) : iblk m f c 7 t = entryA m f c 7 := by
  funext j
  show entryA m f c 7 (((cfg1.win 7).blk t).view.emb j) = entryA m f c 7 j
  congr 1; funext a; apply Fin.ext
  obtain ⟨e0, e1⟩ := idx1_7 t
  match a with
  | ⟨0, _⟩ => show win1_7.index t (0 : Fin 2) * 64 + 1 * (j 0).val = (j 0).val; omega
  | ⟨1, _⟩ => show win1_7.index t (1 : Fin 2) * 2 + 1 * (j 1).val = (j 1).val; omega
theorem iblk1_8 (c : Dev nD) (t : Fin cfg1.N) : iblk m f c 8 t = entryA m f c 8 := by
  funext j
  show entryA m f c 8 (((cfg1.win 8).blk t).view.emb j) = entryA m f c 8 j
  congr 1; funext a; apply Fin.ext
  obtain ⟨e0, e1⟩ := idx1_8 t
  match a with
  | ⟨0, _⟩ => show win1_8.index t (0 : Fin 2) * 1 + 1 * (j 0).val = (j 0).val; omega
  | ⟨1, _⟩ => show win1_8.index t (1 : Fin 2) * 2 + 1 * (j 1).val = (j 1).val; omega

/-- Row 0 of plane 0 of the SparseCore call's output, as the body loads it out of window 9's block, is SparseCore 0's counts; -/
theorem row1_9 (c : Dev nD) (t : Fin cfg1.N) (hf : ∀ (k : Fin 2) (n : Fin 10240), f c (ValueIdx.ix3 k (0 : Fin 8) n) = CH c k n) :
    View.ld (Val := Elt F) (S := S1x8x10240) (e' := .f32) (iblk m f c 9 t) rRow = countRow CH c 0 := by
  funext j
  show f c (((cfg1.win 9).blk t).view.emb (rRow.emb j)) = CH c 0 ⟨(j 2).val, (j 2).isLt⟩
  rw [← hf 0 ⟨(j 2).val, (j 2).isLt⟩]
  congr 1; funext a; apply Fin.ext
  obtain ⟨e0, e1, e2⟩ := idx1_9 t
  have h0 : (j 0).val < 1 := (j 0).isLt
  have h1 : (j 1).val < 1 := (j 1).isLt
  match a with
  | ⟨0, _⟩ => show win1_9.index t (0 : Fin 3) * 1 + 1 * (0 + 1 * (j 0).val) = 0; omega
  | ⟨1, _⟩ => show win1_9.index t (1 : Fin 3) * 8 + 1 * (0 + 1 * (j 1).val) = 0; omega
  | ⟨2, _⟩ => show win1_9.index t (2 : Fin 3) * 10240 + 1 * (0 + 1 * (j 2).val) = (j 2).val; omega

/-- and of plane 1, out of window 10's block, SparseCore 1's. -/
theorem row1_10 (c : Dev nD) (t : Fin cfg1.N) (hf : ∀ (k : Fin 2) (n : Fin 10240), f c (ValueIdx.ix3 k (0 : Fin 8) n) = CH c k n) :
    View.ld (Val := Elt F) (S := S1x8x10240) (e' := .f32) (iblk m f c 10 t) rRow = countRow CH c 1 := by
  funext j
  show f c (((cfg1.win 10).blk t).view.emb (rRow.emb j)) = CH c 1 ⟨(j 2).val, (j 2).isLt⟩
  rw [← hf 1 ⟨(j 2).val, (j 2).isLt⟩]
  congr 1; funext a; apply Fin.ext
  obtain ⟨e0, e1, e2⟩ := idx1_10 t
  have h0 : (j 0).val < 1 := (j 0).isLt
  have h1 : (j 1).val < 1 := (j 1).isLt
  match a with
  | ⟨0, _⟩ => show win1_10.index t (0 : Fin 3) * 1 + 1 * (0 + 1 * (j 0).val) = 1; omega
  | ⟨1, _⟩ => show win1_10.index t (1 : Fin 3) * 8 + 1 * (0 + 1 * (j 1).val) = 0; omega
  | ⟨2, _⟩ => show win1_10.index t (2 : Fin 3) * 10240 + 1 * (0 + 1 * (j 2).val) = (j 2).val; omega

/-- An index of the result is in the one point's block. -/
theorem mem_blk11 (t : Fin cfg1.N) (i : S4x2.Idx) :
    i ∈ ((cfg1.win 11).blk t).view.set ↔ ∀ a : Fin 2, win1_11.index t a * S4x2.size a ≤ (i a).val ∧ (i a).val < win1_11.index t a * S4x2.size a + S4x2.size a := by
  show i ∈ ((View.whole main_v4).slice (win1_11.rect t)).set ↔ _
  rw [View.set_slice_whole, Rect.mem_set_unit]
  exact Iff.rfl

/-- The result's array after the region: the body's stored value at the arguments' contents and the counts. -/
theorem final11 (c : Dev nD) (hf : ∀ (k : Fin 2) (n : Fin 10240), f c (ValueIdx.ix3 k (0 : Fin 8) n) = CH c k n) :
    (dats m f 0 c).arrAt 11 cfg1.N = OUT m CH c := by
  refine (dats m f 0 c).arrAt_eq_of_cover 11 (OUT m CH c) (fun t _ => ?_) (fun i => ⟨t1_0, flush1_11 t1_0, ?_⟩)
  · show (cfg1.win 11).cut (grid1.coords t) ((dats m f 0 c).after 11 t) = _
    rw [after1_11, iblk1_0, iblk1_1, iblk1_2, iblk1_3, iblk1_4, iblk1_5, iblk1_6, iblk1_7, iblk1_8]
    unfold bodyOut
    rw [row1_9 m CH f c t hf, row1_10 m CH f c t hf]
    funext j
    show OUT m CH c j = OUT m CH c (((cfg1.win 11).blk t).view.emb j)
    congr 1; funext a; apply Fin.ext
    obtain ⟨e0, e1⟩ := idx1_11 t
    match a with
    | ⟨0, _⟩ => show (j 0).val = win1_11.index t (0 : Fin 2) * 4 + 1 * (j 0).val; omega
    | ⟨1, _⟩ => show (j 1).val = win1_11.index t (1 : Fin 2) * 2 + 1 * (j 1).val; omega
  · rw [mem_blk11]
    obtain ⟨e0, e1⟩ := idx1_11 t1_0
    have h0 : (i 0).val < 4 := (i 0).isLt
    have h1 : (i 1).val < 2 := (i 1).isLt
    intro a
    match a with
    | ⟨0, _⟩ => show win1_11.index t1_0 (0 : Fin 2) * 4 ≤ (i 0).val ∧ (i 0).val < win1_11.index t1_0 (0 : Fin 2) * 4 + 4; omega
    | ⟨1, _⟩ => show win1_11.index t1_0 (1 : Fin 2) * 2 ≤ (i 1).val ∧ (i 1).val < win1_11.index t1_0 (1 : Fin 2) * 2 + 2; omega

end Cert.KernelIdeal.Hist

end
-- ==== Proof.HistMainStep.lean ====
/-
  The TensorCore region as one step of @main on the TensorCore of a SparseCore program: the pipeline library's record of the
  region (its layout, the body obligation, no semaphore of the kernel's own, nothing owed at its cells), the library's
  region rule at it, lifted to the SparseCore program's body table, and the step from the arrays held whole by @main to
  the same arrays with the result at its named value.
-/
import proofs.«210354_g33337536152245_cont_8to1_b_1126_28_alg».proof.Proof.HistMainRegion

set_option maxRecDepth 16384

noncomputable section

namespace Cert.KernelIdeal.Hist

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

open Idealize.ShloMosaic.SparseCore (T)

variable (m : (ℓ : Loc nD τ sig) → Buf (Elt F) ℓ) (CH : Dev nD → Fin 2 → Fin 10240 → Elt F .f32)
variable (f : (d : Dev nD) → Buf (Elt F) (tLoc d))

abbrev L₁ : GSem nD τ sig → Finset (HIx 1) := (K (F := F)).L
abbrev lv₁ : GSem nD τ sig → HIx 1 → ℕ := (K (F := F)).lev

/-! ## The region, as the pipeline library's record -/

set_option backward.isDefEq.respectTransparency.types false in
/-- The region: entered from its windows' arrays at the entry contents and the core's `owes`, left with the arrays at their
    final contents; nothing enters the invariant, nothing bypasses. -/
def reg1 : Pipeline.RegionSeg (pcfgs (F := F)) adm (dats m f) none defs₀ 𝒱₀ (L₁ (F := F)) (lv₁ (F := F)) 0 where
  win := winFacts₀1
  block_pos := block_pos1
  stage_whole := stage_whole1
  K := PEmpty
  osem := fun k => k.elim
  ho := Pipeline.OwnSemFacts.none _
  hbody c := (body_obligation m f c).loose
  hwaits := Pipeline.hwaits_of_owed_zero _ _ _ _ (L₁ (F := F)) (lv₁ (F := F)) 0 fun _ _ => rfl
  pre c := iprop((dats m f 0 c).arrays ((dats m f 0 c).arrAt · 0) ∗ (dats m f 0 c).owesAt none 0)
  post c := iprop((dats m f 0 c).arrays ((dats m f 0 c).arrAt · cfg1.N) ∗ (dats m f 0 c).owesAt none (Fin.last cfg1.N))
  X c := iprop(emp)
  Y c := iprop(emp)
  Z c := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (dats m f 0 c).Φ 0 = iprop(emp) from rfl]
    iintro -; iempintro
  hout c := by
    rw [Pipeline.ownSems0_none nD τ sig (Elt F) (HIx 1) ℕ UU ℕ c, scopedRest1_eq]
    iintro -
    isplitr; · iempintro
    isplitr <;> iempintro
  hexit c := by
    iintro ⟨Ha, HO, -, -⟩
    imodintro
    isplitl [Ha]; · iexact Ha
    iexact HO

/-! ## The region's step -/

/-- The region's call in the pipeline's own signature is @main's statement in the SparseCore program's. -/
theorem hprog : (Prog.lift (.customCall (SparseCore.inner (Pipeline.entry 0)) ()) : Prog (TpuEff nD τ sig (Elt F) (SparseCore.Sig (ΛP (F := F)) 1) .tc) PUnit)
    = SparseCore.liftProg (Q := 1) (pr := (.tc : Proc τ)) (Prog.op (.customCall (Pipeline.entry 0) ()) Prog.ret : Prog (TpuEff nD τ sig (Elt F) (ΛP (F := F)) .tc) PUnit) := rfl

theorem lift_step0 (c : Dev nD) (Q : PUnit → sProp 𝕄) :
    wp frame (wpE (D (F := F)) 𝒱 (T c) none) Set.univ (Prog.op (.customCall (Pipeline.entry 0) ()) Prog.ret : Prog (TpuEff nD τ sig (Elt F) (ΛP (F := F)) .tc) PUnit) Q
      ⊢ wp frame (wpE ((K (F := F)).defs (D (F := F))) 𝒱 (T c) none) Set.univ
          (SparseCore.liftProg (Q := 1) (pr := (.tc : Proc τ)) (Prog.op (.customCall (Pipeline.entry 0) ()) Prog.ret : Prog (TpuEff nD τ sig (Elt F) (ΛP (F := F)) .tc) PUnit)) Q :=
  (K (F := F)).wp_liftProg (D (F := F)) 𝒱 (T c) Set.univ none _ Q

/-- A proof of the region's call under the pipeline's body table is one of @main's statement under the SparseCore program's. -/
theorem lift_step (c : Dev nD) (Q : PUnit → sProp 𝕄) :
    wp frame (wpE (D (F := F)) 𝒱 (T c) none) Set.univ (Prog.op (.customCall (Pipeline.entry 0) ()) Prog.ret : Prog (TpuEff nD τ sig (Elt F) (ΛP (F := F)) .tc) PUnit) Q
      ⊢ wp frame (wpE ((K (F := F)).defs (D (F := F))) 𝒱 (T c) none) Set.univ (Prog.lift (.customCall (SparseCore.inner (Pipeline.entry 0)) ())) Q :=
  (lift_step0 c Q).trans (Entails.of_eq (congrArg (fun p => wp frame (wpE ((K (F := F)).defs (D (F := F))) 𝒱 (T c) none) Set.univ p Q) hprog.symm))

set_option backward.isDefEq.respectTransparency.types false in
/-- The library's region rule at the record. -/
theorem region_wp0 (c : Dev nD) (Q : PUnit → sProp 𝕄) :
    iprop((iprop(boundary (c : Thread nD τ) ∗ (reg1 m f).post c) -∗ wp frame (wpE (D (F := F)) 𝒱 (c : Thread nD τ) none) Set.univ (Prog.ret ⟨⟩) Q)
        ∗ boundary (c : Thread nD τ) ∗ (reg1 m f).pre c ∗ levAts (L₁ (F := F)) (lv₁ (F := F))
        ∗ Pipeline.cellsGhost cfgs (ER (F := F)) 0 c ∗ Pipeline.toksInit cfgs (ER (F := F)) 0 c)
      ⊢ wp frame (wpE (D (F := F)) 𝒱 (c : Thread nD τ) none) Set.univ (Prog.op (.customCall (Pipeline.entry 0) ()) Prog.ret : Prog (TpuEff nD τ sig (Elt F) (ΛP (F := F)) .tc) PUnit) Q :=
  Pipeline.RegionSeg.wp (pcfgs (F := F)) adm (dats m f) none cellOf_inj (ER (F := F)) defs₀ 𝒱₀ (L₁ (F := F)) (lv₁ (F := F)) (reg1 m f) c none (fun u hu => nomatch hu) Prog.ret Q

/-- The arrays @main holds around the region: the nine inputs that are arguments or reshaped biases, the SparseCore call's
    output, and the result at `out`. -/
def userChain (c : Dev nD) (out : Buf (Elt F) ((c : Thread nD τ).loc main_v4)) : sProp 𝕄 :=
  iprop((((c : Thread nD τ).loc main_arg0) ↦{fullShare} m ((c : Thread nD τ).loc main_arg0))
      ∗ (((c : Thread nD τ).loc main_arg2) ↦{fullShare} m ((c : Thread nD τ).loc main_arg2))
      ∗ (((c : Thread nD τ).loc main_arg3) ↦{fullShare} m ((c : Thread nD τ).loc main_arg3))
      ∗ (((c : Thread nD τ).loc main_v1) ↦{fullShare} rowOf64 (m ((c : Thread nD τ).loc main_arg4)))
      ∗ (((c : Thread nD τ).loc main_arg5) ↦{fullShare} m ((c : Thread nD τ).loc main_arg5))
      ∗ (((c : Thread nD τ).loc main_arg6) ↦{fullShare} m ((c : Thread nD τ).loc main_arg6))
      ∗ (((c : Thread nD τ).loc main_v2) ↦{fullShare} rowOf64 (m ((c : Thread nD τ).loc main_arg7)))
      ∗ (((c : Thread nD τ).loc main_arg8) ↦{fullShare} m ((c : Thread nD τ).loc main_arg8))
      ∗ (((c : Thread nD τ).loc main_v3) ↦{fullShare} rowOf2 (m ((c : Thread nD τ).loc main_arg9)))
      ∗ (((c : Thread nD τ).loc main_v0) ↦{fullShare} f c)
      ∗ (((c : Thread nD τ).loc main_v4) ↦{fullShare} out))

/-- What the core's waits have recorded stays at or below the level bound after the region: the region's own waits are at
    the index of no call. -/
theorem wbelow_of_bound (c : Dev nD) (W' : Waits sig (HIx 1)) (h : (↑W' : Set (SemLoc sig × HIx 1)) ⊆ (dats m f 0 c).bound none (Fin.last cfg1.N)) :
    (K (F := F)).WBelow (T c) W' 8 := by
  intro p hp
  rcases h hp with h1 | ⟨w, s, rfl⟩
  · exact h1
  · exact Nat.zero_le _

set_option maxHeartbeats 4000000 in
/-- THE REGION'S STEP: from the level facts, the region boundary, the staging cells' ghost state, the core owing nothing,
    and the arrays — the SparseCore call's output at contents whose row 0 of each plane is that SparseCore's counts —, the
    region's call runs to the same with the result at its named value. -/
theorem region_step (c : Dev nD) (hf : ∀ (k : Fin 2) (n : Fin 10240), f c (ValueIdx.ix3 k (0 : Fin 8) n) = CH c k n)
    (W : Waits sig (HIx 1)) (hW : (K (F := F)).WBelow (T c) W 8) (Q : PUnit → sProp 𝕄) :
    iprop(levAts (L₁ (F := F)) (lv₁ (F := F)) ∗ boundary (T c) ∗ G c ∗ owes (T c) (0 : CellTallies nD τ sig (HIx 1)) W
        ∗ userChain m f c (m ((c : Thread nD τ).loc main_v4))
        ∗ (iprop(boundary (T c) ∗ userChain m f c (OUT m CH c) ∗ ∃ W', ⌜(K (F := F)).WBelow (T c) W' 8⌝ ∗ owes (T c) (0 : CellTallies nD τ sig (HIx 1)) W') -∗ Q ⟨⟩))
      ⊢ wp frame (wpE ((K (F := F)).defs (D (F := F))) 𝒱 (T c) none) Set.univ (Prog.lift (.customCall (SparseCore.inner (Pipeline.entry 0)) ())) Q := by
  unfold G userChain
  iintro ⟨#Hlev, Hb, ⟨Hg, Ht⟩, HO, ⟨H0, H1, H2, H3, H4, H5, H6, H7, H8, H9, H11⟩, Hk⟩
  ihave Hs := (Transfers.pointsTo_toks_split (ℓ := (c : Thread nD τ).loc main_v0) (S := Finset.univ) (f := f c) fullShare 1) $$ H9
  icases Hs with ⟨H9, H10⟩
  ihave H10 := (Entails.of_eq (bigSep_univ_of_subsingleton (0 : Fin 1))) $$ H10
  iapply (lift_step c Q)
  iapply (region_wp0 m f c Q)
  isplitl [Hk]
  · iintro ⟨Hb, Hpost⟩
    rw [wp_ret]
    imodintro
    iapply Hk
    isplitl [Hb]; · iexact Hb
    ihave Hpost' := (Entails.of_eq (show (reg1 m f).post c = iprop((dats m f 0 c).arrays ((dats m f 0 c).arrAt · cfg1.N) ∗ (dats m f 0 c).owesAt none (Fin.last cfg1.N)) from rfl)) $$ Hpost
    icases Hpost' with ⟨Ha, ⟨%W', %hW', HO⟩⟩
    ihave Ha' := (Entails.of_eq (arrays_chain m f c _)) $$ Ha
    icases Ha' with ⟨H0, H1, H2, H3, H4, H5, H6, H7, H8, H9, H10, H11⟩
    rw [(dats m f 0 c).arrAt_in 0 rfl, (dats m f 0 c).arrAt_in 1 rfl, (dats m f 0 c).arrAt_in 2 rfl, (dats m f 0 c).arrAt_in 3 rfl,
      (dats m f 0 c).arrAt_in 4 rfl, (dats m f 0 c).arrAt_in 5 rfl, (dats m f 0 c).arrAt_in 6 rfl, (dats m f 0 c).arrAt_in 7 rfl,
      (dats m f 0 c).arrAt_in 8 rfl, (dats m f 0 c).arrAt_in 9 rfl, (dats m f 0 c).arrAt_in 10 rfl, final11 m CH f c hf]
    isplitr [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9 H10]
      · iapply (Transfers.pointsTo_toks_join (ℓ := (c : Thread nD τ).loc main_v0) (S := Finset.univ) (f := f c) fullShare 1)
        isplitl [H9]; · iexact H9
        iapply (Entails.of_eq (bigSep_univ_of_subsingleton (0 : Fin 1)).symm); iexact H10
      iexact H11
    · iexists W'
      isplitr; · ipureintro; exact wbelow_of_bound m f c W' hW'
      iexact HO
  isplitl [Hb]; · iexact Hb
  isplitl [H0 H1 H2 H3 H4 H5 H6 H7 H8 H9 H10 H11 HO]
  · iapply (Entails.of_eq (show (reg1 m f).pre c = iprop((dats m f 0 c).arrays ((dats m f 0 c).arrAt · 0) ∗ (dats m f 0 c).owesAt none 0) from rfl).symm)
    isplitr [HO]
    · iapply (Entails.of_eq (arrays_chain m f c _).symm)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexists W
      isplitr; · ipureintro; exact fun p hp => Or.inl (hW p hp)
      iexact HO
  isplitr; · iexact Hlev
  isplitl [Hg]; · iexact Hg
  iexact Ht

end Cert.KernelIdeal.Hist

end
-- ==== Proof.HistMain.lean ====
/-
  @main on the TensorCore: the SparseCore call, the three reshapes, and the one pipeline region, from what the launch
  deals the TensorCore to the ten arguments unchanged and the result at its named value.
-/
import proofs.«210354_g33337536152245_cont_8to1_b_1126_28_alg».proof.Proof.HistMainCall
import proofs.«210354_g33337536152245_cont_8to1_b_1126_28_alg».proof.Proof.HistMainStep

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32) (ρ : Dev nD → PrngReg)

/-! ## The handshake state after the one call -/

/-- The TensorCore's handshake state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After its one call the TensorCore owes nothing. -/
theorem tcSt_one (d : Dev nD) : ((K (F := F)).tcSt EH d 1 : sProp 𝕄)
    = iprop((∃ W, ⌜(K (F := F)).WBelow (SparseCore.T d) W (8 * 1)⌝ ∗ owes (SparseCore.T d) (0 : CellTallies nD τ sig (HIx 1)) W) ∗ tcRest d) := by
  unfold SparseCore.Cfg.tcSt tcRest
  rw [(K (F := F)).Otc_end d le_rfl]

/-- The same, at the index the call's rule leaves the state at. -/
theorem tcSt_one' (d : Dev nD) : ((K (F := F)).tcSt EH d ((0 : Fin 1).val + 1) : sProp 𝕄)
    = iprop((∃ W, ⌜(K (F := F)).WBelow (SparseCore.T d) W (8 * 1)⌝ ∗ owes (SparseCore.T d) (0 : CellTallies nD τ sig (HIx 1)) W) ∗ tcRest d) :=
  tcSt_one d

/-! ## The output's contents on every device, from one device's -/

/-- Contents for every device's output that are `g` on device `d`. -/
def glue (d : Dev nD) (g : Buf (Elt F) (tLoc d)) (d' : Dev nD) : Buf (Elt F) (tLoc d') :=
  if h : d' = d then h ▸ g else m (tLoc d')

theorem glue_self (d : Dev nD) (g : Buf (Elt F) (tLoc d)) : glue m d g d = g := by
  unfold glue; rw [dif_pos rfl]

/-! ## @main -/

/-- @main on device `d`'s TensorCore: from the launch's deal and the staging cells' ghost state to the state after the one
    SparseCore call, the arguments whole at the launch contents and the result whole at `OUT`. -/
theorem hmain (κ : GSem nD τ sig → ℕ) (d : Dev nD) :
    iprop((K (F := F)).ctx EH (P SH m CH) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m (OUT m CH) d) := by
  unfold SparseCore.Cfg.tcRes
  rw [unscopedBufs_eq]
  simp only [main, wp_bind, wp_pure]
  iintro ⟨#Hctx, Hst, ⟨Hb, ⟨Ha0, Ha1, Ha2, Ha3, Ha4, Ha5, Ha6, Ha7, Ha8, Ha9, Hv0, Hv1, Hv2, Hv3, Hv4⟩, -, -⟩, HG⟩
  -- the call's operands: the edge list's two read shares, the output's two planes
  ihave Hei := (Transfers.pointsTo_toks_split (ℓ := eiLoc d) (S := Finset.univ) (f := m (eiLoc d)) fullShare 2) $$ Ha1
  icases Hei with ⟨Heir, Heis⟩
  ihave Heis' := (Entails.of_eq (toks2_eq m d)) $$ Heis
  icases Heis' with ⟨Hei0, Hei1⟩
  ihave Hpl := (planes_split d (m (tLoc d))).1 $$ Hv0
  icases Hpl with ⟨Hp0, Hp1⟩
  iapply ((K (F := F)).wp_run (D (F := F)) 𝒱 (EH := EH) (P := P SH m CH) κ d 0)
  isplitr; · iexact Hctx
  isplitl [Hst]; · iexact Hst
  isplitl [Hei0 Hei1 Hp0 Hp1]
  · rw [st0_eq]
    isplitl [Hei0 Hp0]
    · isplitl [Hei0]; · iexact Hei0
      iexact Hp0
    · isplitl [Hei1]; · iexact Hei1
      iexact Hp1
  iintro ⟨Hst, Hdn⟩
  ihave Hdn' := (Entails.of_eq (dn0_eq SH m CH d)) $$ Hdn
  icases Hdn' with ⟨⟨Hei0, ⟨%g0, %hg0, Hp0⟩⟩, ⟨Hei1, ⟨%g1, %hg1, Hp1⟩⟩⟩
  -- the edge list whole again, the output whole at the counts
  ihave Ha1 := (Transfers.pointsTo_toks_join (ℓ := eiLoc d) (S := Finset.univ) (f := m (eiLoc d)) fullShare 2) $$ [Heir Hei0 Hei1]
  · isplitl [Heir]; · iexact Heir
    iapply (Entails.of_eq (toks2_eq m d).symm)
    isplitl [Hei0]; · iexact Hei0
    iexact Hei1
  ihave Hv0 := (planes_join d g0 g1) $$ [Hp0 Hp1]
  · isplitl [Hp0]; · iexact Hp0
    iexact Hp1
  -- the three reshapes
  iapply (wp_reshape_m m 𝒱 d main_arg4 main_v1 _ _ _ _ (by decide)) $$ [Hb Ha4 Hv1]
  · isplitl [Hb]; · iexact Hb
    isplitl [Ha4]; · iexact Ha4
    iexact Hv1
  iintro ⟨Hb, Ha4, Hv1⟩
  rw [wp_ret]; imodintro
  iapply (wp_reshape_m m 𝒱 d main_arg7 main_v2 _ _ _ _ (by decide)) $$ [Hb Ha7 Hv2]
  · isplitl [Hb]; · iexact Hb
    isplitl [Ha7]; · iexact Ha7
    iexact Hv2
  iintro ⟨Hb, Ha7, Hv2⟩
  rw [wp_ret]; imodintro
  iapply (wp_reshape_m m 𝒱 d main_arg9 main_v3 _ _ _ _ (by decide)) $$ [Hb Ha9 Hv3]
  · isplitl [Hb]; · iexact Hb
    isplitl [Ha9]; · iexact Ha9
    iexact Hv3
  iintro ⟨Hb, Ha9, Hv3⟩
  rw [wp_ret]; imodintro
  -- the region
  ihave Hst' := (Entails.of_eq (tcSt_one' d)) $$ Hst
  icases Hst' with ⟨⟨%W, %hW, HO⟩, Hrest⟩
  ihave Hlev := (SparseCore.Cfg.ctx_levAts (K := K (F := F)) (EH := EH) (P := P SH m CH) κ) $$ Hctx
  iapply (region_step m CH (glue m d ((tCoreSet 1).piecewise g1 g0)) d
    (fun k n => by rw [glue_self]; exact piece_apply CH d g0 g1 hg0 hg1 k n) W hW _)
  isplitl [Hlev]; · iexact Hlev
  isplitl [Hb]; · iexact Hb
  isplitl [HG]; · iexact HG
  isplitl [HO]; · iexact HO
  isplitl [Ha0 Ha2 Ha3 Hv1 Ha5 Ha6 Hv2 Ha8 Hv3 Hv0 Hv4]
  · unfold userChain
    rw [glue_self]
    isplitl [Ha0]; · iexact Ha0
    isplitl [Ha2]; · iexact Ha2
    isplitl [Ha3]; · iexact Ha3
    isplitl [Hv1]; · iexact Hv1
    isplitl [Ha5]; · iexact Ha5
    isplitl [Ha6]; · iexact Ha6
    isplitl [Hv2]; · iexact Hv2
    isplitl [Ha8]; · iexact Ha8
    isplitl [Hv3]; · iexact Hv3
    isplitl [Hv0]; · iexact Hv0
    iexact Hv4
  iintro ⟨Hb, Hch, ⟨%W', %hW', HO⟩⟩
  unfold userChain
  icases Hch with ⟨Ha0, Ha2, Ha3, Hv1, Ha5, Ha6, Hv2, Ha8, Hv3, Hv0, Hv4⟩
  imodintro
  isplitl [HO Hrest]
  · iapply (Entails.of_eq (tcSt_one d).symm)
    isplitl [HO]
    · iexists W'; isplitr; · ipureintro; exact hW'
      iexact HO
    iexact Hrest
  unfold FIN argRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  isplitr [Hv4]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    iexact Ha9
  iexact Hv4

end Cert.KernelIdeal.Hist

end
-- ==== Proof.HistLaunchSets.lean ====
/-
  The pieces of the output's planes and of a SparseCore's shared scratch that the tiles address, as sets of indices:
  which indices each holds, that the sixteen tiles' pieces are pairwise disjoint, and what they cover.
-/
import proofs.«210354_g33337536152245_cont_8to1_b_1126_28_alg».proof.Proof.HistSetup

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

/-! ## The sets in coordinates -/

theorem tOutSet_eq (L : grid0.Coords) :
    tOutSet L = (Rect.unit (s := S2x8x10240) (k0_off12 L) S1x1x640.size (k0_off12_inb L)).set := by
  show (((tV).view.slice (Rect.unit (s := S2x8x10240) (k0_off12 L) S1x1x640.size (k0_off12_inb L))).reshape S640 squeezes_S1x1x640_S640.numel_eq).set = _
  rw [View.set_reshape]
  exact View.set_slice_whole main_v0_scv _

/-- Tile `L`'s piece of the output: plane `L 0`, row 0, the 640 columns from `640 · L 1`. -/
theorem mem_tOutSet {L : grid0.Coords} {j : S2x8x10240.Idx} :
    j ∈ tOutSet L ↔ (j 0).val = (L 0).val ∧ (j 1).val = 0 ∧ 640 * (L 1).val ≤ (j 2).val ∧ (j 2).val < 640 * (L 1).val + 640 := by
  rw [tOutSet_eq, Rect.mem_set_unit, k0_off12_eq]
  constructor
  · intro h
    have h0 : (L 0).val ≤ (j 0).val ∧ (j 0).val < (L 0).val + 1 := h 0
    have h1 : 0 ≤ (j 1).val ∧ (j 1).val < 0 + 1 := h 1
    have h2 : 640 * (L 1).val ≤ (j 2).val ∧ (j 2).val < 640 * (L 1).val + 640 := h 2
    omega
  · rintro ⟨h0, h1, h2, h3⟩ a
    match a with
    | 0 => exact (show (L 0).val ≤ (j 0).val ∧ (j 0).val < (L 0).val + 1 by omega)
    | 1 => exact (show 0 ≤ (j 1).val ∧ (j 1).val < 0 + 1 by omega)
    | 2 => exact (show 640 * (L 1).val ≤ (j 2).val ∧ (j 2).val < 640 * (L 1).val + 640 by omega)

theorem shRowSet_eq (L : grid0.Coords) :
    shRowSet L = (Rect.unit (s := S16x10240) (k0_off8 L) S1x10240.size (k0_off8_inb L)).set := by
  show (((shV).view.slice (Rect.unit (s := S16x10240) (k0_off8 L) S1x10240.size (k0_off8_inb L))).reshape S10240 squeezes_S1x10240_S10240.numel_eq).set = _
  rw [View.set_reshape]
  exact View.set_slice_whole cc0_scratch5 _

/-- Tile `L`'s row of the shared scratch: row `L 1`. -/
theorem mem_shRowSet {L : grid0.Coords} {j : S16x10240.Idx} : j ∈ shRowSet L ↔ (j 0).val = (L 1).val := by
  rw [shRowSet_eq, Rect.mem_set_unit, k0_off8_eq]
  constructor
  · intro h
    have h0 : (L 1).val ≤ (j 0).val ∧ (j 0).val < (L 1).val + 1 := h 0
    omega
  · intro h0 a
    have hj : (j 1).val < 10240 := (j 1).isLt
    match a with
    | 0 => exact (show (L 1).val ≤ (j 0).val ∧ (j 0).val < (L 1).val + 1 by omega)
    | 1 => exact (show 0 ≤ (j 1).val ∧ (j 1).val < 0 + 10240 by omega)

theorem shBlkSet_eq (L : grid0.Coords) (t : Fin k0_t7_loop.trips) :
    shBlkSet L t = (Rect.unit (s := S16x10240) (k0_off10 L t) S1x640.size (k0_off10_inb L t)).set := by
  show (((shV).view.slice (Rect.unit (s := S16x10240) (k0_off10 L t) S1x640.size (k0_off10_inb L t))).reshape S640 squeezes_S1x640_S640.numel_eq).set = _
  rw [View.set_reshape]
  exact View.set_slice_whole cc0_scratch5 _

/-- The piece of row `t` of the shared scratch that tile `L` adds up: the 640 columns from `640 · L 1`. -/
theorem mem_shBlkSet {L : grid0.Coords} {t : Fin k0_t7_loop.trips} {j : S16x10240.Idx} :
    j ∈ shBlkSet L t ↔ (j 0).val = t.val ∧ 640 * (L 1).val ≤ (j 1).val ∧ (j 1).val < 640 * (L 1).val + 640 := by
  rw [shBlkSet_eq, Rect.mem_set_unit, k0_off10_eq]
  constructor
  · intro h
    have h0 : t.val ≤ (j 0).val ∧ (j 0).val < t.val + 1 := h 0
    have h1 : 640 * (L 1).val ≤ (j 1).val ∧ (j 1).val < 640 * (L 1).val + 640 := h 1
    omega
  · rintro ⟨h0, h1, h2⟩ a
    match a with
    | 0 => exact (show t.val ≤ (j 0).val ∧ (j 0).val < t.val + 1 by omega)
    | 1 => exact (show 640 * (L 1).val ≤ (j 1).val ∧ (j 1).val < 640 * (L 1).val + 640 by omega)

/-! ## The sixteen tiles' pieces of a plane of the output -/

section Plane

variable (c : Fin 2)

theorem mem_tTile {i : Fin 16} {j : S2x8x10240.Idx} :
    j ∈ tOutSet (coordsV c i) ↔ (j 0).val = c.val ∧ (j 1).val = 0 ∧ 640 * i.val ≤ (j 2).val ∧ (j 2).val < 640 * i.val + 640 :=
  mem_tOutSet

/-- Different tiles write different columns. -/
theorem tTiles_disjoint : ∀ i ∈ (Finset.univ : Finset (Fin 16)), ∀ i' ∈ (Finset.univ : Finset (Fin 16)), i ≠ i' →
    Disjoint (tOutSet (coordsV c i)) (tOutSet (coordsV c i')) := by
  intro i _ i' _ h
  rw [Finset.disjoint_left]
  intro j hj hj'
  rw [mem_tTile] at hj hj'
  exact h (Fin.ext (by omega))

/-- Row 0 of the plane, which the tiles write between them. -/
def tRow0 : Finset S2x8x10240.Idx := (Finset.univ : Finset (Fin 16)).biUnion fun i => tOutSet (coordsV c i)

theorem mem_tRow0 {j : S2x8x10240.Idx} : j ∈ tRow0 c ↔ (j 0).val = c.val ∧ (j 1).val = 0 := by
  unfold tRow0
  rw [Finset.mem_biUnion]
  constructor
  · rintro ⟨i, -, hi⟩
    rw [mem_tTile] at hi
    exact ⟨hi.1, hi.2.1⟩
  · rintro ⟨h0, h1⟩
    have hj : (j 2).val < 10240 := (j 2).isLt
    refine ⟨⟨(j 2).val / 640, by omega⟩, Finset.mem_univ _, ?_⟩
    rw [mem_tTile]
    refine ⟨h0, h1, ?_, ?_⟩
    · show 640 * ((j 2).val / 640) ≤ (j 2).val
      omega
    · show (j 2).val < 640 * ((j 2).val / 640) + 640
      omega

theorem tRow0_subset : tRow0 c ⊆ tCoreSet c := by
  intro j hj
  rw [mem_tRow0] at hj
  exact Finset.mem_filter.mpr ⟨Finset.mem_univ _, hj.1⟩

theorem ix3_mem_tRow0 (n : Fin 10240) : (ix3 c (0 : Fin 8) n : S2x8x10240.Idx) ∈ tRow0 c := by
  rw [mem_tRow0]; exact ⟨rfl, rfl⟩

/-- Column `640 · i + k` of row 0 is tile `i`'s. -/
theorem ix3_mem_tTile (i : Fin 16) (k : Fin 640) (h : i.val * 640 + k.val < 10240) :
    (ix3 c (0 : Fin 8) (⟨i.val * 640 + k.val, h⟩ : Fin 10240) : S2x8x10240.Idx) ∈ tOutSet (coordsV c i) := by
  rw [mem_tTile]
  refine ⟨rfl, rfl, ?_, ?_⟩
  · show 640 * i.val ≤ i.val * 640 + k.val
    omega
  · show i.val * 640 + k.val < 640 * i.val + 640
    have := k.isLt
    omega

end Plane

/-! ## The sixteen rows of a shared scratch, and the 16 × 16 pieces the tiles add up -/

theorem mem_shRow {c : Fin 2} {i : Fin 16} {j : S16x10240.Idx} : j ∈ shRowSet (coordsV c i) ↔ (j 0).val = i.val := mem_shRowSet

theorem shRows_disjoint (c : Fin 2) : ∀ i ∈ (Finset.univ : Finset (Fin 16)), ∀ i' ∈ (Finset.univ : Finset (Fin 16)), i ≠ i' →
    Disjoint (shRowSet (coordsV c i)) (shRowSet (coordsV c i')) := by
  intro i _ i' _ h
  rw [Finset.disjoint_left]
  intro j hj hj'
  rw [mem_shRow] at hj hj'
  exact h (Fin.ext (by omega))

theorem shRows_cover (c : Fin 2) : ((Finset.univ : Finset (Fin 16)).biUnion fun i => shRowSet (coordsV c i)) = Finset.univ := by
  ext j
  simp only [Finset.mem_biUnion, Finset.mem_univ, true_and, iff_true]
  have hj : (j 0).val < 16 := (j 0).isLt
  exact ⟨⟨(j 0).val, hj⟩, mem_shRow.mpr rfl⟩

theorem mem_shBlk {c : Fin 2} {i : Fin 16} {t : Fin k0_t7_loop.trips} {j : S16x10240.Idx} :
    j ∈ shBlkSet (coordsV c i) t ↔ (j 0).val = t.val ∧ 640 * i.val ≤ (j 1).val ∧ (j 1).val < 640 * i.val + 640 := mem_shBlkSet

theorem shBlks_disjoint (c : Fin 2) : ∀ x ∈ (Finset.univ : Finset (Fin 16 × Fin k0_t7_loop.trips)), ∀ x' ∈ (Finset.univ : Finset (Fin 16 × Fin k0_t7_loop.trips)), x ≠ x' →
    Disjoint (shBlkSet (coordsV c x.1) x.2) (shBlkSet (coordsV c x'.1) x'.2) := by
  rintro ⟨i, t⟩ _ ⟨i', t'⟩ _ h
  rw [Finset.disjoint_left]
  intro j hj hj'
  rw [mem_shBlk] at hj hj'
  dsimp only at hj hj'
  exact h (Prod.ext (Fin.ext (by dsimp only; omega)) (Fin.ext (by dsimp only; omega)))

theorem shBlks_cover (c : Fin 2) :
    ((Finset.univ : Finset (Fin 16 × Fin k0_t7_loop.trips)).biUnion fun x => shBlkSet (coordsV c x.1) x.2) = Finset.univ := by
  ext j
  simp only [Finset.mem_biUnion, Finset.mem_univ, true_and, iff_true]
  have h0 : (j 0).val < 16 := (j 0).isLt
  have h1 : (j 1).val < 10240 := (j 1).isLt
  refine ⟨(⟨(j 1).val / 640, by omega⟩, ⟨(j 0).val, by rw [trips7]; exact h0⟩), ?_⟩
  rw [mem_shBlk]
  refine ⟨rfl, ?_, ?_⟩
  · show 640 * ((j 1).val / 640) ≤ (j 1).val
    omega
  · show (j 1).val < 640 * ((j 1).val / 640) + 640
    omega

end Cert.KernelIdeal.Hist

end
-- ==== Proof.HistLaunchSplit.lean ====
/-
  How a SparseCore's operands split among its sixteen tiles and gather from them: its read share of the edge list into
  sixteen shares of that share and a remainder; its plane of the output into the tiles' 640 columns each of row 0 and the
  other seven rows; its shared scratch into sixteen rows on the way out, and back from the sixteen 640-column strips, each
  in sixteen pieces. The counts a SparseCore leaves in row 0 of its plane are the tiles' counts of their columns.
-/
import proofs.«210354_g33337536152245_cont_8to1_b_1126_28_alg».proof.Proof.HistSetup
import proofs.«210354_g33337536152245_cont_8to1_b_1126_28_alg».proof.Proof.HistLaunchSets

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

variable (m : (ℓ : Loc nD τ sig) → Buf (Elt F) ℓ) (CH : Dev nD → Fin 2 → Fin 10240 → Elt F .f32)

theorem col_lt (i : Fin 16) (k : Fin 640) : i.val * 640 + k.val < 10240 := by
  have := i.isLt; have := k.isLt; omega

/-- An index of tile `i`'s piece of plane `c` is column `640 · i + k` of row 0, for some `k` below 640. -/
theorem eq_ix3_of_mem_tTile {c : Fin 2} {i : Fin 16} {j : S2x8x10240.Idx} (hj : j ∈ tOutSet (coordsV c i)) :
    ∃ k : Fin 640, j = ix3 c (0 : Fin 8) (⟨i.val * 640 + k.val, col_lt i k⟩ : Fin 10240) := by
  rw [mem_tTile] at hj
  obtain ⟨h0, h1, h2, h3⟩ := hj
  refine ⟨⟨(j 2).val - 640 * i.val, by omega⟩, ?_⟩
  funext a
  match a with
  | ⟨0, _⟩ => exact Fin.ext h0
  | ⟨1, _⟩ => exact Fin.ext h1
  | ⟨2, _⟩ => exact Fin.ext (show (j 2).val = i.val * 640 + ((j 2).val - 640 * i.val) by omega)

/-! ## The plane of the output -/

/-- SparseCore `c`'s counts laid over the output's shape: the count of node `n` at every index of column `n`. -/
def chBuf (d : Dev nD) (c : Fin 2) : Buf (Elt F) (tLoc d) :=
  show S2x8x10240.Idx → Elt F .f32 from fun j => CH d c ⟨(j 2).val, (j 2).isLt⟩

theorem chBuf_ix3 (d : Dev nD) (c : Fin 2) (a : Fin 2) (b : Fin 8) (n : Fin 10240) : chBuf CH d c (ix3 a b n) = CH d c n := rfl

/-- A plane is the sixteen tiles' pieces of its row 0 and the rest of it. -/
theorem plane_split (d : Dev nD) (c : Fin 2) (f : Buf (Elt F) (tLoc d)) :
    (tLoc d ↦[tCoreSet c]{fullShare} f : sProp 𝕄)
      ⊢ iprop((bigSep Finset.univ fun i : Fin 16 => tLoc d ↦[tOutSet (coordsV c i)]{fullShare} f) ∗ tLoc d ↦[tCoreSet c \ tRow0 c]{fullShare} f) := by
  rw [← pointsTo_biUnion Finset.univ (ℓ := tLoc d) (fun i : Fin 16 => tOutSet (coordsV c i)) (tTiles_disjoint c)]
  exact (pointsTo_split_subset (tRow0_subset c)).1

/-- A tile's piece at contents that are its counts on its columns is its piece at the SparseCore's counts. -/
theorem tile_at_counts (d : Dev nD) (c : Fin 2) (i : Fin 16) :
    (iprop(∃ f : Buf (Elt F) (tLoc d),
        ⌜∀ k : Fin 640, f (ix3 c (0 : Fin 8) ⟨i.val * 640 + k.val, col_lt i k⟩) = CH d c ⟨i.val * 640 + k.val, col_lt i k⟩⌝
          ∗ tLoc d ↦[tOutSet (coordsV c i)]{fullShare} f) : sProp 𝕄)
      ⊢ tLoc d ↦[tOutSet (coordsV c i)]{fullShare} chBuf CH d c := by
  iintro ⟨%f, %hf, H⟩
  rw [← pointsTo_congr (f := f) (g := chBuf CH d c) fun j hj => by
    obtain ⟨k, rfl⟩ := eq_ix3_of_mem_tTile hj
    rw [hf k, chBuf_ix3]]
  iexact H

/-- The sixteen pieces at the tiles' counts and the rest of the plane as it was are the plane, row 0 at the counts. -/
theorem plane_join (d : Dev nD) (c : Fin 2) (f₀ : Buf (Elt F) (tLoc d)) :
    iprop((bigSep Finset.univ fun i : Fin 16 => iprop(∃ f : Buf (Elt F) (tLoc d),
        ⌜∀ k : Fin 640, f (ix3 c (0 : Fin 8) ⟨i.val * 640 + k.val, col_lt i k⟩) = CH d c ⟨i.val * 640 + k.val, col_lt i k⟩⌝
          ∗ tLoc d ↦[tOutSet (coordsV c i)]{fullShare} f))
        ∗ tLoc d ↦[tCoreSet c \ tRow0 c]{fullShare} f₀)
      ⊢ (iprop(∃ f : Buf (Elt F) (tLoc d), ⌜∀ n : Fin 10240, f (ix3 c (0 : Fin 8) n) = CH d c n⌝ ∗ tLoc d ↦[tCoreSet c]{fullShare} f) : sProp 𝕄) := by
  iintro ⟨Ht, Hr⟩
  ihave Ht' := (SparseCore.ent (bigSep_mono (s := (Finset.univ : Finset (Fin 16))) fun i _ => tile_at_counts CH d c i)) $$ Ht
  ihave Ht'' := (Entails.of_eq (pointsTo_biUnion (q := fullShare) (f := chBuf CH d c) Finset.univ (ℓ := tLoc d) (fun i : Fin 16 => tOutSet (coordsV c i)) (tTiles_disjoint c)).symm) $$ Ht'
  ihave H := (pointsTo_join_subset (ℓ := tLoc d) (I := tRow0 c) (S := tCoreSet c) (q := fullShare) (g := chBuf CH d c) (f := f₀) (tRow0_subset c)) $$ [Ht'' Hr]
  · isplitl [Ht'']; · iexact Ht''
    iexact Hr
  iexists (tRow0 c).piecewise (chBuf CH d c) f₀
  isplitr
  · ipureintro
    intro n
    rw [Finset.piecewise_eq_of_mem _ _ _ (ix3_mem_tRow0 c n), chBuf_ix3]
  iexact H

/-! ## The shared scratch -/

/-- A shared scratch whole is its sixteen rows, each at contents of its own. -/
theorem sh_rows (d : Dev nD) (sc : Fin τ.nSC) (c : Fin 2) (f : Buf (Elt F) (shLoc d sc)) :
    (shLoc d sc ↦{fullShare} f : sProp 𝕄) ⊢ bigSep Finset.univ fun i : Fin 16 => iprop(∃ f, shLoc d sc ↦[shRowSet (coordsV c i)]{fullShare} f) := by
  have e : (shLoc d sc ↦{fullShare} f : sProp 𝕄) = bigSep Finset.univ fun i : Fin 16 => shLoc d sc ↦[shRowSet (coordsV c i)]{fullShare} f := by
    rw [← pointsTo_biUnion Finset.univ (ℓ := shLoc d sc) (fun i : Fin 16 => shRowSet (coordsV c i)) (shRows_disjoint c), shRows_cover]; try rfl
  rw [e]
  exact bigSep_mono fun i _ => BI.BIClass.exists_intro (Φ := fun f => (shLoc d sc ↦[shRowSet (coordsV c i)]{fullShare} f : sProp 𝕄)) f

/-- The 16 × 16 pieces the tiles added up, each at contents of its own, are the shared scratch whole at some contents. -/
theorem sh_blks_join (d : Dev nD) (sc : Fin τ.nSC) (c : Fin 2) :
    (bigSep Finset.univ fun i : Fin 16 => bigSep Finset.univ fun t : Fin k0_t7_loop.trips =>
        iprop(∃ f, shLoc d sc ↦[shBlkSet (coordsV c i) t]{fullShare} f))
      ⊢ (iprop(∃ f, shLoc d sc ↦{fullShare} f) : sProp 𝕄) := by
  rw [← bigSep_univ_prod (fun x : Fin 16 × Fin k0_t7_loop.trips => (iprop(∃ f, shLoc d sc ↦[shBlkSet (coordsV c x.1) x.2]{fullShare} f) : sProp 𝕄))]
  refine (bigSep_exists_pi Finset.univ (fun (x : Fin 16 × Fin k0_t7_loop.trips) (f : Buf (Elt F) (shLoc d sc)) =>
    (shLoc d sc ↦[shBlkSet (coordsV c x.1) x.2]{fullShare} f : sProp 𝕄))).trans ?_
  iintro ⟨%fs, H⟩
  ihave H' := (pointsTo_biUnion_join Finset.univ (fun x : Fin 16 × Fin k0_t7_loop.trips => shBlkSet (coordsV c x.1) x.2) fs
    (fs (0, ⟨0, by rw [trips7]; exact Nat.succ_pos _⟩)) (shBlks_disjoint c)) $$ H
  icases H' with ⟨%g, -, Hg⟩
  rw [shBlks_cover]
  iexists g; iexact Hg

end Cert.KernelIdeal.Hist

end
-- ==== Proof.HistLaunchVecSplit.lean ====
/-
  The split of the SparseCore call's operands among a SparseCore's sixteen tasks and the gathering of its results from
  theirs, in the form the launch theorem asks for.
-/
import proofs.«210354_g33337536152245_cont_8to1_b_1126_28_alg».proof.Proof.HistSetup
import proofs.«210354_g33337536152245_cont_8to1_b_1126_28_alg».proof.Proof.HistLaunchSplit

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.ValueIdx

variable (SH : (d : Dev nD) → (c : Fin τ.nSC) → Buf (Elt F) (shLoc d c))
  (m : (ℓ : Loc nD τ sig) → Buf (Elt F) ℓ) (CH : Dev nD → Fin 2 → Fin 10240 → Elt F .f32)

/-! ## What the handshakes carry, over the literal index types -/

/-- What SparseCore `c`'s sequencer is handed at the call. -/
abbrev stA (d : Dev nD) (c : Fin 2) : sProp 𝕄 :=
  iprop((eiLoc d ↦{coreShare c} m (eiLoc d)) ∗ tLoc d ↦[tCoreSet c]{fullShare} m (tLoc d))
/-- What it hands back. -/
abbrev dnA (d : Dev nD) (c : Fin 2) : sProp 𝕄 :=
  iprop((eiLoc d ↦{coreShare c} m (eiLoc d))
    ∗ ∃ f : Buf (Elt F) (tLoc d), ⌜∀ n : Fin 10240, f (ix3 c (0 : Fin 8) n) = CH d c n⌝ ∗ tLoc d ↦[tCoreSet c]{fullShare} f)
/-- What tile `i`'s task is handed. -/
abbrev goA (d : Dev nD) (sc : Fin τ.nSC) (c : Fin 2) (i : Fin 16) : sProp 𝕄 :=
  iprop((eiLoc d ↦{tileShare c i} m (eiLoc d)) ∗ (tLoc d ↦[tOutSet (coordsV c i)]{fullShare} m (tLoc d))
    ∗ ∃ f, shLoc d sc ↦[shRowSet (coordsV c i)]{fullShare} f)
/-- What it hands back. -/
abbrev tdA (d : Dev nD) (sc : Fin τ.nSC) (c : Fin 2) (i : Fin 16) : sProp 𝕄 :=
  iprop((eiLoc d ↦{tileShare c i} m (eiLoc d))
    ∗ (∃ f : Buf (Elt F) (tLoc d),
        ⌜∀ k : Fin 640, f (ix3 c (0 : Fin 8) ⟨i.val * 640 + k.val, col_lt i k⟩) = CH d c ⟨i.val * 640 + k.val, col_lt i k⟩⌝
          ∗ tLoc d ↦[tOutSet (coordsV c i)]{fullShare} f)
    ∗ bigSep Finset.univ fun t : Fin k0_t7_loop.trips => iprop(∃ f, shLoc d sc ↦[shBlkSet (coordsV c i) t]{fullShare} f))

theorem P_st (d : Dev nD) (c : Fin ((K (F := F)).nCore 0)) : (P SH m CH).st 0 d c = stA m d (cOf c) := rfl
theorem P_dn (d : Dev nD) (c : Fin ((K (F := F)).nCore 0)) : (P SH m CH).dn 0 d c = dnA m CH d (cOf c) := rfl
theorem P_go (d : Dev nD) (c : Fin ((K (F := F)).nCore 0)) (i : Fin ((K (F := F)).nSub 0)) :
    (P SH m CH).go 0 d c i = goA m d ((K (F := F)).core 0 c) (cOf c) (iOf i) := rfl
theorem P_td (d : Dev nD) (c : Fin ((K (F := F)).nCore 0)) (i : Fin ((K (F := F)).nSub 0)) :
    (P SH m CH).td 0 d c i = tdA m CH d ((K (F := F)).core 0 c) (cOf c) (iOf i) := rfl

theorem go_all (d : Dev nD) (c : Fin ((K (F := F)).nCore 0)) :
    (bigSep Finset.univ fun i : Fin ((K (F := F)).nSub 0) => (P SH m CH).go 0 d c i)
      = bigSep Finset.univ fun i : Fin 16 => goA m d ((K (F := F)).core 0 c) (cOf c) i :=
  bigSep_congr fun i _ => P_go SH m CH d c i
theorem td_all (d : Dev nD) (c : Fin ((K (F := F)).nCore 0)) :
    (bigSep Finset.univ fun i : Fin ((K (F := F)).nSub 0) => (P SH m CH).td 0 d c i)
      = bigSep Finset.univ fun i : Fin 16 => tdA m CH d ((K (F := F)).core 0 c) (cOf c) i :=
  bigSep_congr fun i _ => P_td SH m CH d c i

/-! ## The split -/

/-- A SparseCore's operands and its shared scratch go out to its sixteen tasks, and what they bring back is its results
    and the shared scratch whole. -/
theorem split_core (d : Dev nD) (sc : Fin τ.nSC) (c : Fin 2) :
    iprop(stA m d c ∗ ∃ f, shLoc d sc ↦{fullShare} f)
      ⊢ (iprop((bigSep Finset.univ fun i : Fin 16 => goA m d sc c i)
          ∗ ((bigSep Finset.univ fun i : Fin 16 => tdA m CH d sc c i) -∗ iprop(dnA m CH d c ∗ ∃ f, shLoc d sc ↦{fullShare} f))) : sProp 𝕄) := by
  unfold stA dnA goA tdA
  rw [bigSep_sep', bigSep_sep', bigSep_sep', bigSep_sep']
  iintro ⟨⟨Hei, Ht⟩, ⟨%fsh, Hsh⟩⟩
  ihave Hei' := (Transfers.pointsTo_toks_split (coreShare c) 16) $$ Hei
  icases Hei' with ⟨Heid, Heis⟩
  ihave Ht' := (plane_split d c (m (tLoc d))) $$ Ht
  icases Ht' with ⟨Hts, Htr⟩
  ihave Hsh' := (sh_rows d sc c fsh) $$ Hsh
  isplitl [Heis Hts Hsh']
  · isplitl [Heis]; · iexact Heis
    isplitl [Hts]; · iexact Hts
    iexact Hsh'
  iintro ⟨Heis, Hts, Hblk⟩
  isplitl [Heid Heis Htr Hts]
  · isplitl [Heid Heis]
    · iapply (Transfers.pointsTo_toks_join (coreShare c) 16)
      isplitl [Heid]; · iexact Heid
      iexact Heis
    · iapply (plane_join CH d c (m (tLoc d)))
      isplitl [Hts]; · iexact Hts
      iexact Htr
  · iapply (sh_blks_join d sc c); iexact Hblk

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P SH m CH) 0 := by
  intro d c
  rw [go_all, td_all, P_st, P_dn, ownBufs_S]
  iintro ⟨Hst, Hsh, Hrest⟩
  ihave H := (split_core m CH d ((K (F := F)).core 0 c) (cOf c)) $$ [Hst Hsh]
  · isplitl [Hst]; · iexact Hst
    iexact Hsh
  icases H with ⟨Hgo, Hback⟩
  imodintro
  isplitl [Hgo]; · iexact Hgo
  iintro Htd
  ihave H' := Hback $$ Htd
  icases H' with ⟨Hdn, Hsh⟩
  isplitl [Hdn]; · iexact Hdn
  isplitl [Hsh]; · iexact Hsh
  iexact Hrest

end Cert.KernelIdeal.Hist

end
-- ==== Proof.HistLaunchElem.lean ====
/-
  The launch element of the ghost state: the handshake cells' rounds go to the launch theorem; the barrier cells of both
  SparseCores are funded, their invariants allocated, and every tile is dealt its barrier kit; the TensorCore region's
  staging cells' element goes to what @main's proof starts from.
-/
import proofs.«210354_g33337536152245_cont_8to1_b_1126_28_alg».proof.Proof.HistSetup
import proofs.«210354_g33337536152245_cont_8to1_b_1126_28_alg».proof.Proof.HistLaunchDefs

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
  (m : (ℓ : Loc nD τ sig) → Buf (Elt F) ℓ) (CH : Dev nD → Fin 2 → Fin 10240 → Elt F .f32)

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The element of the ghost state is its three libraries' elements side by side. -/
theorem ownU_split (a : UH) (b : UB) (r : UR) :
    (ownU ((a, (b, (r, 1))) : UU) : sProp 𝕄) ⊢ iprop(BI.own (EH a) ∗ BI.own (EB b) ∗ BI.own (ER (F := F) r)) := by
  have h1 : (ownU ((a, (b, (r, 1))) : UU) : sProp 𝕄)
      ⊢ iprop(BI.own (EH a) ∗ BI.own ((uEmb (nD := nD) (sig := sig) (Ix := HIx 1) (Val := Elt F) (Name := ℕ) (U := UU) (Lvl := ℕ)).toEmb ((1 : UH), (b, (r, (1 : Counters)))))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (r, (1 : Counters))))))
  have h2 : (BI.own ((uEmb (nD := nD) (sig := sig) (Ix := HIx 1) (Val := Elt F) (Name := ℕ) (U := UU) (Lvl := ℕ)).toEmb ((1 : UH), (b, (r, (1 : Counters))))) : sProp 𝕄)
      ⊢ iprop(BI.own (EB b) ∗ BI.own (ER (F := F) r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (r, (1 : Counters))))))
  iintro H
  ihave H1 := h1 $$ H
  icases H1 with ⟨HH, HR⟩
  ihave H2 := h2 $$ HR
  icases H2 with ⟨HB, HR⟩
  isplitl [HH]; · iexact HH
  isplitl [HB]; · iexact HB
  iexact HR

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd SH) g 0)
    ⊢ |={Set.univ}=> iprop(∃ κ : GSem nD τ sig → ℕ, bigSep bCells fun g => cellInv EB (bRd SH) (κ g) g) := by
  refine (Rounds.bodies_intro EB (bRd SH) bCells).trans ((inv_alloc_family bCells (Rounds.body EB (bRd SH)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile of the two SparseCores the sixteen units of its own cell. -/
theorem creds_b : ((P SH m CH).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P SH m CH).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P SH m CH).oxFrom 0 (V d c i) = oxV d c := fun i => by
      rw [show (0 : ℕ) = (0 : Fin 1).val from rfl, (P SH m CH).oxFrom_step, (P SH m CH).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P SH m CH).x q (SparseCore.T d)) = iprop(emp) :=
  bigSep_univ_of_subsingleton (0 : Fin 1)
theorem Px_S (d : Dev nD) (c : Fin τ.nSC) : (bigSep Finset.univ fun q : Fin 1 => (P SH m CH).x q (S d c)) = iprop(emp) :=
  bigSep_univ_of_subsingleton (0 : Fin 1)
theorem Px_V (d : Dev nD) (c : Fin τ.nSC) (i : Fin τ.nSub) :
    (bigSep Finset.univ fun q : Fin 1 => (P SH m CH).x q (V d c i)) = if c.val < 2 then bkit SH d c i else iprop(emp) :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd SH) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared SH ∗ mine (F := F) dci) ⊢ (if dci.2.1.val < 2 then bkit SH dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd SH) (κ (bcell₃ x)) (bcell₃ x)) fun j _ =>
          sep_elim_left.trans (bigSep_elim (Φ := fun x : DCI => (cellInv EB (bRd SH) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared SH ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P SH m CH).x q thr : sProp 𝕄) := by
  rw [SparseCore.Cfg.bigSep_threads (fun thr : Thread nD τ => bigSep Finset.univ fun q : Fin 1 => (P SH m CH).x q thr)]
  simp only [Px_T, Px_S, Px_V, bigSep_emp']
  iintro ⟨#Hsh, Hat, Htok, Hcred⟩
  isplitr; · iempintro
  isplitr; · iempintro
  iapply (bigSep_mono_frame (R := shared SH) (Φ := mine (F := F)) fun dci _ => kit_intro SH dci)
  isplitr; · iexact Hsh
  unfold mine
  rw [bigSep_sep', bigSep_sep']
  isplitl [Hat]; · iexact Hat
  isplitl [Htok]; · iexact Htok
  iexact Hcred

/-- The launch element: the handshakes' rounds, what @main's proof starts from, and every tile's barrier kit. -/
theorem hu₀ (G : Dev nD → sProp 𝕄) (uR : UR) (hG : BI.own (ER (F := F) uR) ⊢ iprop(|==> bigSep Finset.univ G)) :
    iprop(ownU (u₀ (F := F) uR) ∗ (P SH m CH).oxCred ∗ (K (F := F)).freeSems0)
      ⊢ |={Set.univ}=> iprop(BI.own (EH (initOf (K (F := F)).hsCells (K (F := F)).hsToks)) ∗ (bigSep Finset.univ G)
        ∗ (bigSep Finset.univ fun thr : Thread nD τ => bigSep Finset.univ fun q : Fin 1 => (P SH m CH).x q thr) : sProp 𝕄) := by
  unfold u₀
  iintro ⟨Hu, Hcred, Hfree⟩
  ihave H := (ownU_split _ _ _) $$ Hu
  icases H with ⟨HH, HB, HR⟩
  imod (Rounds.fund EB (bRd SH) bCells bToks) $$ HB with ⟨Hst, #Hr, Hat, Htok⟩
  imod hG $$ HR with HG
  ihave Hsems := (sems_b (F := F)) $$ Hfree
  imod (invs_b SH) $$ [Hsems Hst] with ⟨%κ, #Hinv⟩
  · isplitl [Hsems] <;> iassumption
  ihave Hcred' := (creds_b SH m CH) $$ Hcred
  ihave Hinv' := (Entails.of_eq (bCells_eq (F := F) fun g => cellInv EB (bRd SH) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal SH m CH)
  isplitr
  · isplitl; · iexists κ; iexact Hinv'
    iexact Hr'
  isplitl [Hat']; · iexact Hat'
  isplitl [Htok']; · iexact Htok'
  iexact Hcred'

end Cert.KernelIdeal.Hist

end
-- ==== Proof.HistLaunchRun.lean ====
/-
  The program's run: the launch theorem applied to the tile's body obligation and @main's proof, and the claim read off the
  final memory — on every device the result is the named value and the ten arguments are the launch's.
-/
import proofs.«210354_g33337536152245_cont_8to1_b_1126_28_alg».proof.Proof.HistSetup
import proofs.«210354_g33337536152245_cont_8to1_b_1126_28_alg».proof.Proof.HistLaunchDefs
import proofs.«210354_g33337536152245_cont_8to1_b_1126_28_alg».proof.Proof.HistLaunchVecSplit
import proofs.«210354_g33337536152245_cont_8to1_b_1126_28_alg».proof.Proof.HistLaunchElem

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
  (m : (ℓ : Loc nD τ sig) → Buf (Elt F) ℓ) (CH : Dev nD → Fin 2 → Fin 10240 → Elt F .f32) (ρ : Dev nD → PrngReg)
  (OUT : (d : Dev nD) → Buf (Elt F) ((SparseCore.T d).loc main_v4))

/-! ## The final assertions read the claim -/

/-- Arrays held whole at given contents are there in the memory. -/
theorem refs_agree (R : Finset (Ref sig .tc)) (d : Dev nD) (s' : Phys nD τ sig (Elt F)) :
    iprop(SI s' ∗ bigSep R fun b => (SparseCore.T d).loc b ↦{fullShare} m ((SparseCore.T d).loc b))
      ⊢ (⌜∀ b ∈ R, s'.mem.mem ((SparseCore.T d).loc b) = m ((SparseCore.T d).loc b)⌝ : sProp 𝕄) := by
  induction R using Finset.induction_on with
  | empty => iintro -; ipureintro; intro b hb; exact absurd hb (Finset.notMem_empty _)
  | insert a R ha ih =>
    rw [SparseCore.bigSep_insert' ha]
    iintro ⟨HSI, Ha, HR⟩
    ihave %h1 := (SI_pointsTo_agree (st := s') (ℓ := (SparseCore.T d).loc a) (I := Finset.univ) (q := fullShare) (f := m ((SparseCore.T d).loc a))) $$ [HSI Ha]
    · isplitl [HSI] <;> iassumption
    ihave %h2 := ih $$ [HSI HR]
    · isplitl [HSI] <;> iassumption
    ipureintro
    intro b hb
    rcases Finset.mem_insert.mp hb with rfl | hb
    · exact funext fun i => h1 i (Finset.mem_univ i)
    · exact h2 b hb

theorem hfin (d : Dev nD) (s' : Phys nD τ sig (Elt F)) : iprop(FIN m OUT d ∗ SI s') ⊢ (⌜fq m OUT d s'⌝ : sProp 𝕄) := by
  unfold FIN fq
  iintro ⟨⟨Hargs, Hout⟩, HSI⟩
  ihave %hout := (SI_pointsTo_agree (st := s') (ℓ := (SparseCore.T d).loc main_v4) (I := Finset.univ) (q := fullShare) (f := OUT d)) $$ [HSI Hout]
  · isplitl [HSI] <;> iassumption
  ihave %hargs := (refs_agree m argRefs d s') $$ [HSI Hargs]
  · isplitl [HSI] <;> iassumption
  ipureintro
  exact ⟨funext fun i => hout i (Finset.mem_univ i), hargs⟩

/-! ## The run -/

/-- Every weakly fair execution of the program from the memory `m` ends, on every device, with the result at `OUT` and the
    ten arguments as they were: from the tile's body obligation, the TensorCore region's part of the launch element and
    @main's proof. -/
theorem run_main [∀ e, Nonempty (Elt F e)]
    (tileObl : (K (F := F)).TileObl (D (F := F)) 𝒱 (P SH m CH) v₀ 0)
    (G : Dev nD → sProp 𝕄) (uR : UR) (hG : BI.own (ER (F := F) uR) ⊢ iprop(|==> bigSep Finset.univ G))
    (hmain : ∀ (κ : GSem nD τ sig → ℕ) (d : Dev nD),
      iprop((K (F := F)).ctx EH (P SH m CH) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m OUT d)) :
    θ_run (Cert.KernelIdeal.defs (F := F)) (Cert.KernelIdeal.threads (F := F)) ⟨m, fun _ => 0, ρ⟩
      (fun r => ∀ c : Dev nD,
        r.2.mem ((c.tc : Thread nD τ).loc main_v4) = OUT c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  SparseCore.Cfg.θ_run_sc (K := K (F := F)) (D := D (F := F)) (𝒱 := 𝒱) (EH := EH) (P := P SH m CH) facts v₀
    (fun q hq => match q with | 0 => nomatch hq)
    (fun q _ => match q with | 0 => tileObl)
    (fun q _ => match q with | 0 => vecSplit SH m CH)
    m ρ main G (FIN m OUT) (u₀ (F := F) uR) (hu₀ SH m CH G uR hG) hmain (fq m OUT) (hfin m OUT) _
    (fun s' h c => ⟨(h c).1,
      (h c).2 main_arg0 (by unfold argRefs; decide),
      (h c).2 main_arg1 (by unfold argRefs; decide),
      (h c).2 main_arg2 (by unfold argRefs; decide),
      (h c).2 main_arg3 (by unfold argRefs; decide),
      (h c).2 main_arg4 (by unfold argRefs; decide),
      (h c).2 main_arg5 (by unfold argRefs; decide),
      (h c).2 main_arg6 (by unfold argRefs; decide),
      (h c).2 main_arg7 (by unfold argRefs; decide),
      (h c).2 main_arg8 (by unfold argRefs; decide),
      (h c).2 main_arg9 (by unfold argRefs; decide)⟩)

end Cert.KernelIdeal.Hist

end
-- ==== Proof.HistLaunchObl.lean ====
/-
  The tile's obligation of the launch theorem from the proof of the kernel function's body at a tile: the body table's
  row for a vector subcore is the kernel function at the tile's coordinates, lifted to the extended signature.
-/
import proofs.«210354_g33337536152245_cont_8to1_b_1126_28_alg».proof.Proof.HistSetup
import proofs.«210354_g33337536152245_cont_8to1_b_1126_28_alg».proof.Proof.HistLaunchVecSplit

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
  (m : (ℓ : Loc nD τ sig) → Buf (Elt F) ℓ) (CH : Dev nD → Fin 2 → Fin 10240 → Elt F .f32)

/-- The body table's row for a vector subcore: the kernel function at the tile's coordinates, on the tiles of the grid. -/
theorem defs₀_vector (c : Fin τ.nSC) (s : Fin τ.nSub) :
    defs₀ (F := F) (.scVector c s) 0 ()
      = SparseCore.onTile hcore0 hsub0 (fun c s => cc0__sc_histogram (coordsV c s) eiV (Memref.isWhole_whole _) tV (Memref.isWhole_whole _) idxV (Memref.isWhole_whole _) extV (Memref.isWhole_whole _) histV (Memref.isWhole_whole _) accV (Memref.isWhole_whole _) bufV (Memref.isWhole_whole _) shV (Memref.isWhole_whole _) cc0_scratch6 cc0_scoped0 cc0_scoped1 cc0_scoped2 cc0_scoped3) ⟨⟩ c s := rfl

set_option maxRecDepth 16384 in
/-- The obligation, from the body proved at every tile of the grid. -/
theorem tileObl_of_body
    (tile_body : ∀ (d : Dev nD) (c : Fin 2) (i : Fin 16) (hF : (K (F := F)).Facts) (O : CellTallies nD τ sig (HIx 1)) (W : Waits sig (HIx 1))
      (hO : ∀ g, O g none = 0) (hOlev : ∀ g ι, 0 < O g ι → 8 * (0 : Fin 1).val + 6 ≤ (K (F := F)).lev g ι),
      iprop(levAts (K (F := F)).L (K (F := F)).lev ∗ bkit SH d (cV (coordsV c i)) (jV (coordsV c i)) ∗ goA m d (cV (coordsV c i)) c i
          ∗ scopedBufs (V d (cV (coordsV c i)) (jV (coordsV c i))) ∗ scopedSems0 (V d (cV (coordsV c i)) (jV (coordsV c i)))
          ∗ owes (V d (cV (coordsV c i)) (jV (coordsV c i))) (O + oxV d (cV (coordsV c i))) W)
        ⊢ wp frame (wpE (defs₀ (F := F)) 𝒱₀ (V d (cV (coordsV c i)) (jV (coordsV c i))) none) Set.univ
            (cc0__sc_histogram (coordsV c i) eiV (Memref.isWhole_whole _) tV (Memref.isWhole_whole _) idxV (Memref.isWhole_whole _) extV (Memref.isWhole_whole _) histV (Memref.isWhole_whole _) accV (Memref.isWhole_whole _) bufV (Memref.isWhole_whole _) shV (Memref.isWhole_whole _) cc0_scratch6 cc0_scoped0 cc0_scoped1 cc0_scoped2 cc0_scoped3)
            fun _ => iprop(tdA m CH d (cV (coordsV c i)) c i ∗ scopedBufs (V d (cV (coordsV c i)) (jV (coordsV c i))) ∗ scopedSems0 (V d (cV (coordsV c i)) (jV (coordsV c i)))
              ∗ ∃ W', ⌜∀ p ∈ W', p ∈ W ∨ p.2 = none ∨ p.2 = some (0 : Fin 1)⌝ ∗ owes (V d (cV (coordsV c i)) (jV (coordsV c i))) O W')) :
    (K (F := F)).TileObl (D (F := F)) 𝒱 (P SH m CH) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P SH m CH).ox 0 (V d ((K (F := F)).core 0 c) ((K (F := F)).sub 0 i)) = oxV d ((K (F := F)).core 0 c) from if_pos hc,
    show (P SH m CH).x 0 (V d ((K (F := F)).core 0 c) ((K (F := F)).sub 0 i)) = bkit SH d ((K (F := F)).core 0 c) ((K (F := F)).sub 0 i) from if_pos hc,
    P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (cOf c) (iOf i) facts O W hO hOlev

end Cert.KernelIdeal.Hist

end
-- ==== Proof.HistSteps.lean ====
/-
  What one vector subcore's task computes, as pure terms of the edge list: the stores each loop's trip makes, iterated over
  the trips, and what each local copy lands. The counters of a tile are zeroed, then take one count per entry of the
  tile's columns of the edge list (both rows; sixteen entries at a time, an entry's node naming the counter); a
  SparseCore's sixteen rows of counters, laid in its shared scratch, are added up in 640-column strips, one strip a tile.
-/
import proofs.«210354_g33337536152245_cont_8to1_b_1126_28_alg».proof.Proof.HistSetup

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

abbrev thrV (d : Dev nD) (L : grid0.Coords) : Thread nD τ := V d (cV L) (jV L)

abbrev HistBuf : Type := Buf (Elt F) ((thrV d L).loc cc0_scratch2)
abbrev IdxBuf : Type := Buf (Elt F) ((thrV d L).loc cc0_scratch0)
abbrev ExtBuf : Type := Buf (Elt F) ((thrV d L).loc cc0_scratch1)
abbrev AccBuf : Type := Buf (Elt F) ((thrV d L).loc cc0_scratch3)
abbrev BufBuf : Type := Buf (Elt F) ((thrV d L).loc cc0_scratch4)
abbrev EiBuf : Type := Buf (Elt F) (eiLoc d)
abbrev ShBuf : Type := Buf (Elt F) (shLoc d (cV L))
abbrev TBuf : Type := Buf (Elt F) (tLoc d)

/-- A trip-indexed step function iterated over the first `k` trips. -/
def iter {n : Nat} {α : Type} (step : Fin n → α → α) : Nat → α → α
  | 0, a => a
  | k + 1, a => if h : k < n then step ⟨k, h⟩ (iter step k a) else iter step k a

theorem iter_succ {n : Nat} {α : Type} (step : Fin n → α → α) (k : Fin n) (a : α) : iter step (k.val + 1) a = step k (iter step k.val a) := by
  show (if h : k.val < n then step ⟨k.val, h⟩ (iter step k.val a) else iter step k.val a) = _
  rw [dif_pos k.isLt]

/-- The float zero the kernel splats. -/
abbrev zeroF : F .f32 := Scalar.ofBits .f32 0x00000000#32

/-- The index words a tile reads name nodes: at most 9999. -/
def NodeWords {S : Shape} (g : S.Idx → BitVec 32) : Prop := ∀ i, (g i).toNat ≤ 9999

/-! ## The counters -/

/-- Trip `k` of the zero-fill: sixteen counters set to zero. -/
def zstep (k : Fin k0_t1_loop.trips) (f : HistBuf (F := F) d L) : HistBuf (F := F) d L :=
  (histV).view.writes (Elt F) f [⟨Rect.unit (s := S10240) (k0_off3 k) S16.size (k0_off3_inb k), k0_pay3⟩]

/-- The sixteen node numbers trip `k` of the first counting loop reads: row 0 of the tile's block of the edge list. -/
def lanes0 (g : IdxBuf (F := F) d L) (k : Fin k0_t2_loop.trips) : IVec S16 32 :=
  shapeCast S16 (View.readAt (Elt F) (idxV).view (Rect.unit (s := S2x4992) (k0_off4 k) S1x16.size (k0_off4_inb k)).toLoadRect g) shapeCasts_S1x16_S16
/-- and of the second: row 1. -/
def lanes1 (g : IdxBuf (F := F) d L) (k : Fin k0_t3_loop.trips) : IVec S16 32 :=
  shapeCast S16 (View.readAt (Elt F) (idxV).view (Rect.unit (s := S2x4992) (k0_off5 k) S1x16.size (k0_off5_inb k)).toLoadRect g) shapeCasts_S1x16_S16

/-- Sixteen node numbers counted: each names a counter, which goes up by one (by as many as name it). -/
def bump (v : IVec S16 32) (f : HistBuf (F := F) d L) : HistBuf (F := F) d L :=
  if h : k0_chk1 v then
    ((histV).access (.whole S10240)).write (Elt F) f
      (storeIdx (((histV).access (.whole S10240)).read (Elt F) f) ![v] (k0_pay2 (F := F)) (fun _ => 1#1) true (k0_idx1_inb v h)) Finset.univ
  else f

section Tail
variable (h2 : k0_cond2 L = 1#1)
/-- The 128 columns the first two tiles read from the tail of the edge list: row 0, -/
def lanesE0 (g : ExtBuf (F := F) d L) (k : Fin k0_t4_loop.trips) : IVec S16 32 :=
  shapeCast S16 (View.readAt (Elt F) (extV).view (Rect.unit (s := S2x128) (k0_off6 k) S1x16.size (k0_off6_inb L k h2)).toLoadRect g) shapeCasts_S1x16_S16
/-- row 1. -/
def lanesE1 (g : ExtBuf (F := F) d L) (k : Fin k0_t5_loop.trips) : IVec S16 32 :=
  shapeCast S16 (View.readAt (Elt F) (extV).view (Rect.unit (s := S2x128) (k0_off7 k) S1x16.size (k0_off7_inb L k h2)).toLoadRect g) shapeCasts_S1x16_S16
end Tail

/-! ## What the local copies land -/

/-- The tile's 4992 columns of the edge list, as the copy lands them over whatever the scratch held. -/
def idxAfter (e : EiBuf (F := F) d) (old : IdxBuf (F := F) d L) : IdxBuf (F := F) d L :=
  View.write (Elt F) (idxV).view old
    (ReadAs.same.apply (View.read (Elt F) ((eiV).slice (Rect.unit (s := S2x160000) (k0_off1 L) S2x4992.size (k0_off1_inb L)) (fun _ => rfl)).view e)) Finset.univ
/-- The 128 columns of the tail, for the first two tiles. -/
def extAfter (h1 : k0_cond1 L = 1#1) (e : EiBuf (F := F) d) (old : ExtBuf (F := F) d L) : ExtBuf (F := F) d L :=
  View.write (Elt F) (extV).view old
    (ReadAs.same.apply (View.read (Elt F) ((eiV).slice (Rect.unit (s := S2x160000) (k0_off2 L) S2x128.size (k0_off2_inb L h1)) (fun _ => rfl)).view e)) Finset.univ
/-- The tile's counters copied into its row of the shared scratch. -/
def rowAfter (H : HistBuf (F := F) d L) (old : ShBuf (F := F) d L) : ShBuf (F := F) d L :=
  (shRowK L).view.writes (Elt F) old [⟨Rect.whole S10240, ReadAs.same.apply (View.read (Elt F) (histV).view H)⟩]
/-- The 640 columns of row `t` of the shared scratch copied into the tile's staging scratch. -/
def blkAfter (SHc : ShBuf (F := F) d L) (t : Fin k0_t7_loop.trips) (old : BufBuf (F := F) d L) : BufBuf (F := F) d L :=
  View.write (Elt F) (bufV).view old (ReadAs.same.apply (View.read (Elt F) (shBlkK L t).view SHc)) Finset.univ
/-- The tile's 640 sums copied out to its columns of row 0 of its SparseCore's plane of the output. -/
def outAfter (A : AccBuf (F := F) d L) (old : TBuf (F := F) d) : TBuf (F := F) d :=
  (tOutK L).view.writes (Elt F) old [⟨Rect.whole S640, ReadAs.same.apply (View.read (Elt F) (accV).view A)⟩]

/-! ## The sums -/

/-- Trip `k` of the accumulator's zero-fill. -/
def zstepA (z : FVec F S16 .f32) (k : Fin k0_t6_loop.trips) (f : AccBuf (F := F) d L) : AccBuf (F := F) d L :=
  (accV).view.writes (Elt F) f [⟨Rect.unit (s := S640) (k0_off9 k) S16.size (k0_off9_inb k), z⟩]

/-- Trip `k` of the inner add: sixteen sums take sixteen more terms. -/
def astep (b : BufBuf (F := F) d L) (k : Fin k0_t8_loop.trips) (a : AccBuf (F := F) d L) : AccBuf (F := F) d L :=
  (accV).view.writes (Elt F) a [⟨Rect.unit (s := S640) (k0_off11 k) S16.size (k0_off11_inb k),
    k0_pay1 (View.readAt (Elt F) (accV).view (Rect.unit (s := S640) (k0_off11 k) S16.size (k0_off11_inb k)).toLoadRect a)
      (View.readAt (Elt F) (bufV).view (Rect.unit (s := S640) (k0_off11 k) S16.size (k0_off11_inb k)).toLoadRect b)⟩]

/-! ## The task's values as closed terms of the edge list -/

/-- Contents that stand for "whatever was there": every closed term below is independent of them. -/
abbrev junkI : IdxBuf (F := F) d L := fun _ => (0#32 : BitVec 32)
abbrev junkE : ExtBuf (F := F) d L := fun _ => (0#32 : BitVec 32)
abbrev junkH : HistBuf (F := F) d L := fun _ => zeroF
abbrev junkA : AccBuf (F := F) d L := fun _ => zeroF
abbrev junkB : BufBuf (F := F) d L := fun _ => zeroF

/-- The tile's counters after its 2·4992 entries: -/
def histMain (e : EiBuf (F := F) d) : HistBuf (F := F) d L :=
  iter (fun k => bump (F := F) d L (lanes1 d L (idxAfter d L e (junkI d L)) k)) k0_t3_loop.trips
    (iter (fun k => bump (F := F) d L (lanes0 d L (idxAfter d L e (junkI d L)) k)) k0_t2_loop.trips
      (iter (zstep (F := F) d L) k0_t1_loop.trips (junkH d L)))
/-- and, for the first two tiles, after the 2·128 entries of the tail. -/
def histTail (h1 : k0_cond1 L = 1#1) (h2 : k0_cond2 L = 1#1) (e : EiBuf (F := F) d) : HistBuf (F := F) d L :=
  iter (fun k => bump (F := F) d L (lanesE1 d L h2 (extAfter d L h1 e (junkE d L)) k)) k0_t5_loop.trips
    (iter (fun k => bump (F := F) d L (lanesE0 d L h2 (extAfter d L h1 e (junkE d L)) k)) k0_t4_loop.trips (histMain (F := F) d L e))
/-- The tile's counters when it copies them out. -/
def histFinal (e : EiBuf (F := F) d) : HistBuf (F := F) d L :=
  if h : k0_cond1 L = 1#1 ∧ k0_cond2 L = 1#1 then histTail (F := F) d L h.1 h.2 e else histMain (F := F) d L e

/-- The sum over the rows before `t`, taking row `t`'s strip in. -/
def cstep (SHc : ShBuf (F := F) d L) (t : Fin k0_t7_loop.trips) (a : AccBuf (F := F) d L) : AccBuf (F := F) d L :=
  iter (astep (F := F) d L (blkAfter d L SHc t (junkB d L))) k0_t8_loop.trips a
/-- The tile's 640 sums over its SparseCore's sixteen rows. -/
def accFinal (SHc : ShBuf (F := F) d L) : AccBuf (F := F) d L :=
  iter (cstep (F := F) d L SHc) k0_t7_loop.trips (iter (zstepA (F := F) d L (k0_pay3 (F := F))) k0_t6_loop.trips (junkA d L))

/-! ## What the launch's payload record is taken at -/

variable (m : (ℓ : Loc nD τ sig) → Buf (Elt F) ℓ)

/-- The contents every row of SparseCore `c`'s shared scratch ends at: row `s` is tile `(c, s)`'s counters. -/
def SHv (d : Dev nD) (c : Fin τ.nSC) : Buf (Elt F) (shLoc d c) :=
  fun j => if hc : c.val < grid0.bound 0 then
      histFinal (F := F) d (coordsV ⟨c.val, hc⟩ ⟨(j 0).val, (j 0).isLt⟩) (m (eiLoc d)) (ValueIdx.ix1 ⟨(j 1).val, (j 1).isLt⟩)
    else zeroF

/-- SparseCore `c`'s count of node `n`: the sum over its sixteen tiles' counters, as the tile that owns column `n` adds them up. -/
def CHv (d : Dev nD) (c : Fin 2) (n : Fin 10240) : Elt F .f32 :=
  accFinal (F := F) d (coordsV c ⟨n.val / 640, by have := n.isLt; show n.val / 640 < 16; omega⟩)
    (SHv (F := F) m d (cV (coordsV c ⟨n.val / 640, by have := n.isLt; show n.val / 640 < 16; omega⟩)))
    (ValueIdx.ix1 ⟨n.val % 640, Nat.mod_lt _ (by decide)⟩)

end Cert.KernelIdeal.Hist

end
-- ==== Proof.HistPre.lean ====
/-
  What the precondition gives. The printed predicate is a conjunction of ten `all`s: of each of the nine float arguments,
  that every entry's absolute value is below +∞; of the edge list, that every word, read signed, lies in [0, 9999]. At any
  float instance the last says every word of the edge list is at most 9999 read unsigned; at the extended reals the first
  nine say every entry of the float arguments is a real number.
-/
import proofs.«210354_g33337536152245_cont_8to1_b_1126_28_alg».proof.Proof.HistSteps
import proofs.«210354_g33337536152245_cont_8to1_b_1126_28_alg».proof.Defs
import Idealize.ShloMosaic.Lib.ReduceAll
import Idealize.ShloMosaic.Lib.ValueIdx

noncomputable section

namespace Cert.KernelIdeal.Hist

open Idealize.ShloMosaic
open Cert.Pre_input_domain (fn fn_part1 fn_part2)

/-- The scalar shape has one index. -/
instance subsingleton_scalarIdx : Subsingleton Cert.Pre_input_domain.S_.Idx := ⟨fun a b => funext fun d => d.elim0⟩

section Generic

variable {F : FTy → Type} [FloatOps F] [Cert.Pre_input_domain.Facts]

variable (x0 : FVec F Cert.Pre_input_domain.S4x128 .f32) (x1 : IVec Cert.Pre_input_domain.S2x160000 32) (x2 x3 : FVec F Cert.Pre_input_domain.S128x64 .f32) (x4 : FVec F Cert.Pre_input_domain.S64 .f32)
  (x5 x6 : FVec F Cert.Pre_input_domain.S64x64 .f32) (x7 : FVec F Cert.Pre_input_domain.S64 .f32) (x8 : FVec F Cert.Pre_input_domain.S64x2 .f32) (x9 : FVec F Cert.Pre_input_domain.S2 .f32)

/-- The predicate all ones is each of its ten `all`s at every index: nine comparisons of an absolute value with +∞, and the
    two signed comparisons of the edge list's words. -/
theorem pre_split (h : fn (F := F) x0 x1 x2 x3 x4 x5 x6 x7 x8 x9 = fun _ => 1#1) :
    (∀ i, cmpf .olt (Host.absf x0) (broadcastInDim Cert.Pre_input_domain.S4x128 ![] Cert.Pre_input_domain.Facts.bcast_S_S4x128 (constant Cert.Pre_input_domain.S_ .f32 0x7F800000#32)) i = 1#1)
    ∧ (∀ i, cmpf .olt (Host.absf x2) (broadcastInDim Cert.Pre_input_domain.S128x64 ![] Cert.Pre_input_domain.Facts.bcast_S_S128x64 (constant Cert.Pre_input_domain.S_ .f32 0x7F800000#32)) i = 1#1)
    ∧ (∀ i, cmpf .olt (Host.absf x3) (broadcastInDim Cert.Pre_input_domain.S128x64 ![] Cert.Pre_input_domain.Facts.bcast_S_S128x64 (constant Cert.Pre_input_domain.S_ .f32 0x7F800000#32)) i = 1#1)
    ∧ (∀ i, cmpf .olt (Host.absf x4) (broadcastInDim Cert.Pre_input_domain.S64 ![] Cert.Pre_input_domain.Facts.bcast_S_S64 (constant Cert.Pre_input_domain.S_ .f32 0x7F800000#32)) i = 1#1)
    ∧ (∀ i, cmpf .olt (Host.absf x5) (broadcastInDim Cert.Pre_input_domain.S64x64 ![] Cert.Pre_input_domain.Facts.bcast_S_S64x64 (constant Cert.Pre_input_domain.S_ .f32 0x7F800000#32)) i = 1#1)
    ∧ (∀ i, cmpf .olt (Host.absf x6) (broadcastInDim Cert.Pre_input_domain.S64x64 ![] Cert.Pre_input_domain.Facts.bcast_S_S64x64 (constant Cert.Pre_input_domain.S_ .f32 0x7F800000#32)) i = 1#1)
    ∧ (∀ i, cmpf .olt (Host.absf x7) (broadcastInDim Cert.Pre_input_domain.S64 ![] Cert.Pre_input_domain.Facts.bcast_S_S64 (constant Cert.Pre_input_domain.S_ .f32 0x7F800000#32)) i = 1#1)
    ∧ (∀ i, cmpf .olt (Host.absf x8) (broadcastInDim Cert.Pre_input_domain.S64x2 ![] Cert.Pre_input_domain.Facts.bcast_S_S64x2 (constant Cert.Pre_input_domain.S_ .f32 0x7F800000#32)) i = 1#1)
    ∧ (∀ i, cmpf .olt (Host.absf x9) (broadcastInDim Cert.Pre_input_domain.S2 ![] Cert.Pre_input_domain.Facts.bcast_S_S2 (constant Cert.Pre_input_domain.S_ .f32 0x7F800000#32)) i = 1#1)
    ∧ (∀ i, andi (cmpi .sge x1 (broadcastInDim Cert.Pre_input_domain.S2x160000 ![] Cert.Pre_input_domain.Facts.bcast_S_S2x160000 (constantI Cert.Pre_input_domain.S_ 32 0#32)))
        (cmpi .sle x1 (broadcastInDim Cert.Pre_input_domain.S2x160000 ![] Cert.Pre_input_domain.Facts.bcast_S_S2x160000 (constantI Cert.Pre_input_domain.S_ 32 9999#32))) i = 1#1) := by
  have h0 := congrFun h ValueIdx.ix0
  dsimp only [fn, fn_part1, fn_part2] at h0
  obtain ⟨h0, hI⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨Host.reduce_andi_all _ _ _ _ _ h0, Host.reduce_andi_all _ _ _ _ _ h2, Host.reduce_andi_all _ _ _ _ _ h3, Host.reduce_andi_all _ _ _ _ _ h4,
    Host.reduce_andi_all _ _ _ _ _ h5, Host.reduce_andi_all _ _ _ _ _ h6, Host.reduce_andi_all _ _ _ _ _ h7, Host.reduce_andi_all _ _ _ _ _ h8,
    Host.reduce_andi_all _ _ _ _ _ h9, Host.reduce_andi_all _ _ _ _ _ hI⟩

/-- A word that reads signed in [0, 9999] is at most 9999 read unsigned. -/
theorem toNat_le_of_signed (w : BitVec 32) (h : IntOp.andi (IntOp.cmpi .sge w 0#32) (IntOp.cmpi .sle w 9999#32) = 1#1) : w.toNat ≤ 9999 := by
  obtain ⟨hge, hle⟩ := IntOp.andi_eq_one.1 h
  have h1 := IntOp.cmpi_sge.1 hge
  have h2 := IntOp.cmpi_sle.1 hle
  rw [show (0#32 : BitVec 32).toInt = 0 from by decide] at h1
  rw [show (9999#32 : BitVec 32).toInt = 9999 from by decide] at h2
  have hc := BitVec.toInt_eq_toNat_cond w
  have hlt := w.isLt
  split at hc <;> omega

/-- Under the predicate every word of the edge list names a node: at most 9999. -/
theorem nodeWords_of_pre (h : fn (F := F) x0 x1 x2 x3 x4 x5 x6 x7 x8 x9 = fun _ => 1#1) : NodeWords x1 := by
  obtain ⟨-, -, -, -, -, -, -, -, -, hI⟩ := pre_split x0 x1 x2 x3 x4 x5 x6 x7 x8 x9 h
  intro i
  exact toNat_le_of_signed (x1 i) (hI i)

end Generic

/-! ## At the extended reals -/

section AtIdeal

variable [Cert.Pre_input_domain.Facts]

/-- An extended real whose absolute value is below the f32 pattern of +∞ is a real number. -/
theorem real_of_abs_lt (e : EReal) (h : Ideal.cmp .olt (max e (-e)) (Ideal.ofBits .f32 0x7F800000#32) = 1#1) : ∃ r : ℝ, e = (r : EReal) := by
  have hinf : Ideal.ofBits .f32 0x7F800000#32 = (⊤ : EReal) := by simp [Ideal.ofBits, Ideal.ieee]
  rw [hinf] at h
  induction e using EReal.rec with
  | bot => simp [Ideal.cmp] at h
  | coe r => exact ⟨r, rfl⟩
  | top => simp [Ideal.cmp] at h

variable (x0 : FVec Ideal Cert.Pre_input_domain.S4x128 .f32) (x1 : IVec Cert.Pre_input_domain.S2x160000 32) (x2 x3 : FVec Ideal Cert.Pre_input_domain.S128x64 .f32) (x4 : FVec Ideal Cert.Pre_input_domain.S64 .f32)
  (x5 x6 : FVec Ideal Cert.Pre_input_domain.S64x64 .f32) (x7 : FVec Ideal Cert.Pre_input_domain.S64 .f32) (x8 : FVec Ideal Cert.Pre_input_domain.S64x2 .f32) (x9 : FVec Ideal Cert.Pre_input_domain.S2 .f32)

/-- Under the predicate, at the extended reals, every entry of the nine float arguments is a real number. -/
theorem reals_of_pre (h : fn (F := Ideal) x0 x1 x2 x3 x4 x5 x6 x7 x8 x9 = fun _ => 1#1) :
    (∀ i, ∃ r : ℝ, x0 i = (r : EReal)) ∧ (∀ i, ∃ r : ℝ, x2 i = (r : EReal)) ∧ (∀ i, ∃ r : ℝ, x3 i = (r : EReal)) ∧ (∀ i, ∃ r : ℝ, x4 i = (r : EReal))
    ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal))
    ∧ (∀ i, ∃ r : ℝ, x9 i = (r : EReal)) := by
  obtain ⟨h0, h2, h3, h4, h5, h6, h7, h8, h9, -⟩ := pre_split x0 x1 x2 x3 x4 x5 x6 x7 x8 x9 h
  exact ⟨fun i => real_of_abs_lt (x0 i) (h0 i), fun i => real_of_abs_lt (x2 i) (h2 i), fun i => real_of_abs_lt (x3 i) (h3 i), fun i => real_of_abs_lt (x4 i) (h4 i),
    fun i => real_of_abs_lt (x5 i) (h5 i), fun i => real_of_abs_lt (x6 i) (h6 i), fun i => real_of_abs_lt (x7 i) (h7 i), fun i => real_of_abs_lt (x8 i) (h8 i),
    fun i => real_of_abs_lt (x9 i) (h9 i)⟩

/-! ## In the claims' own spelling -/

open Cert.KernelIdeal in
/-- Under the precondition every device's edge list names nodes, -/
theorem nodeWords_of_Pre (m : (ℓ : Loc nD τ sig) → Buf (Elt Ideal) ℓ) (h : Cert.Pre_KernelIdeal m) (d : Dev nD) :
    NodeWords (m ((SparseCore.T d).loc main_arg1)) :=
  nodeWords_of_pre _ _ _ _ _ _ _ _ _ _ (h d)

open Cert.KernelIdeal in
/-- and every entry of every device's nine float arguments is a real number. -/
theorem reals_of_Pre (m : (ℓ : Loc nD τ sig) → Buf (Elt Ideal) ℓ) (h : Cert.Pre_KernelIdeal m) (d : Dev nD) :
    (∀ i, ∃ r : ℝ, m ((SparseCore.T d).loc main_arg0) i = (r : EReal)) ∧ (∀ i, ∃ r : ℝ, m ((SparseCore.T d).loc main_arg2) i = (r : EReal))
    ∧ (∀ i, ∃ r : ℝ, m ((SparseCore.T d).loc main_arg3) i = (r : EReal)) ∧ (∀ i, ∃ r : ℝ, m ((SparseCore.T d).loc main_arg4) i = (r : EReal))
    ∧ (∀ i, ∃ r : ℝ, m ((SparseCore.T d).loc main_arg5) i = (r : EReal)) ∧ (∀ i, ∃ r : ℝ, m ((SparseCore.T d).loc main_arg6) i = (r : EReal))
    ∧ (∀ i, ∃ r : ℝ, m ((SparseCore.T d).loc main_arg7) i = (r : EReal)) ∧ (∀ i, ∃ r : ℝ, m ((SparseCore.T d).loc main_arg8) i = (r : EReal))
    ∧ (∀ i, ∃ r : ℝ, m ((SparseCore.T d).loc main_arg9) i = (r : EReal)) :=
  reals_of_pre _ _ _ _ _ _ _ _ _ _ (h d)

end AtIdeal

end Cert.KernelIdeal.Hist

end
-- ==== Proof.HeadValue.lean ====
/-
  The one value the head's body stores, as a term of its eleven loads: the stored payload applied to the payloads of the
  values it reads, in the order the body binds them.
-/
import proofs.«210354_g33337536152245_cont_8to1_b_1126_28_alg».proof.Proof.Gen.KernelIdeal.Skeleton

noncomputable section

namespace Cert.KernelIdeal.HeadValue

open Cert.KernelIdeal Cert.KernelIdeal.Gen Idealize.ShloMosaic

/-- The stored `[4, 2]` value over the loads: the feature rows `v0`, the second layer's root weights `v1`, the two bias
    rows `v2`, `v5`, the first layer's weights `v8`, `v11`, the second layer's neighbour weights `v18`, the two count
    rows `v20`, `v22`, and the read-out's weights `v86` and bias row `v88`. -/
def headOut (v0 : Vec Ideal S4x128 .f32) (v1 : Vec Ideal S64x64 .f32) (v2 v5 : Vec Ideal S1x64 .f32)
    (v8 v11 : Vec Ideal S128x64 .f32) (v18 : Vec Ideal S64x64 .f32) (v20 v22 : Vec Ideal S1x1x10240 .f32)
    (v86 : Vec Ideal S64x2 .f32) (v88 : Vec Ideal S1x2 .f32) : FVec Ideal S4x2 .f32 :=
  k1_pay1 (k1_pay10 v1 (k1_pay2 v5) (k1_pay3 v0 v8) (k1_pay4 v0 v2 v11) (k1_pay6 v0 v2 v11 v18) (k1_pay7 v20 v22)
      (k1_pay8 (F := Ideal)) (k1_pay9 v0 v8 v20 v22))
    (k1_pay11 v1 (k1_pay2 v5) (k1_pay5 v0 v2 v11)) (Scalar.ofBits .f32 0x00000000#32) v86 v88

end Cert.KernelIdeal.HeadValue

end
-- ==== Proof.GraphHead.lean ====
/-
  What both programs compute, on the extended reals.

  A batch of four feature rows `x b` is laid over four copies of one graph on 10000 nodes whose edge list is read
  through a re-laying that sends every edge's source to copy 0 or 1 and its target to copy 2 or 3.  A sum
  aggregation over such edges gives node `n` of copy 2 (of copy 3) the row of copy 0 (of copy 1) taken
  `t n` times, where `t n` counts how often `n` occurs among the 2·160000 entries of the edge list, and gives
  the nodes of copies 0 and 1 nothing.  Two graph-convolution layers `max (agg·W_rel + b + h·W_root) 0` followed by
  the mean over a copy's nodes and a dense read-out are therefore, entry by entry, the closed form below: for copies
  0 and 1 every node carries the same row, so the mean is that row; for copies 2 and 3 the mean is the sum over the
  nodes times 1/10000, written over 10240 columns with the columns from 10000 on masked off.

  The count is also stated per vector subcore (each of 32 reads 4992 columns of both rows of the list, the first two
  128 more from the tail) and per SparseCore (sixteen subcores each); the two SparseCores' counts add up to `t`.
-/
import Idealize.ShloMosaic.PureOps.Ideal
import Idealize.ShloMosaic.Lib.ValueIdx

noncomputable section

open scoped BigOperators

namespace Cert.GraphHead

open Idealize.ShloMosaic Idealize.ShloMosaic.ValueIdx

/-- A matrix of extended reals over a literal shape. -/
abbrev Mat (a b : Nat) : Type := (⟨2, ![a, b]⟩ : Shape).Idx → EReal

/-- The edge list: two rows of 160000 node numbers, as 32-bit words. -/
abbrev EdgeList : Type := (⟨2, ![2, 160000]⟩ : Shape).Idx → BitVec 32

/-! ## Counting occurrences of a node in the edge list -/

/-- How many of the 2·160000 entries of the edge list name node `n`. -/
def degree (ei : EdgeList) (n : Fin 10240) : ℕ :=
  ((Finset.univ : Finset (Fin 2 × Fin 160000)).filter fun re => (ei (ix2 re.1 re.2)).toNat = n.val).card

/-- The columns of the edge list that vector subcore `w` (of 32, numbered core-major) reads: 4992 consecutive ones, and for
    the first two subcores 128 more from the tail that 32·4992 leaves over. -/
def tileCols (w : Fin 32) : Finset (Fin 160000) :=
  Finset.univ.filter fun e => (w.val * 4992 ≤ e.val ∧ e.val < (w.val + 1) * 4992)
    ∨ (w.val < 2 ∧ 159744 + w.val * 128 ≤ e.val ∧ e.val < 159744 + (w.val + 1) * 128)

/-- How many entries in subcore `w`'s columns (both rows) name node `n`. -/
def tileCount (ei : EdgeList) (w : Fin 32) (n : Fin 10240) : ℕ :=
  (((Finset.univ : Finset (Fin 2)) ×ˢ tileCols w).filter fun re => (ei (ix2 re.1 re.2)).toNat = n.val).card

/-- Subcore `s` of SparseCore `c`, numbered core-major. -/
def tileOf (c : Fin 2) (s : Fin 16) : Fin 32 := ⟨c.val * 16 + s.val, by have := c.isLt; have := s.isLt; omega⟩

/-- How many entries in SparseCore `c`'s sixteen subcores' columns name node `n`. -/
def coreCount (ei : EdgeList) (c : Fin 2) (n : Fin 10240) : ℕ := ∑ s : Fin 16, tileCount ei (tileOf c s) n

/-! ## The closed form -/

section
variable (x : Mat 4 128) (t : Fin 10240 → EReal) (W1r W1o : Mat 128 64) (b1 : Fin 64 → EReal) (W2r W2o : Mat 64 64) (b2 : Fin 64 → EReal)
  (Wc : Mat 64 2) (bc : Fin 2 → EReal)

/-- Row `b` through the first layer's neighbour weights, at output channel `j`. -/
def relProj (j : Fin 64) (b : Fin 4) : EReal := ∑ k : Fin 128, W1r (ix2 k j) * x (ix2 b k)
/-- Row `b` through the first layer's root weights plus the bias. -/
def rootPre (j : Fin 64) (b : Fin 4) : EReal := b1 j + ∑ k : Fin 128, W1o (ix2 k j) * x (ix2 b k)
/-- The first layer's output on a node that receives no edge. -/
def rootAct (j : Fin 64) (b : Fin 4) : EReal := max (rootPre x W1o b1 j b) 0
/-- That output through the second layer's neighbour weights. -/
def relProj2 (j : Fin 64) (b : Fin 4) : EReal := ∑ k : Fin 64, W2r (ix2 k j) * rootAct x W1o b1 k b
/-- The first layer's output on node `n` of copy `own`, whose `t n` incoming edges all come from copy `src`. -/
def hidden1 (src own : Fin 4) (j : Fin 64) (n : Fin 10240) : EReal :=
  max (relProj x W1r j src * t n + rootPre x W1o b1 j own) 0
/-- The second layer's output on that node. -/
def hidden2 (src own : Fin 4) (j : Fin 64) (n : Fin 10240) : EReal :=
  max (relProj2 x W1o b1 W2r j src * t n + b2 j + ∑ k : Fin 64, W2o (ix2 k j) * hidden1 x t W1r W1o b1 src own k n) 0
/-- One on the 10000 nodes, zero on the 240 columns of padding. -/
def nodeMask (n : Fin 10240) : EReal := if n.val < 10000 then 1 else 0
/-- The mean over the nodes of a copy that receives edges. -/
def pooledFar (src own : Fin 4) (j : Fin 64) : EReal :=
  (∑ n : Fin 10240, hidden2 x t W1r W1o b1 W2r W2o b2 src own j n * nodeMask n) * ((1 / 10000 : ℝ) : EReal)
/-- The mean over the nodes of a copy that receives none: every node carries this row. -/
def pooledNear (j : Fin 64) (b : Fin 4) : EReal := max (b2 j + ∑ k : Fin 64, W2o (ix2 k j) * rootAct x W1o b1 k b) 0
/-- The pooled feature `j` of copy `b`: copies 2 and 3 receive their edges from copies 0 and 1. -/
def pooled (j : Fin 64) (b : Fin 4) : EReal :=
  if b.val < 2 then pooledNear x W1o b1 W2o b2 j b
  else pooledFar x t W1r W1o b1 W2r W2o b2 (if b.val = 2 then 0 else 1) b j
/-- The read-out. -/
def out (b : Fin 4) (o : Fin 2) : EReal :=
  (∑ j : Fin 64, pooled x t W1r W1o b1 W2r W2o b2 j b * Wc (ix2 j o)) + bc o

end

end Cert.GraphHead

end
-- ==== Proof.LibColumnOps.lean ====
/-
  Layout operations and contractions read at an index given by coordinates, in the forms a kernel that keeps its
  matrices feature-major meets: a column [a,1] broadcast along rows to [a,b]; a vector [a] cast to a column [a,1];
  two matrices joined along their columns; a lane sum of a matrix [a,b] into a vector [a]; and a matrix product that
  contracts the FIRST axis of both operands (the left operand transposed), into a zero accumulator, read as the sum
  over the contracted coordinate.
-/
import Idealize.ShloMosaic.PureOps.Ideal.Laws
import Idealize.ShloMosaic.Lib.ValueLayout
import Idealize.ShloMosaic.Lib.ValueIdx

noncomputable section

open scoped BigOperators

namespace Cert.ColumnOps

open Idealize.ShloMosaic Idealize.ShloMosaic.ValueIdx

variable {α : Type}

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two matrices joined along their columns read, at a column of the first, the first there. -/
theorem concat_cols_left {n m₁ m₂ m : ℕ} (x₁ : (⟨2, ![n, m₁]⟩ : Shape).Idx → α) (x₂ : (⟨2, ![n, m₂]⟩ : Shape).Idx → α)
    (h : Shape.Concatenates [⟨2, ![n, m₁]⟩, ⟨2, ![n, m₂]⟩] ⟨2, ![n, m]⟩ 1) (p : Fin n) (c : Fin m) (c' : Fin m₁)
    (hc : c'.val = c.val) :
    concatenate ⟨2, ![n, m]⟩ 1 [⟨⟨2, ![n, m₁]⟩, x₁⟩, ⟨⟨2, ![n, m₂]⟩, x₂⟩] h (ix2 p c) = x₁ (ix2 p c') :=
  concatenate_pair_apply_left 1 x₁ x₂ h (ix2 p c) rfl (ix2 p c') fun b => by
    match b with
    | ⟨0, _⟩ => rfl
    | ⟨1, _⟩ => exact hc

/-- Two matrices joined along their columns read, at a column past the first, the second at that column less the
    first's width. -/
theorem concat_cols_right {n m₁ m₂ m : ℕ} (x₁ : (⟨2, ![n, m₁]⟩ : Shape).Idx → α) (x₂ : (⟨2, ![n, m₂]⟩ : Shape).Idx → α)
    (h : Shape.Concatenates [⟨2, ![n, m₁]⟩, ⟨2, ![n, m₂]⟩] ⟨2, ![n, m]⟩ 1) (p : Fin n) (c : Fin m) (c' : Fin m₂)
    (hc : c'.val + m₁ = c.val) :
    concatenate ⟨2, ![n, m]⟩ 1 [⟨⟨2, ![n, m₁]⟩, x₁⟩, ⟨⟨2, ![n, m₂]⟩, x₂⟩] h (ix2 p c) = x₂ (ix2 p c') :=
  concatenate_pair_apply_right 1 x₁ x₂ h (ix2 p c) rfl rfl (ix2 p c')
    (fun b hb => by
      match b with
      | ⟨0, _⟩ => rfl
      | ⟨1, _⟩ => exact absurd rfl hb)
    hc

/-- The lane sum of a matrix `[a, b]` over its columns, at row `j`, is the sum over the columns of that row. -/
theorem sum_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (j : Fin a) :
    multiReduction .add [1] ⟨1, ![a]⟩ src 0x00000000#32 h hφ hacc (ix1 j) = ∑ n : Fin b, src (ix2 j n) := by
  refine (Ideal.multiReduction_add_single src 0x00000000#32 h hφ hacc (ix1 j)).trans ?_
  refine Finset.sum_congr rfl fun n _ => congrArg src ?_
  funext c
  match c with
  | ⟨0, _⟩ => exact Fin.ext rfl
  | ⟨1, _⟩ => exact Fin.ext rfl

/-- The dimension numbers of a product that contracts the first axis of both operands: `[K, M]` by `[K, N]` into `[M, N]`. -/
abbrev dotT (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Such a product into a zero accumulator, at `(m, n)`, is the sum over `k` of the left operand at `(k, m)` times the
    right operand at `(k, n)`. -/
theorem matmulT_zero_apply {K M N : ℕ} (wf : DotDims.WF ⟨2, ![K, M]⟩ ⟨2, ![K, N]⟩ ⟨2, ![M, N]⟩ [0] [0] [1] [1] [] [])
    (prec : Option ContractPrecision) (lhs : FVec Ideal ⟨2, ![K, M]⟩ .f32) (rhs : FVec Ideal ⟨2, ![K, N]⟩ .f32)
    (m : Fin M) (n : Fin N) :
    FloatOps.matmul (dotT K M N wf) prec lhs rhs (constant ⟨2, ![M, N]⟩ .f32 0x00000000#32) (ix2 m n)
      = ∑ k : Fin K, lhs (ix2 k m) * rhs (ix2 k n) := by
  rw [Ideal.matmul_constant_zero_apply, ← Equiv.sum_comp (contrEquiv1 (dotT K M N wf) K rfl rfl).symm]
  refine Finset.sum_congr rfl fun k _ => ?_
  have hk := contrEquiv1_symm_val (dotT K M N wf) K rfl rfl k
  have el : (dotT K M N wf).lhsIdx (ix2 m n) ((contrEquiv1 (dotT K M N wf) K rfl rfl).symm k) = ix2 k m :=
    funext fun a => Fin.ext (by
      match a with
      | ⟨0, _⟩ => exact ((dotT K M N wf).lhsIdx_val_of_single rfl _ _).trans hk
      | ⟨1, h1⟩ =>
        have hb : ¬((⟨1, h1⟩ : Fin (⟨2, ![K, M]⟩ : Shape).rank) ∈ (dotT K M N wf).lhsBatch) := List.not_mem_nil
        have hn : (⟨1, h1⟩ : Fin (⟨2, ![K, M]⟩ : Shape).rank) ∈ (dotT K M N wf).lhsNonContracting :=
          List.mem_singleton.mpr rfl
        unfold DotDims.lhsIdx
        rw [dif_neg hb, dif_pos hn]
        rfl)
  have er : (dotT K M N wf).rhsIdx (ix2 m n) ((contrEquiv1 (dotT K M N wf) K rfl rfl).symm k) = ix2 k n :=
    funext fun a => Fin.ext (by
      match a with
      | ⟨0, _⟩ => exact ((dotT K M N wf).rhsIdx_val_of_single rfl _ _).trans hk
      | ⟨1, h1⟩ =>
        have hb : ¬((⟨1, h1⟩ : Fin (⟨2, ![K, N]⟩ : Shape).rank) ∈ (dotT K M N wf).rhsBatch) := List.not_mem_nil
        have hn : (⟨1, h1⟩ : Fin (⟨2, ![K, N]⟩ : Shape).rank) ∈ (dotT K M N wf).rhsNonContracting :=
          List.mem_singleton.mpr rfl
        unfold DotDims.rhsIdx
        rw [dif_neg hb, dif_pos hn]
        rfl)
  rw [el, er]

end Cert.ColumnOps

end
-- ==== Proof.HeadDense.lean ====
/-
  The head's small payloads read at an index: the two projections of the feature rows through the first layer
  (neighbour weights; root weights plus bias), the rectified root term, its projection through the second layer's
  neighbour weights, the bias column, the summed count row and the node mask. Each is the closed form's term of the
  same name at that index.
-/
import proofs.«210354_g33337536152245_cont_8to1_b_1126_28_alg».proof.Proof.Gen.KernelIdeal.Skeleton
import proofs.«210354_g33337536152245_cont_8to1_b_1126_28_alg».proof.Proof.GraphHead
import proofs.«210354_g33337536152245_cont_8to1_b_1126_28_alg».proof.Proof.LibColumnOps

noncomputable section

open scoped BigOperators

namespace Cert.KernelIdeal.HeadValue

open Cert.KernelIdeal Cert.KernelIdeal.Gen Idealize.ShloMosaic Idealize.ShloMosaic.ValueIdx Cert.GraphHead Cert.ColumnOps

/-- The float zero the body compares against is the extended real `0`. -/
theorem scalar_zero : (Scalar.ofBits .f32 0x00000000#32 : Ideal .f32) = (0 : EReal) := Ideal.ofBits_zero_f32

/-- A bias row turned into a column reads, at row `j`, the row's entry `j`. -/
theorem k1_pay2_apply (v5 : Vec Ideal S1x64 .f32) (j : Fin 64) :
    k1_pay2 v5 (ix2 j (0 : Fin 1)) = v5 (ix2 (0 : Fin 1) j) := by
  unfold k1_pay2
  rw [transpose_ix2_apply, shapeCast_self]

/-- The feature rows through the first layer's neighbour weights: channel `j` of row `b`. -/
theorem k1_pay3_apply (v0 : Vec Ideal S4x128 .f32) (v8 : Vec Ideal S128x64 .f32) (j : Fin 64) (b : Fin 4) :
    k1_pay3 v0 v8 (ix2 j b) = relProj v0 v8 j b := by
  unfold k1_pay3 relProj
  refine (matmulT_zero_apply (K := 128) (M := 64) (N := 4) _ _ v8 _ j b).trans ?_
  exact Finset.sum_congr rfl fun k _ => by rw [transpose_ix2_apply]

/-- The feature rows through the first layer's root weights, plus the bias: channel `j` of row `b`. -/
theorem k1_pay4_apply (v0 : Vec Ideal S4x128 .f32) (v2 : Vec Ideal S1x64 .f32) (v11 : Vec Ideal S128x64 .f32)
    (j : Fin 64) (b : Fin 4) :
    k1_pay4 v0 v2 v11 (ix2 j b) = rootPre v0 v11 (fun j => v2 (ix2 (0 : Fin 1) j)) j b := by
  unfold k1_pay4 rootPre
  rw [addf_apply, broadcastTo_a1_ab_apply, transpose_ix2_apply, shapeCast_self]
  refine congrArg (v2 (ix2 (0 : Fin 1) j) + ·) ?_
  refine (matmulT_zero_apply (K := 128) (M := 64) (N := 4) _ _ v11 _ j b).trans ?_
  exact Finset.sum_congr rfl fun k _ => by rw [transpose_ix2_apply]

/-- That, rectified: the first layer's output on a node that receives no edge. -/
theorem k1_pay5_apply (v0 : Vec Ideal S4x128 .f32) (v2 : Vec Ideal S1x64 .f32) (v11 : Vec Ideal S128x64 .f32)
    (j : Fin 64) (b : Fin 4) :
    k1_pay5 v0 v2 v11 (ix2 j b) = rootAct v0 v11 (fun j => v2 (ix2 (0 : Fin 1) j)) j b := by
  unfold k1_pay5 rootAct
  rw [maximumf_apply, broadcast_apply, k1_pay4_apply, scalar_zero]

/-- The rectified root term through the second layer's neighbour weights. -/
theorem k1_pay6_apply (v0 : Vec Ideal S4x128 .f32) (v2 : Vec Ideal S1x64 .f32) (v11 : Vec Ideal S128x64 .f32)
    (v18 : Vec Ideal S64x64 .f32) (j : Fin 64) (b : Fin 4) :
    k1_pay6 v0 v2 v11 v18 (ix2 j b) = relProj2 v0 v11 (fun j => v2 (ix2 (0 : Fin 1) j)) v18 j b := by
  unfold k1_pay6 relProj2
  refine (matmulT_zero_apply (K := 64) (M := 64) (N := 4) _ _ v18 _ j b).trans ?_
  exact Finset.sum_congr rfl fun k _ => by rw [k1_pay5_apply]

/-- The two SparseCores' count rows, added. -/
theorem k1_pay7_apply (v20 v22 : Vec Ideal S1x1x10240 .f32) (n : Fin 10240) :
    k1_pay7 v20 v22 (ix2 (0 : Fin 1) n)
      = v20 (ix3 (0 : Fin 1) (0 : Fin 1) n) + v22 (ix3 (0 : Fin 1) (0 : Fin 1) n) := by
  unfold k1_pay7
  rw [addf_apply, shapeCast_1ab_ab_apply, shapeCast_1ab_ab_apply]

/-- A column number below 10240, as a 32-bit word, is itself as a signed integer. -/
theorem toInt_ofNat_small (n : ℕ) (hn : n < 10240) : (BitVec.ofNat 32 n).toInt = (n : ℤ) := by
  have h2 : (BitVec.ofNat 32 n).toNat = n := by
    rw [BitVec.toNat_ofNat]; exact Nat.mod_eq_of_lt (by omega)
  rw [BitVec.toInt_eq_toNat_of_lt (by rw [h2]; omega), h2]

/-- The signed comparison of such a word with 10000 is the comparison of the numbers. -/
theorem slt_small (n : ℕ) (hn : n < 10240) : (BitVec.ofNat 32 n).slt 10000#32 = decide (n < 10000) := by
  have h1 := toInt_ofNat_small n hn
  have h3 : (10000#32 : BitVec 32).toInt = 10000 := by decide
  unfold BitVec.slt
  rw [h1, h3]
  by_cases h : n < 10000
  · simp [h]
  · simp [h]

/-- The mask's element: the comparison bit, widened and converted, is one below 10000 and zero from there on. -/
theorem mask_word (n : ℕ) (hn : n < 10240) :
    FloatOps.sitofp (F := Ideal) .f32 ((IntOp.cmpi .slt (BitVec.ofNat 32 n) 10000#32).setWidth 32)
      = if n < 10000 then (1 : EReal) else 0 := by
  unfold IntOp.cmpi
  simp only [slt_small n hn]
  by_cases h : n < 10000
  · simp only [h, decide_true, if_true]
    show (((BitVec.setWidth 32 (BitVec.ofBool true)).toInt : ℝ) : EReal) = 1
    rw [show (BitVec.setWidth 32 (BitVec.ofBool true)).toInt = 1 by decide]
    simp
  · simp only [h, decide_false, if_false]
    show (((BitVec.setWidth 32 (BitVec.ofBool false)).toInt : ℝ) : EReal) = 0
    rw [show (BitVec.setWidth 32 (BitVec.ofBool false)).toInt = 0 by decide]
    simp

/-- The node mask: one on the 10000 node columns, zero on the padding. -/
theorem k1_pay8_apply (n : Fin 10240) : k1_pay8 (F := Ideal) (ix2 (0 : Fin 1) n) = nodeMask n := by
  unfold k1_pay8 nodeMask
  rw [sitofp_apply, extui_apply]
  show FloatOps.sitofp .f32 ((IntOp.cmpi .slt (iota .tc S1x10240 32 [1] _ (ix2 (0 : Fin 1) n))
    (broadcast S1x10240 10000#32 (ix2 (0 : Fin 1) n))).setWidth 32) = _
  rw [iota_single_apply, broadcast_apply]
  exact mask_word n.val n.isLt

end Cert.KernelIdeal.HeadValue

end
-- ==== Proof.HeadWide.lean ====
/-
  The head's wide part read at an index: the neighbour term over the 10240 node columns, and the pooled features of the
  two copies that receive edges — two graph-convolution layers at each node column, masked, summed over the columns and
  scaled by 1/10000. Every `[64, 10240]` intermediate is read at one index only.
-/
import proofs.«210354_g33337536152245_cont_8to1_b_1126_28_alg».proof.Proof.HeadDense

noncomputable section

open scoped BigOperators

namespace Cert.KernelIdeal.HeadValue

open Cert.KernelIdeal Cert.KernelIdeal.Gen Idealize.ShloMosaic Idealize.ShloMosaic.ValueIdx Cert.GraphHead Cert.ColumnOps

/-- The named reciprocal of the node count is the rational 1/10000. -/
theorem inv_nodes :
    Named.named (F := Ideal) Cert.KernelIdeal.κ "inv_10000" (φ := .f32) 0x38D1B717#32 = ((1 / 10000 : ℝ) : EReal) :=
  IdealRules.named_const.ideal_named_scalar _ _ _ _ rfl

/-- The first layer's neighbour term of copy 0's row at node column `n`: the projection times the count. -/
theorem k1_pay9_apply (v0 : Vec Ideal S4x128 .f32) (v8 : Vec Ideal S128x64 .f32) (v20 v22 : Vec Ideal S1x1x10240 .f32)
    (j : Fin 64) (n : Fin 10240) :
    k1_pay9 v0 v8 v20 v22 (ix2 j n)
      = relProj v0 v8 j 0 * (v20 (ix3 (0 : Fin 1) (0 : Fin 1) n) + v22 (ix3 (0 : Fin 1) (0 : Fin 1) n)) := by
  unfold k1_pay9
  rw [mulf_apply, broadcastTo_a1_ab_apply, broadcastTo_1b_ab_apply,
    slice2_axis1_apply 0 _ _ j (0 : Fin 1) (0 : Fin 4) rfl, k1_pay3_apply, k1_pay7_apply]

/-- One second-layer node value over the values the body has bound: the neighbour term `p · t` plus the bias plus the
    root weights applied to the first layer's rectified column, rectified, masked. -/
theorem layer2_at (v1 : FVec Ideal S64x64 .f32) (v7 : FVec Ideal S64x1 .f32) (v24 v29 : FVec Ideal S1x10240 .f32)
    (p : FVec Ideal S64x1 .f32) (h1 : FVec Ideal S64x10240 .f32)
    (hc : S64x1.Broadcasts S64x10240) (hr : S1x10240.Broadcasts S64x10240) (j : Fin 64) (n : Fin 10240) :
    mulf (maximumf (addf (addf (mulf (broadcastTo S64x10240 p hc) (broadcastTo S64x10240 v24 hr))
          (broadcastTo S64x10240 v7 hc))
        (matmul dot_S64x64_S64x10240_S64x10240_0_0_1_1_n_n (some .fp32) v1 h1 (constant S64x10240 .f32 0x00000000#32)))
      (broadcast S64x10240 (Scalar.ofBits .f32 0x00000000#32)))
      (broadcastTo S64x10240 v29 hr) (ix2 j n)
      = max (p (ix2 j (0 : Fin 1)) * v24 (ix2 (0 : Fin 1) n) + v7 (ix2 j (0 : Fin 1))
          + ∑ k : Fin 64, v1 (ix2 k j) * h1 (ix2 k n)) 0 * v29 (ix2 (0 : Fin 1) n) := by
  rw [mulf_apply, broadcastTo_1b_ab_apply, maximumf_apply, broadcast_apply, scalar_zero, addf_apply, addf_apply,
    mulf_apply, broadcastTo_a1_ab_apply, broadcastTo_1b_ab_apply, broadcastTo_a1_ab_apply]
  refine congrArg (fun z => max (p (ix2 j (0 : Fin 1)) * v24 (ix2 (0 : Fin 1) n) + v7 (ix2 j (0 : Fin 1)) + z) 0
    * v29 (ix2 (0 : Fin 1) n)) ?_
  exact matmulT_zero_apply (K := 64) (M := 64) (N := 10240) _ _ v1 h1 j n

/-- One first-layer node value over the values the body has bound: a neighbour term plus column `c` of the root term,
    rectified. -/
theorem layer1_at (v15 : FVec Ideal S64x4 .f32) (nb : FVec Ideal S64x10240 .f32) (o : ℕ)
    (hs : S64x4.Slices ![0, o] S64x1) (hc : S64x1.Broadcasts S64x10240) (c : Fin 4) (hco : c.val = o) (k : Fin 64)
    (n : Fin 10240) :
    maximumf (addf nb (broadcastTo S64x10240 (extractStridedSlice S64x1 ![0, o] v15 hs) hc))
      (broadcast S64x10240 (Scalar.ofBits .f32 0x00000000#32)) (ix2 k n)
      = max (nb (ix2 k n) + v15 (ix2 k c)) 0 := by
  rw [maximumf_apply, broadcast_apply, scalar_zero, addf_apply, broadcastTo_a1_ab_apply,
    slice2_axis1_apply o v15 hs k (0 : Fin 1) c (by rw [hco]; rfl)]

/-- The pooled feature `j` of the first copy that receives edges, over the values the body has bound: at each node
    column the second layer on the first (neighbour term `v33`, root column 2), masked; summed; scaled. -/
theorem k1_pay10_apply_zero (v1 : Vec Ideal S64x64 .f32) (v7 : FVec Ideal S64x1 .f32) (v10 v15 v19 : FVec Ideal S64x4 .f32)
    (v24 v29 : FVec Ideal S1x10240 .f32) (v33 : FVec Ideal S64x10240 .f32) (j : Fin 64) :
    k1_pay10 v1 v7 v10 v15 v19 v24 v29 v33 (ix2 j (0 : Fin 2))
      = (∑ n : Fin 10240, max (v19 (ix2 j (0 : Fin 4)) * v24 (ix2 (0 : Fin 1) n) + v7 (ix2 j (0 : Fin 1))
            + ∑ k : Fin 64, v1 (ix2 k j) * max (v33 (ix2 k n) + v15 (ix2 k (2 : Fin 4))) 0) 0
          * v29 (ix2 (0 : Fin 1) n)) * ((1 / 10000 : ℝ) : EReal) := by
  unfold k1_pay10
  rw [mulf_apply, broadcast_apply, inv_nodes]
  refine congrArg (· * ((1 / 10000 : ℝ) : EReal)) ?_
  rw [concat_cols_left _ _ _ j (0 : Fin 2) (0 : Fin 1) rfl, shapeCast_a_a1_apply]
  refine (sum_cols_apply _ _ _ _ j).trans (Finset.sum_congr rfl fun n _ => ?_)
  rw [layer2_at, slice2_axis1_apply 0 v19 _ j (0 : Fin 1) (0 : Fin 4) rfl]
  refine congrArg (fun z => max (v19 (ix2 j (0 : Fin 4)) * v24 (ix2 (0 : Fin 1) n) + v7 (ix2 j (0 : Fin 1)) + z) 0
    * v29 (ix2 (0 : Fin 1) n)) (Finset.sum_congr rfl fun k _ => ?_)
  rw [layer1_at v15 v33 2 _ _ (2 : Fin 4) rfl k n]

/-- The pooled feature `j` of the second such copy: the same with neighbour column 1 and root column 3. -/
theorem k1_pay10_apply_one (v1 : Vec Ideal S64x64 .f32) (v7 : FVec Ideal S64x1 .f32) (v10 v15 v19 : FVec Ideal S64x4 .f32)
    (v24 v29 : FVec Ideal S1x10240 .f32) (v33 : FVec Ideal S64x10240 .f32) (j : Fin 64) :
    k1_pay10 v1 v7 v10 v15 v19 v24 v29 v33 (ix2 j (1 : Fin 2))
      = (∑ n : Fin 10240, max (v19 (ix2 j (1 : Fin 4)) * v24 (ix2 (0 : Fin 1) n) + v7 (ix2 j (0 : Fin 1))
            + ∑ k : Fin 64, v1 (ix2 k j)
                * max (v10 (ix2 k (1 : Fin 4)) * v24 (ix2 (0 : Fin 1) n) + v15 (ix2 k (3 : Fin 4))) 0) 0
          * v29 (ix2 (0 : Fin 1) n)) * ((1 / 10000 : ℝ) : EReal) := by
  unfold k1_pay10
  rw [mulf_apply, broadcast_apply, inv_nodes]
  refine congrArg (· * ((1 / 10000 : ℝ) : EReal)) ?_
  rw [concat_cols_right _ _ _ j (1 : Fin 2) (0 : Fin 1) rfl, shapeCast_a_a1_apply]
  refine (sum_cols_apply _ _ _ _ j).trans (Finset.sum_congr rfl fun n _ => ?_)
  rw [layer2_at, slice2_axis1_apply 1 v19 _ j (0 : Fin 1) (1 : Fin 4) rfl]
  refine congrArg (fun z => max (v19 (ix2 j (1 : Fin 4)) * v24 (ix2 (0 : Fin 1) n) + v7 (ix2 j (0 : Fin 1)) + z) 0
    * v29 (ix2 (0 : Fin 1) n)) (Finset.sum_congr rfl fun k _ => ?_)
  rw [layer1_at v15 _ 3 _ _ (3 : Fin 4) rfl k n, mulf_apply, broadcastTo_a1_ab_apply, broadcastTo_1b_ab_apply,
    slice2_axis1_apply 1 v10 _ k (0 : Fin 1) (1 : Fin 4) rfl]

end Cert.KernelIdeal.HeadValue

end
-- ==== Proof.HeadOut.lean ====
/-
  The head's stored value is the closed form: the pooled features of the two copies that receive no edge (the second
  layer's root path on the rectified root term), the read-out over the four copies' pooled features, and, composed with
  the wide part, the whole stored value at an index.
-/
import proofs.«210354_g33337536152245_cont_8to1_b_1126_28_alg».proof.Proof.HeadValue
import proofs.«210354_g33337536152245_cont_8to1_b_1126_28_alg».proof.Proof.HeadWide

noncomputable section

open scoped BigOperators

namespace Cert.KernelIdeal.HeadValue

open Cert.KernelIdeal Cert.KernelIdeal.Gen Idealize.ShloMosaic Idealize.ShloMosaic.ValueIdx Cert.GraphHead Cert.ColumnOps

/-- The second layer's root path over the values the body has bound: the bias plus the root weights applied to column
    `c` of the rectified root term. -/
theorem k1_pay11_apply (v1 : Vec Ideal S64x64 .f32) (v7 : FVec Ideal S64x1 .f32) (v17 : FVec Ideal S64x4 .f32)
    (j : Fin 64) (c : Fin 2) (c4 : Fin 4) (hc : c4.val = c.val) :
    k1_pay11 v1 v7 v17 (ix2 j c) = v7 (ix2 j (0 : Fin 1)) + ∑ k : Fin 64, v1 (ix2 k j) * v17 (ix2 k c4) := by
  unfold k1_pay11
  rw [addf_apply, broadcastTo_a1_ab_apply]
  refine congrArg (v7 (ix2 j (0 : Fin 1)) + ·) ?_
  refine (matmulT_zero_apply (K := 64) (M := 64) (N := 2) _ _ v1 _ j c).trans ?_
  exact Finset.sum_congr rfl fun k _ => by
    rw [slice2_axis1_apply 0 v17 _ k c c4 (by rw [hc, Nat.zero_add])]

/-- The read-out at a copy that receives no edge: its pooled features are the rectified root path. -/
theorem k1_pay1_apply_near (v78 v82 : FVec Ideal S64x2 .f32) (cst : Ideal .f32) (v86 : Vec Ideal S64x2 .f32)
    (v88 : Vec Ideal S1x2 .f32) (b : Fin 4) (o : Fin 2) (b' : Fin 2) (hb : b'.val = b.val) :
    k1_pay1 v78 v82 cst v86 v88 (ix2 b o)
      = (∑ j : Fin 64, max (v82 (ix2 j b')) cst * v86 (ix2 j o)) + v88 (ix2 (0 : Fin 1) o) := by
  unfold k1_pay1
  rw [addf_apply, broadcastTo_1b_ab_apply, shapeCast_self]
  refine congrArg (· + v88 (ix2 (0 : Fin 1) o)) ?_
  refine (matmulT_zero_apply (K := 64) (M := 4) (N := 2) _ _ _ v86 b o).trans ?_
  exact Finset.sum_congr rfl fun j _ => by
    rw [concat_cols_left _ _ _ j b b' hb, maximumf_apply, broadcast_apply]

/-- The read-out at a copy that receives edges: its pooled features are the wide part's. -/
theorem k1_pay1_apply_far (v78 v82 : FVec Ideal S64x2 .f32) (cst : Ideal .f32) (v86 : Vec Ideal S64x2 .f32)
    (v88 : Vec Ideal S1x2 .f32) (b : Fin 4) (o : Fin 2) (b' : Fin 2) (hb : b'.val + 2 = b.val) :
    k1_pay1 v78 v82 cst v86 v88 (ix2 b o)
      = (∑ j : Fin 64, v78 (ix2 j b') * v86 (ix2 j o)) + v88 (ix2 (0 : Fin 1) o) := by
  unfold k1_pay1
  rw [addf_apply, broadcastTo_1b_ab_apply, shapeCast_self]
  refine congrArg (· + v88 (ix2 (0 : Fin 1) o)) ?_
  refine (matmulT_zero_apply (K := 64) (M := 4) (N := 2) _ _ _ v86 b o).trans ?_
  exact Finset.sum_congr rfl fun j _ => by
    rw [concat_cols_right _ _ _ j b b' hb]

section
variable (v0 : Vec Ideal S4x128 .f32) (v1 : Vec Ideal S64x64 .f32) (v2 v5 : Vec Ideal S1x64 .f32)
  (v8 v11 : Vec Ideal S128x64 .f32) (v18 : Vec Ideal S64x64 .f32) (v20 v22 : Vec Ideal S1x1x10240 .f32)

/-- The pooled feature of a copy that receives no edge. -/
theorem pooledNear_apply (j : Fin 64) (c : Fin 2) (b : Fin 4) (hb : b.val = c.val) :
    max (k1_pay11 v1 (k1_pay2 v5) (k1_pay5 v0 v2 v11) (ix2 j c)) (Scalar.ofBits .f32 0x00000000#32 : Ideal .f32)
      = pooledNear v0 v11 (fun j => v2 (ix2 (0 : Fin 1) j)) v1 (fun j => v5 (ix2 (0 : Fin 1) j)) j b := by
  rw [k1_pay11_apply _ _ _ j c b hb, k1_pay2_apply, scalar_zero]
  unfold pooledNear
  refine congrArg (fun z => max (v5 (ix2 (0 : Fin 1) j) + z) 0) (Finset.sum_congr rfl fun k _ => ?_)
  rw [k1_pay5_apply]

/-- The pooled feature of copy 2, whose edges come from copy 0. -/
theorem pooledFar_zero_apply (j : Fin 64) :
    k1_pay10 v1 (k1_pay2 v5) (k1_pay3 v0 v8) (k1_pay4 v0 v2 v11) (k1_pay6 v0 v2 v11 v18) (k1_pay7 v20 v22)
        (k1_pay8 (F := Ideal)) (k1_pay9 v0 v8 v20 v22) (ix2 j (0 : Fin 2))
      = pooledFar v0 (fun n => v20 (ix3 (0 : Fin 1) (0 : Fin 1) n) + v22 (ix3 (0 : Fin 1) (0 : Fin 1) n)) v8 v11
          (fun j => v2 (ix2 (0 : Fin 1) j)) v18 v1 (fun j => v5 (ix2 (0 : Fin 1) j)) 0 2 j := by
  rw [k1_pay10_apply_zero]
  unfold pooledFar hidden2 hidden1
  refine congrArg (· * ((1 / 10000 : ℝ) : EReal)) (Finset.sum_congr rfl fun n _ => ?_)
  rw [k1_pay6_apply, k1_pay7_apply, k1_pay2_apply, k1_pay8_apply]
  refine congrArg (fun z => max (_ + z) 0 * nodeMask n) (Finset.sum_congr rfl fun k _ => ?_)
  rw [k1_pay9_apply, k1_pay4_apply]

/-- The pooled feature of copy 3, whose edges come from copy 1. -/
theorem pooledFar_one_apply (j : Fin 64) :
    k1_pay10 v1 (k1_pay2 v5) (k1_pay3 v0 v8) (k1_pay4 v0 v2 v11) (k1_pay6 v0 v2 v11 v18) (k1_pay7 v20 v22)
        (k1_pay8 (F := Ideal)) (k1_pay9 v0 v8 v20 v22) (ix2 j (1 : Fin 2))
      = pooledFar v0 (fun n => v20 (ix3 (0 : Fin 1) (0 : Fin 1) n) + v22 (ix3 (0 : Fin 1) (0 : Fin 1) n)) v8 v11
          (fun j => v2 (ix2 (0 : Fin 1) j)) v18 v1 (fun j => v5 (ix2 (0 : Fin 1) j)) 1 3 j := by
  rw [k1_pay10_apply_one]
  unfold pooledFar hidden2 hidden1
  refine congrArg (· * ((1 / 10000 : ℝ) : EReal)) (Finset.sum_congr rfl fun n _ => ?_)
  rw [k1_pay6_apply, k1_pay7_apply, k1_pay2_apply, k1_pay8_apply]
  refine congrArg (fun z => max (_ + z) 0 * nodeMask n) (Finset.sum_congr rfl fun k _ => ?_)
  rw [k1_pay3_apply, k1_pay4_apply]

end

/-- THE STORED VALUE IS THE CLOSED FORM, entry by entry. -/
theorem headOut_apply (v0 : Vec Ideal S4x128 .f32) (v1 : Vec Ideal S64x64 .f32) (v2 v5 : Vec Ideal S1x64 .f32)
    (v8 v11 : Vec Ideal S128x64 .f32) (v18 : Vec Ideal S64x64 .f32) (v20 v22 : Vec Ideal S1x1x10240 .f32)
    (v86 : Vec Ideal S64x2 .f32) (v88 : Vec Ideal S1x2 .f32) (b : Fin 4) (o : Fin 2) :
    headOut v0 v1 v2 v5 v8 v11 v18 v20 v22 v86 v88 (ix2 b o)
      = Cert.GraphHead.out v0 (fun n => v20 (ix3 (0 : Fin 1) (0 : Fin 1) n) + v22 (ix3 (0 : Fin 1) (0 : Fin 1) n)) v8 v11
          (fun j => v2 (ix2 (0 : Fin 1) j)) v18 v1 (fun j => v5 (ix2 (0 : Fin 1) j)) v86
          (fun o' => v88 (ix2 (0 : Fin 1) o')) b o := by
  unfold headOut Cert.GraphHead.out
  by_cases hb : b.val < 2
  · rw [k1_pay1_apply_near _ _ _ _ _ b o ⟨b.val, hb⟩ rfl]
    refine congrArg (· + v88 (ix2 (0 : Fin 1) o)) (Finset.sum_congr rfl fun j _ => congrArg (· * v86 (ix2 j o)) ?_)
    unfold pooled
    rw [if_pos hb]
    exact pooledNear_apply v0 v1 v2 v5 v11 j ⟨b.val, hb⟩ b rfl
  · by_cases hb2 : b.val = 2
    · rw [k1_pay1_apply_far _ _ _ _ _ b o (0 : Fin 2) (by rw [hb2]; rfl)]
      refine congrArg (· + v88 (ix2 (0 : Fin 1) o)) (Finset.sum_congr rfl fun j _ => congrArg (· * v86 (ix2 j o)) ?_)
      unfold pooled
      rw [if_neg hb, if_pos hb2]
      obtain rfl : b = (2 : Fin 4) := Fin.ext hb2
      exact pooledFar_zero_apply v0 v1 v2 v5 v8 v11 v18 v20 v22 j
    · have hb3 : b.val = 3 := by have := b.isLt; omega
      rw [k1_pay1_apply_far _ _ _ _ _ b o (1 : Fin 2) (by rw [hb3]; rfl)]
      refine congrArg (· + v88 (ix2 (0 : Fin 1) o)) (Finset.sum_congr rfl fun j _ => congrArg (· * v86 (ix2 j o)) ?_)
      unfold pooled
      rw [if_neg hb, if_neg hb2]
      obtain rfl : b = (3 : Fin 4) := Fin.ext hb3
      exact pooledFar_one_apply v0 v1 v2 v5 v8 v11 v18 v20 v22 j

end Cert.KernelIdeal.HeadValue

end
-- ==== Proof.CountCores.lean ====
/-
  The two SparseCores' counts add up to the count over the whole edge list: the 32 column sets, one per vector
  subcore, partition the 160000 columns (column `e` below 159744 = 32·4992 belongs to subcore `e / 4992`, a column of
  the tail of 256 to subcore `(e − 159744) / 128`, which is 0 or 1), so counting an entry once per subcore whose
  columns hold it counts it once.
-/
import proofs.«210354_g33337536152245_cont_8to1_b_1126_28_alg».proof.Proof.GraphHead

open scoped BigOperators

namespace Cert.GraphHead

open Idealize.ShloMosaic Idealize.ShloMosaic.ValueIdx

/-- The one subcore whose columns hold column `e`. -/
def colOwner (e : Fin 160000) : Fin 32 :=
  if h : e.val < 159744 then ⟨e.val / 4992, by omega⟩ else ⟨(e.val - 159744) / 128, by have := e.isLt; omega⟩

/-- Column `e` is among subcore `w`'s columns exactly when `w` is its owner: the column sets partition the columns. -/
theorem mem_tileCols_iff (w : Fin 32) (e : Fin 160000) : e ∈ tileCols w ↔ colOwner e = w := by
  have hw := w.isLt
  have he := e.isLt
  unfold tileCols colOwner
  rw [Finset.mem_filter]
  simp only [Finset.mem_univ, true_and]
  split
  · next h => rw [Fin.ext_iff]; show _ ↔ e.val / 4992 = w.val; omega
  · next h => rw [Fin.ext_iff]; show _ ↔ (e.val - 159744) / 128 = w.val; omega

/-- The count over the whole list is the sum of the 32 subcores' counts. -/
theorem degree_eq_sum_tileCount (ei : EdgeList) (n : Fin 10240) : degree ei n = ∑ w : Fin 32, tileCount ei w n := by
  unfold degree tileCount
  rw [Finset.card_eq_sum_card_fiberwise (f := fun re : Fin 2 × Fin 160000 => colOwner re.2) (t := Finset.univ)
    (fun _ _ => Finset.mem_univ _)]
  refine Finset.sum_congr rfl fun w _ => congrArg Finset.card ?_
  ext re
  simp only [Finset.mem_filter, Finset.mem_univ, true_and, Finset.mem_product, mem_tileCols_iff]
  exact and_comm

/-- Sixteen subcores of SparseCore 0 and sixteen of SparseCore 1 are the 32 subcores. -/
theorem sum_tiles_split (g : Fin 32 → ℕ) : ∑ w : Fin 32, g w = ∑ s : Fin 16, g (tileOf 0 s) + ∑ s : Fin 16, g (tileOf 1 s) := by
  have h := Fin.sum_univ_add (M := ℕ) (a := 16) (b := 16) g
  refine h.trans ?_
  have e0 : ∀ s : Fin 16, Fin.castAdd 16 s = tileOf 0 s := fun s => Fin.ext (by show s.val = 0 * 16 + s.val; omega)
  have e1 : ∀ s : Fin 16, Fin.natAdd 16 s = tileOf 1 s := fun s => Fin.ext (by show 16 + s.val = 1 * 16 + s.val; omega)
  simp only [e0, e1]

/-- The two SparseCores' counts of node `n` add up to its count over the whole edge list. -/
theorem coreCount_add (ei : EdgeList) (n : Fin 10240) : coreCount ei 0 n + coreCount ei 1 n = degree ei n := by
  rw [degree_eq_sum_tileCount, sum_tiles_split]
  rfl

end Cert.GraphHead
-- ==== Proof.RefEdges.lean ====
/-
  The scrambled edge list, one entry at a time.

  The four copies of the 2 x 160000 edge list, each shifted by 10000 times its copy number, are laid out flat as
  [4, 2, 160000] and re-read as two rows of 640000.  Entry e of row 0 (the sources) is therefore entry
  (e / 160000 % 2, e % 160000) of the edge list plus 10000 * (e / 320000), and entry e of row 1 (the targets) is the
  same entry plus 10000 * (2 + e / 320000): every source lies in copies 0 and 1, every target in copies 2 and 3.
  With every edge-list entry at most 9999 these words are small non-negative numbers, so reading them signed,
  the test for a negative index before each gather, and the clamp into [0, 39999] all leave them as they are.
-/
import proofs.«210354_g33337536152245_cont_8to1_b_1126_28_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-- The entry of the edge list that position e of either re-read row comes from. -/
abbrev edgeAt (e : Fin 640000) : S2x160000.Idx :=
  ix2 (⟨e.val / 160000 % 2, by omega⟩ : Fin 2) (⟨e.val % 160000, by omega⟩ : Fin 160000)

/-- Position e of the source row: the edge-list entry plus 10000 times the copy number e / 320000. -/
theorem src_word (x1 : (⟨S2x160000, .i32⟩ : BufTy).Contents (Elt Ideal)) (e : Fin 640000) :
    val_main_v13 (F := Ideal) x1 (ix1 e) = x1 (edgeAt e) + BitVec.ofNat 32 (e.val / 320000) * 10000#32 := by
  rw [val_main_v13_apply, val_main_v12_apply, val_main_v11_apply, val_main_v10_apply, val_main_v8_apply, val_main_v7_apply,
    val_main_v9_apply, val_main_v6_apply, val_main_v5_apply, val_main_v3_apply, val_main_v4_apply, val_main_c_apply]
  have h1 : idx_main_v7 (idx_main_v8 (idx_main_v11 (idx_main_v12 (idx_main_v13 (ix1 e))))) = edgeAt e := by
    funext a; refine Fin.ext ?_
    match a with
    | ⟨0, _⟩ => show (0 * 640000 + e.val % 640000) / 160000 % 2 = e.val / 160000 % 2; omega
    | ⟨1, _⟩ => show (0 * 640000 + e.val % 640000) % 160000 = e.val % 160000; omega
  have h2 : ((idx_main_v6 (idx_main_v9 (idx_main_v11 (idx_main_v12 (idx_main_v13 (ix1 e))))) 0 : Fin 4) : Nat) = e.val / 320000 := by
    show ((0 * 640000 + e.val % 640000) / 320000 * 1 + 0) * 1 + 0 = e.val / 320000; omega
  rw [h1, h2]; rfl

/-- Position e of the target row: the edge-list entry plus 10000 times the copy number 2 + e / 320000. -/
theorem dst_word (x1 : (⟨S2x160000, .i32⟩ : BufTy).Contents (Elt Ideal)) (e : Fin 640000) :
    val_main_v15 (F := Ideal) x1 (ix1 e) = x1 (edgeAt e) + BitVec.ofNat 32 (2 + e.val / 320000) * 10000#32 := by
  rw [val_main_v15_apply, val_main_v14_apply, val_main_v11_apply, val_main_v10_apply, val_main_v8_apply, val_main_v7_apply,
    val_main_v9_apply, val_main_v6_apply, val_main_v5_apply, val_main_v3_apply, val_main_v4_apply, val_main_c_apply]
  have h1 : idx_main_v7 (idx_main_v8 (idx_main_v11 (idx_main_v14 (idx_main_v15 (ix1 e))))) = edgeAt e := by
    funext a; refine Fin.ext ?_
    match a with
    | ⟨0, _⟩ => show ((1 + 0) * 640000 + e.val % 640000) / 160000 % 2 = e.val / 160000 % 2; omega
    | ⟨1, _⟩ => show ((1 + 0) * 640000 + e.val % 640000) % 160000 = e.val % 160000; omega
  have h2 : ((idx_main_v6 (idx_main_v9 (idx_main_v11 (idx_main_v14 (idx_main_v15 (ix1 e))))) 0 : Fin 4) : Nat) = 2 + e.val / 320000 := by
    show (((1 + 0) * 640000 + e.val % 640000) / 320000 * 1 + 0) * 1 + 0 = 2 + e.val / 320000; omega
  rw [h1, h2]; rfl

/-- A word at most 9999 plus 10000 times a copy number below 4, as a number: no wrap-around. -/
theorem shifted_toNat (v : BitVec 32) (hv : v.toNat ≤ 9999) (c : Nat) (hc : c < 4) :
    (v + BitVec.ofNat 32 c * 10000#32).toNat = v.toNat + c * 10000 := by
  rw [BitVec.toNat_add, BitVec.toNat_mul, BitVec.toNat_ofNat]
  show (v.toNat + c % 2 ^ 32 * 10000 % 2 ^ 32) % 2 ^ 32 = v.toNat + c * 10000
  omega

/-- Such a word read signed is the same number. -/
theorem shifted_toInt (v : BitVec 32) (hv : v.toNat ≤ 9999) (c : Nat) (hc : c < 4) :
    (v + BitVec.ofNat 32 c * 10000#32).toInt = ((v.toNat + c * 10000 : Nat) : Int) := by
  rw [BitVec.toInt_eq_toNat_cond, shifted_toNat v hv c hc]
  rw [if_pos (by omega)]

/-- Such a word is not negative, so the index normalisation before a gather (add 40000 to a negative index) keeps it. -/
theorem normalise_shifted (v : BitVec 32) (hv : v.toNat ≤ 9999) (c : Nat) (hc : c < 4) (z : BitVec 32) (hz : z = 0#32) (alt : BitVec 32) :
    Scalar.select (IntOp.cmpi .slt (v + BitVec.ofNat 32 c * 10000#32) z) alt (v + BitVec.ofNat 32 c * 10000#32)
      = v + BitVec.ofNat 32 c * 10000#32 := by
  subst hz
  have hs : (v + BitVec.ofNat 32 c * 10000#32).slt 0#32 = false := by
    rw [BitVec.slt_eq_decide, shifted_toInt v hv c hc]
    simp
    omega
  unfold IntOp.cmpi Scalar.select
  simp only [hs]
  rw [if_neg (by decide)]

/-- The normalised source index the first gather reads, at position e. -/
theorem src_index1 (x1 : (⟨S2x160000, .i32⟩ : BufTy).Contents (Elt Ideal)) (hrange : ∀ i, (x1 i).toNat ≤ 9999) (e : Fin 640000) :
    val_main_v21 (F := Ideal) x1 (ix2 e (⟨0, Nat.one_pos⟩ : Fin 1)) = x1 (edgeAt e) + BitVec.ofNat 32 (e.val / 320000) * 10000#32 := by
  rw [val_main_v21_apply, val_main_v20_apply, val_main_v17_apply, val_main_v16_apply, val_main_c_0_apply]
  have hi : idx_main_v21 (ix2 e (⟨0, Nat.one_pos⟩ : Fin 1)) = ix1 e := by
    funext a; match a with | ⟨0, _⟩ => rfl
  rw [hi, src_word]
  exact normalise_shifted _ (hrange _) _ (by have := e.isLt; omega) _ rfl _

/-- The normalised source index the second gather reads, at position e: the same word. -/
theorem src_index2 (x1 : (⟨S2x160000, .i32⟩ : BufTy).Contents (Elt Ideal)) (hrange : ∀ i, (x1 i).toNat ≤ 9999) (e : Fin 640000) :
    val_main_v38 (F := Ideal) x1 (ix2 e (⟨0, Nat.one_pos⟩ : Fin 1)) = x1 (edgeAt e) + BitVec.ofNat 32 (e.val / 320000) * 10000#32 := by
  rw [val_main_v38_apply, val_main_v37_apply, val_main_v34_apply, val_main_v33_apply, val_main_c_2_apply]
  have hi : idx_main_v38 (ix2 e (⟨0, Nat.one_pos⟩ : Fin 1)) = ix1 e := by
    funext a; match a with | ⟨0, _⟩ => rfl
  rw [hi, src_word]
  exact normalise_shifted _ (hrange _) _ (by have := e.isLt; omega) _ rfl _

/-- The target index the first scatter reads, at position e. -/
theorem dst_index1 (x1 : (⟨S2x160000, .i32⟩ : BufTy).Contents (Elt Ideal)) (e : Fin 640000) :
    val_main_v24 (F := Ideal) x1 (ix2 e (⟨0, Nat.one_pos⟩ : Fin 1)) = x1 (edgeAt e) + BitVec.ofNat 32 (2 + e.val / 320000) * 10000#32 := by
  rw [val_main_v24_apply]
  have hi : idx_main_v24 (ix2 e (⟨0, Nat.one_pos⟩ : Fin 1)) = ix1 e := by
    funext a; match a with | ⟨0, _⟩ => rfl
  rw [hi, dst_word]

/-- The target index the second scatter reads, at position e: the same word. -/
theorem dst_index2 (x1 : (⟨S2x160000, .i32⟩ : BufTy).Contents (Elt Ideal)) (e : Fin 640000) :
    val_main_v41 (F := Ideal) x1 (ix2 e (⟨0, Nat.one_pos⟩ : Fin 1)) = x1 (edgeAt e) + BitVec.ofNat 32 (2 + e.val / 320000) * 10000#32 := by
  rw [val_main_v41_apply]
  have hi : idx_main_v41 (ix2 e (⟨0, Nat.one_pos⟩ : Fin 1)) = ix1 e := by
    funext a; match a with | ⟨0, _⟩ => rfl
  rw [hi, dst_word]

end Cert.ReferenceIdeal.RefValue

end
-- ==== Proof.RefCount.lean ====
/-
  Which positions of the re-read target row name a given row of the 40000, and how many.

  Position e of the target row holds the edge-list entry (e / 160000 % 2, e % 160000) plus 10000 * (2 + e / 320000).
  With the entries at most 9999, no position names a row below 20000, and the positions naming row
  10000 * (2 + c) + n (c = 0 or 1, n < 10000) are those with e / 320000 = c whose edge-list entry is n.  The map
  e -> (e / 160000 % 2, e % 160000) sends them one-to-one onto the entries of the edge list equal to n, so their
  number is the number of occurrences of n in the edge list.
-/
import proofs.«210354_g33337536152245_cont_8to1_b_1126_28_alg».proof.Proof.RefEdges
import proofs.«210354_g33337536152245_cont_8to1_b_1126_28_alg».proof.Proof.GraphHead

noncomputable section

open scoped BigOperators

namespace Cert.ReferenceIdeal.RefValue

open Cert.ReferenceIdeal Cert.ReferenceIdeal.Gen Cert.ReferenceIdeal.Read Idealize.ShloMosaic Idealize.ShloMosaic.ValueIdx

open Cert.GraphHead

/-- The positions of the target row that name row r of the 40000. -/
def landing (x1 : (⟨S2x160000, .i32⟩ : BufTy).Contents (Elt Ideal)) (r : Fin 40000) : Finset (Fin 640000) :=
  Finset.univ.filter fun e : Fin 640000 =>
    (x1 (edgeAt e) + BitVec.ofNat 32 (2 + e.val / 320000) * 10000#32).toInt = (r.val : Int)

/-- Membership, in numbers: the entry plus 10000 times (2 + e / 320000) is r. -/
theorem mem_landing (x1 : (⟨S2x160000, .i32⟩ : BufTy).Contents (Elt Ideal)) (hrange : ∀ i, (x1 i).toNat ≤ 9999)
    (r : Fin 40000) (e : Fin 640000) :
    e ∈ landing x1 r ↔ (x1 (edgeAt e)).toNat + (2 + e.val / 320000) * 10000 = r.val := by
  unfold landing
  rw [Finset.mem_filter, shifted_toInt _ (hrange _) _ (by have := e.isLt; omega)]
  constructor
  · rintro ⟨_, h⟩; exact_mod_cast h
  · intro h; exact ⟨Finset.mem_univ _, by exact_mod_cast h⟩

/-- No position names a row of copies 0 and 1. -/
theorem landing_near (x1 : (⟨S2x160000, .i32⟩ : BufTy).Contents (Elt Ideal)) (hrange : ∀ i, (x1 i).toNat ≤ 9999)
    (r : Fin 40000) (hr : r.val < 20000) : landing x1 r = ∅ := by
  refine Finset.eq_empty_of_forall_notMem fun e he => ?_
  have := (mem_landing x1 hrange r e).mp he
  omega

/-- A position naming node n of copy 2 + c lies in the half of the row that carries copy c's sources. -/
theorem landing_far_copy (x1 : (⟨S2x160000, .i32⟩ : BufTy).Contents (Elt Ideal)) (hrange : ∀ i, (x1 i).toNat ≤ 9999)
    (c : Fin 2) (n : Fin 10000) (r : Fin 40000) (hr : r.val = (2 + c.val) * 10000 + n.val) (e : Fin 640000)
    (he : e ∈ landing x1 r) : e.val / 320000 = c.val := by
  have h := (mem_landing x1 hrange r e).mp he
  have hv := hrange (edgeAt e)
  have hn := n.isLt
  omega

/-- The number of positions naming node n of copy 2 + c is the number of occurrences of n in the edge list. -/
theorem card_landing_far (x1 : (⟨S2x160000, .i32⟩ : BufTy).Contents (Elt Ideal)) (hrange : ∀ i, (x1 i).toNat ≤ 9999)
    (c : Fin 2) (n : Fin 10000) (r : Fin 40000) (hr : r.val = (2 + c.val) * 10000 + n.val) (n' : Fin 10240) (hn' : n'.val = n.val) :
    (landing x1 r).card = degree x1 n' := by
  unfold degree
  refine Finset.card_bij (fun e _ => ((⟨e.val / 160000 % 2, by omega⟩ : Fin 2), (⟨e.val % 160000, by omega⟩ : Fin 160000))) ?_ ?_ ?_
  · intro e he
    have h := (mem_landing x1 hrange r e).mp he
    have hv := hrange (edgeAt e)
    have hn := n.isLt
    rw [Finset.mem_filter]
    refine ⟨Finset.mem_univ _, ?_⟩
    show (x1 (edgeAt e)).toNat = n'.val
    omega
  · intro e1 he1 e2 he2 heq
    have q1 := landing_far_copy x1 hrange c n r hr e1 he1
    have q2 := landing_far_copy x1 hrange c n r hr e2 he2
    have a := congrArg (fun p : Fin 2 × Fin 160000 => p.1.val) heq
    have b := congrArg (fun p : Fin 2 × Fin 160000 => p.2.val) heq
    simp only at a b
    refine Fin.ext ?_
    omega
  · rintro ⟨ro, co⟩ hp
    rw [Finset.mem_filter] at hp
    have hval : (x1 (ix2 ro co)).toNat = n'.val := hp.2
    have hro := ro.isLt
    have hco := co.isLt
    have hc := c.isLt
    let e : Fin 640000 := ⟨c.val * 320000 + ro.val * 160000 + co.val, by omega⟩
    have hedge : edgeAt e = ix2 ro co := by
      funext a; refine Fin.ext ?_
      match a with
      | ⟨0, _⟩ => show (c.val * 320000 + ro.val * 160000 + co.val) / 160000 % 2 = ro.val; omega
      | ⟨1, _⟩ => show (c.val * 320000 + ro.val * 160000 + co.val) % 160000 = co.val; omega
    refine ⟨e, ?_, ?_⟩
    · rw [mem_landing x1 hrange r e, hedge, hval]
      show n'.val + (2 + (c.val * 320000 + ro.val * 160000 + co.val) / 320000) * 10000 = r.val
      omega
    · refine Prod.ext (Fin.ext ?_) (Fin.ext ?_)
      · show (c.val * 320000 + ro.val * 160000 + co.val) / 160000 % 2 = ro.val; omega
      · show (c.val * 320000 + ro.val * 160000 + co.val) % 160000 = co.val; omega

end Cert.ReferenceIdeal.RefValue

end
-- ==== Proof.LibRowGatherScatter.lean ====
/-
  Rows of a matrix taken by number, and rows added into a matrix by number.

  A gather of a matrix x : [N, D] at a column of row numbers idx : [E, 1] (what taking rows of a matrix at a vector of
  integers lowers to) gives row e of the result the row of x whose number is idx e, read signed and clamped into
  [0, N - 1].  A scatter with an add body over the same dimension numbers (a segment sum) adds row e of the updates onto
  the row of the operand whose number is idx e, read signed and dropped when it is not a row of the operand; on the
  extended reals entry (r, k) of the result is entry (r, k) of the operand plus the sum of the entries (e, k) of the
  updates over the e with idx e = r.
-/
import Idealize.ShloMosaic.PureOps.Ideal
import Idealize.ShloMosaic.Lib.ValueIdx

noncomputable section

open scoped BigOperators

namespace Cert.RowOps

open Idealize.ShloMosaic Idealize.ShloMosaic.ValueIdx

/-- The dimension numbers of a gather of whole rows: operand [N, D], row numbers [E, 1], result [E, D]. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gather of whole rows read at entry (e, k): the operand's entry k of the row numbered idx e, the number
    read signed and clamped into [0, N - 1]. -/
theorem rowGather_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ =>
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e k) ⟨List.idxOf (0 : Fin 2) (rowGatherDims N D E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N D E wf).start (ix2 e k) idx 1 + (rowGatherDims N D E wf).batchCoord (ix2 e k) 1
      + (rowGatherDims N D E wf).offCoord (ix2 e k) 1 = k.val
    rw [GatherDims.batchCoord_eq_zero _ _ _ List.not_mem_nil]
    have hs : (rowGatherDims N D E wf).start (ix2 e k) idx 1 = 0 := by
      unfold GatherDims.start
      rw [dif_neg (show ¬ (1 : Fin 2) ∈ (rowGatherDims N D E wf).startIndexMap from
        fun h => absurd (show (1 : Nat) = 0 from congrArg Fin.val (List.mem_singleton.mp h)) Nat.one_ne_zero)]
    rw [hs]
    simp only [Nat.add_zero, Nat.zero_add]
    rfl

/-- The same, with the row named: if row is the row number read signed and clamped, entry (e, k) of the gather is
    entry (row, k) of the operand. -/
theorem rowGather_apply_of_eq {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) (row : Fin N)
    (hrow : row.val = min (idx (ix2 e ⟨0, Nat.one_pos⟩)).toInt.toNat (N - 1)) :
    Host.gather (rowGatherDims N D E wf) x idx (ix2 e k) = x (ix2 row k) := by
  rw [rowGather_apply hN wf x idx e k]
  have : (⟨min (idx (ix2 e ⟨0, Nat.one_pos⟩)).toInt.toNat (N - 1), by omega⟩ : Fin N) = row := Fin.ext hrow.symm
  rw [this]

/-- The dimension numbers of a scatter of whole rows: operand [N, D], row numbers [E, 1], updates [E, D]. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k : Fin D)

/-- On the row axis an update's start is its row number, read signed. -/
theorem rowScatter_start0 :
    (rowScatterDims N D E wf).start (ix2 e k) idx 0 = (idx (ix2 e ⟨0, Nat.one_pos⟩)).toInt := by
  unfold ScatterDims.start
  rw [dif_pos (show (0 : Fin 2) ∈ (rowScatterDims N D E wf).scatterDimsToOperandDims from List.mem_singleton.mpr rfl)]
  have hsi : (rowScatterDims N D E wf).siIdx (ix2 e k) ⟨List.idxOf (0 : Fin 2) (rowScatterDims N D E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis an update's start is zero. -/
theorem rowScatter_start1 : (rowScatterDims N D E wf).start (ix2 e k) idx 1 = 0 := by
  unfold ScatterDims.start
  rw [dif_neg (show ¬ (1 : Fin 2) ∈ (rowScatterDims N D E wf).scatterDimsToOperandDims from
    fun h => absurd (show (1 : Nat) = 0 from congrArg Fin.val (List.mem_singleton.mp h)) Nat.one_ne_zero)]

/-- On the row axis an update has no window coordinate. -/
theorem rowScatter_window0 : (rowScatterDims N D E wf).window (ix2 e k) 0 = 0 := by
  unfold ScatterDims.window
  rw [dif_neg (show ¬ (0 : Fin 2) ∈ (rowScatterDims N D E wf).sKept by
    simp [ScatterDims.sKept, Shape.kept, List.mem_filter])]

/-- On the column axis an update's window coordinate is its column. -/
theorem rowScatter_window1 : (rowScatterDims N D E wf).window (ix2 e k) 1 = k.val := by
  unfold ScatterDims.window
  rw [dif_pos (show (1 : Fin 2) ∈ (rowScatterDims N D E wf).sKept by
    simp [ScatterDims.sKept, Shape.kept, List.mem_filter, List.mem_finRange])]
  rfl

/-- Update (e, k) lands on entry (r, k') of the operand exactly when its row number, read signed, is r and k = k'. -/
theorem rowScatter_resultIdx_eq_some_iff (r : Fin N) (k' : Fin D) :
    (rowScatterDims N D E wf).resultIdx? (ix2 e k) idx = some (ix2 r k')
      ↔ (idx (ix2 e ⟨0, Nat.one_pos⟩)).toInt = (r.val : Int) ∧ k = k' := by
  unfold ScatterDims.resultIdx?
  have h0 := rowScatter_start0 wf idx e k
  have h1 := rowScatter_start1 wf idx e k
  have w0 := rowScatter_window0 wf e k
  have w1 := rowScatter_window1 wf e k
  constructor
  · intro h
    split at h
    · rename_i hall
      have hf := Option.some.inj h
      have e0 := congrArg (fun f => (f 0).val) hf
      have e1 := congrArg (fun f => (f 1).val) hf
      simp only at e0 e1
      have a0 := hall 0
      rw [h0, w0] at e0 a0
      rw [h1, w1] at e1
      refine ⟨?_, Fin.ext ?_⟩
      · have : ((idx (ix2 e ⟨0, Nat.one_pos⟩)).toInt + ((0 : Nat) : Int)).toNat = r.val := e0
        omega
      · have : ((0 : Int) + (k.val : Int)).toNat = k'.val := e1
        omega
    · exact absurd h (by simp)
  · rintro ⟨hr, rfl⟩
    have hall : ∀ a, 0 ≤ (rowScatterDims N D E wf).start (ix2 e k) idx a + (rowScatterDims N D E wf).window (ix2 e k) a ∧
        (rowScatterDims N D E wf).start (ix2 e k) idx a + (rowScatterDims N D E wf).window (ix2 e k) a
          < ((⟨2, ![N, D]⟩ : Shape).size a : Int) := by
      intro a
      match a with
      | ⟨0, _⟩ =>
        show 0 ≤ (rowScatterDims N D E wf).start (ix2 e k) idx 0 + ((rowScatterDims N D E wf).window (ix2 e k) 0 : Int) ∧
          (rowScatterDims N D E wf).start (ix2 e k) idx 0 + ((rowScatterDims N D E wf).window (ix2 e k) 0 : Int) < (N : Int)
        rw [h0, w0, hr]; have := r.isLt; omega
      | ⟨1, _⟩ =>
        show 0 ≤ (rowScatterDims N D E wf).start (ix2 e k) idx 1 + ((rowScatterDims N D E wf).window (ix2 e k) 1 : Int) ∧
          (rowScatterDims N D E wf).start (ix2 e k) idx 1 + ((rowScatterDims N D E wf).window (ix2 e k) 1 : Int) < (D : Int)
        rw [h1, w1]; have := k.isLt; omega
    rw [dif_pos hall]
    congr 1
    funext a
    refine Fin.ext ?_
    match a with
    | ⟨0, _⟩ =>
      show ((rowScatterDims N D E wf).start (ix2 e k) idx 0 + ((rowScatterDims N D E wf).window (ix2 e k) 0 : Int)).toNat = r.val
      rw [h0, w0, hr]; omega
    | ⟨1, _⟩ =>
      show ((rowScatterDims N D E wf).start (ix2 e k) idx 1 + ((rowScatterDims N D E wf).window (ix2 e k) 1 : Int)).toNat = k.val
      rw [h1, w1]; omega

end Scatter

/-- The accumulating scatter of whole rows on the extended reals, read at entry (r, k): the operand's entry plus the sum
    of the updates' entries (e, k) over the rows e whose number, read signed, is r. -/
theorem rowScatterAdd_apply {N D E w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (r : Fin N) (k : Fin D) :
    Ideal.hostScatterAdd (rowScatterDims N D E wf) x idx upd (ix2 r k)
      = x (ix2 r k) + ∑ e ∈ Finset.univ.filter (fun e : Fin E => (idx (ix2 e ⟨0, Nat.one_pos⟩)).toInt = (r.val : Int)),
          upd (ix2 e k) := by
  unfold Ideal.hostScatterAdd
  congr 1
  rw [Finset.sum_filter, Finset.sum_filter, sum_idx2]
  refine Finset.sum_congr rfl fun e _ => ?_
  simp only [rowScatter_resultIdx_eq_some_iff]
  by_cases he : (idx (ix2 e ⟨0, Nat.one_pos⟩)).toInt = (r.val : Int)
  · simp only [he, true_and]
    rw [Finset.sum_ite_eq' Finset.univ k]
    simp
  · simp only [he, false_and, if_false, Finset.sum_const_zero]

/-- The same, with the row numbers named: if row e is the number update row e carries, read signed, entry (r, k) of the
    result is the operand's entry plus the sum of the updates' entries (e, k) over the e with row e = r. -/
theorem rowScatterAdd_apply_of_eq {N D E w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (r : Fin N) (k : Fin D) (row : Fin E → Int) (hrow : ∀ e, (idx (ix2 e ⟨0, Nat.one_pos⟩)).toInt = row e) :
    Ideal.hostScatterAdd (rowScatterDims N D E wf) x idx upd (ix2 r k)
      = x (ix2 r k) + ∑ e ∈ Finset.univ.filter (fun e : Fin E => row e = (r.val : Int)), upd (ix2 e k) := by
  rw [rowScatterAdd_apply wf x idx upd r k]
  refine congrArg (fun s => x (ix2 r k) + s) (Finset.sum_congr (Finset.filter_congr fun e _ => ?_) fun _ _ => rfl)
  rw [hrow e]

end Cert.RowOps

end
-- ==== Proof.LibERealSums.lean ====
/-
  Sums of extended reals that are real numbers.

  The extended reals are not a semiring: distributing a factor over a sum, cancelling, and "k copies of v add up to
  k times v, which divided by k is v" fail at the infinities.  For values that are real numbers they hold, and are
  proved here by naming the real numbers, pushing the coercion out of the sums and products, and arguing over the
  reals.
-/
import Mathlib.Data.EReal.Basic
import Mathlib.Data.EReal.Operations
import Mathlib.Algebra.BigOperators.Fin
import Mathlib.Tactic.Ring
import Mathlib.Tactic.FieldSimp

noncomputable section

open scoped BigOperators

namespace Cert.ERealSums

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩
/-- A natural number is a real number. -/
theorem isReal_natCast (n : ℕ) : IsReal (n : EReal) := ⟨(n : ℝ), rfl⟩

/-- Real numbers are closed under addition. -/
theorem IsReal.add {a b : EReal} (ha : IsReal a) (hb : IsReal b) : IsReal (a + b) := by
  obtain ⟨x, rfl⟩ := ha; obtain ⟨y, rfl⟩ := hb; exact ⟨x + y, (EReal.coe_add x y).symm⟩
/-- Real numbers are closed under multiplication. -/
theorem IsReal.mul {a b : EReal} (ha : IsReal a) (hb : IsReal b) : IsReal (a * b) := by
  obtain ⟨x, rfl⟩ := ha; obtain ⟨y, rfl⟩ := hb; exact ⟨x * y, (EReal.coe_mul x y).symm⟩
/-- Real numbers are closed under the maximum. -/
theorem IsReal.max {a b : EReal} (ha : IsReal a) (hb : IsReal b) : IsReal (max a b) := by
  rcases max_choice a b with h | h <;> rw [h] <;> assumption

/-- The coercion of a finite sum of real numbers is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- Finitely many copies of one real number add up to their count times the number. -/
theorem sum_const_real {ι : Type*} (s : Finset ι) (c : EReal) (hc : IsReal c) :
    ∑ _i ∈ s, c = ((s.card : ℕ) : EReal) * c := by
  obtain ⟨r, rfl⟩ := hc
  rw [← coe_sum s fun _ => r, Finset.sum_const, nsmul_eq_mul, EReal.coe_mul]
  rfl

/-- A real factor moves out of a contraction of real numbers: the sum of (t x_k) W_k is (the sum of W_k x_k) t. -/
theorem sum_scaled {ι : Type*} [Fintype ι] (t : EReal) (x W : ι → EReal) (ht : IsReal t) (hx : ∀ k, IsReal (x k))
    (hW : ∀ k, IsReal (W k)) : ∑ k, (t * x k) * W k = (∑ k, W k * x k) * t := by
  obtain ⟨tr, rfl⟩ := ht
  choose xr hxr using hx
  choose Wr hWr using hW
  simp only [hxr, hWr, ← EReal.coe_mul, ← coe_sum]
  congr 1
  rw [Finset.sum_mul]
  exact Finset.sum_congr rfl fun k _ => by ring

/-- The mean of n copies of one real number, computed as zero plus their sum times 1 / n, is the number. -/
theorem mean_const (c : EReal) (hc : IsReal c) (n : ℕ) (d : ℝ) (hd : (n : ℝ) = d) (hn : n ≠ 0) :
    (0 + ∑ _i : Fin n, c) * (((1 / d) : ℝ) : EReal) = c := by
  obtain ⟨r, rfl⟩ := hc
  subst hd
  rw [zero_add, ← coe_sum Finset.univ fun _ => r, Finset.sum_const, Finset.card_univ, Fintype.card_fin, nsmul_eq_mul,
    ← EReal.coe_mul]
  congr 1
  have : (n : ℝ) ≠ 0 := by exact_mod_cast hn
  field_simp

/-- A sum over N columns of which only the first m count is the sum over those m columns. -/
theorem sum_mask {M : Type*} [AddCommMonoid M] (m N : ℕ) (h : m ≤ N) (f : Fin N → M) :
    ∑ n : Fin N, (if n.val < m then f n else 0) = ∑ n : Fin m, f (Fin.castLE h n) := by
  rw [← Finset.sum_filter]
  refine (Finset.sum_bij (fun (n : Fin m) _ => Fin.castLE h n) ?_ ?_ ?_ ?_).symm
  · intro n _
    exact Finset.mem_filter.mpr ⟨Finset.mem_univ _, n.isLt⟩
  · intro a _ b _ hab
    exact Fin.ext (by simpa using congrArg Fin.val hab)
  · intro x hx
    exact ⟨⟨x.val, (Finset.mem_filter.mp hx).2⟩, Finset.mem_univ _, Fin.ext rfl⟩
  · intro n _; rfl

end Cert.ERealSums

end
-- ==== Proof.RefLayer1.lean ====
/-
  The first graph-convolution layer of the reference, one entry at a time.

  Row r of the 40000 repeated feature rows is row r / 10000 of x.  The gather takes, for position e of the source row,
  the feature row of a node of copy e / 320000, that is row e / 320000 of x.  The segment sum adds these rows at the
  rows the target positions name: a row of copies 0 and 1 receives nothing and stays zero; node n of copy 2 + c
  receives row c of x once for every occurrence of n in the edge list, which for real entries is the count times the
  row.  The layer's output max(agg W_rel + b + h W_root, 0) is then, on copies 0 and 1, max(b + x_b W_root, 0), and on
  node n of copy 2 + c, max((x_c W_rel) t(n) + b + x_(2+c) W_root, 0): the real factor t(n) moves out of the contraction
  because every entry is a real number.
-/
import proofs.«210354_g33337536152245_cont_8to1_b_1126_28_alg».proof.Proof.RefCount
import proofs.«210354_g33337536152245_cont_8to1_b_1126_28_alg».proof.Proof.LibRowGatherScatter
import proofs.«210354_g33337536152245_cont_8to1_b_1126_28_alg».proof.Proof.LibERealSums

noncomputable section

open scoped BigOperators

namespace Cert.ReferenceIdeal.RefValue

open Cert.ReferenceIdeal Cert.ReferenceIdeal.Gen Cert.ReferenceIdeal.Read Idealize.ShloMosaic Idealize.ShloMosaic.ValueIdx

open Cert.GraphHead Cert.ERealSums

section
variable (x0 : (⟨S4x128, .f32⟩ : BufTy).Contents (Elt Ideal)) (x1 : (⟨S2x160000, .i32⟩ : BufTy).Contents (Elt Ideal))
  (x2 x3 : (⟨S128x64, .f32⟩ : BufTy).Contents (Elt Ideal)) (x4 : (⟨S64, .f32⟩ : BufTy).Contents (Elt Ideal))

/-- The repeated feature rows: row r of the 40000 is row r / 10000 of x. -/
theorem xrep_apply (r : Fin 40000) (k : Fin 128) :
    val_main_v2 (F := Ideal) x0 (ix2 r k) = x0 (ix2 (⟨r.val / 10000, by omega⟩ : Fin 4) k) := by
  rw [val_main_v2_apply, val_main_v1_apply, val_main_v0_apply]
  congr 1
  funext a; refine Fin.ext ?_
  match a with
  | ⟨0, _⟩ => show (r.val * 128 + k.val) / 1280000 = r.val / 10000; omega
  | ⟨1, _⟩ => show (r.val * 128 + k.val) % 128 = k.val; omega

/-- The first gather: position e of the source row takes row e / 320000 of x. -/
theorem gather1_apply (hrange : ∀ i, (x1 i).toNat ≤ 9999) (e : Fin 640000) (k : Fin 128) :
    val_main_v22 (F := Ideal) x0 x1 (ix2 e k) = x0 (ix2 (⟨e.val / 320000, by omega⟩ : Fin 4) k) := by
  unfold val_main_v22
  have hd : gather_S40000x128_S640000x1_S640000x128_1_0_n_n_0_1_1128
      = Cert.RowOps.rowGatherDims 40000 128 640000 gather_S40000x128_S640000x1_S640000x128_1_0_n_n_0_1_1128_wf := rfl
  have hv := hrange (edgeAt e)
  have he := e.isLt
  have hrow : ((⟨(x1 (edgeAt e)).toNat + e.val / 320000 * 10000, by omega⟩ : Fin 40000) : Nat)
      = min (val_main_v21 (F := Ideal) x1 (ix2 e (⟨0, Nat.one_pos⟩ : Fin 1))).toInt.toNat (40000 - 1) := by
    rw [src_index1 x1 hrange e, shifted_toInt _ hv _ (by omega)]
    show (x1 (edgeAt e)).toNat + e.val / 320000 * 10000 = _
    omega
  have hg := Cert.RowOps.rowGather_apply_of_eq (N := 40000) (D := 128) (E := 640000) (by norm_num : (0 : ℕ) < 40000)
    gather_S40000x128_S640000x1_S640000x128_1_0_n_n_0_1_1128_wf (val_main_v2 (F := Ideal) x0) (val_main_v21 (F := Ideal) x1) e k _ hrow
  rw [hd, hg, xrep_apply]
  congr 2
  refine Fin.ext ?_
  show ((x1 (edgeAt e)).toNat + e.val / 320000 * 10000) / 10000 = e.val / 320000
  omega

/-- The first segment sum at entry (r, k): the sum, over the target positions naming row r, of entry k of the
    row of x that position's source carries. -/
theorem agg1_apply (hrange : ∀ i, (x1 i).toNat ≤ 9999) (r : Fin 40000) (k : Fin 128) :
    val_main_v25 (F := Ideal) x0 x1 (ix2 r k)
      = ∑ e ∈ landing x1 r, x0 (ix2 (⟨e.val / 320000, by omega⟩ : Fin 4) k) := by
  have hd : val_main_v25 (F := Ideal) x0 x1
      = Ideal.hostScatterAdd (Cert.RowOps.rowScatterDims 40000 128 640000 scatter_S40000x128_S640000x1_S640000x128_1_0_0_1_wf)
          (val_main_v23 (F := Ideal)) (val_main_v24 (F := Ideal) x1) (val_main_v22 (F := Ideal) x0 x1) := rfl
  have hs := Cert.RowOps.rowScatterAdd_apply_of_eq (N := 40000) (D := 128) (E := 640000) scatter_S40000x128_S640000x1_S640000x128_1_0_0_1_wf
    (val_main_v23 (F := Ideal)) (val_main_v24 (F := Ideal) x1) (val_main_v22 (F := Ideal) x0 x1) r k
    (fun e => (x1 (edgeAt e) + BitVec.ofNat 32 (2 + e.val / 320000) * 10000#32).toInt) (fun e => by rw [dst_index1])
  rw [hd, hs, val_main_v23_apply, val_main_cst_apply, Ideal.ofBits_def,
    Ideal.ofBits_zero_f32, zero_add]
  unfold landing
  exact Finset.sum_congr rfl fun e _ => gather1_apply x0 x1 hrange e k

/-- A row of copies 0 and 1 receives nothing. -/
theorem agg1_near (hrange : ∀ i, (x1 i).toNat ≤ 9999) (r : Fin 40000) (hr : r.val < 20000) (k : Fin 128) :
    val_main_v25 (F := Ideal) x0 x1 (ix2 r k) = 0 := by
  rw [agg1_apply x0 x1 hrange, landing_near x1 hrange r hr, Finset.sum_empty]

/-- Node n of copy 2 + c receives row c of x once per occurrence of n in the edge list. -/
theorem agg1_far (h0 : ∀ i, ∃ v : ℝ, x0 i = (v : EReal)) (hrange : ∀ i, (x1 i).toNat ≤ 9999)
    (c : Fin 2) (n : Fin 10000) (r : Fin 40000) (hr : r.val = (2 + c.val) * 10000 + n.val) (n' : Fin 10240) (hn' : n'.val = n.val)
    (k : Fin 128) :
    val_main_v25 (F := Ideal) x0 x1 (ix2 r k)
      = ((degree x1 n' : ℕ) : EReal) * x0 (ix2 (⟨c.val, by omega⟩ : Fin 4) k) := by
  rw [agg1_apply x0 x1 hrange, ← card_landing_far x1 hrange c n r hr n' hn', ← sum_const_real _ _ (h0 _)]
  refine Finset.sum_congr rfl fun e he => ?_
  have hq := landing_far_copy x1 hrange c n r hr e he
  congr 2
  exact Fin.ext hq

/-- The first layer at entry (r, j), before anything is known about row r: max(agg W_rel + b + h W_root, 0). -/
theorem layer1_apply (r : Fin 40000) (j : Fin 64) :
    val_main_v32 (F := Ideal) x0 x1 x2 x3 x4 (ix2 r j)
      = max ((∑ k : Fin 128, val_main_v25 (F := Ideal) x0 x1 (ix2 r k) * x2 (ix2 k j)) + x4 (ix1 j)
          + ∑ k : Fin 128, val_main_v2 (F := Ideal) x0 (ix2 r k) * x3 (ix2 k j)) 0 := by
  have hl26 : ∀ k : Fin 128, lidx_main_v26 (ix2 r j) k = ix2 r k := fun k => by
    funext a; match a with | ⟨0, _⟩ => rfl | ⟨1, _⟩ => rfl
  have hr26 : ∀ k : Fin 128, ridx_main_v26 (ix2 r j) k = ix2 k j := fun k => by
    funext a; match a with | ⟨0, _⟩ => rfl | ⟨1, _⟩ => rfl
  have hl30 : ∀ k : Fin 128, lidx_main_v30 (ix2 r j) k = ix2 r k := fun k => by
    funext a; match a with | ⟨0, _⟩ => rfl | ⟨1, _⟩ => rfl
  have hr30 : ∀ k : Fin 128, ridx_main_v30 (ix2 r j) k = ix2 k j := fun k => by
    funext a; match a with | ⟨0, _⟩ => rfl | ⟨1, _⟩ => rfl
  have hb : idx_main_v27 (idx_main_v28 (ix2 r j)) = ix1 j := by
    funext a; match a with | ⟨0, _⟩ => rfl
  rw [val_main_v32_apply, val_main_v31_apply, val_main_v29_apply, val_main_v26_apply, val_main_v28_apply, val_main_v27_apply,
    val_main_v30_apply, val_main_call0_v0_apply, val_main_call0_cst_apply, hb]
  simp only [hl26, hr26, hl30, hr30, Ideal.maximumf_def, Ideal.addf_def, Ideal.ofBits_def, Ideal.ofBits_zero_f32]

/-- On a node of copies 0 and 1 the first layer gives max(b + x_b W_root, 0). -/
theorem hidden1_near (hrange : ∀ i, (x1 i).toNat ≤ 9999) (b : Fin 4) (hb : b.val < 2) (n : Fin 10000) (r : Fin 40000)
    (hr : r.val = b.val * 10000 + n.val) (j : Fin 64) :
    val_main_v32 (F := Ideal) x0 x1 x2 x3 x4 (ix2 r j) = rootAct x0 x3 (fun j => x4 (ix1 j)) j b := by
  have hr' : r.val < 20000 := by have := n.isLt; omega
  have hrow : (⟨r.val / 10000, by omega⟩ : Fin 4) = b := Fin.ext (by show r.val / 10000 = b.val; omega)
  rw [layer1_apply]
  have hagg := agg1_near x0 x1 hrange r hr'
  simp only [hagg, xrep_apply, hrow, zero_mul, Finset.sum_const_zero, zero_add]
  unfold rootAct rootPre
  congr 2
  exact Finset.sum_congr rfl fun k _ => mul_comm _ _

/-- On node n of copy 2 + c the first layer gives max((x_c W_rel) t(n) + b + x_(2+c) W_root, 0). -/
theorem hidden1_far (h0 : ∀ i, ∃ v : ℝ, x0 i = (v : EReal)) (h2 : ∀ i, ∃ v : ℝ, x2 i = (v : EReal))
    (hrange : ∀ i, (x1 i).toNat ≤ 9999) (c : Fin 2) (b : Fin 4) (hb : b.val = 2 + c.val) (n : Fin 10000) (r : Fin 40000)
    (hr : r.val = b.val * 10000 + n.val) (n' : Fin 10240) (hn' : n'.val = n.val) (j : Fin 64) :
    val_main_v32 (F := Ideal) x0 x1 x2 x3 x4 (ix2 r j)
      = hidden1 x0 (fun n => ((degree x1 n : ℕ) : EReal)) x2 x3 (fun j => x4 (ix1 j)) (⟨c.val, by omega⟩ : Fin 4) b j n' := by
  have hr' : r.val = (2 + c.val) * 10000 + n.val := by rw [hr, hb]
  have hrow : (⟨r.val / 10000, by omega⟩ : Fin 4) = b := Fin.ext (by show r.val / 10000 = b.val; omega)
  rw [layer1_apply]
  have hagg := agg1_far x0 x1 h0 hrange c n r hr' n' hn'
  simp only [hagg, xrep_apply, hrow]
  rw [sum_scaled _ _ _ (isReal_natCast _) (fun k => h0 _) (fun k => h2 _)]
  unfold hidden1 relProj rootPre
  rw [add_assoc]
  congr 3
  exact Finset.sum_congr rfl fun k _ => mul_comm _ _

end

end Cert.ReferenceIdeal.RefValue

end
-- ==== Proof.RefLayer2.lean ====
/-
  The second graph-convolution layer of the reference, one entry at a time.

  Every source lies in copies 0 and 1, where the first layer's output is the node-independent row max(b + x_c W_root, 0);
  the second gather therefore takes, for position e of the source row, that row for c = e / 320000.  The segment sum
  gives a row of copies 0 and 1 nothing and node n of copy 2 + c the row of copy c once per occurrence of n in the
  edge list, for real entries the count times the row.  The layer's output is then, on copies 0 and 1, the
  node-independent row max(b2 + act_b W2_root, 0), and on node n of copy 2 + c,
  max((act_c W2_rel) t(n) + b2 + hidden1(n) W2_root, 0).
-/
import proofs.«210354_g33337536152245_cont_8to1_b_1126_28_alg».proof.Proof.RefLayer1

noncomputable section

open scoped BigOperators

namespace Cert.ReferenceIdeal.RefValue

open Cert.ReferenceIdeal Cert.ReferenceIdeal.Gen Cert.ReferenceIdeal.Read Idealize.ShloMosaic Idealize.ShloMosaic.ValueIdx

open Cert.GraphHead Cert.ERealSums

section
variable (x0 : (⟨S4x128, .f32⟩ : BufTy).Contents (Elt Ideal)) (x1 : (⟨S2x160000, .i32⟩ : BufTy).Contents (Elt Ideal))
  (x2 x3 : (⟨S128x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))

/-- The first layer's row on a node that receives no edge is a real number when the inputs are. -/
theorem isReal_rootAct (h0 : ∀ i, ∃ v : ℝ, x0 i = (v : EReal)) (h3 : ∀ i, ∃ v : ℝ, x3 i = (v : EReal))
    (h4 : ∀ i, ∃ v : ℝ, x4 i = (v : EReal)) (j : Fin 64) (b : Fin 4) :
    IsReal (rootAct x0 x3 (fun j => x4 (ix1 j)) j b) := by
  unfold rootAct rootPre
  exact ((show IsReal (x4 (ix1 j)) from h4 _).add (IsReal.sum _ _ fun k _ => (show IsReal _ from h3 _).mul (h0 _))).max isReal_zero

/-- The second gather: position e of the source row takes the first layer's row of copy e / 320000. -/
theorem gather2_apply (hrange : ∀ i, (x1 i).toNat ≤ 9999) (e : Fin 640000) (j : Fin 64) :
    val_main_v39 (F := Ideal) x0 x1 x2 x3 x4 (ix2 e j)
      = rootAct x0 x3 (fun j => x4 (ix1 j)) j (⟨e.val / 320000, by omega⟩ : Fin 4) := by
  unfold val_main_v39
  have hd : gather_S40000x64_S640000x1_S640000x64_1_0_n_n_0_1_164
      = Cert.RowOps.rowGatherDims 40000 64 640000 gather_S40000x64_S640000x1_S640000x64_1_0_n_n_0_1_164_wf := rfl
  have hv := hrange (edgeAt e)
  have he := e.isLt
  have hrow : ((⟨e.val / 320000 * 10000 + (x1 (edgeAt e)).toNat, by omega⟩ : Fin 40000) : Nat)
      = min (val_main_v38 (F := Ideal) x1 (ix2 e (⟨0, Nat.one_pos⟩ : Fin 1))).toInt.toNat (40000 - 1) := by
    rw [src_index2 x1 hrange e, shifted_toInt _ hv _ (by omega)]
    show e.val / 320000 * 10000 + (x1 (edgeAt e)).toNat = _
    omega
  have hg := Cert.RowOps.rowGather_apply_of_eq (N := 40000) (D := 64) (E := 640000) (by norm_num : (0 : ℕ) < 40000)
    gather_S40000x64_S640000x1_S640000x64_1_0_n_n_0_1_164_wf (val_main_v32 (F := Ideal) x0 x1 x2 x3 x4) (val_main_v38 (F := Ideal) x1) e j _ hrow
  rw [hd, hg]
  exact hidden1_near x0 x1 x2 x3 x4 hrange (⟨e.val / 320000, by omega⟩ : Fin 4) (by show e.val / 320000 < 2; omega)
    (⟨(x1 (edgeAt e)).toNat, by omega⟩ : Fin 10000) _ rfl j

/-- The second segment sum at entry (r, j): the sum, over the target positions naming row r, of entry j of the first
    layer's row of the copy that position's source lies in. -/
theorem agg2_apply (hrange : ∀ i, (x1 i).toNat ≤ 9999) (r : Fin 40000) (j : Fin 64) :
    val_main_v42 (F := Ideal) x0 x1 x2 x3 x4 (ix2 r j)
      = ∑ e ∈ landing x1 r, rootAct x0 x3 (fun j => x4 (ix1 j)) j (⟨e.val / 320000, by omega⟩ : Fin 4) := by
  have hd : val_main_v42 (F := Ideal) x0 x1 x2 x3 x4
      = Ideal.hostScatterAdd (Cert.RowOps.rowScatterDims 40000 64 640000 scatter_S40000x64_S640000x1_S640000x64_1_0_0_1_wf)
          (val_main_v40 (F := Ideal)) (val_main_v41 (F := Ideal) x1) (val_main_v39 (F := Ideal) x0 x1 x2 x3 x4) := rfl
  have hs := Cert.RowOps.rowScatterAdd_apply_of_eq (N := 40000) (D := 64) (E := 640000) scatter_S40000x64_S640000x1_S640000x64_1_0_0_1_wf
    (val_main_v40 (F := Ideal)) (val_main_v41 (F := Ideal) x1) (val_main_v39 (F := Ideal) x0 x1 x2 x3 x4) r j
    (fun e => (x1 (edgeAt e) + BitVec.ofNat 32 (2 + e.val / 320000) * 10000#32).toInt) (fun e => by rw [dst_index2])
  rw [hd, hs, val_main_v40_apply, val_main_cst_4_apply, Ideal.ofBits_def,
    Ideal.ofBits_zero_f32, zero_add]
  unfold landing
  exact Finset.sum_congr rfl fun e _ => gather2_apply x0 x1 x2 x3 x4 hrange e j

/-- A row of copies 0 and 1 receives nothing. -/
theorem agg2_near (hrange : ∀ i, (x1 i).toNat ≤ 9999) (r : Fin 40000) (hr : r.val < 20000) (j : Fin 64) :
    val_main_v42 (F := Ideal) x0 x1 x2 x3 x4 (ix2 r j) = 0 := by
  rw [agg2_apply x0 x1 x2 x3 x4 hrange, landing_near x1 hrange r hr, Finset.sum_empty]

/-- Node n of copy 2 + c receives the first layer's row of copy c once per occurrence of n in the edge list. -/
theorem agg2_far (h0 : ∀ i, ∃ v : ℝ, x0 i = (v : EReal)) (h3 : ∀ i, ∃ v : ℝ, x3 i = (v : EReal))
    (h4 : ∀ i, ∃ v : ℝ, x4 i = (v : EReal)) (hrange : ∀ i, (x1 i).toNat ≤ 9999)
    (c : Fin 2) (n : Fin 10000) (r : Fin 40000) (hr : r.val = (2 + c.val) * 10000 + n.val) (n' : Fin 10240) (hn' : n'.val = n.val)
    (j : Fin 64) :
    val_main_v42 (F := Ideal) x0 x1 x2 x3 x4 (ix2 r j)
      = ((degree x1 n' : ℕ) : EReal) * rootAct x0 x3 (fun j => x4 (ix1 j)) j (⟨c.val, by omega⟩ : Fin 4) := by
  rw [agg2_apply x0 x1 x2 x3 x4 hrange, ← card_landing_far x1 hrange c n r hr n' hn',
    ← sum_const_real _ _ (isReal_rootAct x0 x3 x4 h0 h3 h4 j _)]
  refine Finset.sum_congr rfl fun e he => ?_
  have hq := landing_far_copy x1 hrange c n r hr e he
  congr 1
  exact Fin.ext hq

/-- The second layer at entry (r, j), before anything is known about row r: max(agg W_rel + b + h W_root, 0). -/
theorem layer2_apply (r : Fin 40000) (j : Fin 64) :
    val_main_v49 (F := Ideal) x0 x1 x2 x3 x4 x5 x6 x7 (ix2 r j)
      = max ((∑ k : Fin 64, val_main_v42 (F := Ideal) x0 x1 x2 x3 x4 (ix2 r k) * x5 (ix2 k j)) + x7 (ix1 j)
          + ∑ k : Fin 64, val_main_v32 (F := Ideal) x0 x1 x2 x3 x4 (ix2 r k) * x6 (ix2 k j)) 0 := by
  have hl43 : ∀ k : Fin 64, lidx_main_v43 (ix2 r j) k = ix2 r k := fun k => by
    funext a; match a with | ⟨0, _⟩ => rfl | ⟨1, _⟩ => rfl
  have hr43 : ∀ k : Fin 64, ridx_main_v43 (ix2 r j) k = ix2 k j := fun k => by
    funext a; match a with | ⟨0, _⟩ => rfl | ⟨1, _⟩ => rfl
  have hl47 : ∀ k : Fin 64, lidx_main_v47 (ix2 r j) k = ix2 r k := fun k => by
    funext a; match a with | ⟨0, _⟩ => rfl | ⟨1, _⟩ => rfl
  have hr47 : ∀ k : Fin 64, ridx_main_v47 (ix2 r j) k = ix2 k j := fun k => by
    funext a; match a with | ⟨0, _⟩ => rfl | ⟨1, _⟩ => rfl
  have hb : idx_main_v44 (idx_main_v45 (ix2 r j)) = ix1 j := by
    funext a; match a with | ⟨0, _⟩ => rfl
  rw [val_main_v49_apply, val_main_v48_apply, val_main_v46_apply, val_main_v43_apply, val_main_v45_apply, val_main_v44_apply,
    val_main_v47_apply, val_main_call1_v0_apply, val_main_call1_cst_apply, hb]
  simp only [hl43, hr43, hl47, hr47, Ideal.maximumf_def, Ideal.addf_def, Ideal.ofBits_def, Ideal.ofBits_zero_f32]

/-- On a node of copies 0 and 1 the second layer gives the node-independent row max(b2 + act_b W2_root, 0). -/
theorem hidden2_near (hrange : ∀ i, (x1 i).toNat ≤ 9999) (b : Fin 4) (hb : b.val < 2) (n : Fin 10000) (r : Fin 40000)
    (hr : r.val = b.val * 10000 + n.val) (j : Fin 64) :
    val_main_v49 (F := Ideal) x0 x1 x2 x3 x4 x5 x6 x7 (ix2 r j)
      = pooledNear x0 x3 (fun j => x4 (ix1 j)) x6 (fun j => x7 (ix1 j)) j b := by
  rw [layer2_apply]
  have hr' : r.val < 20000 := by have := n.isLt; omega
  have hagg := agg2_near x0 x1 x2 x3 x4 hrange r hr'
  have hh := hidden1_near x0 x1 x2 x3 x4 hrange b hb n r hr
  simp only [hagg, hh, zero_mul, Finset.sum_const_zero, zero_add]
  unfold pooledNear
  congr 2
  exact Finset.sum_congr rfl fun k _ => mul_comm _ _

/-- On node n of copy 2 + c the second layer gives max((act_c W2_rel) t(n) + b2 + hidden1(n) W2_root, 0). -/
theorem hidden2_far (h0 : ∀ i, ∃ v : ℝ, x0 i = (v : EReal)) (h2 : ∀ i, ∃ v : ℝ, x2 i = (v : EReal))
    (h3 : ∀ i, ∃ v : ℝ, x3 i = (v : EReal)) (h4 : ∀ i, ∃ v : ℝ, x4 i = (v : EReal)) (h5 : ∀ i, ∃ v : ℝ, x5 i = (v : EReal))
    (hrange : ∀ i, (x1 i).toNat ≤ 9999) (c : Fin 2) (b : Fin 4) (hb : b.val = 2 + c.val) (n : Fin 10000) (r : Fin 40000)
    (hr : r.val = b.val * 10000 + n.val) (n' : Fin 10240) (hn' : n'.val = n.val) (j : Fin 64) :
    val_main_v49 (F := Ideal) x0 x1 x2 x3 x4 x5 x6 x7 (ix2 r j)
      = hidden2 x0 (fun n => ((degree x1 n : ℕ) : EReal)) x2 x3 (fun j => x4 (ix1 j)) x5 x6 (fun j => x7 (ix1 j))
          (⟨c.val, by omega⟩ : Fin 4) b j n' := by
  rw [layer2_apply]
  have hr' : r.val = (2 + c.val) * 10000 + n.val := by rw [hr, hb]
  have hagg := agg2_far x0 x1 x2 x3 x4 h0 h3 h4 hrange c n r hr' n' hn'
  have hh := hidden1_far x0 x1 x2 x3 x4 h0 h2 hrange c b hb n r hr n' hn'
  simp only [hagg, hh]
  rw [sum_scaled _ _ _ (isReal_natCast _) (fun k => isReal_rootAct x0 x3 x4 h0 h3 h4 k _) (fun k => h5 _)]
  unfold hidden2 relProj2
  congr 2
  exact Finset.sum_congr rfl fun k _ => mul_comm _ _

end

end Cert.ReferenceIdeal.RefValue

end
-- ==== Proof.RefPool.lean ====
/-
  The mean over the nodes of each copy, and the read-out.

  The second layer's 40000 rows are re-read as [4, 10000, 64]: entry (b, n, j) is row 10000 b + n.  The sum over the
  10000 nodes of a copy starts from zero, and the quotient by the literal 10000 is the product with 1 / 10000.  On
  copies 0 and 1 every node carries the same real row, so the mean is that row.  On copies 2 and 3 the mean is the sum
  over the nodes times 1 / 10000, and that sum is the sum over 10240 columns of the entries times the mask that is
  one on the first 10000 columns and zero on the rest (anything times zero is zero).  The read-out is the pooled
  features through the last weights plus the last bias.
-/
import proofs.«210354_g33337536152245_cont_8to1_b_1126_28_alg».proof.Proof.RefLayer2

noncomputable section

open scoped BigOperators

namespace Cert.ReferenceIdeal.RefValue

open Cert.ReferenceIdeal Cert.ReferenceIdeal.Gen Cert.ReferenceIdeal.Read Idealize.ShloMosaic Idealize.ShloMosaic.ValueIdx

open Cert.GraphHead Cert.ERealSums

/-- The float word 0x461C4000 is the real number 10000. -/
theorem ofBits_tenThousand : Ideal.ofBits .f32 0x461C4000#32 = ((10000 : ℝ) : EReal) := by
  simp [Ideal.ofBits, Ideal.ieee, -EReal.coe_mul]; norm_num

section
variable (x0 : (⟨S4x128, .f32⟩ : BufTy).Contents (Elt Ideal)) (x1 : (⟨S2x160000, .i32⟩ : BufTy).Contents (Elt Ideal))
  (x2 x3 : (⟨S128x64, .f32⟩ : BufTy).Contents (Elt Ideal)) (x4 : (⟨S64, .f32⟩ : BufTy).Contents (Elt Ideal))
  (x5 x6 : (⟨S64x64, .f32⟩ : BufTy).Contents (Elt Ideal)) (x7 : (⟨S64, .f32⟩ : BufTy).Contents (Elt Ideal))

/-- The mean over the nodes of copy b at feature j: zero plus the sum over the 10000 nodes of the second layer's
    entry on row 10000 b + n, times 1 / 10000. -/
theorem mean_apply (b : Fin 4) (j : Fin 64) :
    val_main_v53 (F := Ideal) x0 x1 x2 x3 x4 x5 x6 x7 (ix2 b j)
      = (0 + ∑ n : Fin 10000, val_main_v49 (F := Ideal) x0 x1 x2 x3 x4 x5 x6 x7
            (ix2 (⟨b.val * 10000 + n.val, by omega⟩ : Fin 40000) j)) * ((1 / 10000 : ℝ) : EReal) := by
  have h51 : ∀ n : Fin 10000, idx_main_v51 (ix2 b j) n = ix3 b n j := fun n => by
    funext a; match a with | ⟨0, _⟩ => rfl | ⟨1, _⟩ => rfl | ⟨2, _⟩ => rfl
  have h50 : ∀ n : Fin 10000, idx_main_v50 (ix3 b n j) = ix2 (⟨b.val * 10000 + n.val, by omega⟩ : Fin 40000) j := fun n => by
    funext a; refine Fin.ext ?_
    match a with
    | ⟨0, _⟩ => show ((b.val * 10000 + n.val) * 64 + j.val) / 64 = b.val * 10000 + n.val; omega
    | ⟨1, _⟩ => show ((b.val * 10000 + n.val) * 64 + j.val) % 64 = j.val; omega
  rw [val_main_v53_apply, val_main_v51_apply, val_main_v52_apply, val_main_cst_6_apply, val_main_cst_5_apply]
  simp only [h51, val_main_v50_apply, h50, Ideal.hostDivf_def, Ideal.ofBits_def, Ideal.ofBits_zero_f32, ofBits_tenThousand]
  exact Ideal.div_coe (by norm_num) _

/-- The second layer's node-independent row on copies 0 and 1 is a real number when the inputs are. -/
theorem isReal_pooledNear (h0 : ∀ i, ∃ v : ℝ, x0 i = (v : EReal)) (h3 : ∀ i, ∃ v : ℝ, x3 i = (v : EReal))
    (h4 : ∀ i, ∃ v : ℝ, x4 i = (v : EReal)) (h6 : ∀ i, ∃ v : ℝ, x6 i = (v : EReal)) (h7 : ∀ i, ∃ v : ℝ, x7 i = (v : EReal))
    (j : Fin 64) (b : Fin 4) : IsReal (pooledNear x0 x3 (fun j => x4 (ix1 j)) x6 (fun j => x7 (ix1 j)) j b) := by
  unfold pooledNear
  exact ((show IsReal (x7 (ix1 j)) from h7 _).add (IsReal.sum _ _ fun k _ =>
    (show IsReal _ from h6 _).mul (isReal_rootAct x0 x3 x4 h0 h3 h4 k b))).max isReal_zero

/-- The pooled feature j of copy b is the closed form's. -/
theorem pooled_apply (h0 : ∀ i, ∃ v : ℝ, x0 i = (v : EReal)) (h2 : ∀ i, ∃ v : ℝ, x2 i = (v : EReal))
    (h3 : ∀ i, ∃ v : ℝ, x3 i = (v : EReal)) (h4 : ∀ i, ∃ v : ℝ, x4 i = (v : EReal)) (h5 : ∀ i, ∃ v : ℝ, x5 i = (v : EReal))
    (h6 : ∀ i, ∃ v : ℝ, x6 i = (v : EReal)) (h7 : ∀ i, ∃ v : ℝ, x7 i = (v : EReal))
    (hrange : ∀ i, (x1 i).toNat ≤ 9999) (b : Fin 4) (j : Fin 64) :
    val_main_v53 (F := Ideal) x0 x1 x2 x3 x4 x5 x6 x7 (ix2 b j)
      = pooled x0 (fun n => ((degree x1 n : ℕ) : EReal)) x2 x3 (fun j => x4 (ix1 j)) x5 x6 (fun j => x7 (ix1 j)) j b := by
  rw [mean_apply]
  unfold pooled
  by_cases hb : b.val < 2
  · rw [if_pos hb]
    have hrow : ∀ n : Fin 10000, val_main_v49 (F := Ideal) x0 x1 x2 x3 x4 x5 x6 x7
        (ix2 (⟨b.val * 10000 + n.val, by omega⟩ : Fin 40000) j)
          = pooledNear x0 x3 (fun j => x4 (ix1 j)) x6 (fun j => x7 (ix1 j)) j b :=
      fun n => hidden2_near x0 x1 x2 x3 x4 x5 x6 x7 hrange b hb n _ rfl j
    simp only [hrow]
    exact mean_const _ (isReal_pooledNear x0 x3 x4 x6 x7 h0 h3 h4 h6 h7 j b) 10000 10000 (by norm_num) (by norm_num)
  · rw [if_neg hb]
    have hb4 := b.isLt
    obtain ⟨c, hc⟩ : ∃ c : Fin 2, b.val = 2 + c.val := ⟨⟨b.val - 2, by omega⟩, by show b.val = 2 + (b.val - 2); omega⟩
    have hsrc : (if b.val = 2 then (0 : Fin 4) else 1) = (⟨c.val, by omega⟩ : Fin 4) := by
      refine Fin.ext ?_
      by_cases h2' : b.val = 2
      · rw [if_pos h2']; show 0 = c.val; omega
      · rw [if_neg h2']; show 1 = c.val; have := c.isLt; omega
    rw [hsrc]
    unfold pooledFar
    rw [zero_add]
    refine congrArg (fun s : EReal => s * ((1 / 10000 : ℝ) : EReal)) ?_
    have hmask : ∀ n : Fin 10240,
        hidden2 x0 (fun n => ((degree x1 n : ℕ) : EReal)) x2 x3 (fun j => x4 (ix1 j)) x5 x6 (fun j => x7 (ix1 j))
            (⟨c.val, by omega⟩ : Fin 4) b j n * nodeMask n
          = if n.val < 10000 then
              hidden2 x0 (fun n => ((degree x1 n : ℕ) : EReal)) x2 x3 (fun j => x4 (ix1 j)) x5 x6 (fun j => x7 (ix1 j))
                (⟨c.val, by omega⟩ : Fin 4) b j n
            else 0 := fun n => by
      unfold nodeMask
      by_cases hn : n.val < 10000
      · rw [if_pos hn, if_pos hn, mul_one]
      · rw [if_neg hn, if_neg hn, mul_zero]
    simp only [hmask]
    rw [sum_mask 10000 10240 (by norm_num)]
    exact Finset.sum_congr rfl fun n _ =>
      hidden2_far x0 x1 x2 x3 x4 x5 x6 x7 h0 h2 h3 h4 h5 hrange c b hc n _ rfl (Fin.castLE (by norm_num) n) rfl j

end

end Cert.ReferenceIdeal.RefValue

end
-- ==== Proof.RefValue.lean ====
/-
  The reference's result is the closed form.

  The read-out is the pooled features through the last weights plus the last bias; with the pooled features identified
  entry by entry, the reference's result at (b, o) is the closed form's.
-/
import proofs.«210354_g33337536152245_cont_8to1_b_1126_28_alg».proof.Proof.RefPool

noncomputable section

open scoped BigOperators

namespace Cert.ReferenceIdeal.RefValue

open Cert.ReferenceIdeal Cert.ReferenceIdeal.Gen Cert.ReferenceIdeal.Read Idealize.ShloMosaic Idealize.ShloMosaic.ValueIdx

open Cert.GraphHead Cert.ERealSums

/-- The reference's result, entry by entry, is the closed form over the occurrence counts of the edge list. -/
theorem reference_apply
    (x0 : (⟨S4x128, .f32⟩ : BufTy).Contents (Elt Ideal)) (x1 : (⟨S2x160000, .i32⟩ : BufTy).Contents (Elt Ideal)) (x2 x3 : (⟨S128x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 : (⟨S64x2, .f32⟩ : BufTy).Contents (Elt Ideal)) (x9 : (⟨S2, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) (h4 : ∀ i, ∃ r : ℝ, x4 i = (r : EReal)) (h5 : ∀ i, ∃ r : ℝ, x5 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal))
    (hrange : ∀ i, (x1 i).toNat ≤ 9999)
    (b : Fin 4) (o : Fin 2) :
    Cert.ReferenceIdeal.Read.val_main_v57 (F := Ideal) x0 x1 x2 x3 x4 x5 x6 x7 x8 x9 (ix2 b o)
      = Cert.GraphHead.out x0 (fun n => ((Cert.GraphHead.degree x1 n : ℕ) : EReal)) x2 x3 (fun j => x4 (ix1 j)) x5 x6 (fun j => x7 (ix1 j)) x8 (fun o' => x9 (ix1 o')) b o := by
  have hl : ∀ k : Fin 64, lidx_main_v54 (ix2 b o) k = ix2 b k := fun k => by
    funext a; match a with | ⟨0, _⟩ => rfl | ⟨1, _⟩ => rfl
  have hr : ∀ k : Fin 64, ridx_main_v54 (ix2 b o) k = ix2 k o := fun k => by
    funext a; match a with | ⟨0, _⟩ => rfl | ⟨1, _⟩ => rfl
  have hb : idx_main_v55 (idx_main_v56 (ix2 b o)) = ix1 o := by
    funext a; match a with | ⟨0, _⟩ => rfl
  rw [val_main_v57_apply, val_main_v54_apply, val_main_v56_apply, val_main_v55_apply, hb]
  simp only [hl, hr, Ideal.addf_def, pooled_apply x0 x1 x2 x3 x4 x5 x6 x7 h0 h2 h3 h4 h5 h6 h7 hrange]
  rfl

end Cert.ReferenceIdeal.RefValue

end
-- ==== Proof.HistClaims.lean ====
/-
  The claims of the idealized side, assembled. The program's run — the launch theorem at the tile's obligation and @main's
  proof — ends on every device with the ten arguments unchanged and the result at the region body's stored value of the
  arguments and the two SparseCores' counts; entry by entry that value is the closed form over the counts' sum, the two
  counts add up to a node's number of occurrences in the edge list, and the reference's result is the same closed form.
  What is taken as a hypothesis here: the tile's obligation (from the proof of the kernel function's body at a tile) and
  the tile counts' value at the extended reals (a SparseCore's count of a node is the number of its occurrences in that
  SparseCore's columns).
-/
import proofs.«210354_g33337536152245_cont_8to1_b_1126_28_alg».proof.Defs
import proofs.«210354_g33337536152245_cont_8to1_b_1126_28_alg».proof.Proof.HistMain
import proofs.«210354_g33337536152245_cont_8to1_b_1126_28_alg».proof.Proof.HistLaunchRun
import proofs.«210354_g33337536152245_cont_8to1_b_1126_28_alg».proof.Proof.HistLaunchObl
import proofs.«210354_g33337536152245_cont_8to1_b_1126_28_alg».proof.Proof.HistPre
import proofs.«210354_g33337536152245_cont_8to1_b_1126_28_alg».proof.Proof.HeadOut
import proofs.«210354_g33337536152245_cont_8to1_b_1126_28_alg».proof.Proof.CountCores
import proofs.«210354_g33337536152245_cont_8to1_b_1126_28_alg».proof.Proof.RefValue
import proofs.«210354_g33337536152245_cont_8to1_b_1126_28_alg».proof.Proof.Gen.ReferenceIdeal
import proofs.«210354_g33337536152245_cont_8to1_b_1126_28_alg».proof.Proof.Gen.ReferenceIdeal.Run
import proofs.«210354_g33337536152245_cont_8to1_b_1126_28_alg».proof.Proof.Gen.ReferenceIdeal.Read
import proofs.«210354_g33337536152245_cont_8to1_b_1126_28_alg».proof.Proof.Gen.Pre_input_domain

noncomputable section

namespace Cert.KernelIdeal.Hist

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.Sem

/-! ## What is taken from the tile's side -/

/-- The tile's obligation of the launch theorem at the extended reals, at the shared scratch's and the counts' values,
    for a memory whose edge lists name nodes. -/
abbrev TileSide : Prop :=
  ∀ m : (ℓ : Loc nD τ sig) → Buf (Elt Ideal) ℓ, (∀ d, NodeWords (m (eiLoc d))) →
    (K (F := Ideal)).TileObl (D (F := Ideal)) 𝒱 (P (SHv (F := Ideal) m) m (CHv (F := Ideal) m)) v₀ 0

/-- A SparseCore's count of a node, at the extended reals, is the number of the node's occurrences in its columns. -/
abbrev CountSide : Prop :=
  ∀ (m : (ℓ : Loc nD τ sig) → Buf (Elt Ideal) ℓ) (d : Dev nD), NodeWords (m (eiLoc d)) → ∀ (c : Fin 2) (n : Fin 10240),
    CHv (F := Ideal) m d c n = ((Cert.GraphHead.coreCount (m (eiLoc d)) c n : ℕ) : EReal)

/-! ## The program's run -/

/-- Every weakly fair execution of the idealized program ends, on every device, with the result at its named value and the
    arguments unchanged. -/
theorem run_ideal (htile : TileSide) (m : (ℓ : Loc nD τ sig) → Buf (Elt Ideal) ℓ) (ρ : Dev nD → PrngReg) (hN : ∀ d, NodeWords (m (eiLoc d))) :
    θ_run (Cert.KernelIdeal.defs (F := Ideal)) (Cert.KernelIdeal.threads (F := Ideal)) ⟨m, fun _ => 0, ρ⟩
      (fun r => ∀ c : Dev nD,
        r.2.mem ((c.tc : Thread nD τ).loc main_v4) = OUT m (CHv (F := Ideal) m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  run_main (SHv (F := Ideal) m) m (CHv (F := Ideal) m) ρ (OUT m (CHv (F := Ideal) m)) (htile m hN) (G (F := Ideal)) uR hG
    (hmain (SHv (F := Ideal) m) m (CHv (F := Ideal) m) ρ)

/-! ## The result, entry by entry -/

/-- A bias vector's one-row matrix reads the vector. -/
theorem rowOf64_apply (b : Vec Ideal S64 .f32) (j : Fin 64) : rowOf64 b (ix2 (0 : Fin 1) j) = b (ix1 j) :=
  shapeCast_a_1a_apply b shapeCasts_S64_S1x64 0 j
theorem rowOf2_apply (b : Vec Ideal S2 .f32) (j : Fin 2) : rowOf2 b (ix2 (0 : Fin 1) j) = b (ix1 j) :=
  shapeCast_a_1a_apply b shapeCasts_S2_S1x2 0 j

/-- The named value is the stored value's closed form at the extended reals. -/
theorem headOutF_ideal (v0 : Vec Ideal S4x128 .f32) (v1 : Vec Ideal S64x64 .f32) (v2 v5 : Vec Ideal S1x64 .f32) (v8 v11 : Vec Ideal S128x64 .f32)
    (v18 : Vec Ideal S64x64 .f32) (v20 v22 : Vec Ideal S1x1x10240 .f32) (v86 : Vec Ideal S64x2 .f32) (v88 : Vec Ideal S1x2 .f32) :
    headOutF v0 v1 v2 v5 v8 v11 v18 v20 v22 v86 v88 = Cert.KernelIdeal.HeadValue.headOut v0 v1 v2 v5 v8 v11 v18 v20 v22 v86 v88 := rfl

/-- THE RESULT on device `d`, entry by entry: the closed form over the arguments' contents and the edge list's occurrence
    counts. -/
theorem OUT_apply (hcount : CountSide) (m : (ℓ : Loc nD τ sig) → Buf (Elt Ideal) ℓ) (d : Dev nD) (hN : NodeWords (m (eiLoc d))) (b : Fin 4) (o : Fin 2) :
    OUT m (CHv (F := Ideal) m) d (ix2 b o)
      = Cert.GraphHead.out (m ((SparseCore.T d).loc main_arg0)) (fun n => ((Cert.GraphHead.degree (m ((SparseCore.T d).loc main_arg1)) n : ℕ) : EReal)) (m ((SparseCore.T d).loc main_arg2)) (m ((SparseCore.T d).loc main_arg3))
          (fun j => (m ((SparseCore.T d).loc main_arg4)) (ix1 j)) (m ((SparseCore.T d).loc main_arg5)) (m ((SparseCore.T d).loc main_arg6)) (fun j => (m ((SparseCore.T d).loc main_arg7)) (ix1 j)) (m ((SparseCore.T d).loc main_arg8))
          (fun o' => (m ((SparseCore.T d).loc main_arg9)) (ix1 o')) b o := by
  unfold OUT
  rw [headOutF_ideal, Cert.KernelIdeal.HeadValue.headOut_apply]
  have ht : (fun n : Fin 10240 => countRow (CHv (F := Ideal) m) d 0 (ix3 (0 : Fin 1) (0 : Fin 1) n) + countRow (CHv (F := Ideal) m) d 1 (ix3 (0 : Fin 1) (0 : Fin 1) n))
      = fun n => ((Cert.GraphHead.degree (m ((SparseCore.T d).loc main_arg1)) n : ℕ) : EReal) := funext fun n => by
    show CHv (F := Ideal) m d 0 n + CHv (F := Ideal) m d 1 n = _
    rw [hcount m d hN 0 n, hcount m d hN 1 n, ← Nat.cast_add, Cert.GraphHead.coreCount_add]
  have hb1 : (fun j : Fin 64 => rowOf64 (m ((SparseCore.T d).loc main_arg4)) (ix2 (0 : Fin 1) j)) = fun j => (m ((SparseCore.T d).loc main_arg4)) (ix1 j) := funext fun j => rowOf64_apply _ j
  have hb2 : (fun j : Fin 64 => rowOf64 (m ((SparseCore.T d).loc main_arg7)) (ix2 (0 : Fin 1) j)) = fun j => (m ((SparseCore.T d).loc main_arg7)) (ix1 j) := funext fun j => rowOf64_apply _ j
  have hbc : (fun j : Fin 2 => rowOf2 (m ((SparseCore.T d).loc main_arg9)) (ix2 (0 : Fin 1) j)) = fun j => (m ((SparseCore.T d).loc main_arg9)) (ix1 j) := funext fun j => rowOf2_apply _ j
  rw [ht, hb1, hb2, hbc]

end Cert.KernelIdeal.Hist

/-! ## The claims -/

namespace Cert.Proof.HistClaims

open Idealize.ShloMosaic Idealize.ShloMosaic.TcCoe Idealize.ShloMosaic.ValueIdx Idealize.SL.Sem
open Cert.KernelIdeal.Hist

/-- The idealized program's frame: its run with the result dropped. -/
theorem frame_pi (htile : TileSide) : Cert.frame_KernelIdeal := fun m ρ hpre =>
  (θ_run Cert.KernelIdeal.defs _ _).mono (fun _ h c => (h c).2) (run_ideal htile m ρ (fun d => nodeWords_of_Pre m hpre d))

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the certificate's table gives `"inv_10000"` the value 1/10000. -/
theorem preserves : Cert.preserves_Kernel_KernelIdeal :=
  IdealRules.named_const.statement Cert.KernelIdeal.κ "inv_10000" .f32 0x38D1B717#32 ((1 / 10000 : ℝ) : EReal) rfl

/-- At the extended reals both programs end with the closed form of the arguments, entry by entry. -/
theorem algebraic (htile : TileSide) (hcount : CountSide) : Cert.algebraic_KernelIdeal_ReferenceIdeal := by
  intro m ρ m' ρ' hpre hagree
  have hN := fun d => nodeWords_of_Pre m hpre d
  refine ⟨fun c => OUT m (CHv (F := Ideal) m) c, run_ideal htile m ρ hN, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9⟩ := hagree c
  obtain ⟨r0, r2, r3, r4, r5, r6, r7, r8, r9⟩ := reals_of_Pre m hpre c
  rw [Cert.ReferenceIdeal.Read.val_main_v57_eq, e0, e1, e2, e3, e4, e5, e6, e7, e8, e9]
  funext j
  obtain ⟨b, o, rfl⟩ : ∃ (b : Fin 4) (o : Fin 2), j = ix2 b o := ⟨j 0, j 1, eq_ix2 j⟩
  rw [Cert.ReferenceIdeal.RefValue.reference_apply _ _ _ _ _ _ _ _ _ _ r0 r2 r3 r4 r5 r6 r7 r8 r9 (hN c) b o]
  exact (OUT_apply hcount m c (hN c) b o).symm

/-! The bit-exact program's frame, `Cert.frame_Kernel`, is the same run at the bit-exact values with the result dropped. -/

end Cert.Proof.HistClaims

end
-- ==== Proof.HistFacts.lean ====
/-
  Pure facts about what a tile's task computes (the terms of HistSteps.lean): lanes read out of node numbers are in range
  of the counters; a copy that fills a whole scratch leaves nothing of what was there, and neither does a zero-fill; the
  rows of the shared scratch and the columns of the output are, entry by entry, the closed forms the launch's payload
  record is taken at.
-/
import proofs.«210354_g33337536152245_cont_8to1_b_1126_28_alg».proof.Proof.HistSteps

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (d : Dev nD) (L : grid0.Coords)

/-- Steps that each overwrite the part of a buffer they cover in a way that does not depend on the buffer, and leave the
    rest of it alone: after the first `m` of them, the buffer at an index that a step below `m` covers does not depend on
    what the buffer held at the start. -/
theorem iter_indep {n : Nat} {I X : Type} (step : Fin n → (I → X) → I → X) (cov : Fin n → I → Prop)
    (hin : ∀ k f f' i, cov k i → step k f i = step k f' i) (hout : ∀ k f i, ¬cov k i → step k f i = f i)
    (f f' : I → X) (i : I) : ∀ m, (∃ k : Fin n, k.val < m ∧ cov k i) → iter step m f i = iter step m f' i
  | 0, h => by obtain ⟨k, hk, _⟩ := h; exact absurd hk (Nat.not_lt_zero _)
  | m + 1, h => by
    show (if hm : m < n then step ⟨m, hm⟩ (iter step m f) else iter step m f) i
      = (if hm : m < n then step ⟨m, hm⟩ (iter step m f') else iter step m f') i
    by_cases hm : m < n
    · rw [dif_pos hm, dif_pos hm]
      by_cases hc : cov ⟨m, hm⟩ i
      · exact hin _ _ _ _ hc
      · rw [hout _ _ _ hc, hout _ _ _ hc]
        obtain ⟨k, hk, hck⟩ := h
        refine iter_indep step cov hin hout f f' i m ⟨k, ?_, hck⟩
        rcases Nat.lt_succ_iff_lt_or_eq.mp hk with h1 | h1
        · exact h1
        · exact absurd (by rw [show (⟨m, hm⟩ : Fin n) = k from Fin.ext h1.symm]; exact hck) hc
    · rw [dif_neg hm, dif_neg hm]
      obtain ⟨k, hk, hck⟩ := h
      exact iter_indep step cov hin hout f f' i m ⟨k, by have := k.isLt; omega, hck⟩

/-- The two tests "this tile is one of the first two" are one test. -/
theorem cond12 : k0_cond1 L = k0_cond2 L := rfl

/-! ## Lanes read out of words that name nodes are in range of the counters -/

theorem chk_lanes0 (g : IdxBuf (F := F) d L) (hg : NodeWords g) (k : Fin k0_t2_loop.trips) : k0_chk1 (lanes0 (F := F) d L g k) := by
  intro a x
  obtain rfl : a = 0 := Subsingleton.elim _ _
  show ((lanes0 (F := F) d L g k) x).toNat < 10240
  exact Nat.lt_of_le_of_lt (hg _) (by decide)
theorem chk_lanes1 (g : IdxBuf (F := F) d L) (hg : NodeWords g) (k : Fin k0_t3_loop.trips) : k0_chk1 (lanes1 (F := F) d L g k) := by
  intro a x
  obtain rfl : a = 0 := Subsingleton.elim _ _
  show ((lanes1 (F := F) d L g k) x).toNat < 10240
  exact Nat.lt_of_le_of_lt (hg _) (by decide)
theorem chk_lanesE0 (h2 : k0_cond2 L = 1#1) (g : ExtBuf (F := F) d L) (hg : NodeWords g) (k : Fin k0_t4_loop.trips) : k0_chk1 (lanesE0 (F := F) d L h2 g k) := by
  intro a x
  obtain rfl : a = 0 := Subsingleton.elim _ _
  show ((lanesE0 (F := F) d L h2 g k) x).toNat < 10240
  exact Nat.lt_of_le_of_lt (hg _) (by decide)
theorem chk_lanesE1 (h2 : k0_cond2 L = 1#1) (g : ExtBuf (F := F) d L) (hg : NodeWords g) (k : Fin k0_t5_loop.trips) : k0_chk1 (lanesE1 (F := F) d L h2 g k) := by
  intro a x
  obtain rfl : a = 0 := Subsingleton.elim _ _
  show ((lanesE1 (F := F) d L h2 g k) x).toNat < 10240
  exact Nat.lt_of_le_of_lt (hg _) (by decide)

/-! ## What a copy lands names nodes when the edge list does -/

theorem nodeWords_idxAfter (e : EiBuf (F := F) d) (he : NodeWords e) (old : IdxBuf (F := F) d L) : NodeWords (idxAfter (F := F) d L e old) := by
  intro i
  rw [show idxAfter (F := F) d L e old = _ from View.write_whole_univ (Val := Elt F) cc0_scratch0 old _]
  exact he _
theorem nodeWords_extAfter (h1 : k0_cond1 L = 1#1) (e : EiBuf (F := F) d) (he : NodeWords e) (old : ExtBuf (F := F) d L) : NodeWords (extAfter (F := F) d L h1 e old) := by
  intro i
  rw [show extAfter (F := F) d L h1 e old = _ from View.write_whole_univ (Val := Elt F) cc0_scratch1 old _]
  exact he _

/-! ## Nothing is left of what a wholly overwritten scratch held -/

theorem idxAfter_junk (e : EiBuf (F := F) d) (old : IdxBuf (F := F) d L) : idxAfter (F := F) d L e old = idxAfter (F := F) d L e (junkI d L) :=
  (View.write_whole_univ (Val := Elt F) cc0_scratch0 old _).trans (View.write_whole_univ (Val := Elt F) cc0_scratch0 (junkI d L) _).symm
theorem extAfter_junk (h1 : k0_cond1 L = 1#1) (e : EiBuf (F := F) d) (old : ExtBuf (F := F) d L) : extAfter (F := F) d L h1 e old = extAfter (F := F) d L h1 e (junkE d L) :=
  (View.write_whole_univ (Val := Elt F) cc0_scratch1 old _).trans (View.write_whole_univ (Val := Elt F) cc0_scratch1 (junkE d L) _).symm
theorem blkAfter_junk (SHc : ShBuf (F := F) d L) (t : Fin k0_t7_loop.trips) (old : BufBuf (F := F) d L) : blkAfter (F := F) d L SHc t old = blkAfter (F := F) d L SHc t (junkB d L) :=
  (View.write_whole_univ (Val := Elt F) cc0_scratch4 old _).trans (View.write_whole_univ (Val := Elt F) cc0_scratch4 (junkB d L) _).symm
/-- The 640 trips of sixteen zeros cover the 10240 counters, -/
theorem zfill_junk (f : HistBuf (F := F) d L) : iter (zstep (F := F) d L) k0_t1_loop.trips f = iter (zstep (F := F) d L) k0_t1_loop.trips (junkH d L) := by
  have ht : k0_t1_loop.trips = 640 := by decide
  funext i
  refine iter_indep (zstep (F := F) d L)
    (fun k i => i ∈ (Rect.unit (s := S10240) (k0_off3 k) S16.size (k0_off3_inb k)).set) ?_ ?_ f (junkH d L) i _ ?_
  · intro k g g' i hi
    have hs : ((histV).view.slice (Rect.unit (s := S10240) (k0_off3 k) S16.size (k0_off3_inb k))).setOn Finset.univ
        = (Rect.unit (s := S10240) (k0_off3 k) S16.size (k0_off3_inb k)).set := by
      rw [View.setOn_univ]; exact View.set_slice_whole cc0_scratch2 _
    show ((histV).view.slice (Rect.unit (s := S10240) (k0_off3 k) S16.size (k0_off3_inb k))).write (Elt F) g
        (k0_pay3 (F := F)) Finset.univ i
      = ((histV).view.slice (Rect.unit (s := S10240) (k0_off3 k) S16.size (k0_off3_inb k))).write (Elt F) g'
        (k0_pay3 (F := F)) Finset.univ i
    rw [View.write_eq_piecewise (v := (histV).view.slice (Rect.unit (s := S10240) (k0_off3 k) S16.size (k0_off3_inb k)))
      (Val := Elt F) g g' _ Finset.univ, Finset.piecewise_eq_of_mem _ _ _ (by rw [hs]; exact hi)]
  · intro k g i hi
    have hs : ((histV).view.slice (Rect.unit (s := S10240) (k0_off3 k) S16.size (k0_off3_inb k))).setOn Finset.univ
        = (Rect.unit (s := S10240) (k0_off3 k) S16.size (k0_off3_inb k)).set := by
      rw [View.setOn_univ]; exact View.set_slice_whole cc0_scratch2 _
    show ((histV).view.slice (Rect.unit (s := S10240) (k0_off3 k) S16.size (k0_off3_inb k))).write (Elt F) g
        (k0_pay3 (F := F)) Finset.univ i = g i
    exact View.write_of_not_mem g _ Finset.univ (by rw [hs]; exact hi)
  · have hi : (i 0).val < 10240 := (i 0).isLt
    have hk : (i 0).val / 16 < k0_t1_loop.trips := by rw [ht]; omega
    refine ⟨⟨(i 0).val / 16, hk⟩, hk, ?_⟩
    rw [Rect.mem_set_unit, k0_off3_eq]
    intro a
    obtain rfl : a = 0 := Subsingleton.elim _ _
    show 16 * ((i 0).val / 16) ≤ (i 0).val ∧ (i 0).val < 16 * ((i 0).val / 16) + 16
    omega
/-- the 40 trips the 640 sums. -/
theorem zfillA_junk (z : FVec F S16 .f32) (f : AccBuf (F := F) d L) : iter (zstepA (F := F) d L z) k0_t6_loop.trips f = iter (zstepA (F := F) d L z) k0_t6_loop.trips (junkA d L) := by
  have ht : k0_t6_loop.trips = 40 := by decide
  funext i
  refine iter_indep (zstepA (F := F) d L z)
    (fun k i => i ∈ (Rect.unit (s := S640) (k0_off9 k) S16.size (k0_off9_inb k)).set) ?_ ?_ f (junkA d L) i _ ?_
  · intro k g g' i hi
    have hs : ((accV).view.slice (Rect.unit (s := S640) (k0_off9 k) S16.size (k0_off9_inb k))).setOn Finset.univ
        = (Rect.unit (s := S640) (k0_off9 k) S16.size (k0_off9_inb k)).set := by
      rw [View.setOn_univ]; exact View.set_slice_whole cc0_scratch3 _
    show ((accV).view.slice (Rect.unit (s := S640) (k0_off9 k) S16.size (k0_off9_inb k))).write (Elt F) g z Finset.univ i
      = ((accV).view.slice (Rect.unit (s := S640) (k0_off9 k) S16.size (k0_off9_inb k))).write (Elt F) g' z Finset.univ i
    rw [View.write_eq_piecewise (v := (accV).view.slice (Rect.unit (s := S640) (k0_off9 k) S16.size (k0_off9_inb k)))
      (Val := Elt F) g g' _ Finset.univ, Finset.piecewise_eq_of_mem _ _ _ (by rw [hs]; exact hi)]
  · intro k g i hi
    have hs : ((accV).view.slice (Rect.unit (s := S640) (k0_off9 k) S16.size (k0_off9_inb k))).setOn Finset.univ
        = (Rect.unit (s := S640) (k0_off9 k) S16.size (k0_off9_inb k)).set := by
      rw [View.setOn_univ]; exact View.set_slice_whole cc0_scratch3 _
    show ((accV).view.slice (Rect.unit (s := S640) (k0_off9 k) S16.size (k0_off9_inb k))).write (Elt F) g z Finset.univ i
      = g i
    exact View.write_of_not_mem g _ Finset.univ (by rw [hs]; exact hi)
  · have hi : (i 0).val < 640 := (i 0).isLt
    have hk : (i 0).val / 16 < k0_t6_loop.trips := by rw [ht]; omega
    refine ⟨⟨(i 0).val / 16, hk⟩, hk, ?_⟩
    rw [Rect.mem_set_unit, k0_off9_eq]
    intro a
    obtain rfl : a = 0 := Subsingleton.elim _ _
    show 16 * ((i 0).val / 16) ≤ (i 0).val ∧ (i 0).val < 16 * ((i 0).val / 16) + 16
    omega

/-! ## The row of the shared scratch and the columns of the output, entry by entry -/

variable (m : (ℓ : Loc nD τ sig) → Buf (Elt F) ℓ)

/-- A tile's counters at an index depend on the tile's coordinates and the index's through their values only. -/
theorem histFinal_at (e : EiBuf (F := F) d) (L' : grid0.Coords) (n n' : Fin 10240) (hL : ∀ a, (L' a).val = (L a).val)
    (hn : n'.val = n.val) :
    histFinal (F := F) d L' e (ValueIdx.ix1 n') = histFinal (F := F) d L e (ValueIdx.ix1 n) := by
  obtain rfl : L' = L := funext fun a => Fin.ext (hL a)
  obtain rfl : n' = n := Fin.ext hn
  rfl

/-- Counter `n` of the tile's row sits in the shared scratch at row `L 1`, column `n`. -/
theorem shRowK_emb (n : Fin 10240) :
    (shRowK L).view.emb (ValueIdx.ix1 n) = (ValueIdx.ix2 (⟨(L 1).val, (L 1).isLt⟩ : Fin 16) n : S16x10240.Idx) := by
  show (Rect.unit (s := S16x10240) (k0_off8 L) S1x10240.size (k0_off8_inb L)).emb
    (Shape.reshapeEquiv squeezes_S1x10240_S10240.numel_eq (ValueIdx.ix1 n)) = _
  rw [show Shape.reshapeEquiv squeezes_S1x10240_S10240.numel_eq (ValueIdx.ix1 n) = (ValueIdx.ix2 (0 : Fin 1) n : S1x10240.Idx) from
    Shape.reshapeEquiv_eq_of_rowMajor _ (by
      rw [Shape.rowMajor_val_two, Shape.rowMajor_val_one]
      show 0 * 10240 + n.val = n.val
      omega)]
  funext a
  refine Fin.ext ?_
  rw [Rect.emb_apply]
  match a with
  | ⟨0, _⟩ =>
    show (k0_off8 L) 0 + 1 * 0 = (L 1).val
    rw [k0_off8_eq]
    show (L 1).val + 1 * 0 = (L 1).val
    omega
  | ⟨1, _⟩ =>
    show (k0_off8 L) 1 + 1 * n.val = n.val
    rw [k0_off8_eq]
    show 0 + 1 * n.val = n.val
    omega

/-- On the tile's row of the shared scratch the copy of its counters is the closed form. -/
theorem rowAfter_at (old : ShBuf (F := F) d L) (j : S16x10240.Idx) (hj : j ∈ shRowSet L) :
    rowAfter (F := F) d L (histFinal (F := F) d L (m (eiLoc d))) old j = SHv (F := F) m d (cV L) j := by
  obtain ⟨x, -, rfl⟩ := Finset.mem_map.mp hj
  obtain ⟨n, rfl⟩ : ∃ n : Fin 10240, x = ValueIdx.ix1 n := ⟨x 0, ValueIdx.eq_ix1 x⟩
  have hl : rowAfter (F := F) d L (histFinal (F := F) d L (m (eiLoc d))) old ((shRowK L).view.emb (ValueIdx.ix1 n))
      = histFinal (F := F) d L (m (eiLoc d)) (ValueIdx.ix1 n) := by
    have h := View.write_emb_of_mem (v := (shRowK L).view.slice (Rect.whole S10240)) (Val := Elt F) old
      (ReadAs.same.apply (View.read (Elt F) (histV).view (histFinal (F := F) d L (m (eiLoc d))))) (M := Finset.univ)
      (x := ValueIdx.ix1 n) (Finset.mem_univ _)
    have he : ((shRowK L).view.slice (Rect.whole S10240)).emb (ValueIdx.ix1 n) = (shRowK L).view.emb (ValueIdx.ix1 n) :=
      congrArg (shRowK L).view.emb (Rect.emb_whole_apply S10240 _)
    rw [he] at h
    exact h
  rw [hl, shRowK_emb]
  unfold SHv
  rw [dif_pos (show (cV L).val < grid0.bound 0 from (L 0).isLt)]
  refine (histFinal_at (F := F) d L (m (eiLoc d)) _ n _ (fun a => ?_) rfl).symm
  match a with
  | ⟨0, _⟩ => rfl
  | ⟨1, _⟩ => rfl

/-- A tile's sums at an index depend on the tile's number and the index through their values only. -/
theorem accFinal_at (c : Fin 2) (i i' : Fin 16) (k k' : Fin 640) (hi : i'.val = i.val) (hk : k'.val = k.val) :
    accFinal (F := F) d (coordsV c i') (SHv (F := F) m d (cV (coordsV c i'))) (ValueIdx.ix1 k')
      = accFinal (F := F) d (coordsV c i) (SHv (F := F) m d (cV (coordsV c i))) (ValueIdx.ix1 k) := by
  obtain rfl : i' = i := Fin.ext hi
  obtain rfl : k' = k := Fin.ext hk
  rfl

/-- Sum `k` of tile `L` sits in the output at plane `L 0`, row 0, column `640 · L 1 + k`. -/
theorem tOutK_emb (k : Fin 640) :
    (tOutK L).view.emb (ValueIdx.ix1 k)
      = (ValueIdx.ix3 (⟨(L 0).val, (L 0).isLt⟩ : Fin 2) (0 : Fin 8)
          (⟨640 * (L 1).val + k.val, by have h1 : (L 1).val < 16 := (L 1).isLt; have := k.isLt; omega⟩ : Fin 10240) : S2x8x10240.Idx) := by
  show (Rect.unit (s := S2x8x10240) (k0_off12 L) S1x1x640.size (k0_off12_inb L)).emb
    (Shape.reshapeEquiv squeezes_S1x1x640_S640.numel_eq (ValueIdx.ix1 k)) = _
  rw [show Shape.reshapeEquiv squeezes_S1x1x640_S640.numel_eq (ValueIdx.ix1 k)
      = (ValueIdx.ix3 (0 : Fin 1) (0 : Fin 1) k : S1x1x640.Idx) from
    Shape.reshapeEquiv_eq_of_rowMajor _ (by
      rw [Shape.rowMajor_val_three, Shape.rowMajor_val_one]
      show (0 * 1 + 0) * 640 + k.val = k.val
      omega)]
  funext a
  refine Fin.ext ?_
  rw [Rect.emb_apply]
  match a with
  | ⟨0, _⟩ =>
    show (k0_off12 L) 0 + 1 * 0 = (L 0).val
    rw [k0_off12_eq]
    show (L 0).val + 1 * 0 = (L 0).val
    omega
  | ⟨1, _⟩ =>
    show (k0_off12 L) 1 + 1 * 0 = 0
    rw [k0_off12_eq]
    rfl
  | ⟨2, _⟩ =>
    show (k0_off12 L) 2 + 1 * k.val = 640 * (L 1).val + k.val
    rw [k0_off12_eq]
    show 640 * (L 1).val + 1 * k.val = 640 * (L 1).val + k.val
    omega

/-- SparseCore `c`'s count of node `n` is sum `n % 640` of its tile `n / 640`. -/
theorem CHv_eq (c : Fin 2) (n : Fin 10240) (i : Fin 16) (k : Fin 640) (hi : n.val / 640 = i.val) (hk : n.val % 640 = k.val) :
    CHv (F := F) m d c n = accFinal (F := F) d (coordsV c i) (SHv (F := F) m d (cV (coordsV c i))) (ValueIdx.ix1 k) := by
  unfold CHv
  exact accFinal_at (F := F) d m c i ⟨n.val / 640, by have := n.isLt; omega⟩ k ⟨n.val % 640, Nat.mod_lt _ (by decide)⟩ hi hk

/-- On the tile's 640 columns of the output the copy of its sums is its SparseCore's count row. -/
theorem outAfter_at (c : Fin 2) (i : Fin 16) (old : TBuf (F := F) d) (k : Fin 640) :
    outAfter (F := F) d (coordsV c i) (accFinal (F := F) d (coordsV c i) (SHv (F := F) m d (cV (coordsV c i)))) old
        (ValueIdx.ix3 c (0 : Fin 8) ⟨i.val * 640 + k.val, by have := i.isLt; have := k.isLt; omega⟩)
      = CHv (F := F) m d c ⟨i.val * 640 + k.val, by have := i.isLt; have := k.isLt; omega⟩ := by
  have he : (ValueIdx.ix3 c (0 : Fin 8) (⟨i.val * 640 + k.val, by have := i.isLt; have := k.isLt; omega⟩ : Fin 10240) : S2x8x10240.Idx)
      = (tOutK (coordsV c i)).view.emb (ValueIdx.ix1 k) := by
    rw [tOutK_emb]
    funext a
    refine Fin.ext ?_
    match a with
    | ⟨0, _⟩ => rfl
    | ⟨1, _⟩ => rfl
    | ⟨2, _⟩ =>
      show i.val * 640 + k.val = 640 * i.val + k.val
      omega
  rw [he]
  have hl : outAfter (F := F) d (coordsV c i) (accFinal (F := F) d (coordsV c i) (SHv (F := F) m d (cV (coordsV c i)))) old
        ((tOutK (coordsV c i)).view.emb (ValueIdx.ix1 k))
      = accFinal (F := F) d (coordsV c i) (SHv (F := F) m d (cV (coordsV c i))) (ValueIdx.ix1 k) := by
    have h := View.write_emb_of_mem (v := (tOutK (coordsV c i)).view.slice (Rect.whole S640)) (Val := Elt F) old
      (ReadAs.same.apply (View.read (Elt F) (accV).view
        (accFinal (F := F) d (coordsV c i) (SHv (F := F) m d (cV (coordsV c i)))))) (M := Finset.univ)
      (x := ValueIdx.ix1 k) (Finset.mem_univ _)
    have he : ((tOutK (coordsV c i)).view.slice (Rect.whole S640)).emb (ValueIdx.ix1 k)
        = (tOutK (coordsV c i)).view.emb (ValueIdx.ix1 k) :=
      congrArg (tOutK (coordsV c i)).view.emb (Rect.emb_whole_apply S640 _)
    rw [he] at h
    exact h
  rw [hl]
  refine (CHv_eq (F := F) d m c _ i k ?_ ?_).symm
  · show (i.val * 640 + k.val) / 640 = i.val
    have := k.isLt
    omega
  · show (i.val * 640 + k.val) % 640 = k.val
    have := k.isLt
    omega

end Cert.KernelIdeal.Hist

end
-- ==== Proof.HistLaunchBarrier.lean ====
/-
  The barrier step of a tile's task. A tile arrives at the subcore barrier holding its row of the shared scratch at the
  contents every row ends at; the row is the sixteen 640-column pieces its sixteen duties hand over, one to each tile of
  its SparseCore; leaving, it has collected the sixteen duties of its own round: its 640 columns of every row.
-/
import proofs.«210354_g33337536152245_cont_8to1_b_1126_28_alg».proof.Proof.HistSetup
import proofs.«210354_g33337536152245_cont_8to1_b_1126_28_alg».proof.Proof.HistLaunchSets

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))

/-- A piece of the shared scratch depends on the tile only through its number, and on the row only through its number. -/
theorem shBlkSet_congr {L L' : grid0.Coords} {t t' : Fin k0_t7_loop.trips} (h1 : (L 1).val = (L' 1).val) (ht : t.val = t'.val) :
    shBlkSet L t = shBlkSet L' t' := by
  ext j; rw [mem_shBlkSet, mem_shBlkSet, h1, ht]

/-- What a duty named `n` in tile `(c, j)`'s round hands over, for a tile of the grid and a row number. -/
theorem bPay_bcell (d : Dev nD) (c : Fin τ.nSC) (j : Fin τ.nSub) (n : ℕ)
    (h : c.val < grid0.bound 0 ∧ j.val < grid0.bound 1 ∧ n < k0_t7_loop.trips) :
    bPay SH (bcell d c j) n = (shLoc d c ↦[shBlkSet (coordsV ⟨c.val, h.1⟩ ⟨j.val, h.2.1⟩) ⟨n, h.2.2⟩]{fullShare} SH d c : sProp 𝕄) := by
  unfold bPay; dsimp only; rw [dif_pos h]

/-- The row numbers are the tile numbers. -/
def tripsEquiv : Fin k0_t7_loop.trips ≃ Fin τ.nSub := finCongr (by rw [trips7])

theorem tripsEquiv_val (t : Fin k0_t7_loop.trips) : (tripsEquiv t).val = t.val := rfl

section Tile

variable (d : Dev nD) (L : grid0.Coords)

theorem row_lt_trips : (L 1).val < k0_t7_loop.trips := by rw [trips7]; exact (L 1).isLt

/-- The 640 columns of tile `L`'s row that tile `j` will add up. -/
abbrev rowPiece (j : Fin (grid0.bound 1)) : Finset S16x10240.Idx := shBlkSet (coordsV (L 0) j) ⟨(L 1).val, row_lt_trips L⟩

theorem mem_rowPiece {j : Fin (grid0.bound 1)} {x : S16x10240.Idx} :
    x ∈ rowPiece L j ↔ (x 0).val = (L 1).val ∧ 640 * j.val ≤ (x 1).val ∧ (x 1).val < 640 * j.val + 640 := mem_shBlkSet

theorem rowPieces_disjoint : ∀ j ∈ (Finset.univ : Finset (Fin (grid0.bound 1))), ∀ j' ∈ (Finset.univ : Finset (Fin (grid0.bound 1))), j ≠ j' →
    Disjoint (rowPiece L j) (rowPiece L j') := by
  intro j _ j' _ h
  rw [Finset.disjoint_left]
  intro x hx hx'
  rw [mem_rowPiece] at hx hx'
  exact h (Fin.ext (by omega))

theorem rowPieces_cover : ((Finset.univ : Finset (Fin (grid0.bound 1))).biUnion (rowPiece L)) = shRowSet L := by
  ext x
  rw [Finset.mem_biUnion, mem_shRowSet]
  constructor
  · rintro ⟨j, -, hj⟩
    rw [mem_rowPiece] at hj
    exact hj.1
  · intro h0
    have h1 : (x 1).val < 10240 := (x 1).isLt
    refine ⟨⟨(x 1).val / 640, show (x 1).val / 640 < 16 by omega⟩, Finset.mem_univ _, ?_⟩
    rw [mem_rowPiece]
    refine ⟨h0, ?_, ?_⟩
    · show 640 * ((x 1).val / 640) ≤ (x 1).val
      omega
    · show (x 1).val < 640 * ((x 1).val / 640) + 640
      omega

/-- Arriving: the tile's row, at the contents every row ends at, is what its sixteen duties hand over. -/
theorem pays_intro : (shLoc d (cV L) ↦[shRowSet L]{fullShare} SH d (cV L) : sProp 𝕄)
    ⊢ bigSep Finset.univ fun j : Fin (grid0.bound 1) => (bRd SH).payload (bcell d (cV L) (j.castLE hsub0)) 0 (jV L).val := by
  have hpay : ∀ j : Fin (grid0.bound 1), (bRd SH).payload (bcell d (cV L) (j.castLE hsub0)) 0 (jV L).val
      = (shLoc d (cV L) ↦[rowPiece L j]{fullShare} SH d (cV L) : sProp 𝕄) := fun j => by
    show bPay SH (bcell d (cV L) (j.castLE hsub0)) (jV L).val = _
    rw [bPay_bcell SH d (cV L) (j.castLE hsub0) (jV L).val ⟨(L 0).isLt, j.isLt, row_lt_trips L⟩]
    exact congrArg (fun I => (shLoc d (cV L) ↦[I]{fullShare} SH d (cV L) : sProp 𝕄)) (shBlkSet_congr rfl rfl)
  refine Entails.of_eq ?_
  rw [bigSep_congr fun j _ => hpay j, ← pointsTo_biUnion Finset.univ (ℓ := shLoc d (cV L)) (rowPiece L) (rowPieces_disjoint L), rowPieces_cover]

/-- Leaving: what the tile's own round collected is its 640 columns of every row, at the contents every row ends at. -/
theorem pays_elim : (bigSep ((bRd SH).duties (bcell d (cV L) (jV L)) 0 \ ∅) fun n => (bRd SH).payload (bcell d (cV L) (jV L)) 0 n)
    ⊢ (bigSep Finset.univ fun t : Fin k0_t7_loop.trips => shLoc d (cV L) ↦[shBlkSet L t]{fullShare} SH d (cV L) : sProp 𝕄) := by
  refine Entails.of_eq ?_
  rw [Finset.sdiff_empty, bRd_duties₀, SparseCore.bigSep_image_of_injOn (fun a _ b _ e => Fin.val_injective e),
    bigSep_univ_equiv tripsEquiv (fun i : Fin τ.nSub => (bRd SH).payload (bcell d (cV L) (jV L)) 0 i.val)]
  refine bigSep_congr fun t _ => ?_
  show bPay SH (bcell d (cV L) (jV L)) (tripsEquiv t).val = _
  rw [bPay_bcell SH d (cV L) (jV L) (tripsEquiv t).val ⟨(L 0).isLt, (L 1).isLt, t.isLt⟩]
  exact congrArg (fun I => (shLoc d (cV L) ↦[I]{fullShare} SH d (cV L) : sProp 𝕄)) (shBlkSet_congr rfl rfl)

/-- The barrier: from the tile's barrier kit, what it owes with the barrier's arrivals among it, and its row of the shared
    scratch at the contents every row ends at, to what it owes without them and its 640 columns of every row. -/
theorem barrier_step (κ : GSem nD τ sig → ℕ) (O : CellTallies nD τ sig (HIx 1)) (W : Waits sig (HIx 1))
    (hOlev : ∀ g ι, 0 < O g ι → 8 * (0 : Fin 1).val + 6 ≤ (K (F := F)).lev g ι)
    {α : Type} (k : PUnit → Prog (TpuEff nD τ sig (Elt F) Λ₀ (.scVector (cV L) (jV L))) α) (Q : α → sProp 𝕄) :
    iprop(levAts (K (F := F)).L (K (F := F)).lev
        ∗ (bigSep Finset.univ fun j : Fin (grid0.bound 1) => cellInv EB (bRd SH) (κ (bcell d (cV L) (j.castLE hsub0))) (bcell d (cV L) (j.castLE hsub0)))
        ∗ (bigSep Finset.univ fun j : Fin (grid0.bound 1) => dutyTok EB (bcell d (cV L) (j.castLE hsub0)) 0 (jV L).val)
        ∗ (bigSep Finset.univ fun j : Fin (grid0.bound 1) => reached EB (bcell d (cV L) (j.castLE hsub0)) 0)
        ∗ atPos EB (bcell d (cV L) (jV L)) 0 ∅ 0
        ∗ cred (tallyAt (bcell d (cV L) (jV L)) (some 0) (grid0.bound 1))
        ∗ owes (V d (cV L) (jV L)) (O + oxV d (cV L)) W
        ∗ (shLoc d (cV L) ↦[shRowSet L]{fullShare} SH d (cV L)))
      ⊢ iprop((iprop((∃ W', ⌜∀ p ∈ W', p ∈ W ∨ p.2 = none ∨ p.2 = some (0 : Fin 1)⌝ ∗ owes (V d (cV L) (jV L)) O W')
              ∗ bigSep Finset.univ fun t : Fin k0_t7_loop.trips => shLoc d (cV L) ↦[shBlkSet L t]{fullShare} SH d (cV L))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.subcoreBarrier sc_bar0 (grid0.bound 1) hsub0 >>= k) Q) := by
  iintro ⟨#Hlv, #Hinv, Htoks, #Hrch, Hat, Hcred, HO, Hsh⟩ Hk
  ihave Hpays := (pays_intro SH d L) $$ Hsh
  iapply (SparseCore.wp_subcoreBarrier 𝒱₀ none EB (bRd SH) d (sc := cV L) (i := jV L) sc_bar0 (grid0.bound 1) hsub0 (L 1) rfl κ (fun _ => 0) (jV L).val
      (fun j => bRd_mem₀ SH d _ _ _) (fun _ => rfl) (bRd_expect SH d _ _) (some 0) O W) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hblk := (pays_elim SH d L) $$ Hgot
  iapply Hk
  isplitl [HO]
  · iexists _; isplitr
    swap; · iexact HO
    ipureintro; intro p hp
    rcases Finset.mem_insert.mp hp with hp | hp; · exact .inr (.inr (hp ▸ rfl))
    exact .inl hp
  iexact Hblk

end Tile

end Cert.KernelIdeal.Hist

end
-- ==== Proof.HistTileRegions.lean ====
/-
  One vector subcore's task of the histogram kernel: its scratch and semaphores, the arrays as its memrefs address them,
  and every loop's region once at a symbolic trip.
-/
import proofs.«210354_g33337536152245_cont_8to1_b_1126_28_alg».proof.Proof.HistFacts
import proofs.«210354_g33337536152245_cont_8to1_b_1126_28_alg».proof.Proof.HistLaunchVecSplit
import proofs.«210354_g33337536152245_cont_8to1_b_1126_28_alg».proof.Proof.HistLaunchBarrier

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

abbrev semCell (d : Dev nD) (L : grid0.Coords) (s : DmaSems sig S_) : GSem nD τ sig := (thrV d L, .dma s.sem)

/-- No trip taken, nothing changed. -/
theorem iter_zero {n : Nat} {α : Type} (step : Fin n → α → α) (a : α) : iter step 0 a = a := rfl

/-- The tile's five scoped DMA semaphores at zero, and the rest of its scoped cells. -/
theorem ownSems0_V :
    (ownSems0 (thrV d L) : sProp 𝕄)
      = iprop(semVal (semCell d L cc0_scratch6) 0 ∗ semVal (semCell d L cc0_scoped0) 0 ∗ semVal (semCell d L cc0_scoped1) 0
          ∗ semVal (semCell d L cc0_scoped2) 0 ∗ semVal (semCell d L cc0_scoped3) 0
          ∗ bigSep (((((ownCells (thrV d L)).erase (semCell d L cc0_scratch6)).erase (semCell d L cc0_scoped0)).erase (semCell d L cc0_scoped1)).erase (semCell d L cc0_scoped2) |>.erase (semCell d L cc0_scoped3)) fun g => semVal g 0) := by
  unfold SparseCore.Cfg.ownSems0
  have hs : ∀ s : DmaSems sig S_, (SemLoc.dma s.sem : SemLoc sig).isScoped .scVector = true → semCell d L s ∈ ownCells (thrV d L) :=
    fun s h => (mem_ownCells (g := semCell d L s)).mpr ⟨rfl, h⟩
  rw [SparseCore.bigSep_erase' (hs cc0_scratch6 (by decide)),
    SparseCore.bigSep_erase' (Finset.mem_erase.mpr ⟨by simp [semCell] <;> decide, hs cc0_scoped0 (by decide)⟩),
    SparseCore.bigSep_erase' (Finset.mem_erase.mpr ⟨by simp [semCell] <;> decide, Finset.mem_erase.mpr ⟨by simp [semCell] <;> decide, hs cc0_scoped1 (by decide)⟩⟩),
    SparseCore.bigSep_erase' (Finset.mem_erase.mpr ⟨by simp [semCell] <;> decide, Finset.mem_erase.mpr ⟨by simp [semCell] <;> decide, Finset.mem_erase.mpr ⟨by simp [semCell] <;> decide, hs cc0_scoped2 (by decide)⟩⟩⟩),
    SparseCore.bigSep_erase' (Finset.mem_erase.mpr ⟨by simp [semCell] <;> decide, Finset.mem_erase.mpr ⟨by simp [semCell] <;> decide, Finset.mem_erase.mpr ⟨by simp [semCell] <;> decide, Finset.mem_erase.mpr ⟨by simp [semCell] <;> decide, hs cc0_scoped3 (by decide)⟩⟩⟩⟩)]

abbrev scrRef (L : grid0.Coords) (b : Ref sig .scVector) : DevRef τ sig := (Proc.scVector (cV L) (jV L)).devRef b

/-- The tile's five scratch buffers at some contents, and the rest of its own buffers. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f)
          ∗ bigSep (((((ownRefs (τ := τ) (.scVector (cV L) (jV L))).erase (scrRef L cc0_scratch0)).erase (scrRef L cc0_scratch1)).erase (scrRef L cc0_scratch2)).erase (scrRef L cc0_scratch3) |>.erase (scrRef L cc0_scratch4))
              fun b => iprop(∃ f, ((d, b) : Loc nD τ sig) ↦{fullShare} f)) := by
  unfold SparseCore.Cfg.ownBufs
  have hb : ∀ b : Ref sig .scVector, b.space = .vmem → scrRef L b ∈ ownRefs (τ := τ) (.scVector (cV L) (jV L)) :=
    fun b h => SparseCore.Cfg.mem_ownRefs_of_owner (p := Proc.scVector (cV L) (jV L)) (b := scrRef L b) (by cases b; cases h; rfl)
  rw [SparseCore.bigSep_erase' (hb cc0_scratch0 rfl),
    SparseCore.bigSep_erase' (Finset.mem_erase.mpr ⟨by simp [scrRef] <;> decide, hb cc0_scratch1 rfl⟩),
    SparseCore.bigSep_erase' (Finset.mem_erase.mpr ⟨by simp [scrRef] <;> decide, Finset.mem_erase.mpr ⟨by simp [scrRef] <;> decide, hb cc0_scratch2 rfl⟩⟩),
    SparseCore.bigSep_erase' (Finset.mem_erase.mpr ⟨by simp [scrRef] <;> decide, Finset.mem_erase.mpr ⟨by simp [scrRef] <;> decide, Finset.mem_erase.mpr ⟨by simp [scrRef] <;> decide, hb cc0_scratch3 rfl⟩⟩⟩),
    SparseCore.bigSep_erase' (Finset.mem_erase.mpr ⟨by simp [scrRef] <;> decide, Finset.mem_erase.mpr ⟨by simp [scrRef] <;> decide, Finset.mem_erase.mpr ⟨by simp [scrRef] <;> decide, Finset.mem_erase.mpr ⟨by simp [scrRef] <;> decide, hb cc0_scratch4 rfl⟩⟩⟩⟩)]

/-! ## The arrays as the tile's memrefs address them -/

theorem pts_ei (q : PosShare TreeShare) (f : Buf (Elt F) (eiLoc d)) :
    ((eiV).view.loc (thrV d L) ↦{q} f : sProp 𝕄) = eiLoc d ↦{q} f := by
  simp only [Memref.view_whole, View.set_whole]
theorem pts_tOut (f : Buf (Elt F) (tLoc d)) :
    ((tOutK L).view.loc (thrV d L) ↦[(tOutK L).view.set]{fullShare} f : sProp 𝕄) = tLoc d ↦[tOutSet L]{fullShare} f := rfl
theorem pts_shRow (f : Buf (Elt F) (shLoc d (cV L))) :
    ((shRowK L).view.loc (thrV d L) ↦[(shRowK L).view.set]{fullShare} f : sProp 𝕄) = shLoc d (cV L) ↦[shRowSet L]{fullShare} f := rfl
theorem pts_shBlk (t : Fin k0_t7_loop.trips) (f : Buf (Elt F) (shLoc d (cV L))) :
    ((shBlkK L t).view.loc (thrV d L) ↦[(shBlkK L t).view.set]{fullShare} f : sProp 𝕄) = shLoc d (cV L) ↦[shBlkSet L t]{fullShare} f := rfl
theorem pts_idx (f : Buf (Elt F) ((thrV d L).loc cc0_scratch0)) : ((idxV).view.loc (thrV d L) ↦{fullShare} f : sProp 𝕄) = (thrV d L).loc cc0_scratch0 ↦{fullShare} f := rfl
theorem pts_ext (f : Buf (Elt F) ((thrV d L).loc cc0_scratch1)) : ((extV).view.loc (thrV d L) ↦{fullShare} f : sProp 𝕄) = (thrV d L).loc cc0_scratch1 ↦{fullShare} f := rfl
theorem pts_hist (f : Buf (Elt F) ((thrV d L).loc cc0_scratch2)) : ((histV).view.loc (thrV d L) ↦{fullShare} f : sProp 𝕄) = (thrV d L).loc cc0_scratch2 ↦{fullShare} f := rfl
theorem pts_acc (f : Buf (Elt F) ((thrV d L).loc cc0_scratch3)) : ((accV).view.loc (thrV d L) ↦{fullShare} f : sProp 𝕄) = (thrV d L).loc cc0_scratch3 ↦{fullShare} f := rfl
theorem pts_buf (f : Buf (Elt F) ((thrV d L).loc cc0_scratch4)) : ((bufV).view.loc (thrV d L) ↦{fullShare} f : sProp 𝕄) = (thrV d L).loc cc0_scratch4 ↦{fullShare} f := rfl

/-! ## The loops' regions, each once at a symbolic trip

Every loop's invariant holds the buffer it writes at a trip-indexed step function iterated over the trips so far; the
step functions are the stores the trip makes, as terms of what it finds. What the iterates ARE is pure arithmetic,
stated apart. -/

def inv1 (f₀ : HistBuf (F := F) d L) (k : Nat) (_ : BitVec 32) : sProp 𝕄 :=
  iprop((histV).view.loc (thrV d L) ↦{fullShare} iter (zstep (F := F) d L) k f₀)

set_option maxHeartbeats 4000000 in
theorem region1 (f₀ : HistBuf (F := F) d L) (k : Fin k0_t1_loop.trips) (acc : BitVec 32) :
    inv1 (F := F) d L f₀ k.val acc ⊢ wp frame (wpE (defs₀ (F := F)) 𝒱₀ (thrV d L) none) Set.univ
      (k0_t1_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv1 (F := F) d L f₀ (k.val + 1)) := by
  unfold inv1 k0_t1_body
  iintro H
  sl_exec
  sl_step
  rw [iter_succ]
  iexact H

/-- The counters held whole, as the indexed store's rule reads them. -/
theorem pts_hist_whole (f : HistBuf (F := F) d L) :
    ((((histV).access (.whole S10240)).loc (thrV d L) ↦[((histV).access (.whole S10240)).set]{fullShare} f : sProp 𝕄))
      = ((histV).view.loc (thrV d L) ↦{fullShare} f) := by
  rw [show ((histV).access (.whole S10240)).set = Finset.univ from Memref.set_access_whole (cc0_scratch2 : Ref sig .scVector)]

set_option maxHeartbeats 2000000 in
/-- The indexed add at the head of a program, over the counters held whole: they end at `bump`. -/
theorem wp_bump {α : Type} (f : HistBuf (F := F) d L) (v : IVec S16 32) (hv : k0_chk1 v)
    {hs : ((histV).access (.whole S10240)).Stores Finset.univ}
    {k : PUnit → Prog (TpuEff nD τ sig (Elt F) Λ₀ (thrV d L).2) α} {Q : α → sProp 𝕄} :
    ((histV).view.loc (thrV d L) ↦{fullShare} f)
      ⊢ iprop((((histV).view.loc (thrV d L) ↦{fullShare} bump (F := F) d L v f) -∗ wp frame (wpE (defs₀ (F := F)) 𝒱₀ (thrV d L) none) Set.univ (k ⟨⟩) Q)
        -∗ wp frame (wpE (defs₀ (F := F)) 𝒱₀ (thrV d L) none) Set.univ
            (SparseCore.vectorStoreIdx histV ![v] (k0_pay2 (F := F)) (fun _ => 1#1) true (k0_idx1_inb v hv) hs >>= k) Q) := by
  rw [← pts_hist_whole (F := F) d L f, ← pts_hist_whole (F := F) d L (bump (F := F) d L v f)]
  unfold bump
  rw [dif_pos hv]
  exact SparseCore.wp_vectorStoreIdx (defs := defs₀ (F := F)) 𝒱₀ (thrV d L) none Set.univ

def inv2 (g : IdxBuf (F := F) d L) (f₀ : HistBuf (F := F) d L) (k : Nat) (_ : BitVec 32) : sProp 𝕄 :=
  iprop(((idxV).view.loc (thrV d L) ↦{fullShare} g) ∗ (histV).view.loc (thrV d L) ↦{fullShare} iter (fun k => bump (F := F) d L (lanes0 d L g k)) k f₀)

set_option maxHeartbeats 4000000 in
theorem region2 (g : IdxBuf (F := F) d L) (hg : NodeWords g) (f₀ : HistBuf (F := F) d L) (k : Fin k0_t2_loop.trips) (acc : BitVec 32) :
    inv2 (F := F) d L g f₀ k.val acc ⊢ wp frame (wpE (defs₀ (F := F)) 𝒱₀ (thrV d L) none) Set.univ
      (k0_t2_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv2 (F := F) d L g f₀ (k.val + 1)) := by
  unfold inv2 k0_t2_body
  iintro ⟨Hg, Hf⟩
  sl_exec (disch := exact chk_lanes0 (F := F) d L g hg k)
  iapply (wp_bump (F := F) d L (iter (fun k => bump (F := F) d L (lanes0 d L g k)) k.val f₀) (lanes0 (F := F) d L g k) (chk_lanes0 (F := F) d L g hg k)) $$ Hf
  iintro Hf
  sl_step
  rw [iter_succ]
  isplitl [Hg]; · iexact Hg
  iexact Hf

def inv3 (g : IdxBuf (F := F) d L) (f₀ : HistBuf (F := F) d L) (k : Nat) (_ : BitVec 32) : sProp 𝕄 :=
  iprop(((idxV).view.loc (thrV d L) ↦{fullShare} g) ∗ (histV).view.loc (thrV d L) ↦{fullShare} iter (fun k => bump (F := F) d L (lanes1 d L g k)) k f₀)

set_option maxHeartbeats 4000000 in
theorem region3 (g : IdxBuf (F := F) d L) (hg : NodeWords g) (f₀ : HistBuf (F := F) d L) (k : Fin k0_t3_loop.trips) (acc : BitVec 32) :
    inv3 (F := F) d L g f₀ k.val acc ⊢ wp frame (wpE (defs₀ (F := F)) 𝒱₀ (thrV d L) none) Set.univ
      (k0_t3_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv3 (F := F) d L g f₀ (k.val + 1)) := by
  unfold inv3 k0_t3_body
  iintro ⟨Hg, Hf⟩
  sl_exec (disch := exact chk_lanes1 (F := F) d L g hg k)
  iapply (wp_bump (F := F) d L (iter (fun k => bump (F := F) d L (lanes1 d L g k)) k.val f₀) (lanes1 (F := F) d L g k) (chk_lanes1 (F := F) d L g hg k)) $$ Hf
  iintro Hf
  sl_step
  rw [iter_succ]
  isplitl [Hg]; · iexact Hg
  iexact Hf

/-! The 128 columns the first two tiles read from the tail, under the test that they are one of the two. -/

section Tail
variable (h2 : k0_cond2 L = 1#1)

def inv4 (g : ExtBuf (F := F) d L) (f₀ : HistBuf (F := F) d L) (k : Nat) (_ : BitVec 32) : sProp 𝕄 :=
  iprop(((extV).view.loc (thrV d L) ↦{fullShare} g) ∗ (histV).view.loc (thrV d L) ↦{fullShare} iter (fun k => bump (F := F) d L (lanesE0 d L h2 g k)) k f₀)
def inv5 (g : ExtBuf (F := F) d L) (f₀ : HistBuf (F := F) d L) (k : Nat) (_ : BitVec 32) : sProp 𝕄 :=
  iprop(((extV).view.loc (thrV d L) ↦{fullShare} g) ∗ (histV).view.loc (thrV d L) ↦{fullShare} iter (fun k => bump (F := F) d L (lanesE1 d L h2 g k)) k f₀)

set_option maxHeartbeats 4000000 in
theorem region4 (g : ExtBuf (F := F) d L) (hg : NodeWords g) (f₀ : HistBuf (F := F) d L) (k : Fin k0_t4_loop.trips) (acc : BitVec 32) :
    inv4 (F := F) d L h2 g f₀ k.val acc ⊢ wp frame (wpE (defs₀ (F := F)) 𝒱₀ (thrV d L) none) Set.univ
      (k0_t4_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 h2 k acc) (inv4 (F := F) d L h2 g f₀ (k.val + 1)) := by
  unfold inv4 k0_t4_body
  iintro ⟨Hg, Hf⟩
  sl_exec (disch := exact fun _ => chk_lanesE0 (F := F) d L h2 g hg k)
  iapply (wp_bump (F := F) d L (iter (fun k => bump (F := F) d L (lanesE0 d L h2 g k)) k.val f₀) (lanesE0 (F := F) d L h2 g k) (chk_lanesE0 (F := F) d L h2 g hg k)) $$ Hf
  iintro Hf
  sl_step
  rw [iter_succ]
  isplitl [Hg]; · iexact Hg
  iexact Hf

set_option maxHeartbeats 4000000 in
theorem region5 (g : ExtBuf (F := F) d L) (hg : NodeWords g) (f₀ : HistBuf (F := F) d L) (k : Fin k0_t5_loop.trips) (acc : BitVec 32) :
    inv5 (F := F) d L h2 g f₀ k.val acc ⊢ wp frame (wpE (defs₀ (F := F)) 𝒱₀ (thrV d L) none) Set.univ
      (k0_t5_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 h2 k acc) (inv5 (F := F) d L h2 g f₀ (k.val + 1)) := by
  unfold inv5 k0_t5_body
  iintro ⟨Hg, Hf⟩
  sl_exec (disch := exact fun _ => chk_lanesE1 (F := F) d L h2 g hg k)
  iapply (wp_bump (F := F) d L (iter (fun k => bump (F := F) d L (lanesE1 d L h2 g k)) k.val f₀) (lanesE1 (F := F) d L h2 g k) (chk_lanesE1 (F := F) d L h2 g hg k)) $$ Hf
  iintro Hf
  sl_step
  rw [iter_succ]
  isplitl [Hg]; · iexact Hg
  iexact Hf

end Tail

def inv6 (z : FVec F S16 .f32) (f₀ : AccBuf (F := F) d L) (k : Nat) (_ : BitVec 32) : sProp 𝕄 :=
  iprop((accV).view.loc (thrV d L) ↦{fullShare} iter (zstepA (F := F) d L z) k f₀)

set_option maxHeartbeats 4000000 in
theorem region6 (z : FVec F S16 .f32) (f₀ : AccBuf (F := F) d L) (k : Fin k0_t6_loop.trips) (acc : BitVec 32) :
    inv6 (F := F) d L z f₀ k.val acc ⊢ wp frame (wpE (defs₀ (F := F)) 𝒱₀ (thrV d L) none) Set.univ
      (k0_t6_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 z k acc) (inv6 (F := F) d L z f₀ (k.val + 1)) := by
  unfold inv6 k0_t6_body
  iintro H
  sl_exec
  sl_step
  rw [iter_succ]
  iexact H

def inv8 (b : BufBuf (F := F) d L) (a₀ : AccBuf (F := F) d L) (k : Nat) (_ : BitVec 32) : sProp 𝕄 :=
  iprop(((bufV).view.loc (thrV d L) ↦{fullShare} b) ∗ (accV).view.loc (thrV d L) ↦{fullShare} iter (astep (F := F) d L b) k a₀)

set_option maxHeartbeats 4000000 in
theorem region8 (b : BufBuf (F := F) d L) (a₀ : AccBuf (F := F) d L) (k : Fin k0_t8_loop.trips) (acc : BitVec 32) :
    inv8 (F := F) d L b a₀ k.val acc ⊢ wp frame (wpE (defs₀ (F := F)) 𝒱₀ (thrV d L) none) Set.univ
      (k0_t8_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv8 (F := F) d L b a₀ (k.val + 1)) := by
  unfold inv8 k0_t8_body
  iintro ⟨Hb, Ha⟩
  sl_exec
  sl_step
  rw [iter_succ]
  isplitl [Hb]; · iexact Hb
  iexact Ha

/-- Before trip `t` of the combine: the strip of the shared scratch, the accumulator at the sums over the rows before `t`. -/
def inv7 (SHc : ShBuf (F := F) d L) (O : CellTallies nD τ sig (HIx 1)) (W : Waits sig (HIx 1)) (a₀ : AccBuf (F := F) d L) (t : Nat) (_ : BitVec 32) : sProp 𝕄 :=
  iprop(Transfers.MayWaits (thrV d L) (default : HIx 1) O
    ∗ (bigSep Finset.univ fun t' : Fin k0_t7_loop.trips => (shBlkK L t').view.loc (thrV d L) ↦[(shBlkK L t').view.set]{fullShare} SHc)
    ∗ (∃ b, (bufV).view.loc (thrV d L) ↦{fullShare} b)
    ∗ ((accV).view.loc (thrV d L) ↦{fullShare} iter (cstep (F := F) d L SHc) t a₀)
    ∗ semVal (semCell d L cc0_scoped2) 0
    ∗ ∃ W', ⌜∀ p ∈ W', p ∈ W ∨ p.2 = none⌝ ∗ owes (thrV d L) O W')

set_option maxHeartbeats 4000000 in
theorem region7 (SHc : ShBuf (F := F) d L) (O : CellTallies nD τ sig (HIx 1)) (W : Waits sig (HIx 1))
    (a₀ : AccBuf (F := F) d L) (t : Fin k0_t7_loop.trips) (acc : BitVec 32) :
    inv7 (F := F) d L SHc O W a₀ t.val acc ⊢ wp frame (wpE (defs₀ (F := F)) 𝒱₀ (thrV d L) none) Set.univ
      (k0_t7_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 t acc) (inv7 (F := F) d L SHc O W a₀ (t.val + 1)) := by
  unfold inv7 k0_t7_body
  rw [SparseCore.bigSep_erase' (Finset.mem_univ t)]
  iintro ⟨#Hmw, ⟨Hsht, Hshr⟩, ⟨%b, Hb⟩, Ha, Hsem, %W', %hW', HO⟩
  sl_exec
  ihave Hb0 : ((bufV).view.loc (thrV d L) ↦{fullShare} blkAfter (F := F) d L SHc t b) $$ [Hb]
  · iexact Hb
  ihave Hb' := (show ((bufV).view.loc (thrV d L) ↦{fullShare} blkAfter (F := F) d L SHc t b : sProp 𝕄)
      ⊢ ((bufV).view.loc (thrV d L) ↦{fullShare} blkAfter (F := F) d L SHc t (junkB d L)) from
    Entails.of_eq (by rw [← blkAfter_junk (F := F) d L SHc t b])) $$ Hb0
  sl_for (inv8 (F := F) d L (blkAfter (F := F) d L SHc t (junkB d L)) (iter (cstep (F := F) d L SHc) t.val a₀)) $$ [Hb' Ha]
  case region =>
    intro k acc
    exact region8 (F := F) d L _ _ k acc
  · unfold inv8
    rw [iter_zero]
    isplitl [Hb']; · iexact Hb'
    iexact Ha
  iintro %_ HI
  unfold inv8
  icases HI with ⟨Hb, Ha⟩
  sl_step
  isplitr; · iexact Hmw
  isplitl [Hsht Hshr]
  · isplitl [Hsht]; · iexact Hsht
    iexact Hshr
  isplitl [Hb]; · iexists _; iexact Hb
  isplitl [Ha]
  · rw [iter_succ]; iexact Ha
  isplitl [Hsem]; · iexact Hsem
  iexists _; isplitr
  swap; · iexact HO
  ipureintro; intro p hp
  rcases Finset.mem_insert.mp hp with hp | hp
  · exact .inr (hp ▸ rfl)
  · exact hW' p hp

end Cert.KernelIdeal.Hist

end
-- ==== Proof.HistTilePost.lean ====
/-
  The first part of a tile's task — the blocks of the edge list fetched, the counters zeroed and counted up —: what it leaves.
-/
import proofs.«210354_g33337536152245_cont_8to1_b_1126_28_alg».proof.Proof.HistTileRegions

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

/-! ## The first part of the task: the blocks of the edge list fetched, the counters zeroed and counted up -/

/-- What it leaves: the edge list's share back, the two index scratches at whatever they hold, the counters at their closed
    form, the two semaphores it used back at zero, and only waits at no index recorded. -/
def part1Post (d : Dev nD) (c : Fin 2) (i : Fin 16) (O : CellTallies nD τ sig (HIx 1)) (W : Waits sig (HIx 1))
    (x : Σ' (_ : BitVec 32), FVec F S16 .f32) : sProp 𝕄 :=
  iprop(⌜x = ⟨BitVec.ofNat 32 ((coordsV c i) 1).val, k0_pay3⟩⌝
    ∗ (eiLoc d ↦{tileShare c i} m (eiLoc d))
    ∗ (∃ g, ((thrV d (coordsV c i)).loc cc0_scratch0 ↦{fullShare} g)) ∗ (∃ g, ((thrV d (coordsV c i)).loc cc0_scratch1 ↦{fullShare} g))
    ∗ ((thrV d (coordsV c i)).loc cc0_scratch2 ↦{fullShare} histFinal (F := F) d (coordsV c i) (m (eiLoc d)))
    ∗ semVal (semCell d (coordsV c i) cc0_scratch6) 0 ∗ semVal (semCell d (coordsV c i) cc0_scoped0) 0
    ∗ ∃ W', ⌜∀ p ∈ W', p ∈ W ∨ p.2 = none⌝ ∗ owes (thrV d (coordsV c i)) (O + oxV d (cV (coordsV c i))) W')

end Cert.KernelIdeal.Hist

end
-- ==== Proof.HistTileRest.lean ====
/-
  The first part of the task on a tile that is not one of the first two: one block of the edge list, two counting loops.
-/
import proofs.«210354_g33337536152245_cont_8to1_b_1126_28_alg».proof.Proof.HistTilePost

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

set_option maxHeartbeats 8000000 in
theorem part1_rest (he : NodeWords (m (eiLoc d))) (c : Fin 2) (i : Fin 16) (h1 : ¬ k0_cond1 (coordsV c i) = 1#1)
    (O : CellTallies nD τ sig (HIx 1)) (W : Waits sig (HIx 1))
    (f0 : IdxBuf (F := F) d (coordsV c i)) (f1 : ExtBuf (F := F) d (coordsV c i)) (f2 : HistBuf (F := F) d (coordsV c i)) :
    iprop(Transfers.MayWaits (thrV d (coordsV c i)) (default : HIx 1) (O + oxV d (cV (coordsV c i)))
        ∗ (eiLoc d ↦{tileShare c i} m (eiLoc d))
        ∗ ((thrV d (coordsV c i)).loc cc0_scratch0 ↦{fullShare} f0) ∗ ((thrV d (coordsV c i)).loc cc0_scratch1 ↦{fullShare} f1) ∗ ((thrV d (coordsV c i)).loc cc0_scratch2 ↦{fullShare} f2)
        ∗ semVal (semCell d (coordsV c i) cc0_scratch6) 0 ∗ semVal (semCell d (coordsV c i) cc0_scoped0) 0 ∗ owes (thrV d (coordsV c i)) (O + oxV d (cV (coordsV c i))) W)
      ⊢ wp frame (wpE (defs₀ (F := F)) 𝒱₀ (thrV d (coordsV c i)) none) Set.univ
          (k0_part1 (coordsV c i) eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3) (part1Post (F := F) m d c i O W) := by
  have h2 : ¬ k0_cond2 (coordsV c i) = 1#1 := fun h => h1 ((cond12 (coordsV c i)).trans h)
  simp only [k0_part1_eq_skeleton]; unfold k0_part1_skel
  iintro ⟨#Hmw1, Hei, H0, H1, H2, Hs6, Hs0, HO⟩
  ihave Hei' := (Entails.of_eq (pts_ei (F := F) d (coordsV c i) _ _).symm) $$ Hei
  ihave H0' := (Entails.of_eq (pts_idx (F := F) d (coordsV c i) _).symm) $$ H0
  ihave H1' := (Entails.of_eq (pts_ext (F := F) d (coordsV c i) _).symm) $$ H1
  ihave H2' := (Entails.of_eq (pts_hist (F := F) d (coordsV c i) _).symm) $$ H2
  sl_exec
  sl_for (inv1 (F := F) d (coordsV c i) f2) $$ [H2']
  case region =>
    intro k acc
    exact region1 (F := F) d (coordsV c i) f2 k acc
  · unfold inv1; rw [iter_zero]; iexact H2'
  iintro %_ HI
  unfold inv1
  ihave H2' := (Entails.of_eq (congrArg (fun x => ((histV).view.loc (thrV d (coordsV c i)) ↦{fullShare} x : sProp 𝕄)) (zfill_junk (F := F) d (coordsV c i) f2))) $$ HI
  sl_exec
  ihave H0a : ((idxV).view.loc (thrV d (coordsV c i)) ↦{fullShare} idxAfter (F := F) d (coordsV c i) (m (eiLoc d)) f0 : sProp 𝕄) $$ [H0']
  · iexact H0'
  ihave H0b := (Entails.of_eq (congrArg (fun x => ((idxV).view.loc (thrV d (coordsV c i)) ↦{fullShare} x : sProp 𝕄)) (idxAfter_junk (F := F) d (coordsV c i) (m (eiLoc d)) f0))) $$ H0a
  have hg : NodeWords (idxAfter (F := F) d (coordsV c i) (m (eiLoc d)) (junkI d (coordsV c i))) := nodeWords_idxAfter (F := F) d (coordsV c i) (m (eiLoc d)) he _
  sl_for (inv2 (F := F) d (coordsV c i) (idxAfter (F := F) d (coordsV c i) (m (eiLoc d)) (junkI d (coordsV c i))) (iter (zstep (F := F) d (coordsV c i)) k0_t1_loop.trips (junkH d (coordsV c i)))) $$ [H0b H2']
  case region =>
    intro k acc
    exact region2 (F := F) d (coordsV c i) _ hg _ k acc
  · unfold inv2
    rw [iter_zero]
    isplitl [H0b]; · iexact H0b
    iexact H2'
  iintro %_ HI
  unfold inv2
  icases HI with ⟨H0b, H2'⟩
  sl_for (inv3 (F := F) d (coordsV c i) (idxAfter (F := F) d (coordsV c i) (m (eiLoc d)) (junkI d (coordsV c i))) (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i))))) $$ [H0b H2']
  case region =>
    intro k acc
    exact region3 (F := F) d (coordsV c i) _ hg _ k acc
  · unfold inv3
    rw [iter_zero]
    isplitl [H0b]; · iexact H0b
    iexact H2'
  iintro %_ HI
  unfold inv3
  icases HI with ⟨H0b, H2'⟩
  sl_exec
  sl_step
  unfold part1Post
  isplitr; · ipureintro; rfl
  isplitl [Hei']; · iapply (Entails.of_eq (pts_ei (F := F) d (coordsV c i) _ _)); iexact Hei'
  isplitl [H0b]; · iexists _; iexact H0b
  isplitl [H1']; · iexists _; iexact H1'
  isplitl [H2']
  · rw [show histFinal (F := F) d (coordsV c i) (m (eiLoc d)) = _ from (by unfold histFinal; exact dif_neg (fun h => h1 h.1))]
    iexact H2'
  isplitl [Hs6]; · iexact Hs6
  isplitl [Hs0]; · iexact Hs0
  iexists _; isplitr
  swap; · iexact HO
  ipureintro; intro p hp
  rcases Finset.mem_insert.mp hp with hp | hp; · exact .inr (hp ▸ rfl)
  exact .inl hp

end Cert.KernelIdeal.Hist

end
-- ==== Proof.HistTileFirst.lean ====
/-
  The first part of the task on one of the first two tiles: the block of the edge list and 128 more columns from its tail,
  fetched at once from two halves of the tile's read share, and four counting loops.
-/
import proofs.«210354_g33337536152245_cont_8to1_b_1126_28_alg».proof.Proof.HistTilePost

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

set_option maxHeartbeats 8000000 in
theorem part1_first (he : NodeWords (m (eiLoc d))) (c : Fin 2) (i : Fin 16) (h1 : k0_cond1 (coordsV c i) = 1#1)
    (O : CellTallies nD τ sig (HIx 1)) (W : Waits sig (HIx 1))
    (f0 : IdxBuf (F := F) d (coordsV c i)) (f1 : ExtBuf (F := F) d (coordsV c i)) (f2 : HistBuf (F := F) d (coordsV c i)) :
    iprop(Transfers.MayWaits (thrV d (coordsV c i)) (default : HIx 1) (O + oxV d (cV (coordsV c i)))
        ∗ (eiLoc d ↦{tileShare c i} m (eiLoc d))
        ∗ ((thrV d (coordsV c i)).loc cc0_scratch0 ↦{fullShare} f0) ∗ ((thrV d (coordsV c i)).loc cc0_scratch1 ↦{fullShare} f1) ∗ ((thrV d (coordsV c i)).loc cc0_scratch2 ↦{fullShare} f2)
        ∗ semVal (semCell d (coordsV c i) cc0_scratch6) 0 ∗ semVal (semCell d (coordsV c i) cc0_scoped0) 0 ∗ owes (thrV d (coordsV c i)) (O + oxV d (cV (coordsV c i))) W)
      ⊢ wp frame (wpE (defs₀ (F := F)) 𝒱₀ (thrV d (coordsV c i)) none) Set.univ
          (k0_part1 (coordsV c i) eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3) (part1Post (F := F) m d c i O W) := by
  have h2 : k0_cond2 (coordsV c i) = 1#1 := (cond12 (coordsV c i)).symm.trans h1
  simp only [k0_part1_eq_skeleton]; unfold k0_part1_skel
  iintro ⟨#Hmw1, Hei, H0, H1, H2, Hs6, Hs0, HO⟩
  ihave Hei' := (Entails.of_eq (pts_ei (F := F) d (coordsV c i) _ _).symm) $$ Hei
  ihave H0' := (Entails.of_eq (pts_idx (F := F) d (coordsV c i) _).symm) $$ H0
  ihave H1' := (Entails.of_eq (pts_ext (F := F) d (coordsV c i) _).symm) $$ H1
  ihave H2' := (Entails.of_eq (pts_hist (F := F) d (coordsV c i) _).symm) $$ H2
  ihave HeiS := (SparseCore.ent (pointsTo_share (PosShare.mem_left_op_right _)).1) $$ Hei'
  icases HeiS with ⟨HeiA, HeiB⟩
  sl_exec
  sl_for (inv1 (F := F) d (coordsV c i) f2) $$ [H2']
  case region =>
    intro k acc
    exact region1 (F := F) d (coordsV c i) f2 k acc
  · unfold inv1; rw [iter_zero]; iexact H2'
  iintro %_ HI
  unfold inv1
  ihave H2' := (Entails.of_eq (congrArg (fun x => ((histV).view.loc (thrV d (coordsV c i)) ↦{fullShare} x : sProp 𝕄)) (zfill_junk (F := F) d (coordsV c i) f2))) $$ HI
  sl_exec
  ihave H0a : ((idxV).view.loc (thrV d (coordsV c i)) ↦{fullShare} idxAfter (F := F) d (coordsV c i) (m (eiLoc d)) f0 : sProp 𝕄) $$ [H0']
  · iexact H0'
  ihave H0b := (Entails.of_eq (congrArg (fun x => ((idxV).view.loc (thrV d (coordsV c i)) ↦{fullShare} x : sProp 𝕄)) (idxAfter_junk (F := F) d (coordsV c i) (m (eiLoc d)) f0))) $$ H0a
  have hg : NodeWords (idxAfter (F := F) d (coordsV c i) (m (eiLoc d)) (junkI d (coordsV c i))) := nodeWords_idxAfter (F := F) d (coordsV c i) (m (eiLoc d)) he _
  sl_for (inv2 (F := F) d (coordsV c i) (idxAfter (F := F) d (coordsV c i) (m (eiLoc d)) (junkI d (coordsV c i))) (iter (zstep (F := F) d (coordsV c i)) k0_t1_loop.trips (junkH d (coordsV c i)))) $$ [H0b H2']
  case region =>
    intro k acc
    exact region2 (F := F) d (coordsV c i) _ hg _ k acc
  · unfold inv2
    rw [iter_zero]
    isplitl [H0b]; · iexact H0b
    iexact H2'
  iintro %_ HI
  unfold inv2
  icases HI with ⟨H0b, H2'⟩
  sl_for (inv3 (F := F) d (coordsV c i) (idxAfter (F := F) d (coordsV c i) (m (eiLoc d)) (junkI d (coordsV c i))) (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i))))) $$ [H0b H2']
  case region =>
    intro k acc
    exact region3 (F := F) d (coordsV c i) _ hg _ k acc
  · unfold inv3
    rw [iter_zero]
    isplitl [H0b]; · iexact H0b
    iexact H2'
  iintro %_ HI
  unfold inv3
  icases HI with ⟨H0b, H2'⟩
  ihave H1a : ((extV).view.loc (thrV d (coordsV c i)) ↦{fullShare} extAfter (F := F) d (coordsV c i) h1 (m (eiLoc d)) f1 : sProp 𝕄) $$ [H1']
  · iexact H1'
  ihave H1b := (Entails.of_eq (congrArg (fun x => ((extV).view.loc (thrV d (coordsV c i)) ↦{fullShare} x : sProp 𝕄)) (extAfter_junk (F := F) d (coordsV c i) h1 (m (eiLoc d)) f1))) $$ H1a
  have hgE : NodeWords (extAfter (F := F) d (coordsV c i) h1 (m (eiLoc d)) (junkE d (coordsV c i))) := nodeWords_extAfter (F := F) d (coordsV c i) h1 (m (eiLoc d)) he _
  sl_exec
  sl_for (inv4 (F := F) d (coordsV c i) h2 (extAfter (F := F) d (coordsV c i) h1 (m (eiLoc d)) (junkE d (coordsV c i))) (iter (fun k => bump (F := F) d (coordsV c i) (lanes1 d (coordsV c i) (idxAfter (F := F) d (coordsV c i) (m (eiLoc d)) (junkI d (coordsV c i))) k)) k0_t3_loop.trips (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i)))))) $$ [H1b H2']
  case region =>
    intro k acc
    exact region4 (F := F) d (coordsV c i) h2 _ hgE _ k acc
  · unfold inv4
    rw [iter_zero]
    isplitl [H1b]; · iexact H1b
    iexact H2'
  iintro %_ HI
  unfold inv4
  icases HI with ⟨H1b, H2'⟩
  sl_for (inv5 (F := F) d (coordsV c i) h2 (extAfter (F := F) d (coordsV c i) h1 (m (eiLoc d)) (junkE d (coordsV c i))) (iter (fun k => bump (F := F) d (coordsV c i) (lanesE0 d (coordsV c i) h2 (extAfter (F := F) d (coordsV c i) h1 (m (eiLoc d)) (junkE d (coordsV c i))) k)) k0_t4_loop.trips (iter (fun k => bump (F := F) d (coordsV c i) (lanes1 d (coordsV c i) (idxAfter (F := F) d (coordsV c i) (m (eiLoc d)) (junkI d (coordsV c i))) k)) k0_t3_loop.trips (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i))))))) $$ [H1b H2']
  case region =>
    intro k acc
    exact region5 (F := F) d (coordsV c i) h2 _ hgE _ k acc
  · unfold inv5
    rw [iter_zero]
    isplitl [H1b]; · iexact H1b
    iexact H2'
  iintro %_ HI
  unfold inv5
  icases HI with ⟨H1b, H2'⟩
  sl_exec
  sl_step
  unfold part1Post
  isplitr; · ipureintro; rfl
  isplitl [HeiA HeiB]
  · iapply (Entails.of_eq (pts_ei (F := F) d (coordsV c i) _ _))
    iapply (SparseCore.ent (pointsTo_share (PosShare.mem_left_op_right _)).2)
    isplitl [HeiA]; · iexact HeiA
    iexact HeiB
  isplitl [H0b]; · iexists _; iexact H0b
  isplitl [H1b]; · iexists _; iexact H1b
  isplitl [H2']
  · rw [show histFinal (F := F) d (coordsV c i) (m (eiLoc d)) = _ from (by unfold histFinal; exact dif_pos ⟨h1, h2⟩)]
    iexact H2'
  isplitl [Hs6]; · iexact Hs6
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.KernelIdeal.Hist

end
-- ==== Proof.HistTile.lean ====
/-
  One vector subcore's task of the histogram kernel, at a symbolic place: the first part by cases on the tile, then the
  counters copied into the tile's row of the shared scratch, the subcore barrier handing the rows' pieces round, the strip
  sums, and the copy out.
-/
import proofs.«210354_g33337536152245_cont_8to1_b_1126_28_alg».proof.Proof.HistTileRest
import proofs.«210354_g33337536152245_cont_8to1_b_1126_28_alg».proof.Proof.HistTileFirst

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

theorem part1_spec (he : NodeWords (m (eiLoc d))) (c : Fin 2) (i : Fin 16)
    (O : CellTallies nD τ sig (HIx 1)) (W : Waits sig (HIx 1))
    (f0 : IdxBuf (F := F) d (coordsV c i)) (f1 : ExtBuf (F := F) d (coordsV c i)) (f2 : HistBuf (F := F) d (coordsV c i)) :
    iprop(Transfers.MayWaits (thrV d (coordsV c i)) (default : HIx 1) (O + oxV d (cV (coordsV c i)))
        ∗ (eiLoc d ↦{tileShare c i} m (eiLoc d))
        ∗ ((thrV d (coordsV c i)).loc cc0_scratch0 ↦{fullShare} f0) ∗ ((thrV d (coordsV c i)).loc cc0_scratch1 ↦{fullShare} f1) ∗ ((thrV d (coordsV c i)).loc cc0_scratch2 ↦{fullShare} f2)
        ∗ semVal (semCell d (coordsV c i) cc0_scratch6) 0 ∗ semVal (semCell d (coordsV c i) cc0_scoped0) 0 ∗ owes (thrV d (coordsV c i)) (O + oxV d (cV (coordsV c i))) W)
      ⊢ wp frame (wpE (defs₀ (F := F)) 𝒱₀ (thrV d (coordsV c i)) none) Set.univ
          (k0_part1 (coordsV c i) eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3) (part1Post (F := F) m d c i O W) := by
  by_cases h1 : k0_cond1 (coordsV c i) = 1#1
  · exact part1_first (F := F) m d he c i h1 O W f0 f1 f2
  · exact part1_rest (F := F) m d he c i h1 O W f0 f1 f2

/-! ## The task -/

set_option maxHeartbeats 8000000 in
theorem tile_body (hN : ∀ d, NodeWords (m (eiLoc d))) (d : Dev nD) (c : Fin 2) (i : Fin 16) (hF : (K (F := F)).Facts)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit (SHv (F := F) m) d (cV (coordsV c i)) (jV (coordsV c i)) ∗ goA m d (cV (coordsV c i)) c i
        ∗ scopedBufs (V d (cV (coordsV c i)) (jV (coordsV c i))) ∗ scopedSems0 (V d (cV (coordsV c i)) (jV (coordsV c i))) ∗ owes (V d (cV (coordsV c i)) (jV (coordsV c i))) (O + oxV d (cV (coordsV c i))) W)
      ⊢ wp frame (wpE (defs₀ (F := F)) 𝒱₀ (V d (cV (coordsV c i)) (jV (coordsV c i))) none) Set.univ
          (cc0__sc_histogram (coordsV c i) eiV (Memref.isWhole_whole _) tV (Memref.isWhole_whole _) idxV (Memref.isWhole_whole _) extV (Memref.isWhole_whole _)
            histV (Memref.isWhole_whole _) accV (Memref.isWhole_whole _) bufV (Memref.isWhole_whole _) shV (Memref.isWhole_whole _)
            cc0_scratch6 cc0_scoped0 cc0_scoped1 cc0_scoped2 cc0_scoped3)
          fun _ => iprop(tdA m (CHv (F := F) m) d (cV (coordsV c i)) c i ∗ scopedBufs (V d (cV (coordsV c i)) (jV (coordsV c i))) ∗ scopedSems0 (V d (cV (coordsV c i)) (jV (coordsV c i)))
            ∗ ∃ W', ⌜∀ p ∈ W', p ∈ W ∨ p.2 = none ∨ p.2 = some (0 : Fin 1)⌝ ∗ owes (V d (cV (coordsV c i)) (jV (coordsV c i))) O W') := by
  have he := hN d
  simp only [cc0__sc_histogram_eq_skeleton]; unfold cc0__sc_histogram_skel
  rw [(K (F := F)).scopedBufs_V hF d (cV (coordsV c i)) (jV (coordsV c i)), SparseCore.Cfg.scopedSems0_V (Val := Elt F) d (cV (coordsV c i)) (jV (coordsV c i)), ownSems0_V, ownBufs_V]
  unfold bkit
  iintro ⟨#Hlv, ⟨⟨%κ, #Hinv⟩, Htoks, #Hreached, Hat, Hcred⟩, ⟨Hei, Ht, ⟨%fsh, Hsh⟩⟩, ⟨⟨%f0, H0⟩, ⟨%f1, H1⟩, ⟨%f2, H2⟩, ⟨%f3, H3⟩, ⟨%f4, H4⟩, Hbufs⟩, ⟨Hs6, Hs0, Hs1, Hs2, Hs3, Hsems⟩, HO⟩
  have hO' : ∀ g, (O + oxV d (cV (coordsV c i))) g none = 0 := fun g => by rw [Pi.add_apply, Finsupp.add_apply, hO g, oxV_none]
  ihave Hmw1 := (show levAts (K (F := F)).L (K (F := F)).lev ⊢ Transfers.MayWaits (thrV d (coordsV c i)) (default : HIx 1) (O + oxV d (cV (coordsV c i))) from
    (K (F := F)).mayWaits_none (thr := (thrV d (coordsV c i))) hO') $$ Hlv
  ihave Hmw2 := (show levAts (K (F := F)).L (K (F := F)).lev ⊢ Transfers.MayWaits (thrV d (coordsV c i)) (default : HIx 1) O from
    (K (F := F)).mayWaits_none (thr := (thrV d (coordsV c i))) hO) $$ Hlv
  rw [wp_bind]
  iapply (wp_wand _ _ _ (Q := part1Post (F := F) m d c i O W)) $$ [Hei H0 H1 H2 Hs6 Hs0 HO]
  · iapply (part1_spec (F := F) m d he c i O W f0 f1 f2)
    isplitr; · iexact Hmw1
    isplitl [Hei]; · iexact Hei
    isplitl [H0]; · iexact H0
    isplitl [H1]; · iexact H1
    isplitl [H2]; · iexact H2
    isplitl [Hs6]; · iexact Hs6
    isplitl [Hs0]; · iexact Hs0
    iexact HO
  iintro %x HP
  unfold part1Post
  icases HP with ⟨%hx, Hei, ⟨%g0, H0⟩, ⟨%g1, H1⟩, H2, Hs6, Hs0, %W0, %hW0, HO⟩
  subst hx
  ihave Hei' := (Entails.of_eq (pts_ei (F := F) d (coordsV c i) _ _).symm) $$ Hei
  ihave Ht' := (Entails.of_eq (pts_tOut (F := F) d (coordsV c i) _).symm) $$ Ht
  ihave Hsh' := (Entails.of_eq (pts_shRow (F := F) d (coordsV c i) _).symm) $$ Hsh
  ihave H0' := (Entails.of_eq (pts_idx (F := F) d (coordsV c i) _).symm) $$ H0
  ihave H1' := (Entails.of_eq (pts_ext (F := F) d (coordsV c i) _).symm) $$ H1
  ihave H2' := (Entails.of_eq (pts_hist (F := F) d (coordsV c i) _).symm) $$ H2
  ihave H3' := (Entails.of_eq (pts_acc (F := F) d (coordsV c i) _).symm) $$ H3
  ihave H4' := (Entails.of_eq (pts_buf (F := F) d (coordsV c i) _).symm) $$ H4
  sl_exec
  ihave Hsh0 : (((shRowK (coordsV c i)).view.loc (thrV d (coordsV c i)) ↦[(shRowK (coordsV c i)).view.set]{fullShare} rowAfter (F := F) d (coordsV c i) (histFinal (F := F) d (coordsV c i) (m (eiLoc d))) fsh : sProp 𝕄)) $$ [Hsh']
  · iexact Hsh'
  ihave Hrow := (show (((shRowK (coordsV c i)).view.loc (thrV d (coordsV c i)) ↦[(shRowK (coordsV c i)).view.set]{fullShare} rowAfter (F := F) d (coordsV c i) (histFinal (F := F) d (coordsV c i) (m (eiLoc d))) fsh : sProp 𝕄))
      ⊢ (shLoc d (cV (coordsV c i)) ↦[shRowSet (coordsV c i)]{fullShare} (SHv (F := F) m d (cV (coordsV c i)))) from
    Entails.of_eq (pointsTo_congr (fun j hj => rowAfter_at (F := F) d (coordsV c i) m fsh j hj))) $$ Hsh0
  iapply (barrier_step (F := F) (SHv (F := F) m) d (coordsV c i) κ O _ hOlev _ _) $$ [Htoks Hat Hcred HO Hrow]
  · isplitr; · iexact Hlv
    isplitr; · iexact Hinv
    isplitl [Htoks]; · iexact Htoks
    isplitr; · iexact Hreached
    isplitl [Hat]; · iexact Hat
    isplitl [Hcred]; · iexact Hcred
    isplitl [HO]; · iexact HO
    iexact Hrow
  iintro ⟨⟨%W1, %hW1, HO⟩, Hblks⟩
  sl_for (inv6 (F := F) d (coordsV c i) (k0_pay3 (F := F)) f3) $$ [H3']
  case region =>
    intro k acc
    exact region6 (F := F) d (coordsV c i) _ f3 k acc
  · unfold inv6; rw [iter_zero]; iexact H3'
  iintro %_ HI
  unfold inv6
  ihave H3' := (Entails.of_eq (congrArg (fun x => ((accV).view.loc (thrV d (coordsV c i)) ↦{fullShare} x : sProp 𝕄)) (zfillA_junk (F := F) d (coordsV c i) (k0_pay3 (F := F)) f3))) $$ HI
  sl_for (inv7 (F := F) d (coordsV c i) (SHv (F := F) m d (cV (coordsV c i))) O W1 (iter (zstepA (F := F) d (coordsV c i) (k0_pay3 (F := F))) k0_t6_loop.trips (junkA d (coordsV c i)))) $$ [Hblks H4' H3' Hs2 HO]
  case region =>
    intro t acc
    exact region7 (F := F) d (coordsV c i) _ O W1 _ t acc
  · unfold inv7
    rw [iter_zero]
    isplitr; · iexact Hmw2
    isplitl [Hblks]; · iexact Hblks
    isplitl [H4']; · iexists _; iexact H4'
    isplitl [H3']; · iexact H3'
    isplitl [Hs2]; · iexact Hs2
    iexists W1; isplitr
    · ipureintro; exact fun p hp => .inl hp
    · iexact HO
  iintro %_ HI
  unfold inv7
  icases HI with ⟨-, Hblks, ⟨%b4, H4'⟩, H3', Hs2, %W2, %hW2, HO⟩
  sl_exec
  sl_step
  isplitl [Hei' Ht' Hblks]
  · isplitl [Hei']; · iapply (Entails.of_eq (pts_ei (F := F) d (coordsV c i) _ _)); iexact Hei'
    isplitl [Ht']
    · iexists (outAfter (F := F) d (coordsV c i) (accFinal (F := F) d (coordsV c i) (SHv (F := F) m d (cV (coordsV c i)))) (m (tLoc d)))
      isplitr
      · ipureintro; intro k; exact outAfter_at (F := F) d m c i (m (tLoc d)) k
      · iexact Ht'
    · iapply (SparseCore.ent (bigSep_mono fun t _ => exists_intro (Φ := fun f => (shLoc d (cV (coordsV c i)) ↦[shBlkSet (coordsV c i) t]{fullShare} f : sProp 𝕄)) (SHv (F := F) m d (cV (coordsV c i)))))
      iexact Hblks
  isplitl [H0' H1' H2' H3' H4' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    iexact Hbufs
  isplitl [Hs6 Hs0 Hs1 Hs2 Hs3 Hsems]
  · isplitl [Hs6]; · iexact Hs6
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp
  · exact .inr (.inl (hp ▸ rfl))
  rcases hW2 p hp with hp | hp
  swap; · exact .inr (.inl hp)
  rcases hW1 p hp with hp | hp | hp
  · rcases Finset.mem_insert.mp hp with hp | hp; · exact .inr (.inl (hp ▸ rfl))
    rcases hW0 p hp with hp | hp
    · exact .inl hp
    · exact .inr (.inl hp)
  · exact .inr (.inl hp)
  · exact .inr (.inr hp)

end Cert.KernelIdeal.Hist

end
-- ==== Proof.HistFactsVal.lean ====
/-
  The terms of a tile's task read entry by entry: what each copy lands at a row and column, the sixteen lanes a trip
  loads, the zero-fills at an index, and, on the extended reals, a tile's 640 sums as sums over the sixteen rows of its
  SparseCore's shared scratch.
-/
import proofs.«210354_g33337536152245_cont_8to1_b_1126_28_alg».proof.Proof.HistFacts
import Idealize.ShloMosaic.Lib.ValueLayout
import Idealize.ShloMosaic.PureOps.Ideal.Laws

noncomputable section

open scoped BigOperators

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [Named F]

variable (d : Dev nD) (L : grid0.Coords)

theorem trips1 : k0_t1_loop.trips = 640 := by decide
theorem trips2 : k0_t2_loop.trips = 312 := by decide
theorem trips3 : k0_t3_loop.trips = 312 := by decide
theorem trips4 : k0_t4_loop.trips = 8 := by decide
theorem trips5 : k0_t5_loop.trips = 8 := by decide
theorem trips6 : k0_t6_loop.trips = 40 := by decide
theorem trips8 : k0_t8_loop.trips = 40 := by decide

/-- The two tests are the test "tile number `16 · L 0 + L 1` is below 2". -/
theorem cond1_lt_all : ∀ L : grid0.Coords, k0_cond1 L = 1#1 → 16 * (L 0).val + (L 1).val < 2 := by decide +kernel
theorem cond1_lt (h1 : k0_cond1 L = 1#1) : 16 * (L 0).val + (L 1).val < 2 := cond1_lt_all L h1

/-! ## What the copies land, at a row and a column -/

theorem idxAfter_apply (e : EiBuf (F := F) d) (old : IdxBuf (F := F) d L) (r : Fin 2) (col : Fin 4992) :
    idxAfter (F := F) d L e old (ix2 r col)
      = e (ix2 r ⟨79872 * (L 0).val + 4992 * (L 1).val + col.val, by
          have h0 : (L 0).val < 2 := (L 0).isLt
          have h1 : (L 1).val < 16 := (L 1).isLt
          have := col.isLt; omega⟩) := by
  rw [show idxAfter (F := F) d L e old = _ from View.write_whole_univ (Val := Elt F) cc0_scratch0 old _]
  refine congrArg e (funext fun a => Fin.ext ?_)
  match a with
  | ⟨0, _⟩ =>
    show (k0_off1 L) 0 + 1 * r.val = r.val
    rw [k0_off1_eq]
    show 0 + 1 * r.val = r.val
    omega
  | ⟨1, _⟩ =>
    show (k0_off1 L) 1 + 1 * col.val = 79872 * (L 0).val + 4992 * (L 1).val + col.val
    rw [k0_off1_eq]
    show 79872 * (L 0).val + 4992 * (L 1).val + 1 * col.val = 79872 * (L 0).val + 4992 * (L 1).val + col.val
    omega

theorem extAfter_apply (h1 : k0_cond1 L = 1#1) (e : EiBuf (F := F) d) (old : ExtBuf (F := F) d L) (r : Fin 2) (col : Fin 128) :
    extAfter (F := F) d L h1 e old (ix2 r col)
      = e (ix2 r ⟨2048 * (L 0).val + 128 * (L 1).val + 159744 + col.val, by
          have := cond1_lt L h1
          have := col.isLt; omega⟩) := by
  rw [show extAfter (F := F) d L h1 e old = _ from View.write_whole_univ (Val := Elt F) cc0_scratch1 old _]
  refine congrArg e (funext fun a => Fin.ext ?_)
  match a with
  | ⟨0, _⟩ =>
    show (k0_off2 L) 0 + 1 * r.val = r.val
    rw [k0_off2_eq]
    show 0 + 1 * r.val = r.val
    omega
  | ⟨1, _⟩ =>
    show (k0_off2 L) 1 + 1 * col.val = 2048 * (L 0).val + 128 * (L 1).val + 159744 + col.val
    rw [k0_off2_eq]
    show 2048 * (L 0).val + 128 * (L 1).val + 159744 + 1 * col.val = 2048 * (L 0).val + 128 * (L 1).val + 159744 + col.val
    omega

/-! ## The sixteen lanes a trip loads -/

theorem lanes0_apply (g : IdxBuf (F := F) d L) (k : Fin k0_t2_loop.trips) (l : Fin 16) :
    lanes0 (F := F) d L g k (ix1 l)
      = g (ix2 (0 : Fin 2) ⟨16 * k.val + l.val, by have := k.isLt; have e := trips2; have := l.isLt; omega⟩) := by
  unfold lanes0
  rw [shapeCast_apply _ _ (ix1 l) (ix2 (0 : Fin 1) l) (by
    rw [Shape.rowMajor_val_two, Shape.rowMajor_val_one]
    show 0 * 16 + l.val = l.val
    omega)]
  refine congrArg g (funext fun a => Fin.ext ?_)
  match a with
  | ⟨0, _⟩ =>
    show (k0_off4 k) 0 + 1 * 0 = 0
    rw [k0_off4_eq]
    rfl
  | ⟨1, _⟩ =>
    show (k0_off4 k) 1 + 1 * l.val = 16 * k.val + l.val
    rw [k0_off4_eq]
    show 16 * k.val + 1 * l.val = 16 * k.val + l.val
    omega
theorem lanes1_apply (g : IdxBuf (F := F) d L) (k : Fin k0_t3_loop.trips) (l : Fin 16) :
    lanes1 (F := F) d L g k (ix1 l)
      = g (ix2 (1 : Fin 2) ⟨16 * k.val + l.val, by have := k.isLt; have e := trips3; have := l.isLt; omega⟩) := by
  unfold lanes1
  rw [shapeCast_apply _ _ (ix1 l) (ix2 (0 : Fin 1) l) (by
    rw [Shape.rowMajor_val_two, Shape.rowMajor_val_one]
    show 0 * 16 + l.val = l.val
    omega)]
  refine congrArg g (funext fun a => Fin.ext ?_)
  match a with
  | ⟨0, _⟩ =>
    show (k0_off5 k) 0 + 1 * 0 = 1
    rw [k0_off5_eq]
    rfl
  | ⟨1, _⟩ =>
    show (k0_off5 k) 1 + 1 * l.val = 16 * k.val + l.val
    rw [k0_off5_eq]
    show 16 * k.val + 1 * l.val = 16 * k.val + l.val
    omega
theorem lanesE0_apply (h2 : k0_cond2 L = 1#1) (g : ExtBuf (F := F) d L) (k : Fin k0_t4_loop.trips) (l : Fin 16) :
    lanesE0 (F := F) d L h2 g k (ix1 l)
      = g (ix2 (0 : Fin 2) ⟨16 * k.val + l.val, by have := k.isLt; have e := trips4; have := l.isLt; omega⟩) := by
  unfold lanesE0
  rw [shapeCast_apply _ _ (ix1 l) (ix2 (0 : Fin 1) l) (by
    rw [Shape.rowMajor_val_two, Shape.rowMajor_val_one]
    show 0 * 16 + l.val = l.val
    omega)]
  refine congrArg g (funext fun a => Fin.ext ?_)
  match a with
  | ⟨0, _⟩ =>
    show (k0_off6 k) 0 + 1 * 0 = 0
    rw [k0_off6_eq]
    rfl
  | ⟨1, _⟩ =>
    show (k0_off6 k) 1 + 1 * l.val = 16 * k.val + l.val
    rw [k0_off6_eq]
    show 16 * k.val + 1 * l.val = 16 * k.val + l.val
    omega
theorem lanesE1_apply (h2 : k0_cond2 L = 1#1) (g : ExtBuf (F := F) d L) (k : Fin k0_t5_loop.trips) (l : Fin 16) :
    lanesE1 (F := F) d L h2 g k (ix1 l)
      = g (ix2 (1 : Fin 2) ⟨16 * k.val + l.val, by have := k.isLt; have e := trips5; have := l.isLt; omega⟩) := by
  unfold lanesE1
  rw [shapeCast_apply _ _ (ix1 l) (ix2 (0 : Fin 1) l) (by
    rw [Shape.rowMajor_val_two, Shape.rowMajor_val_one]
    show 0 * 16 + l.val = l.val
    omega)]
  refine congrArg g (funext fun a => Fin.ext ?_)
  match a with
  | ⟨0, _⟩ =>
    show (k0_off7 k) 0 + 1 * 0 = 1
    rw [k0_off7_eq]
    rfl
  | ⟨1, _⟩ =>
    show (k0_off7 k) 1 + 1 * l.val = 16 * k.val + l.val
    rw [k0_off7_eq]
    show 16 * k.val + 1 * l.val = 16 * k.val + l.val
    omega

/-! ## The zero-fills at an index -/

/-- Steps that each set the part of a buffer they cover to one value `c` and leave the rest alone: after the first `m`
    of them the buffer holds `c` at every index a step below `m` covers. -/
theorem iter_const {n : Nat} {I X : Type} (step : Fin n → (I → X) → I → X) (cov : Fin n → I → Prop) (c : X)
    (hin : ∀ k f i, cov k i → step k f i = c) (hout : ∀ k f i, ¬cov k i → step k f i = f i)
    (f : I → X) (i : I) : ∀ m, (∃ k : Fin n, k.val < m ∧ cov k i) → iter step m f i = c
  | 0, h => by obtain ⟨k, hk, _⟩ := h; exact absurd hk (Nat.not_lt_zero _)
  | m + 1, h => by
    show (if hm : m < n then step ⟨m, hm⟩ (iter step m f) else iter step m f) i = c
    by_cases hm : m < n
    · rw [dif_pos hm]
      by_cases hc : cov ⟨m, hm⟩ i
      · exact hin _ _ _ hc
      · rw [hout _ _ _ hc]
        obtain ⟨k, hk, hck⟩ := h
        refine iter_const step cov c hin hout f i m ⟨k, ?_, hck⟩
        rcases Nat.lt_succ_iff_lt_or_eq.mp hk with h1 | h1
        · exact h1
        · exact absurd (by rw [show (⟨m, hm⟩ : Fin n) = k from Fin.ext h1.symm]; exact hck) hc
    · rw [dif_neg hm]
      obtain ⟨k, hk, hck⟩ := h
      exact iter_const step cov c hin hout f i m ⟨k, by have := k.isLt; omega, hck⟩

theorem zfill_apply (n : Fin 10240) : iter (zstep (F := F) d L) k0_t1_loop.trips (junkH d L) (ix1 n) = zeroF := by
  refine iter_const (zstep (F := F) d L)
    (fun k i => i ∈ (Rect.unit (s := S10240) (k0_off3 k) S16.size (k0_off3_inb k)).set) zeroF ?_ ?_ (junkH d L) (ix1 n) _ ?_
  · intro k g i hi
    obtain ⟨x, rfl⟩ : ∃ x, (Rect.unit (s := S10240) (k0_off3 k) S16.size (k0_off3_inb k)).emb x = i :=
      (Rect.unit (s := S10240) (k0_off3 k) S16.size (k0_off3_inb k)).exists_idx_of_mem hi
    exact View.write_emb_of_mem (v := (histV).view.slice (Rect.unit (s := S10240) (k0_off3 k) S16.size (k0_off3_inb k)))
      (Val := Elt F) g (k0_pay3 (F := F)) (M := Finset.univ) (x := x) (Finset.mem_univ _)
  · intro k g i hi
    have hs : ((histV).view.slice (Rect.unit (s := S10240) (k0_off3 k) S16.size (k0_off3_inb k))).setOn Finset.univ
        = (Rect.unit (s := S10240) (k0_off3 k) S16.size (k0_off3_inb k)).set := by
      rw [View.setOn_univ]; exact View.set_slice_whole cc0_scratch2 _
    show ((histV).view.slice (Rect.unit (s := S10240) (k0_off3 k) S16.size (k0_off3_inb k))).write (Elt F) g
        (k0_pay3 (F := F)) Finset.univ i = g i
    exact View.write_of_not_mem g _ Finset.univ (by rw [hs]; exact hi)
  · have hn : n.val < 10240 := n.isLt
    have hk : n.val / 16 < k0_t1_loop.trips := by rw [trips1]; omega
    refine ⟨⟨n.val / 16, hk⟩, hk, ?_⟩
    rw [Rect.mem_set_unit, k0_off3_eq]
    intro a
    obtain rfl : a = 0 := Subsingleton.elim _ _
    show 16 * (n.val / 16) ≤ n.val ∧ n.val < 16 * (n.val / 16) + 16
    omega

theorem zfillA_apply (x : Fin 640) :
    iter (zstepA (F := F) d L (k0_pay3 (F := F))) k0_t6_loop.trips (junkA d L) (ix1 x) = zeroF := by
  refine iter_const (zstepA (F := F) d L (k0_pay3 (F := F)))
    (fun k i => i ∈ (Rect.unit (s := S640) (k0_off9 k) S16.size (k0_off9_inb k)).set) zeroF ?_ ?_ (junkA d L) (ix1 x) _ ?_
  · intro k g i hi
    obtain ⟨y, rfl⟩ : ∃ y, (Rect.unit (s := S640) (k0_off9 k) S16.size (k0_off9_inb k)).emb y = i :=
      (Rect.unit (s := S640) (k0_off9 k) S16.size (k0_off9_inb k)).exists_idx_of_mem hi
    exact View.write_emb_of_mem (v := (accV).view.slice (Rect.unit (s := S640) (k0_off9 k) S16.size (k0_off9_inb k)))
      (Val := Elt F) g (k0_pay3 (F := F)) (M := Finset.univ) (x := y) (Finset.mem_univ _)
  · intro k g i hi
    have hs : ((accV).view.slice (Rect.unit (s := S640) (k0_off9 k) S16.size (k0_off9_inb k))).setOn Finset.univ
        = (Rect.unit (s := S640) (k0_off9 k) S16.size (k0_off9_inb k)).set := by
      rw [View.setOn_univ]; exact View.set_slice_whole cc0_scratch3 _
    show ((accV).view.slice (Rect.unit (s := S640) (k0_off9 k) S16.size (k0_off9_inb k))).write (Elt F) g
        (k0_pay3 (F := F)) Finset.univ i = g i
    exact View.write_of_not_mem g _ Finset.univ (by rw [hs]; exact hi)
  · have hx : x.val < 640 := x.isLt
    have hk : x.val / 16 < k0_t6_loop.trips := by rw [trips6]; omega
    refine ⟨⟨x.val / 16, hk⟩, hk, ?_⟩
    rw [Rect.mem_set_unit, k0_off9_eq]
    intro a
    obtain rfl : a = 0 := Subsingleton.elim _ _
    show 16 * (x.val / 16) ≤ x.val ∧ x.val < 16 * (x.val / 16) + 16
    omega

/-! ## A tile's 640 sums, on the extended reals -/

/-- Steps of which the one that owns an index adds `b` there and every other leaves it alone: after the first `m` steps
    the buffer has taken `b` at exactly the indices whose owner is below `m`. -/
theorem iter_add_once {n : Nat} {I : Type} (step : Fin n → (I → EReal) → I → EReal) (own : I → ℕ) (b : I → EReal)
    (hin : ∀ k f i, own i = k.val → step k f i = f i + b i) (hout : ∀ k f i, own i ≠ k.val → step k f i = f i)
    (f : I → EReal) (i : I) : ∀ m, iter step m f i = if own i < m ∧ own i < n then f i + b i else f i
  | 0 => by
    rw [if_neg (by omega)]
    rfl
  | m + 1 => by
    show (if hm : m < n then step ⟨m, hm⟩ (iter step m f) else iter step m f) i = _
    by_cases hm : m < n
    · rw [dif_pos hm]
      by_cases ho : own i = m
      · rw [hin ⟨m, hm⟩ _ i ho, iter_add_once step own b hin hout f i m, if_neg (by omega), if_pos (by omega)]
      · rw [hout ⟨m, hm⟩ _ i ho, iter_add_once step own b hin hout f i m]
        by_cases h : own i < m ∧ own i < n
        · rw [if_pos h, if_pos (by omega)]
        · rw [if_neg h, if_neg (by omega)]
    · rw [dif_neg hm, iter_add_once step own b hin hout f i m]
      by_cases h : own i < m ∧ own i < n
      · rw [if_pos h, if_pos (by omega)]
      · rw [if_neg h, if_neg (by omega)]

/-- Steps each of which adds its own term everywhere: after the first `m` of them the buffer has taken the first `m` terms. -/
theorem iter_add_all {n : Nat} {I : Type} (step : Fin n → (I → EReal) → I → EReal) (g : ℕ → I → EReal)
    (hstep : ∀ k f i, step k f i = f i + g k.val i) (f : I → EReal) (i : I) :
    ∀ m, m ≤ n → iter step m f i = f i + ∑ t ∈ Finset.range m, g t i
  | 0, _ => by
    rw [Finset.range_zero, Finset.sum_empty, add_zero]
    rfl
  | m + 1, hle => by
    show (if hm : m < n then step ⟨m, hm⟩ (iter step m f) else iter step m f) i = _
    rw [dif_pos (by omega), hstep, iter_add_all step g hstep f i m (by omega), Finset.sum_range_succ, add_assoc]

/-- The 640 columns of row `t` that a tile stages: column `y` is the shared scratch at row `t`, column `640 · L 1 + y`. -/
theorem blkAfter_apply (SHc : ShBuf (F := F) d L) (t : Fin k0_t7_loop.trips) (old : BufBuf (F := F) d L) (y : Fin 640) :
    blkAfter (F := F) d L SHc t old (ix1 y)
      = SHc (ix2 (⟨t.val, by have := t.isLt; have e := trips7; omega⟩ : Fin 16)
          (⟨640 * (L 1).val + y.val, by have h1 : (L 1).val < 16 := (L 1).isLt; have := y.isLt; omega⟩ : Fin 10240)) := by
  rw [show blkAfter (F := F) d L SHc t old = _ from View.write_whole_univ (Val := Elt F) cc0_scratch4 old _]
  refine congrArg SHc ?_
  show (Rect.unit (s := S16x10240) (k0_off10 L t) S1x640.size (k0_off10_inb L t)).emb
    (Shape.reshapeEquiv squeezes_S1x640_S640.numel_eq (ix1 y)) = _
  rw [show Shape.reshapeEquiv squeezes_S1x640_S640.numel_eq (ix1 y) = (ix2 (0 : Fin 1) y : S1x640.Idx) from
    Shape.reshapeEquiv_eq_of_rowMajor _ (by
      rw [Shape.rowMajor_val_two, Shape.rowMajor_val_one]
      show 0 * 640 + y.val = y.val
      omega)]
  funext a
  refine Fin.ext ?_
  rw [Rect.emb_apply]
  match a with
  | ⟨0, _⟩ =>
    show (k0_off10 L t) 0 + 1 * 0 = t.val
    rw [k0_off10_eq]
    show t.val + 1 * 0 = t.val
    omega
  | ⟨1, _⟩ =>
    show (k0_off10 L t) 1 + 1 * y.val = 640 * (L 1).val + y.val
    rw [k0_off10_eq]
    show 640 * (L 1).val + 1 * y.val = 640 * (L 1).val + y.val
    omega

/-- One trip of the inner add, on the extended reals: the sixteen sums the trip owns take the staged terms, -/
theorem astep_in (b a : S640.Idx → EReal) (k : Fin k0_t8_loop.trips) (i : S640.Idx) (h : (i 0).val / 16 = k.val) :
    astep (F := Ideal) d L b k a i = a i + b i := by
  have hi : i ∈ (Rect.unit (s := S640) (k0_off11 k) S16.size (k0_off11_inb k)).set := by
    rw [Rect.mem_set_unit, k0_off11_eq]
    intro c
    obtain rfl : c = 0 := Subsingleton.elim _ _
    show 16 * k.val ≤ (i 0).val ∧ (i 0).val < 16 * k.val + 16
    omega
  obtain ⟨x, rfl⟩ : ∃ x, (Rect.unit (s := S640) (k0_off11 k) S16.size (k0_off11_inb k)).emb x = i :=
    (Rect.unit (s := S640) (k0_off11 k) S16.size (k0_off11_inb k)).exists_idx_of_mem hi
  exact View.write_emb_of_mem (v := (accV).view.slice (Rect.unit (s := S640) (k0_off11 k) S16.size (k0_off11_inb k)))
    (Val := Elt Ideal) a _ (M := Finset.univ) (x := x) (Finset.mem_univ _)

/-- the others stay. -/
theorem astep_out (b a : S640.Idx → EReal) (k : Fin k0_t8_loop.trips) (i : S640.Idx) (h : (i 0).val / 16 ≠ k.val) :
    astep (F := Ideal) d L b k a i = a i := by
  have hi : i ∉ (Rect.unit (s := S640) (k0_off11 k) S16.size (k0_off11_inb k)).set := by
    rw [Rect.mem_set_unit, k0_off11_eq]
    intro hc
    have h0 : 16 * k.val ≤ (i 0).val ∧ (i 0).val < 16 * k.val + 16 := hc 0
    omega
  have hs : ((accV).view.slice (Rect.unit (s := S640) (k0_off11 k) S16.size (k0_off11_inb k))).setOn Finset.univ
      = (Rect.unit (s := S640) (k0_off11 k) S16.size (k0_off11_inb k)).set := by
    rw [View.setOn_univ]; exact View.set_slice_whole cc0_scratch3 _
  exact View.write_of_not_mem (v := (accV).view.slice (Rect.unit (s := S640) (k0_off11 k) S16.size (k0_off11_inb k)))
    (Val := Elt Ideal) a _ Finset.univ (by rw [hs]; exact hi)

/-- Taking row `t`'s strip in adds it to every one of the 640 sums. -/
theorem cstep_apply (SHc : S16x10240.Idx → EReal) (t : Fin k0_t7_loop.trips) (a : S640.Idx → EReal) (i : S640.Idx) :
    cstep (F := Ideal) d L SHc t a i = a i + blkAfter (F := Ideal) d L SHc t (junkB d L) i := by
  have h := iter_add_once (I := S640.Idx) (astep (F := Ideal) d L (blkAfter (F := Ideal) d L SHc t (junkB d L)))
    (fun i => (i 0).val / 16) (blkAfter (F := Ideal) d L SHc t (junkB d L))
    (fun k f i hk => astep_in d L _ f k i hk) (fun k f i hk => astep_out d L _ f k i hk) a i k0_t8_loop.trips
  have hi : (i 0).val < 640 := (i 0).isLt
  rw [if_pos ⟨by rw [trips8]; omega, by rw [trips8]; omega⟩] at h
  exact h

theorem accFinal_ideal (SHc : ShBuf (F := Ideal) d L) (x : Fin 640) :
    (accFinal (F := Ideal) d L SHc (ix1 x) : EReal)
      = @Finset.sum (Fin 16) EReal _ Finset.univ (fun t => SHc (ix2 t ⟨640 * (L 1).val + x.val, by
          have h1 : (L 1).val < 16 := (L 1).isLt
          have := x.isLt; omega⟩)) := by
  have h := iter_add_all (I := S640.Idx) (cstep (F := Ideal) d L SHc)
    (fun t i => if ht : t < 16 then blkAfter (F := Ideal) d L SHc ⟨t, by rw [trips7]; exact ht⟩ (junkB d L) i else 0)
    (fun k f i => by
      rw [cstep_apply, dif_pos (show k.val < 16 by have := k.isLt; have e := trips7; omega)])
    (iter (zstepA (F := Ideal) d L (k0_pay3 (F := Ideal))) k0_t6_loop.trips (junkA (F := Ideal) d L)) (ix1 x) k0_t7_loop.trips le_rfl
  have h0 : iter (zstepA (F := Ideal) d L (k0_pay3 (F := Ideal))) k0_t6_loop.trips (junkA (F := Ideal) d L) (ix1 x) = (0 : EReal) :=
    (zfillA_apply (F := Ideal) d L x).trans Ideal.ofBits_zero_f32
  have hr : Finset.range k0_t7_loop.trips = Finset.range 16 := by rw [trips7]
  rw [h0, zero_add, hr, Finset.sum_range] at h
  refine h.trans (Finset.sum_congr rfl fun t _ => ?_)
  rw [dif_pos t.isLt, blkAfter_apply]

end Cert.KernelIdeal.Hist

end
-- ==== Proof.LibIndexedAdd.lean ====
/-
  The indexed add of a vector into a buffer, element by element: every element of the buffer takes, lowest lane first, the
  lanes that name it; on the extended reals, with every lane adding one, it goes up by the number of lanes that name it.
-/
import Idealize.ShloMosaic.PureOps.Ideal
import Idealize.ShloMosaic.Lib.ValueIdx

noncomputable section

open scoped BigOperators

namespace Idealize.ShloMosaic

section Generic
variable {F : FTy → Type} [FloatOps F] {s : Shape} {e : EltTy} {d : Fin 1 → Nat}

/-- An unmasked indexed add, read at one element: the fold over the lanes, lowest first, of the lanes naming the element. -/
theorem storeIdx_add_apply (f : Vec F s e) (idxs : Fin s.rank → IVec ⟨1, d⟩ 32) (v : Vec F ⟨1, d⟩ e)
    (h : ∀ a x, (idxs a x).toNat < s.size a) (j : s.Idx) :
    storeIdx f idxs v (fun _ => 1#1) true h j
      = (List.finRange (d 0)).foldl (fun acc k => if (∀ a, (j a).val = (idxs a (Shape.ofLane k)).toNat) then Elt.idxAdd e acc (v (Shape.ofLane k)) else acc) (f j) := by
  unfold storeIdx
  generalize List.finRange (d 0) = l
  induction l generalizing f with
  | nil => rfl
  | cons k l ih =>
    rw [List.foldl_cons, List.foldl_cons, ih]
    congr 1
    simp only [if_true]
    show (if (∀ a, (j a).val = (idxAt idxs h (Shape.ofLane k) a).val) then Elt.idxAdd e (f (idxAt idxs h (Shape.ofLane k))) (v (Shape.ofLane k)) else f j)
      = if (∀ a, (j a).val = (idxs a (Shape.ofLane k)).toNat) then Elt.idxAdd e (f j) (v (Shape.ofLane k)) else f j
    by_cases hc : ∀ a, (j a).val = (idxs a (Shape.ofLane k)).toNat
    · have hi : idxAt idxs h (Shape.ofLane k) = j := funext fun a => Fin.ext (hc a).symm
      have hc' : ∀ a, (j a).val = (idxAt idxs h (Shape.ofLane k) a).val := hc
      rw [if_pos hc, if_pos hc', hi]
    · have hc' : ¬ ∀ a, (j a).val = (idxAt idxs h (Shape.ofLane k) a).val := hc
      rw [if_neg hc, if_neg hc']

end Generic

/-- A fold that adds one at the lanes where `p` holds adds the number of such lanes. -/
theorem foldl_add_one_of {α : Type} (p : α → Prop) [DecidablePred p] (l : List α) (a : EReal) :
    l.foldl (fun acc k => if p k then acc + 1 else acc) a = a + (((l.map fun k => if p k then 1 else 0).sum : ℕ) : EReal) := by
  induction l generalizing a with
  | nil => simp
  | cons k l ih =>
    rw [List.foldl_cons, ih, List.map_cons, List.sum_cons]
    by_cases hp : p k
    · rw [if_pos hp, if_pos hp, Nat.cast_add, Nat.cast_one, add_assoc]
    · rw [if_neg hp, if_neg hp, Nat.zero_add]

end Idealize.ShloMosaic

end
-- ==== Proof.HistCountBump.lean ====
/-
  The counters at the ideal instance. One indexed add of sixteen ones raises counter `n` by the number of the sixteen
  lanes that name `n`; a row of such adds raises it by the number of lanes naming `n` over the whole row of reads.
-/
import proofs.«210354_g33337536152245_cont_8to1_b_1126_28_alg».proof.Proof.HistSteps
import proofs.«210354_g33337536152245_cont_8to1_b_1126_28_alg».proof.Proof.LibIndexedAdd

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
open scoped BigOperators

variable (d : Dev nD) (L : grid0.Coords)

/-- Counter `n`, as an extended real. -/
abbrev rd (f : HistBuf (F := Ideal) d L) (n : Fin 10240) : EReal := f (ix1 n)

/-- How many of sixteen lanes name counter `n`. -/
def laneCount (v : IVec S16 32) (n : ℕ) : ℕ := ∑ k : Fin 16, if (v (ix1 k)).toNat = n then 1 else 0

/-- The word the kernel adds is one. -/
theorem one_word : Ideal.ofBits .f32 0x3F800000#32 = 1 := by
  simp [Ideal.ofBits, Ideal.ieee, -EReal.coe_mul]; norm_num

theorem foldl_congr_fun {α β : Type} (g g' : β → α → β) (h : ∀ b a, g b a = g' b a) (l : List α) (b : β) :
    l.foldl g b = l.foldl g' b := by
  rw [show g = g' from funext fun b => funext fun a => h b a]

theorem ofLane_eq_ix1 (k : Fin 16) : (Shape.ofLane (d := ![16]) k : S16.Idx) = ix1 k := by
  funext a
  match a with
  | ⟨0, _⟩ => rfl

/-- (a) One indexed add of sixteen ones, at counter `n`: up by the number of lanes that name `n`. -/
theorem bump_apply (v : IVec S16 32) (hv : k0_chk1 v) (f : HistBuf (F := Ideal) d L) (n : Fin 10240) :
    rd d L (bump (F := Ideal) d L v f) n = rd d L f n + ((laneCount v n.val : ℕ) : EReal) := by
  unfold rd bump
  rw [dif_pos hv]
  have hw : ((histV).access (.whole S10240)).write (Elt Ideal) f
      (storeIdx (((histV).access (.whole S10240)).read (Elt Ideal) f) ![v] (k0_pay2 (F := Ideal)) (fun _ => 1#1) true (k0_idx1_inb v hv)) Finset.univ
      = storeIdx (F := Ideal) (s := S10240) f ![v] (k0_pay2 (F := Ideal)) (fun _ => 1#1) true (k0_idx1_inb v hv) := by
    rw [show ((histV).access (.whole S10240)).read (Elt Ideal) f = f from Memref.read_access_whole (Elt Ideal) cc0_scratch2 f]
    exact Memref.write_access_whole_univ (Elt Ideal) cc0_scratch2 f _
  rw [hw, storeIdx_add_apply]
  refine (foldl_congr_fun _ (fun acc k => if (v (ix1 k)).toNat = n.val then acc + 1 else acc) (fun acc k => ?_) _ _).trans ?_
  · have hx : (Shape.ofLane (d := ![16]) k : S16.Idx) = ix1 k := ofLane_eq_ix1 k
    have h1 : Elt.idxAdd (F := Ideal) .f32 acc (k0_pay2 (F := Ideal) (Shape.ofLane k)) = acc + 1 := by
      show acc + Ideal.ofBits .f32 0x3F800000#32 = acc + 1
      rw [one_word]
    by_cases hc : (v (ix1 k)).toNat = n.val
    · rw [if_pos hc, if_pos (fun a => by
        match a with
        | ⟨0, _⟩ => show n.val = (v (Shape.ofLane k)).toNat; rw [hx]; exact hc.symm)]
      exact h1
    · rw [if_neg hc, if_neg (fun hh => hc (by
        have := hh ⟨0, Nat.one_pos⟩
        have h2 : n.val = (v (Shape.ofLane k)).toNat := this
        rw [hx] at h2; exact h2.symm))]
  · refine (foldl_add_one_of (fun k : Fin 16 => (v (ix1 k)).toNat = n.val) (List.finRange 16) (f (ix1 n))).trans ?_
    unfold laneCount
    rw [Fin.sum_univ_def]

/-- (b) A row of `T` indexed adds, at counter `n`: up by the number of lanes naming `n` over the `T` reads. -/
theorem iter_bump_apply {T : ℕ} (vs : Fin T → IVec S16 32) (hvs : ∀ k, k0_chk1 (vs k)) (f : HistBuf (F := Ideal) d L) (n : Fin 10240) :
    rd d L (iter (fun k => bump (F := Ideal) d L (vs k)) T f) n = rd d L f n + ((∑ k : Fin T, laneCount (vs k) n.val : ℕ) : EReal) := by
  have key : ∀ m : ℕ, rd d L (iter (fun k => bump (F := Ideal) d L (vs k)) m f) n
      = rd d L f n + ((∑ k ∈ Finset.range m, (if h : k < T then laneCount (vs ⟨k, h⟩) n.val else 0) : ℕ) : EReal) := by
    intro m
    induction m with
    | zero => simp [iter, rd]
    | succ m ih =>
      rw [Finset.sum_range_succ]
      show rd d L (if h : m < T then bump (F := Ideal) d L (vs ⟨m, h⟩) (iter (fun k => bump (F := Ideal) d L (vs k)) m f) else iter (fun k => bump (F := Ideal) d L (vs k)) m f) n = _
      by_cases h : m < T
      · rw [dif_pos h, dif_pos h, bump_apply d L _ (hvs _), ih, Nat.cast_add, add_assoc]
      · rw [dif_neg h, dif_neg h, ih, Nat.add_zero]
  have hs : ∑ k ∈ Finset.range T, (if h : k < T then laneCount (vs ⟨k, h⟩) n.val else 0) = ∑ k : Fin T, laneCount (vs k) n.val := by
    rw [← Fin.sum_univ_eq_sum_range (fun k => if h : k < T then laneCount (vs ⟨k, h⟩) n.val else 0) T]
    exact Finset.sum_congr rfl fun k _ => dif_pos k.isLt
  rw [key T, hs]

end Cert.KernelIdeal.Hist

end
-- ==== Proof.HistCountCols.lean ====
/-
  Counting the entries of a vector subcore's columns of the edge list that name a node, as sums of zeros and ones over
  windows of column numbers: the subcore's 4992 columns, sixteen at a time, and for the first two subcores the 128
  columns of the tail.
-/
import proofs.«210354_g33337536152245_cont_8to1_b_1126_28_alg».proof.Proof.GraphHead

open scoped BigOperators

namespace Cert.GraphHead

open Idealize.ShloMosaic Idealize.ShloMosaic.ValueIdx

/-- One when entry `(r, x)` of the edge list names node `n`, zero otherwise (and past the list's end). -/
def hit (ei : EdgeList) (n : ℕ) (r : Fin 2) (x : ℕ) : ℕ :=
  if h : x < 160000 then (if (ei (ix2 r ⟨x, h⟩)).toNat = n then 1 else 0) else 0

theorem hit_of_lt (ei : EdgeList) (n : ℕ) (r : Fin 2) (x : ℕ) (h : x < 160000) :
    hit ei n r x = if (ei (ix2 r ⟨x, h⟩)).toNat = n then 1 else 0 := dif_pos h

/-- A sum over the numbers of a window is the sum over the window's positions. -/
theorem sum_window (g : ℕ → ℕ) (N a len : ℕ) (h : a + len ≤ N) :
    ∑ x ∈ Finset.range N, (if a ≤ x ∧ x < a + len then g x else 0) = ∑ y ∈ Finset.range len, g (a + y) := by
  rw [← Finset.sum_filter]
  have hf : (Finset.range N).filter (fun x => a ≤ x ∧ x < a + len) = Finset.Ico a (a + len) := by
    ext x; simp only [Finset.mem_filter, Finset.mem_range, Finset.mem_Ico]; omega
  rw [hf, Finset.sum_Ico_eq_sum_range, Nat.add_sub_cancel_left]

/-- Sixteen at a time. -/
theorem sum_blocks (ψ : ℕ → ℕ) (K : ℕ) :
    ∑ k ∈ Finset.range K, ∑ l ∈ Finset.range 16, ψ (16 * k + l) = ∑ x ∈ Finset.range (16 * K), ψ x := by
  induction K with
  | zero => simp
  | succ K ih => rw [Finset.sum_range_succ, ih, Nat.mul_succ, Finset.sum_range_add]

/-- Entry `(r, x)`'s contribution to subcore `w`'s count: in its 4992 columns, or, for the first two subcores, in its 128 of the tail. -/
def winHit (ei : EdgeList) (n : ℕ) (w : ℕ) (r : Fin 2) (x : ℕ) : ℕ :=
  (if 4992 * w ≤ x ∧ x < 4992 * w + 4992 then hit ei n r x else 0)
    + (if 159744 + 128 * w ≤ x ∧ x < 159744 + 128 * w + 128 then (if w < 2 then hit ei n r x else 0) else 0)

/-- The entries of row `r` in subcore `w`'s columns that name `n`: its 4992 columns, and for the first two subcores 128 of the tail. -/
theorem sum_tileCols (ei : EdgeList) (n : ℕ) (w : Fin 32) (r : Fin 2) :
    ∑ col ∈ tileCols w, (if (ei (ix2 r col)).toNat = n then 1 else 0)
      = ∑ x ∈ Finset.range 4992, hit ei n r (4992 * w.val + x)
        + if w.val < 2 then ∑ x ∈ Finset.range 128, hit ei n r (159744 + 128 * w.val + x) else 0 := by
  have hw := w.isLt
  unfold tileCols
  rw [Finset.sum_filter]
  refine (Finset.sum_congr rfl fun col _ => ?_).trans ((Fin.sum_univ_eq_sum_range (winHit ei n w.val r) 160000).trans ?_)
  · have hc := col.isLt
    have hh : hit ei n r col.val = if (ei (ix2 r col)).toNat = n then 1 else 0 := hit_of_lt ei n r col.val hc
    rw [← hh]
    unfold winHit
    generalize hit ei n r col.val = c
    split_ifs <;> omega
  · unfold winHit
    rw [Finset.sum_add_distrib, sum_window (hit ei n r) 160000 (4992 * w.val) 4992 (by omega)]
    refine Nat.add_left_cancel_iff.mpr ?_
    by_cases h3 : w.val < 2
    · rw [if_pos h3]
      simp only [if_pos h3]
      exact sum_window (hit ei n r) 160000 (159744 + 128 * w.val) 128 (by omega)
    · rw [if_neg h3]
      simp only [if_neg h3, ite_self, Finset.sum_const_zero]

/-- The count of a subcore, as sums over the windows. -/
theorem tileCount_eq (ei : EdgeList) (w : Fin 32) (n : Fin 10240) :
    tileCount ei w n
      = (∑ x ∈ Finset.range 4992, hit ei n.val 0 (4992 * w.val + x) + ∑ x ∈ Finset.range 4992, hit ei n.val 1 (4992 * w.val + x))
        + if w.val < 2 then (∑ x ∈ Finset.range 128, hit ei n.val 0 (159744 + 128 * w.val + x) + ∑ x ∈ Finset.range 128, hit ei n.val 1 (159744 + 128 * w.val + x)) else 0 := by
  unfold tileCount
  rw [Finset.card_filter, Finset.sum_product, Fin.sum_univ_two, sum_tileCols, sum_tileCols]
  by_cases h3 : w.val < 2
  · simp only [if_pos h3]; omega
  · simp only [if_neg h3]; omega

end Cert.GraphHead
-- ==== Proof.HistCountTile.lean ====
/-
  A tile's counters at the ideal instance are its count: after the zero-fill and the indexed adds over its 2·4992 entries
  of the edge list (and, for the first two tiles, the 2·128 of the tail), counter `n` is the number of those entries that
  name `n`. What the copies land, what a sixteen-lane read reads, and that words naming nodes are in range of the counters enter as
  facts about entries (`TileFacts`).
-/
import proofs.«210354_g33337536152245_cont_8to1_b_1126_28_alg».proof.Proof.HistCountBump
import proofs.«210354_g33337536152245_cont_8to1_b_1126_28_alg».proof.Proof.HistCountCols

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
open Cert.GraphHead (EdgeList hit hit_of_lt sum_blocks tileCount tileCount_eq)
open scoped BigOperators

variable (d : Dev nD) (L : grid0.Coords)

theorem nTrips2 : k0_t2_loop.trips = 312 := by decide
theorem nTrips3 : k0_t3_loop.trips = 312 := by decide
theorem nTrips4 : k0_t4_loop.trips = 8 := by decide
theorem nTrips5 : k0_t5_loop.trips = 8 := by decide

/-- The tests "this tile is one of the first two", in the tile's number. -/
theorem cond1_iff : ∀ L : grid0.Coords, (k0_cond1 L = 1#1 ↔ 16 * (L 0).val + (L 1).val < 2) := by decide +kernel
theorem cond2_iff : ∀ L : grid0.Coords, (k0_cond2 L = 1#1 ↔ 16 * (L 0).val + (L 1).val < 2) := by decide +kernel

/-- The edge list as the specification reads it. -/
abbrev asEdges (e : EiBuf (F := Ideal) d) : EdgeList := e

/-- The tile's number among the 32, core-major. -/
def wOf (L : grid0.Coords) : Fin 32 := ⟨16 * (L 0).val + (L 1).val, by
  have h0 : (L 0).val < 2 := (L 0).isLt
  have h1 : (L 1).val < 16 := (L 1).isLt
  omega⟩

/-- The first of the tile's 4992 columns, and of its 128 of the tail. -/
abbrev baseM (L : grid0.Coords) : ℕ := 79872 * (L 0).val + 4992 * (L 1).val
abbrev baseT (L : grid0.Coords) : ℕ := 2048 * (L 0).val + 128 * (L 1).val + 159744

/-- What the copies land and what the sixteen-lane reads read, entry by entry, and that the zero-fill leaves zeros. -/
structure TileFacts : Prop where
  idx : ∀ (e : EiBuf (F := Ideal) d) (old : IdxBuf (F := Ideal) d L) (r : Fin 2) (col : Fin 4992) (x : Fin 160000),
    x.val = baseM L + col.val → idxAfter (F := Ideal) d L e old (ix2 r col) = e (ix2 r x)
  ext : ∀ (h1 : k0_cond1 L = 1#1) (e : EiBuf (F := Ideal) d) (old : ExtBuf (F := Ideal) d L) (r : Fin 2) (col : Fin 128) (x : Fin 160000),
    x.val = baseT L + col.val → extAfter (F := Ideal) d L h1 e old (ix2 r col) = e (ix2 r x)
  l0 : ∀ (g : IdxBuf (F := Ideal) d L) (k : Fin k0_t2_loop.trips) (l : Fin 16) (c : Fin 4992),
    c.val = 16 * k.val + l.val → lanes0 (F := Ideal) d L g k (ix1 l) = g (ix2 (0 : Fin 2) c)
  l1 : ∀ (g : IdxBuf (F := Ideal) d L) (k : Fin k0_t3_loop.trips) (l : Fin 16) (c : Fin 4992),
    c.val = 16 * k.val + l.val → lanes1 (F := Ideal) d L g k (ix1 l) = g (ix2 (1 : Fin 2) c)
  e0 : ∀ (h2 : k0_cond2 L = 1#1) (g : ExtBuf (F := Ideal) d L) (k : Fin k0_t4_loop.trips) (l : Fin 16) (c : Fin 128),
    c.val = 16 * k.val + l.val → lanesE0 (F := Ideal) d L h2 g k (ix1 l) = g (ix2 (0 : Fin 2) c)
  e1 : ∀ (h2 : k0_cond2 L = 1#1) (g : ExtBuf (F := Ideal) d L) (k : Fin k0_t5_loop.trips) (l : Fin 16) (c : Fin 128),
    c.val = 16 * k.val + l.val → lanesE1 (F := Ideal) d L h2 g k (ix1 l) = g (ix2 (1 : Fin 2) c)
  zfill : ∀ n : Fin 10240, rd d L (iter (zstep (F := Ideal) d L) k0_t1_loop.trips (junkH d L)) n = 0
  nwIdx : ∀ (e : EiBuf (F := Ideal) d), NodeWords e → ∀ old : IdxBuf (F := Ideal) d L, NodeWords (idxAfter (F := Ideal) d L e old)
  nwExt : ∀ (h1 : k0_cond1 L = 1#1) (e : EiBuf (F := Ideal) d), NodeWords e → ∀ old : ExtBuf (F := Ideal) d L, NodeWords (extAfter (F := Ideal) d L h1 e old)
  chk0 : ∀ (g : IdxBuf (F := Ideal) d L), NodeWords g → ∀ k : Fin k0_t2_loop.trips, k0_chk1 (lanes0 (F := Ideal) d L g k)
  chk1 : ∀ (g : IdxBuf (F := Ideal) d L), NodeWords g → ∀ k : Fin k0_t3_loop.trips, k0_chk1 (lanes1 (F := Ideal) d L g k)
  chkE0 : ∀ (h2 : k0_cond2 L = 1#1) (g : ExtBuf (F := Ideal) d L), NodeWords g → ∀ k : Fin k0_t4_loop.trips, k0_chk1 (lanesE0 (F := Ideal) d L h2 g k)
  chkE1 : ∀ (h2 : k0_cond2 L = 1#1) (g : ExtBuf (F := Ideal) d L), NodeWords g → ∀ k : Fin k0_t5_loop.trips, k0_chk1 (lanesE1 (F := Ideal) d L h2 g k)

/-- Sixteen lanes that are sixteen consecutive entries of row `r` count the entries among them naming `n`. -/
theorem laneCount_of (v : IVec S16 32) (ei : EdgeList) (n : ℕ) (r : Fin 2) (a : ℕ) (ha : a + 16 ≤ 160000)
    (hv : ∀ l : Fin 16, v (ix1 l) = ei (ix2 r ⟨a + l.val, by have := l.isLt; omega⟩)) :
    laneCount v n = ∑ l ∈ Finset.range 16, hit ei n r (a + l) := by
  unfold laneCount
  rw [← Fin.sum_univ_eq_sum_range (fun l => hit ei n r (a + l)) 16]
  refine Finset.sum_congr rfl fun l _ => ?_
  rw [hv l, hit_of_lt ei n r (a + l.val) (by have := l.isLt; omega)]

/-- A row of `K` sixteen-lane reads of consecutive entries from `a` on counts the entries among the `16·K` naming `n`. -/
theorem sum_laneCount {T : ℕ} (K : ℕ) (hT : T = K) (vs : Fin T → IVec S16 32) (ei : EdgeList) (n : ℕ) (r : Fin 2) (a : ℕ) (ha : a + 16 * K ≤ 160000)
    (hv : ∀ (k : Fin T) (l : Fin 16), vs k (ix1 l) = ei (ix2 r ⟨a + 16 * k.val + l.val, by have := l.isLt; have := k.isLt; omega⟩)) :
    ∑ k : Fin T, laneCount (vs k) n = ∑ x ∈ Finset.range (16 * K), hit ei n r (a + x) := by
  subst hT
  rw [← sum_blocks (fun y => hit ei n r (a + y)) T, ← Fin.sum_univ_eq_sum_range (fun k => ∑ l ∈ Finset.range 16, hit ei n r (a + (16 * k + l))) T]
  refine Finset.sum_congr rfl fun k _ => ?_
  rw [laneCount_of (vs k) ei n r (a + 16 * k.val) (by have := k.isLt; omega) (hv k)]
  exact Finset.sum_congr rfl fun l _ => by rw [Nat.add_assoc]

variable {d L}

/-- After the 2·4992 entries of the tile's own columns. -/
theorem histMain_apply (TF : TileFacts d L) (e : EiBuf (F := Ideal) d) (he : NodeWords e) (n : Fin 10240) :
    rd d L (histMain (F := Ideal) d L e) n
      = (((∑ x ∈ Finset.range 4992, hit (asEdges d e) n.val 0 (baseM L + x)) + ∑ x ∈ Finset.range 4992, hit (asEdges d e) n.val 1 (baseM L + x) : ℕ) : EReal) := by
  have hL0 : (L 0).val < 2 := (L 0).isLt
  have hL1 : (L 1).val < 16 := (L 1).isLt
  have hg : NodeWords (idxAfter (F := Ideal) d L e (junkI d L)) := TF.nwIdx e he _
  have hA : rd d L (iter (fun k => bump (F := Ideal) d L (lanes0 d L (idxAfter d L e (junkI d L)) k)) k0_t2_loop.trips (iter (zstep (F := Ideal) d L) k0_t1_loop.trips (junkH d L))) n
      = rd d L (iter (zstep (F := Ideal) d L) k0_t1_loop.trips (junkH d L)) n + ((∑ k : Fin k0_t2_loop.trips, laneCount (lanes0 d L (idxAfter d L e (junkI d L)) k) n.val : ℕ) : EReal) :=
    iter_bump_apply d L (fun k => lanes0 d L (idxAfter d L e (junkI d L)) k) (fun k => TF.chk0 _ hg k) _ n
  have hB : rd d L (histMain (F := Ideal) d L e) n
      = rd d L (iter (fun k => bump (F := Ideal) d L (lanes0 d L (idxAfter d L e (junkI d L)) k)) k0_t2_loop.trips (iter (zstep (F := Ideal) d L) k0_t1_loop.trips (junkH d L))) n
        + ((∑ k : Fin k0_t3_loop.trips, laneCount (lanes1 d L (idxAfter d L e (junkI d L)) k) n.val : ℕ) : EReal) :=
    iter_bump_apply d L (fun k => lanes1 d L (idxAfter d L e (junkI d L)) k) (fun k => TF.chk1 _ hg k) _ n
  have s0 := sum_laneCount 312 nTrips2 (fun k => lanes0 d L (idxAfter d L e (junkI d L)) k) (asEdges d e) n.val 0 (baseM L) (by show 79872 * (L 0).val + 4992 * (L 1).val + 16 * 312 ≤ 160000; omega)
    (fun k l => (TF.l0 _ k l ⟨16 * k.val + l.val, by have := l.isLt; have : k.val < 312 := nTrips2 ▸ k.isLt; omega⟩ rfl).trans
      (TF.idx e _ 0 _ ⟨baseM L + 16 * k.val + l.val, by have := l.isLt; have : k.val < 312 := nTrips2 ▸ k.isLt; show 79872 * (L 0).val + 4992 * (L 1).val + 16 * k.val + l.val < 160000; omega⟩ (Nat.add_assoc _ _ _)))
  have s1 := sum_laneCount 312 nTrips3 (fun k => lanes1 d L (idxAfter d L e (junkI d L)) k) (asEdges d e) n.val 1 (baseM L) (by show 79872 * (L 0).val + 4992 * (L 1).val + 16 * 312 ≤ 160000; omega)
    (fun k l => (TF.l1 _ k l ⟨16 * k.val + l.val, by have := l.isLt; have : k.val < 312 := nTrips3 ▸ k.isLt; omega⟩ rfl).trans
      (TF.idx e _ 1 _ ⟨baseM L + 16 * k.val + l.val, by have := l.isLt; have : k.val < 312 := nTrips3 ▸ k.isLt; show 79872 * (L 0).val + 4992 * (L 1).val + 16 * k.val + l.val < 160000; omega⟩ (Nat.add_assoc _ _ _)))
  rw [hB, hA, TF.zfill n, zero_add, s0, s1, ← Nat.cast_add]

/-- After, for the first two tiles, the 2·128 entries of the tail as well. -/
theorem histTail_apply (TF : TileFacts d L) (h1 : k0_cond1 L = 1#1) (h2 : k0_cond2 L = 1#1) (e : EiBuf (F := Ideal) d) (he : NodeWords e) (n : Fin 10240) :
    rd d L (histTail (F := Ideal) d L h1 h2 e) n
      = rd d L (histMain (F := Ideal) d L e) n
        + (((∑ x ∈ Finset.range 128, hit (asEdges d e) n.val 0 (baseT L + x)) + ∑ x ∈ Finset.range 128, hit (asEdges d e) n.val 1 (baseT L + x) : ℕ) : EReal) := by
  have hw : 16 * (L 0).val + (L 1).val < 2 := (cond1_iff L).mp h1
  have hg : NodeWords (extAfter (F := Ideal) d L h1 e (junkE d L)) := TF.nwExt h1 e he _
  have hA : rd d L (iter (fun k => bump (F := Ideal) d L (lanesE0 d L h2 (extAfter d L h1 e (junkE d L)) k)) k0_t4_loop.trips (histMain (F := Ideal) d L e)) n
      = rd d L (histMain (F := Ideal) d L e) n + ((∑ k : Fin k0_t4_loop.trips, laneCount (lanesE0 d L h2 (extAfter d L h1 e (junkE d L)) k) n.val : ℕ) : EReal) :=
    iter_bump_apply d L (fun k => lanesE0 d L h2 (extAfter d L h1 e (junkE d L)) k) (fun k => TF.chkE0 h2 _ hg k) _ n
  have hB : rd d L (histTail (F := Ideal) d L h1 h2 e) n
      = rd d L (iter (fun k => bump (F := Ideal) d L (lanesE0 d L h2 (extAfter d L h1 e (junkE d L)) k)) k0_t4_loop.trips (histMain (F := Ideal) d L e)) n
        + ((∑ k : Fin k0_t5_loop.trips, laneCount (lanesE1 d L h2 (extAfter d L h1 e (junkE d L)) k) n.val : ℕ) : EReal) :=
    iter_bump_apply d L (fun k => lanesE1 d L h2 (extAfter d L h1 e (junkE d L)) k) (fun k => TF.chkE1 h2 _ hg k) _ n
  have s0 := sum_laneCount 8 nTrips4 (fun k => lanesE0 d L h2 (extAfter d L h1 e (junkE d L)) k) (asEdges d e) n.val 0 (baseT L) (by show 2048 * (L 0).val + 128 * (L 1).val + 159744 + 16 * 8 ≤ 160000; omega)
    (fun k l => (TF.e0 h2 _ k l ⟨16 * k.val + l.val, by have := l.isLt; have : k.val < 8 := nTrips4 ▸ k.isLt; omega⟩ rfl).trans
      (TF.ext h1 e _ 0 _ ⟨baseT L + 16 * k.val + l.val, by have := l.isLt; have : k.val < 8 := nTrips4 ▸ k.isLt; show 2048 * (L 0).val + 128 * (L 1).val + 159744 + 16 * k.val + l.val < 160000; omega⟩ (Nat.add_assoc _ _ _)))
  have s1 := sum_laneCount 8 nTrips5 (fun k => lanesE1 d L h2 (extAfter d L h1 e (junkE d L)) k) (asEdges d e) n.val 1 (baseT L) (by show 2048 * (L 0).val + 128 * (L 1).val + 159744 + 16 * 8 ≤ 160000; omega)
    (fun k l => (TF.e1 h2 _ k l ⟨16 * k.val + l.val, by have := l.isLt; have : k.val < 8 := nTrips5 ▸ k.isLt; omega⟩ rfl).trans
      (TF.ext h1 e _ 1 _ ⟨baseT L + 16 * k.val + l.val, by have := l.isLt; have : k.val < 8 := nTrips5 ▸ k.isLt; show 2048 * (L 0).val + 128 * (L 1).val + 159744 + 16 * k.val + l.val < 160000; omega⟩ (Nat.add_assoc _ _ _)))
  rw [hB, hA, s0, s1, add_assoc, ← Nat.cast_add]

/-- (c) The tile's counters when it copies them out are its count of the edge list. -/
theorem histFinal_apply (TF : TileFacts d L) (e : EiBuf (F := Ideal) d) (he : NodeWords e) (n : Fin 10240) :
    rd d L (histFinal (F := Ideal) d L e) n = ((tileCount (asEdges d e) (wOf L) n : ℕ) : EReal) := by
  have hL0 : (L 0).val < 2 := (L 0).isLt
  have hL1 : (L 1).val < 16 := (L 1).isLt
  have hbM : baseM L = 4992 * (wOf L).val := by show 79872 * (L 0).val + 4992 * (L 1).val = 4992 * (16 * (L 0).val + (L 1).val); omega
  rw [tileCount_eq, ← hbM]
  unfold histFinal
  by_cases h : k0_cond1 L = 1#1 ∧ k0_cond2 L = 1#1
  · have hw : (wOf L).val < 2 := (cond1_iff L).mp h.1
    have hbT : baseT L = 159744 + 128 * (wOf L).val := by
      show 2048 * (L 0).val + 128 * (L 1).val + 159744 = 159744 + 128 * (16 * (L 0).val + (L 1).val); omega
    rw [dif_pos h, if_pos hw, histTail_apply TF h.1 h.2 e he n, histMain_apply TF e he n, ← hbT, ← Nat.cast_add]
  · have hw : ¬ (wOf L).val < 2 := fun hw => h ⟨(cond1_iff L).mpr hw, (cond2_iff L).mpr hw⟩
    rw [dif_neg h, if_neg hw, histMain_apply TF e he n, Nat.add_zero]

end Cert.KernelIdeal.Hist

end
-- ==== Proof.HistCountCore.lean ====
/-
  A SparseCore's computed count of a node at the ideal instance is the number of entries of its sixteen subcores' columns
  of the edge list that name the node: each row of the shared scratch is a tile's counters, which are its count, and the
  strip sums add the sixteen rows up.
-/
import proofs.«210354_g33337536152245_cont_8to1_b_1126_28_alg».proof.Proof.HistCountTile

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
open Cert.GraphHead (EdgeList tileCount tileOf coreCount)
open scoped BigOperators

variable (m : (ℓ : Loc nD τ sig) → Buf (Elt Ideal) ℓ) (d : Dev nD)

/-- Entry `(t, col)` of a shared scratch's contents, and sum `x` of a tile's sums, as extended reals. -/
abbrev rdS {L : grid0.Coords} (SHc : ShBuf (F := Ideal) d L) (t : Fin 16) (col : Fin 10240) : EReal := SHc (ix2 t col)
abbrev rdA {L : grid0.Coords} (A : AccBuf (F := Ideal) d L) (x : Fin 640) : EReal := A (ix1 x)

/-- Row `t` of SparseCore `c`'s shared scratch, at the contents every row ends at, is tile `(c, t)`'s counters. -/
theorem SHv_apply (c : Fin 2) (s : Fin 16) (t : Fin 16) (col : Fin 10240) :
    rdS d (L := coordsV c s) (SHv (F := Ideal) m d (cV (coordsV c s))) t col
      = rd d (coordsV c t) (histFinal (F := Ideal) d (coordsV c t) (m (eiLoc d))) col := by
  have hc : (cV (coordsV c s)).val < grid0.bound 0 := c.isLt
  unfold rdS rd SHv
  rw [dif_pos hc]
  rfl

theorem wOf_coordsV (c : Fin 2) (t : Fin 16) : wOf (coordsV c t) = tileOf c t :=
  Fin.ext (by show 16 * c.val + t.val = c.val * 16 + t.val; omega)

/-- (d → the claim) From the tiles' counters being their counts and the strip sums being the sums over the sixteen rows:
    SparseCore `c`'s computed count of node `n` is its sixteen subcores' count. -/
theorem CHv_ideal_of (TF : ∀ L : grid0.Coords, TileFacts d L)
    (hAcc : ∀ (L : grid0.Coords) (SHc : ShBuf (F := Ideal) d L) (x : Fin 640) (col : Fin 10240), col.val = 640 * (L 1).val + x.val →
      rdA d (accFinal (F := Ideal) d L SHc) x = ∑ t : Fin 16, rdS d SHc t col)
    (he : NodeWords (m (eiLoc d))) (c : Fin 2) (n : Fin 10240) :
    (CHv (F := Ideal) m d c n : EReal) = ((coreCount (m (eiLoc d)) c n : ℕ) : EReal) := by
  have hn := n.isLt
  have h1 : (CHv (F := Ideal) m d c n : EReal)
      = ∑ t : Fin 16, rdS d (L := coordsV c ⟨n.val / 640, by show n.val / 640 < 16; omega⟩)
          (SHv (F := Ideal) m d (cV (coordsV c ⟨n.val / 640, by show n.val / 640 < 16; omega⟩))) t n :=
    hAcc (coordsV c ⟨n.val / 640, by show n.val / 640 < 16; omega⟩) _ ⟨n.val % 640, Nat.mod_lt _ (by decide)⟩ n
      (by show n.val = 640 * (n.val / 640) + n.val % 640; exact (Nat.div_add_mod n.val 640).symm)
  rw [h1]
  unfold coreCount
  rw [Nat.cast_sum]
  refine Finset.sum_congr rfl fun t _ => ?_
  refine (SHv_apply m d c _ t n).trans ?_
  rw [histFinal_apply (TF (coordsV c t)) (m (eiLoc d)) he n, wOf_coordsV]

end Cert.KernelIdeal.Hist

end
-- ==== Proof.HistCount.lean ====
/-
  A SparseCore's computed count of a node, at the ideal instance, is the number of entries in its sixteen subcores' columns
  of the edge list that name the node.
-/
import Idealize.ShloMosaic.PureOps.Ideal.Laws
import proofs.«210354_g33337536152245_cont_8to1_b_1126_28_alg».proof.Proof.HistFactsVal
import proofs.«210354_g33337536152245_cont_8to1_b_1126_28_alg».proof.Proof.HistCountCore

noncomputable section

namespace Cert.KernelIdeal.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx
open scoped BigOperators

/-- What the copies land, what the sixteen-lane reads read, the zero-fill, and the range of words that name nodes: the
    facts about entries the count rests on. -/
theorem tileFacts (d : Dev nD) (L : grid0.Coords) : TileFacts d L where
  idx := fun e old r col x hx => (idxAfter_apply (F := Ideal) d L e old r col).trans (congrArg (fun y => e (ix2 r y)) (Fin.ext hx.symm))
  ext := fun h1 e old r col x hx => (extAfter_apply (F := Ideal) d L h1 e old r col).trans (congrArg (fun y => e (ix2 r y)) (Fin.ext hx.symm))
  l0 := fun g k l c hc => (lanes0_apply (F := Ideal) d L g k l).trans (congrArg (fun y => g (ix2 (0 : Fin 2) y)) (Fin.ext hc.symm))
  l1 := fun g k l c hc => (lanes1_apply (F := Ideal) d L g k l).trans (congrArg (fun y => g (ix2 (1 : Fin 2) y)) (Fin.ext hc.symm))
  e0 := fun h2 g k l c hc => (lanesE0_apply (F := Ideal) d L h2 g k l).trans (congrArg (fun y => g (ix2 (0 : Fin 2) y)) (Fin.ext hc.symm))
  e1 := fun h2 g k l c hc => (lanesE1_apply (F := Ideal) d L h2 g k l).trans (congrArg (fun y => g (ix2 (1 : Fin 2) y)) (Fin.ext hc.symm))
  zfill := fun n => by
    unfold rd
    rw [zfill_apply (F := Ideal) d L n]
    exact Ideal.ofBits_zero_f32
  nwIdx := fun e he old => nodeWords_idxAfter (F := Ideal) d L e he old
  nwExt := fun h1 e he old => nodeWords_extAfter (F := Ideal) d L h1 e he old
  chk0 := fun g hg k => chk_lanes0 (F := Ideal) d L g hg k
  chk1 := fun g hg k => chk_lanes1 (F := Ideal) d L g hg k
  chkE0 := fun h2 g hg k => chk_lanesE0 (F := Ideal) d L h2 g hg k
  chkE1 := fun h2 g hg k => chk_lanesE1 (F := Ideal) d L h2 g hg k

theorem strip_lt (L : grid0.Coords) (x : Fin 640) : 640 * (L 1).val + x.val < 10240 := by
  have := x.isLt; have : (L 1).val < 16 := (L 1).isLt; omega

/-- SparseCore `c`'s computed count of node `n` is its sixteen subcores' count of the edge list. -/
theorem CHv_ideal (m : (ℓ : Loc nD τ sig) → Buf (Elt Ideal) ℓ) (d : Dev nD) (he : NodeWords (m (eiLoc d))) (c : Fin 2) (n : Fin 10240) :
    CHv (F := Ideal) m d c n = ((Cert.GraphHead.coreCount (m (eiLoc d)) c n : ℕ) : EReal) :=
  CHv_ideal_of m d (fun L => tileFacts d L)
    (fun L SHc x col hcol => by
      obtain rfl : col = ⟨640 * (L 1).val + x.val, strip_lt L x⟩ := Fin.ext hcol
      exact accFinal_ideal d L SHc x)
    he c n

end Cert.KernelIdeal.Hist

end
-- ==== Proof.HistBSetup.lean ====
/-
  The histogram kernel's program as the SparseCore launch theorem sees it, and the ghost state its proof is written over:
  three libraries of rounds side by side — the launch handshakes', the subcore barrier's cells', the TensorCore region's
  staging cells' — and the local transfers' counters.
-/
import proofs.«210354_g33337536152245_cont_8to1_b_1126_28_alg».proof.Defs
import proofs.«210354_g33337536152245_cont_8to1_b_1126_28_alg».proof.Proof.Gen.Kernel
import proofs.«210354_g33337536152245_cont_8to1_b_1126_28_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore region's staging cells' rounds library. -/
def ER : Emb UR (MT nD τ sig (HIx 1) (Elt F) ℕ UU ℕ) :=
  (((Emb.inl : Emb UR (UR × Counters)).trans (Emb.inr : Emb (UR × Counters) (UB × (UR × Counters)))).trans (Emb.inr : Emb (UB × (UR × Counters)) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The arrays and the pieces of them the kernel addresses -/

abbrev eiLoc (d : Dev nD) : Loc nD τ sig := (SparseCore.T d).loc main_arg1
abbrev tLoc (d : Dev nD) : Loc nD τ sig := (SparseCore.T d).loc main_v0
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

abbrev eiV : Memref sig .scVector .hbm S2x160000 .i32 := Memref.whole main_arg1_scv
abbrev tV : Memref sig .scVector .hbm S2x8x10240 .f32 := Memref.whole main_v0_scv
abbrev shV : Memref sig .scVector .shared S16x10240 .f32 := Memref.whole cc0_scratch5
abbrev idxV : Memref sig .scVector .vmem S2x4992 .i32 := Memref.whole cc0_scratch0
abbrev extV : Memref sig .scVector .vmem S2x128 .i32 := Memref.whole cc0_scratch1
abbrev histV : Memref sig .scVector .vmem S10240 .f32 := Memref.whole cc0_scratch2
abbrev accV : Memref sig .scVector .vmem S640 .f32 := Memref.whole cc0_scratch3
abbrev bufV : Memref sig .scVector .vmem S640 .f32 := Memref.whole cc0_scratch4

def coordsV (c : Fin (grid0.bound 0)) (s : Fin (grid0.bound 1)) : grid0.Coords :=
  fun | 0 => c | 1 => s | ⟨_ + 2, h⟩ => absurd h (Nat.not_lt.2 (Nat.le_add_left _ _))
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
theorem trips7 : k0_t7_loop.trips = 16 := by decide

/-- The 640 columns of row 0 of SparseCore `L 0`'s plane of the output that tile `L` writes, as the task addresses them. -/
abbrev tOutK (L : grid0.Coords) : Memref sig .scVector .hbm S640 .f32 :=
  ((tV).slice (Rect.unit (s := S2x8x10240) (k0_off12 L) S1x1x640.size (k0_off12_inb L)) (fun _ => rfl)).squeeze S640 squeezes_S1x1x640_S640
/-- Row `L 1` of the shared scratch, which tile `L` fills with its counts. -/
abbrev shRowK (L : grid0.Coords) : Memref sig .scVector .shared S10240 .f32 :=
  ((shV).slice (Rect.unit (s := S16x10240) (k0_off8 L) S1x10240.size (k0_off8_inb L)) (fun _ => rfl)).squeeze S10240 squeezes_S1x10240_S10240
/-- The 640 columns of row `t` of the shared scratch that tile `L` adds up. -/
abbrev shBlkK (L : grid0.Coords) (t : Fin k0_t7_loop.trips) : Memref sig .scVector .shared S640 .f32 :=
  ((shV).slice (Rect.unit (s := S16x10240) (k0_off10 L t) S1x640.size (k0_off10_inb L t)) (fun _ => rfl)).squeeze S640 squeezes_S1x640_S640

abbrev tOutSet (L : grid0.Coords) : Finset S2x8x10240.Idx := (tOutK L).view.set
abbrev shRowSet (L : grid0.Coords) : Finset S16x10240.Idx := (shRowK L).view.set
abbrev shBlkSet (L : grid0.Coords) (t : Fin k0_t7_loop.trips) : Finset S16x10240.Idx := (shBlkK L t).view.set
/-- SparseCore `c`'s plane of the output. -/
def tCoreSet (c : Fin 2) : Finset S2x8x10240.Idx := Finset.univ.filter fun j => (j 0).val = c.val

/-! ## The barrier cells -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

variable (SH : (d : Dev nD) → (c : Fin τ.nSC) → Buf (Elt F) (shLoc d c))

/-- What tile `n`'s arrival at tile `(c, j)`'s barrier hands over: the 640 columns of ITS row of the shared scratch that
    tile `j` will add up, filled and waited for, at the contents every row ends at. -/
def bPay (g : GSem nD τ sig) (n : ℕ) : sProp 𝕄 :=
  match g with
  | ((d, .scVector c j), _) =>
    if h : c.val < grid0.bound 0 ∧ j.val < grid0.bound 1 ∧ n < k0_t7_loop.trips then
      shLoc d c ↦[shBlkSet (coordsV ⟨c.val, h.1⟩ ⟨j.val, h.2.1⟩) ⟨n, h.2.2⟩]{fullShare} SH d c
    else iprop(emp)
  | _ => iprop(emp)

/-- The barrier cells' schedule: one round on each, of one unit duty per tile of the SparseCore (named by its number),
    each handing over its piece of the shared scratch. -/
def bRd : Rounds.Schedule (GSem nD τ sig) ℕ 𝕄 where
  duties g r := if isBar g ∧ r = 0 then (Finset.univ : Finset (Fin τ.nSub)).image Fin.val else ∅
  amount _ _ _ := 1
  payload g _ n := bPay SH g n
  amount_pos _ _ _ _ := Nat.one_pos

instance bRd_payload_storable (g : GSem nD τ sig) (r n : ℕ) : BI.Storable (upEmb : UEmb _ 𝕄) ((bRd SH).payload g r n) := by
  show BI.Storable upEmb (bPay SH g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd SH).duties (bcell d c j) 0 = (Finset.univ : Finset (Fin τ.nSub)).image Fin.val := by
  simp [bRd, isBar]
theorem bRd_mem₀ (d : Dev nD) (c : Fin τ.nSC) (j i : Fin τ.nSub) : i.val ∈ (bRd SH).duties (bcell d c j) 0 := by
  rw [bRd_duties₀]; exact Finset.mem_image_of_mem _ (Finset.mem_univ i)
theorem bRd_expect (d : Dev nD) (c : Fin τ.nSC) (j : Fin τ.nSub) : 0 + grid0.bound 1 = (bRd SH).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd SH) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

variable (m : (ℓ : Loc nD τ sig) → Buf (Elt F) ℓ) (CH : Dev nD → Fin 2 → Fin 10240 → Elt F .f32)

/-- A SparseCore's read share of the edge list, and a tile's of that. -/
abbrev coreShare (c : Fin 2) : PosShare TreeShare := Transfers.shareTok fullShare 2 c
abbrev tileShare (c : Fin 2) (i : Fin 16) : PosShare TreeShare := Transfers.shareTok (coreShare c) 16 i

abbrev cOf (c : Fin ((K (F := F)).nCore 0)) : Fin 2 := Fin.cast nCore_zero c
abbrev iOf (i : Fin ((K (F := F)).nSub 0)) : Fin 16 := Fin.cast nSub_zero i
abbrev LOf (c : Fin ((K (F := F)).nCore 0)) (i : Fin ((K (F := F)).nSub 0)) : grid0.Coords := coordsV (cOf c) (iOf i)

/-- The one SparseCore call hands core `c` a read share of the edge list and its plane of the output, and gets them back,
    row 0 of the plane at the core's counts; each task is handed a share of the share, its 640 columns of that row, and
    its row of the shared scratch, and hands back the columns at its sums and the 640-column strip of the shared scratch
    it added up; each task's proof consumes its barrier kit; each tile owes its arrivals. -/
def P : (K (F := F)).Pay (nD := nD) (Val := Elt F) (Name := ℕ) (U := UU) where
  st := fun q d c => match q with
    | 0 => iprop((eiLoc d ↦{coreShare (cOf c)} m (eiLoc d)) ∗ tLoc d ↦[tCoreSet (cOf c)]{fullShare} m (tLoc d))
  dn := fun q d c => match q with
    | 0 => iprop((eiLoc d ↦{coreShare (cOf c)} m (eiLoc d))
        ∗ ∃ f : Buf (Elt F) (tLoc d), ⌜∀ n : Fin 10240, f (ValueIdx.ix3 (cOf c) (0 : Fin 8) n) = CH d (cOf c) n⌝ ∗ tLoc d ↦[tCoreSet (cOf c)]{fullShare} f)
  go := fun q d c i => match q with
    | 0 => iprop((eiLoc d ↦{tileShare (cOf c) (iOf i)} m (eiLoc d)) ∗ (tLoc d ↦[tOutSet (LOf c i)]{fullShare} m (tLoc d))
        ∗ ∃ f, shLoc d ((K (F := F)).core 0 c) ↦[shRowSet (LOf c i)]{fullShare} f)
  td := fun q d c i => match q with
    | 0 => iprop((eiLoc d ↦{tileShare (cOf c) (iOf i)} m (eiLoc d))
        ∗ (∃ f : Buf (Elt F) (tLoc d), ⌜∀ j : Fin 640, f (ValueIdx.ix3 (cOf c) (0 : Fin 8) ⟨(iOf i).val * 640 + j.val, by have := (iOf i).isLt; have := j.isLt; omega⟩) = CH d (cOf c) ⟨(iOf i).val * 640 + j.val, by have := (iOf i).isLt; have := j.isLt; omega⟩⌝
            ∗ tLoc d ↦[tOutSet (LOf c i)]{fullShare} f)
        ∗ bigSep Finset.univ fun t : Fin k0_t7_loop.trips => iprop(∃ f, shLoc d ((K (F := F)).core 0 c) ↦[shBlkSet (LOf c i) t]{fullShare} f))
  x := fun _ thr => match thr with
    | (d, .scVector c i) => if c.val < 2 then bkit SH d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) SH m CH).IsStorable where
  st q d c := match q with
    | 0 => by unfold P; dsimp only; infer_instance
  dn q d c := match q with
    | 0 => by unfold P; dsimp only; infer_instance
  go q d c i := match q with
    | 0 => by unfold P; dsimp only; infer_instance
  td q d c i := match q with
    | 0 => by unfold P; dsimp only; infer_instance

end Cert.Kernel.Hist

end
-- ==== Proof.HistBLaunchDefs.lean ====
/-
  The launch's interface: the element of the ghost state the program is launched from, and the assertion @main's proof
  ends with on each device — the ten arguments at the launch contents, the result at a named value.
-/
import proofs.«210354_g33337536152245_cont_8to1_b_1126_28_alg».proof.Proof.HistBSetup

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The barrier cells of both SparseCores and their duty tokens -/

abbrev DCI : Type := Dev nD × Fin τ.nSC × Fin τ.nSub
abbrev bcell₃ (x : DCI) : GSem nD τ sig := bcell x.1 x.2.1 x.2.2

/-- Every tile's barrier cell, of every SparseCore of every device. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)

/-- The element of the ghost state the program is launched from: the handshake cells' rounds, the barrier cells' rounds,
    the TensorCore region's staging cells' element `uR`, no transfer counted. -/
def u₀ (uR : UR) : UU := (initOf (K (F := F)).hsCells (K (F := F)).hsToks, (initOf bCells bToks, (uR, 1)))

/-! ## What @main's proof ends with -/

/-- The ten arguments of @main. -/
def argRefs : Finset (Ref sig .tc) :=
  {main_arg0, main_arg1, main_arg2, main_arg3, main_arg4, main_arg5, main_arg6, main_arg7, main_arg8, main_arg9}

variable (m : (ℓ : Loc nD τ sig) → Buf (Elt F) ℓ) (OUT : (d : Dev nD) → Buf (Elt F) ((SparseCore.T d).loc main_v4))

/-- Device `d`'s TensorCore ends holding the ten arguments whole at the launch contents and the result whole at `OUT d`. -/
def FIN (d : Dev nD) : sProp 𝕄 :=
  iprop((bigSep argRefs fun b => (SparseCore.T d).loc b ↦{fullShare} m ((SparseCore.T d).loc b))
    ∗ (SparseCore.T d).loc main_v4 ↦{fullShare} OUT d)

/-- What the final memory then says on device `d`: the result is `OUT d`, the arguments are the launch's. -/
def fq (d : Dev nD) (s' : Phys nD τ sig (Elt F)) : Prop :=
  s'.mem.mem ((SparseCore.T d).loc main_v4) = OUT d ∧ ∀ b ∈ argRefs, s'.mem.mem ((SparseCore.T d).loc b) = m ((SparseCore.T d).loc b)

end Cert.Kernel.Hist

end
-- ==== Proof.HistBMainDefs.lean ====
/-
  @main on the TensorCore: what its proof starts from beyond the launch's deal — the ghost state of the one pipeline
  region's staging cells and the duty tokens of its transfers —, the rounds library's launch element those come from,
  and the value the region's one store leaves in the result, as a term of the arguments' contents and the two
  SparseCores' counts.
-/
import proofs.«210354_g33337536152245_cont_8to1_b_1126_28_alg».proof.Proof.HistBLaunchDefs
import proofs.«210354_g33337536152245_cont_8to1_b_1126_28_alg».proof.Proof.Gen.Kernel.Launch
import proofs.«210354_g33337536152245_cont_8to1_b_1126_28_alg».proof.Proof.Gen.Kernel.Points
import Idealize.ShloMosaic.Lib.Pipeline.Regions

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The region's staging cells -/

/-- The pipeline has no prefetched table: its one admissible contents. -/
abbrev adm : (p : Fin 1) → (pcfgs (F := F) p).Adm := fun p => (cfgs p).toPCfg_adm

/-- The rounds library's launch element at the region's staging cells and the transfers its loop issues. -/
def uR : UR := initOf (Pipeline.cells cfgs cellOf_inj) (Pipeline.launchToks cfgs cellOf_inj)

/-- What @main's proof starts from beyond the launch's deal: the staging cells' launch ghost state and the duty tokens
    of the region's transfers, on device `d`. -/
def G (d : Dev nD) : sProp 𝕄 :=
  iprop(Pipeline.cellsGhost cfgs (ER (F := F)) 0 d ∗ Pipeline.toksInit cfgs (ER (F := F)) 0 d)

/-- The launch element funds every device's staging cells' ghost state and tokens. -/
theorem hG : BI.own (ER (F := F) uR) ⊢ iprop(|==> bigSep Finset.univ (G (F := F))) := by
  unfold uR G
  iintro Hu
  imod (Pipeline.fund_ghost cfgs (ER (F := F)) cellOf_inj) $$ Hu with ⟨Hg, Ht⟩
  imodintro
  rw [bigSep_sep']
  isplitl [Hg]
  · iapply (Entails.of_eq (bigSep_congr fun d _ => (bigSep_univ_of_subsingleton (0 : Fin 1) : (bigSep Finset.univ fun p : Fin 1 => Pipeline.cellsGhost cfgs (ER (F := F)) p d) = _))); iexact Hg
  · iapply (Entails.of_eq (bigSep_congr fun d _ => (bigSep_univ_of_subsingleton (0 : Fin 1) : (bigSep Finset.univ fun p : Fin 1 => (Pipeline.toksInit cfgs (ER (F := F)) p d : sProp 𝕄)) = _))); iexact Ht

/-! ## The value the region stores -/

/-- The region body's one stored value as a term of its eleven loads. -/
def headOutF (v0 : Vec F S4x128 .f32) (v1 : Vec F S64x64 .f32) (v2 v5 : Vec F S1x64 .f32) (v8 v11 : Vec F S128x64 .f32) (v18 : Vec F S64x64 .f32)
    (v20 v22 : Vec F S1x1x10240 .f32) (v86 : Vec F S64x2 .f32) (v88 : Vec F S1x2 .f32) : FVec F S4x2 .f32 :=
  k1_pay1 (k1_pay10 v1 (k1_pay2 v5) (k1_pay3 v0 v8) (k1_pay4 v0 v2 v11) (k1_pay6 v0 v2 v11 v18) (k1_pay7 v20 v22) (k1_pay8 (F := F)) (k1_pay9 v0 v8 v20 v22))
    (k1_pay11 v1 (k1_pay2 v5) (k1_pay5 v0 v2 v11)) (Scalar.ofBits .f32 0x00000000#32) v86 v88

variable (m : (ℓ : Loc nD τ sig) → Buf (Elt F) ℓ) (CH : Dev nD → Fin 2 → Fin 10240 → Elt F .f32)

/-- A bias vector as the one-row matrix the region is handed. -/
abbrev rowOf64 (b : Vec F S64 .f32) : Vec F S1x64 .f32 := shapeCast S1x64 b shapeCasts_S64_S1x64
abbrev rowOf2 (b : Vec F S2 .f32) : Vec F S1x2 .f32 := shapeCast S1x2 b shapeCasts_S2_S1x2

/-- A SparseCore's counts as the one row of its plane the region's body loads. -/
abbrev countRow (d : Dev nD) (c : Fin 2) : Vec F S1x1x10240 .f32 := fun j => CH d c ⟨(j 2).val, (j 2).isLt⟩

/-- The result on device `d`: the body's stored value at the arguments' launch contents and the two SparseCores' counts. -/
def OUT (d : Dev nD) : Buf (Elt F) ((SparseCore.T (τ := τ) d).loc main_v4) :=
  headOutF (m ((SparseCore.T d).loc main_arg0)) (m ((SparseCore.T d).loc main_arg6))
    (rowOf64 (m ((SparseCore.T d).loc main_arg4))) (rowOf64 (m ((SparseCore.T d).loc main_arg7)))
    (m ((SparseCore.T d).loc main_arg2)) (m ((SparseCore.T d).loc main_arg3)) (m ((SparseCore.T d).loc main_arg5))
    (countRow CH d 0) (countRow CH d 1) (m ((SparseCore.T d).loc main_arg8)) (rowOf2 (m ((SparseCore.T d).loc main_arg9)))

end Cert.Kernel.Hist

end
-- ==== Proof.HistBMainHost.lean ====
/-
  @main's host side on the TensorCore: the unscoped buffers one by one, a reshape at the launch contents, and what the one
  SparseCore call is handed and hands back — the edge list's read shares split and rejoined, the output's two planes
  split and joined again at the SparseCores' counts.
-/
import proofs.«210354_g33337536152245_cont_8to1_b_1126_28_alg».proof.Proof.HistBMainDefs

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (CH : Dev nD → Fin 2 → Fin 10240 → Elt F .f32)

/-! ## The TensorCore's unscoped buffers -/

/-- The TensorCore names fifteen unscoped buffers: the ten arguments and five results. -/
theorem ucRefs_eq : (Finset.univ.filter fun b : Ref sig .tc => ¬ b.isScoped)
    = {main_arg0, main_arg1, main_arg2, main_arg3, main_arg4, main_arg5, main_arg6, main_arg7, main_arg8, main_arg9, main_v0, main_v1, main_v2, main_v3, main_v4} := by decide

/-- The unscoped buffers at a valuation, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_arg4 ↦{fullShare} W main_arg4) ∗ ((SparseCore.T d).loc main_arg5 ↦{fullShare} W main_arg5)
      ∗ ((SparseCore.T d).loc main_arg6 ↦{fullShare} W main_arg6) ∗ ((SparseCore.T d).loc main_arg7 ↦{fullShare} W main_arg7)
      ∗ ((SparseCore.T d).loc main_arg8 ↦{fullShare} W main_arg8) ∗ ((SparseCore.T d).loc main_arg9 ↦{fullShare} W main_arg9)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)
      ∗ ((SparseCore.T d).loc main_v4 ↦{fullShare} W main_v4)) := by
  unfold unscopedBufs
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- Over the two SparseCores, one by one. -/
theorem bigSep_fin2 {M : Type} [URA M] (Φ : Fin 2 → sProp M) : bigSep Finset.univ Φ = iprop(Φ 0 ∗ Φ 1) :=
  bigSep_univ_eq_bigSepL [(0 : Fin 2), (1 : Fin 2)] (by decide) (by decide) Φ

/-! ## A reshape at the launch contents -/

section Reshape

variable {Λ : Labels} {defs : Defs nD τ sig (Elt F) Λ} (𝒱' : Variants)

/-- `%y = reshape %x` with both buffers held whole at the launch contents: `x` is kept and `y` holds `x`'s elements
    in row-major order at its own shape. -/
theorem wp_reshape_m (d : Dev nD) (x y : Ref sig .tc) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    (hxy : x ≠ y) {α : Type} {hp : (SparseCore.T (τ := τ) d).2.kind.runsHlo = true}
    {k : ((b : (StableHlo.reshape (τ := τ) (Val := Elt F) x y he hn hx hy).writes) → b.1.ty.Contents (Elt F)) → Prog (TpuEff nD τ sig (Elt F) Λ (SparseCore.T (τ := τ) d).2) α}
    {Q : α → sProp 𝕄} :
    iprop(boundary (SparseCore.T d) ∗ ((SparseCore.T d).loc x ↦{fullShare} m ((SparseCore.T d).loc x)) ∗ ((SparseCore.T d).loc y ↦{fullShare} m ((SparseCore.T d).loc y)))
      ⊢ iprop((iprop(boundary (SparseCore.T d) ∗ ((SparseCore.T d).loc x ↦{fullShare} m ((SparseCore.T d).loc x))
              ∗ ((SparseCore.T d).loc y ↦{fullShare} (fun i => he ▸ shapeCast y.ty.shape (m ((SparseCore.T d).loc x)) hn i)))
            -∗ wp frame (wpE defs 𝒱' (SparseCore.T d) none) Set.univ (k ((StableHlo.reshape (τ := τ) (Val := Elt F) x y he hn hx hy).fn fun b => m (d, b.1))) Q)
        -∗ wp frame (wpE defs 𝒱' (SparseCore.T d) none) Set.univ (hlo hp (StableHlo.reshape x y he hn hx hy) k) Q) := by
  have hne : (Proc.devRef (τ := τ) .tc x) ≠ Proc.devRef .tc y := StableHlo.devRef_ne_of_ne hxy
  have h := StableHlo.wp_hlo_within (defs := defs) 𝒱' (SparseCore.T (τ := τ) d) none Set.univ (hp := hp) (op := StableHlo.reshape (τ := τ) (Val := Elt F) x y he hn hx hy)
    (k := k) (S := (StableHlo.reshape (τ := τ) (Val := Elt F) x y he hn hx hy).bufs) (Finset.Subset.refl _) (V := fun b => m (d, b)) (Q := Q) rfl
  have e1 : (bigSep (StableHlo.reshape (τ := τ) (Val := Elt F) x y he hn hx hy).bufs fun b => (((SparseCore.T (τ := τ) d).1, b) ↦{fullShare} (fun b => m (d, b)) b : sProp 𝕄))
      = iprop(((SparseCore.T d).loc x ↦{fullShare} m ((SparseCore.T d).loc x)) ∗ ((SparseCore.T d).loc y ↦{fullShare} m ((SparseCore.T d).loc y))) := by
    rw [StableHlo.reshape_bufs, SparseCore.bigSep_insert' (by rw [Finset.mem_singleton]; exact hne), bigSep_singleton]
  have e2 : (bigSep (StableHlo.reshape (τ := τ) (Val := Elt F) x y he hn hx hy).bufs fun b => (((SparseCore.T (τ := τ) d).1, b) ↦{fullShare} (StableHlo.reshape (τ := τ) (Val := Elt F) x y he hn hx hy).result (fun b => m (d, b)) b : sProp 𝕄))
      = iprop(((SparseCore.T d).loc x ↦{fullShare} m ((SparseCore.T d).loc x))
          ∗ ((SparseCore.T d).loc y ↦{fullShare} (fun i => he ▸ shapeCast y.ty.shape (m ((SparseCore.T d).loc x)) hn i))) := by
    rw [StableHlo.reshape_bufs, SparseCore.bigSep_insert' (by rw [Finset.mem_singleton]; exact hne), bigSep_singleton,
      StableHlo.reshape_result', StableHlo.reshape_result_ne' he hn hx hy _ hxy]
  unfold StableHlo.held at h
  rw [e1, e2] at h
  exact h

end Reshape

/-! ## What the SparseCore call is handed, and hands back -/

theorem st_eq (SH : (d : Dev nD) → (c : Fin τ.nSC) → Buf (Elt F) (shLoc d c)) (d : Dev nD) (c : Fin ((K (F := F)).nCore 0)) :
    (P SH m CH).st 0 d c = iprop((eiLoc d ↦{coreShare (cOf c)} m (eiLoc d)) ∗ tLoc d ↦[tCoreSet (cOf c)]{fullShare} m (tLoc d)) := rfl

theorem dn_eq (SH : (d : Dev nD) → (c : Fin τ.nSC) → Buf (Elt F) (shLoc d c)) (d : Dev nD) (c : Fin ((K (F := F)).nCore 0)) :
    (P SH m CH).dn 0 d c = iprop((eiLoc d ↦{coreShare (cOf c)} m (eiLoc d))
        ∗ ∃ f : Buf (Elt F) (tLoc d), ⌜∀ n : Fin 10240, f (ValueIdx.ix3 (cOf c) (0 : Fin 8) n) = CH d (cOf c) n⌝ ∗ tLoc d ↦[tCoreSet (cOf c)]{fullShare} f) := rfl

/-- The two planes are disjoint, -/
theorem planes_disjoint : Disjoint (tCoreSet 0) (tCoreSet 1) := by
  rw [Finset.disjoint_left]; intro j h0 h1
  unfold tCoreSet at h0 h1
  rw [Finset.mem_filter] at h0 h1
  have := h0.2; have := h1.2; simp_all

/-- and make up the array. -/
theorem planes_cover : tCoreSet 0 ∪ tCoreSet 1 = (Finset.univ : Finset S2x8x10240.Idx) := by
  ext j
  simp only [Finset.mem_union, Finset.mem_univ, iff_true]
  unfold tCoreSet
  simp only [Finset.mem_filter, Finset.mem_univ, true_and]
  have : (j 0).val < 2 := (j 0).isLt
  show (j 0).val = 0 ∨ (j 0).val = 1
  omega

end Cert.Kernel.Hist

end
-- ==== Proof.HistBMainCall.lean ====
/-
  Around the one SparseCore call on the TensorCore: the edge list's full share as the remainder and the two SparseCores'
  read shares, the output as its two planes, what the call is handed and hands back one SparseCore at a time, and the
  two planes joined again into the whole output at the counts.
-/
import proofs.«210354_g33337536152245_cont_8to1_b_1126_28_alg».proof.Proof.HistBMainHost

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)

/-- The output is its two planes. -/
theorem planes_split (d : Dev nD) (g : Buf (Elt F) (tLoc d)) :
    (tLoc d ↦{fullShare} g : sProp 𝕄) ⊣⊢ iprop((tLoc d ↦[tCoreSet 0]{fullShare} g) ∗ tLoc d ↦[tCoreSet 1]{fullShare} g) := by
  have h : (tLoc d ↦[tCoreSet 0 ∪ tCoreSet 1]{fullShare} g : sProp 𝕄) ⊣⊢ iprop((tLoc d ↦[tCoreSet 0]{fullShare} g) ∗ tLoc d ↦[tCoreSet 1]{fullShare} g) :=
    pointsTo_union planes_disjoint
  rw [planes_cover] at h
  exact h

/-- Two planes at different contents are the whole output at the contents pieced together. -/
theorem planes_join (d : Dev nD) (g0 g1 : Buf (Elt F) (tLoc d)) :
    iprop((tLoc d ↦[tCoreSet 0]{fullShare} g0) ∗ tLoc d ↦[tCoreSet 1]{fullShare} g1)
      ⊢ (tLoc d ↦{fullShare} (tCoreSet 1).piecewise g1 g0 : sProp 𝕄) := by
  have h : iprop((tLoc d ↦[tCoreSet 0]{fullShare} g0) ∗ tLoc d ↦[tCoreSet 1]{fullShare} g1)
      ⊢ (tLoc d ↦[tCoreSet 0 ∪ tCoreSet 1]{fullShare} (tCoreSet 1).piecewise g1 g0 : sProp 𝕄) := pointsTo_join planes_disjoint
  rw [planes_cover] at h
  exact h

/-- The pieced contents read each plane's own. -/
theorem piece_apply (d : Dev nD) (g0 g1 : Buf (Elt F) (tLoc d))
    (h0 : ∀ n : Fin 10240, g0 (ValueIdx.ix3 (0 : Fin 2) (0 : Fin 8) n) = CH d 0 n) (h1 : ∀ n : Fin 10240, g1 (ValueIdx.ix3 (1 : Fin 2) (0 : Fin 8) n) = CH d 1 n)
    (c : Fin 2) (n : Fin 10240) : ((tCoreSet 1).piecewise g1 g0 : Buf (Elt F) (tLoc d)) (ValueIdx.ix3 c (0 : Fin 8) n) = CH d c n := by
  match c with
  | ⟨0, _⟩ =>
    rw [Finset.piecewise_eq_of_notMem _ _ _ (by unfold tCoreSet; rw [Finset.mem_filter]; rintro ⟨-, h⟩; exact absurd h Nat.zero_ne_one)]
    exact h0 n
  | ⟨1, _⟩ =>
    rw [Finset.piecewise_eq_of_mem _ _ _ (by unfold tCoreSet; rw [Finset.mem_filter]; exact ⟨Finset.mem_univ _, rfl⟩)]
    exact h1 n

/-- What the call is handed, one SparseCore at a time, -/
theorem st0_eq (d : Dev nD) : (bigSep Finset.univ fun c : Fin ((K (F := F)).nCore 0) => (P SH m CH).st 0 d c)
    = iprop(((eiLoc d ↦{coreShare 0} m (eiLoc d)) ∗ tLoc d ↦[tCoreSet 0]{fullShare} m (tLoc d))
        ∗ ((eiLoc d ↦{coreShare 1} m (eiLoc d)) ∗ tLoc d ↦[tCoreSet 1]{fullShare} m (tLoc d))) :=
  bigSep_fin2 (M := 𝕄) fun c : Fin 2 => (P SH m CH).st 0 d c

/-- and hands back. -/
theorem dn0_eq (d : Dev nD) : (bigSep Finset.univ fun c : Fin ((K (F := F)).nCore 0) => (P SH m CH).dn 0 d c)
    = iprop(((eiLoc d ↦{coreShare 0} m (eiLoc d))
          ∗ ∃ g : Buf (Elt F) (tLoc d), ⌜∀ n : Fin 10240, g (ValueIdx.ix3 (0 : Fin 2) (0 : Fin 8) n) = CH d 0 n⌝ ∗ tLoc d ↦[tCoreSet 0]{fullShare} g)
        ∗ ((eiLoc d ↦{coreShare 1} m (eiLoc d))
          ∗ ∃ g : Buf (Elt F) (tLoc d), ⌜∀ n : Fin 10240, g (ValueIdx.ix3 (1 : Fin 2) (0 : Fin 8) n) = CH d 1 n⌝ ∗ tLoc d ↦[tCoreSet 1]{fullShare} g)) :=
  bigSep_fin2 (M := 𝕄) fun c : Fin 2 => (P SH m CH).dn 0 d c

/-- The edge list's two read shares, one by one. -/
theorem toks2_eq (d : Dev nD) : (bigSep Finset.univ fun i : Fin 2 => (eiLoc d ↦{Transfers.shareTok fullShare 2 i} m (eiLoc d) : sProp 𝕄))
    = iprop((eiLoc d ↦{coreShare 0} m (eiLoc d)) ∗ eiLoc d ↦{coreShare 1} m (eiLoc d)) :=
  bigSep_fin2 _

end Cert.Kernel.Hist

end
-- ==== Proof.HistBMainBody.lean ====
/-
  The TensorCore region's body, run once on whole staging buffers: eleven loads and one store. Each input buffer is
  kept; the result's buffer is left at the stored value, the named term of the loaded blocks.
-/
import proofs.«210354_g33337536152245_cont_8to1_b_1126_28_alg».proof.Proof.HistBMainDefs
import Idealize.ShloMosaic.Lib.Pipeline.FrameBody
import Idealize.ShloMosaic.Lib.Pipeline.Value
import Idealize.ShloMosaic.Lib.Tactic

set_option maxRecDepth 16384

noncomputable section

namespace Cert.Kernel.Hist

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem hz2 : (![0, 0] : Fin 2 → Nat) = fun _ => 0 := funext fun a => by fin_cases a <;> rfl

/-- Row 0 of a SparseCore's plane, as the body loads it out of the staged block. -/
abbrev rRow : Rect S1x8x10240 := Rect.unit (s := S1x8x10240) ![0, 0, 0] S1x1x10240.size inb_S1x8x10240_S1x1x10240_0_0_0

/-- The value the body stores, from the eleven staged blocks in the windows' order. -/
def bodyOut (x0 : Vec F S4x128 .f32) (x1 x2 : Vec F S128x64 .f32) (x3 : Vec F S1x64 .f32) (x4 x5 : Vec F S64x64 .f32) (x6 : Vec F S1x64 .f32)
    (x7 : Vec F S64x2 .f32) (x8 : Vec F S1x2 .f32) (x9 x10 : Vec F S1x8x10240 .f32) : Vec F S4x2 .f32 :=
  headOutF x0 x5 x3 x6 x1 x2 x4 (View.ld x9 rRow) (View.ld x10 rRow) x7 x8

set_option maxHeartbeats 1000000 in
/-- The body on whole staging memrefs, the inputs' at contents `xW` and the result's at anything, runs to the inputs' as
    they were and the result's at `bodyOut` of the inputs'. -/
theorem sound_kernel (c : Dev nD) (E : Set ℕ) (i : grid1.Coords)
    (arg1 : Memref sig .tc .vmem S4x128 .f32) (harg1 : arg1.IsWhole) (arg2 : Memref sig .tc .vmem S128x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S64x2 .f32) (harg8 : arg8.IsWhole)
    (arg9 : Memref sig .tc .vmem S1x2 .f32) (harg9 : arg9.IsWhole) (arg10 : Memref sig .tc .vmem S1x8x10240 .f32) (harg10 : arg10.IsWhole)
    (arg11 : Memref sig .tc .vmem S1x8x10240 .f32) (harg11 : arg11.IsWhole) (arg12 : Memref sig .tc .vmem S4x2 .f32) (harg12 : arg12.IsWhole)
    (x0 : Vec F S4x128 .f32) (x1 x2 : Vec F S128x64 .f32) (x3 : Vec F S1x64 .f32) (x4 x5 : Vec F S64x64 .f32) (x6 : Vec F S1x64 .f32)
    (x7 : Vec F S64x2 .f32) (x8 : Vec F S1x2 .f32) (x9 x10 : Vec F S1x8x10240 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (bodyOut x0 x1 x2 x3 x4 x5 x6 x7 x8 x9 x10)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12) K := by
  simp only [cc1__tc_body_eq_skeleton]; unfold cc1__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  rw [View.read_writes_eq_canon _ _ _ (fun y => ⟨_, List.mem_singleton_self _, View.mem_set_unit_zero (S := S4x2) hz2 inb_S4x2_S4x2_0_0 y⟩),
    View.canon_unit_zero (S := S4x2) hz2 inb_S4x2_S4x2_0_0]
  unfold bodyOut headOutF
  sl_unfold_run_names
  simp only [View.readAt_eq_ld, View.ld_unit_zero (S := S4x128) hz2, View.ld_unit_zero (S := S128x64) hz2, View.ld_unit_zero (S := S1x64) hz2,
    View.ld_unit_zero (S := S64x64) hz2, View.ld_unit_zero (S := S64x2) hz2, View.ld_unit_zero (S := S1x2) hz2]
  all_goals rfl

end Cert.Kernel.Hist

end
-- ==== Proof.HistBMainDat.lean ====
/-
  The TensorCore region's proof data: what each window's array holds when the region is entered (the arguments at the
  launch contents, the three reshaped biases, the SparseCore call's output at the counts, the result at anything), what
  each staging buffer holds after the body (an input's its block, the result's the stored value), and the body
  obligation at the region's one point.
-/
import proofs.«210354_g33337536152245_cont_8to1_b_1126_28_alg».proof.Proof.HistBMainBody
import Idealize.ShloMosaic.Lib.Pipeline.Regions

set_option maxRecDepth 16384

noncomputable section

namespace Cert.Kernel.Hist

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (CH : Dev nD → Fin 2 → Fin 10240 → Elt F .f32)
variable (f : (d : Dev nD) → Buf (Elt F) (tLoc d))

/-- What each window's array holds when the region is entered. -/
def entryA (c : Dev nD) : (w : Fin cfg1.W) → Buf (Elt F) ((cfg1.win w).arr.view.loc (c : Thread nD τ))
  | ⟨0, _⟩ => m ((c : Thread nD τ).loc main_arg0)
  | ⟨1, _⟩ => m ((c : Thread nD τ).loc main_arg2)
  | ⟨2, _⟩ => m ((c : Thread nD τ).loc main_arg3)
  | ⟨3, _⟩ => rowOf64 (m ((c : Thread nD τ).loc main_arg4))
  | ⟨4, _⟩ => m ((c : Thread nD τ).loc main_arg5)
  | ⟨5, _⟩ => m ((c : Thread nD τ).loc main_arg6)
  | ⟨6, _⟩ => rowOf64 (m ((c : Thread nD τ).loc main_arg7))
  | ⟨7, _⟩ => m ((c : Thread nD τ).loc main_arg8)
  | ⟨8, _⟩ => rowOf2 (m ((c : Thread nD τ).loc main_arg9))
  | ⟨9, _⟩ => f c
  | ⟨10, _⟩ => f c
  | ⟨11, _⟩ => m ((c : Thread nD τ).loc main_v4)

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (entryA m f c w)

/-- The share each input array is held at: the SparseCore call's output, staged by two windows, half each. -/
def inShare : Fin cfg1.W → PosShare TreeShare
  | ⟨0, _⟩ => fullShare | ⟨1, _⟩ => fullShare | ⟨2, _⟩ => fullShare | ⟨3, _⟩ => fullShare | ⟨4, _⟩ => fullShare | ⟨5, _⟩ => fullShare
  | ⟨6, _⟩ => fullShare | ⟨7, _⟩ => fullShare | ⟨8, _⟩ => fullShare
  | ⟨9, _⟩ => Transfers.shareDrop fullShare 1
  | ⟨10, _⟩ => Transfers.shareTok fullShare 1 0
  | ⟨11, _⟩ => fullShare

/-- The proof data of the one pipeline on core `c`. -/
def dats (_ : Fin 1) (c : Dev nD) : Dat τ (Elt F) (HIx 1) ℕ UU ℕ cfg1 c where
  A w := entryA m f c w
  after w t := match w with
    | ⟨0, _⟩ => iblk m f c 0 t
    | ⟨1, _⟩ => iblk m f c 1 t
    | ⟨2, _⟩ => iblk m f c 2 t
    | ⟨3, _⟩ => iblk m f c 3 t
    | ⟨4, _⟩ => iblk m f c 4 t
    | ⟨5, _⟩ => iblk m f c 5 t
    | ⟨6, _⟩ => iblk m f c 6 t
    | ⟨7, _⟩ => iblk m f c 7 t
    | ⟨8, _⟩ => iblk m f c 8 t
    | ⟨9, _⟩ => iblk m f c 9 t
    | ⟨10, _⟩ => iblk m f c 10 t
    | ⟨11, _⟩ => bodyOut (iblk m f c 0 t) (iblk m f c 1 t) (iblk m f c 2 t) (iblk m f c 3 t) (iblk m f c 4 t) (iblk m f c 5 t) (iblk m f c 6 t)
        (iblk m f c 7 t) (iblk m f c 8 t) (iblk m f c 9 t) (iblk m f c 10 t)
  Φ _ := iprop(emp)
  q := inShare
  owed _ := 0
  recorded _ := {p | (K (F := F)).lev ((c : Thread nD τ), p.1) p.2 ≤ 8}

theorem A_eq (c : Dev nD) (w : Fin cfg1.W) : (dats m f 0 c).A w = entryA m f c w := by dsimp only [dats]

theorem after1_0 (c : Dev nD) (t : Fin cfg1.N) : (dats m f 0 c).after 0 t = iblk m f c 0 t := by dsimp only [dats]
theorem after1_1 (c : Dev nD) (t : Fin cfg1.N) : (dats m f 0 c).after 1 t = iblk m f c 1 t := by dsimp only [dats]
theorem after1_2 (c : Dev nD) (t : Fin cfg1.N) : (dats m f 0 c).after 2 t = iblk m f c 2 t := by dsimp only [dats]
theorem after1_3 (c : Dev nD) (t : Fin cfg1.N) : (dats m f 0 c).after 3 t = iblk m f c 3 t := by dsimp only [dats]
theorem after1_4 (c : Dev nD) (t : Fin cfg1.N) : (dats m f 0 c).after 4 t = iblk m f c 4 t := by dsimp only [dats]
theorem after1_5 (c : Dev nD) (t : Fin cfg1.N) : (dats m f 0 c).after 5 t = iblk m f c 5 t := by dsimp only [dats]
theorem after1_6 (c : Dev nD) (t : Fin cfg1.N) : (dats m f 0 c).after 6 t = iblk m f c 6 t := by dsimp only [dats]
theorem after1_7 (c : Dev nD) (t : Fin cfg1.N) : (dats m f 0 c).after 7 t = iblk m f c 7 t := by dsimp only [dats]
theorem after1_8 (c : Dev nD) (t : Fin cfg1.N) : (dats m f 0 c).after 8 t = iblk m f c 8 t := by dsimp only [dats]
theorem after1_9 (c : Dev nD) (t : Fin cfg1.N) : (dats m f 0 c).after 9 t = iblk m f c 9 t := by dsimp only [dats]
theorem after1_10 (c : Dev nD) (t : Fin cfg1.N) : (dats m f 0 c).after 10 t = iblk m f c 10 t := by dsimp only [dats]
theorem after1_11 (c : Dev nD) (t : Fin cfg1.N) : (dats m f 0 c).after 11 t
    = bodyOut (iblk m f c 0 t) (iblk m f c 1 t) (iblk m f c 2 t) (iblk m f c 3 t) (iblk m f c 4 t) (iblk m f c 5 t) (iblk m f c 6 t)
        (iblk m f c 7 t) (iblk m f c 8 t) (iblk m f c 9 t) (iblk m f c 10 t) := by dsimp only [dats]

/-- Each input's staging buffer holds its block when the body runs: it is fetched at the one point. -/
theorem before1_0 (c : Dev nD) (t : Fin cfg1.N) (d) : (dats m f 0 c).before 0 t d = iblk m f c 0 t := by
  unfold Dat.before; rw [if_pos (fetch1_0 t)]; rfl
theorem before1_1 (c : Dev nD) (t : Fin cfg1.N) (d) : (dats m f 0 c).before 1 t d = iblk m f c 1 t := by
  unfold Dat.before; rw [if_pos (fetch1_1 t)]; rfl
theorem before1_2 (c : Dev nD) (t : Fin cfg1.N) (d) : (dats m f 0 c).before 2 t d = iblk m f c 2 t := by
  unfold Dat.before; rw [if_pos (fetch1_2 t)]; rfl
theorem before1_3 (c : Dev nD) (t : Fin cfg1.N) (d) : (dats m f 0 c).before 3 t d = iblk m f c 3 t := by
  unfold Dat.before; rw [if_pos (fetch1_3 t)]; rfl
theorem before1_4 (c : Dev nD) (t : Fin cfg1.N) (d) : (dats m f 0 c).before 4 t d = iblk m f c 4 t := by
  unfold Dat.before; rw [if_pos (fetch1_4 t)]; rfl
theorem before1_5 (c : Dev nD) (t : Fin cfg1.N) (d) : (dats m f 0 c).before 5 t d = iblk m f c 5 t := by
  unfold Dat.before; rw [if_pos (fetch1_5 t)]; rfl
theorem before1_6 (c : Dev nD) (t : Fin cfg1.N) (d) : (dats m f 0 c).before 6 t d = iblk m f c 6 t := by
  unfold Dat.before; rw [if_pos (fetch1_6 t)]; rfl
theorem before1_7 (c : Dev nD) (t : Fin cfg1.N) (d) : (dats m f 0 c).before 7 t d = iblk m f c 7 t := by
  unfold Dat.before; rw [if_pos (fetch1_7 t)]; rfl
theorem before1_8 (c : Dev nD) (t : Fin cfg1.N) (d) : (dats m f 0 c).before 8 t d = iblk m f c 8 t := by
  unfold Dat.before; rw [if_pos (fetch1_8 t)]; rfl
theorem before1_9 (c : Dev nD) (t : Fin cfg1.N) (d) : (dats m f 0 c).before 9 t d = iblk m f c 9 t := by
  unfold Dat.before; rw [if_pos (fetch1_9 t)]; rfl
theorem before1_10 (c : Dev nD) (t : Fin cfg1.N) (d) : (dats m f 0 c).before 10 t d = iblk m f c 10 t := by
  unfold Dat.before; rw [if_pos (fetch1_10 t)]; rfl

/-! ## The body obligation -/

/-- What the body is called with at point `t`, the windows one by one, -/
def bodyPre (c : Dev nD) (t : Fin cfg1.N) : sProp 𝕄 :=
  iprop((dats m f 0 c).Φ t.castSucc ∗ (dats m f 0 c).owesAt none t.castSucc
    ∗ (∃ d, owns (c : Thread nD τ) (st1_0 t) fullShare ((dats m f 0 c).before 0 t d))
    ∗ (∃ d, owns (c : Thread nD τ) (st1_1 t) fullShare ((dats m f 0 c).before 1 t d))
    ∗ (∃ d, owns (c : Thread nD τ) (st1_2 t) fullShare ((dats m f 0 c).before 2 t d))
    ∗ (∃ d, owns (c : Thread nD τ) (st1_3 t) fullShare ((dats m f 0 c).before 3 t d))
    ∗ (∃ d, owns (c : Thread nD τ) (st1_4 t) fullShare ((dats m f 0 c).before 4 t d))
    ∗ (∃ d, owns (c : Thread nD τ) (st1_5 t) fullShare ((dats m f 0 c).before 5 t d))
    ∗ (∃ d, owns (c : Thread nD τ) (st1_6 t) fullShare ((dats m f 0 c).before 6 t d))
    ∗ (∃ d, owns (c : Thread nD τ) (st1_7 t) fullShare ((dats m f 0 c).before 7 t d))
    ∗ (∃ d, owns (c : Thread nD τ) (st1_8 t) fullShare ((dats m f 0 c).before 8 t d))
    ∗ (∃ d, owns (c : Thread nD τ) (st1_9 t) fullShare ((dats m f 0 c).before 9 t d))
    ∗ (∃ d, owns (c : Thread nD τ) (st1_10 t) fullShare ((dats m f 0 c).before 10 t d))
    ∗ (∃ d, owns (c : Thread nD τ) (st1_11 t) fullShare ((dats m f 0 c).before 11 t d)))

/-- and what it returns. -/
def bodyPost (c : Dev nD) (t : Fin cfg1.N) : sProp 𝕄 :=
  iprop((dats m f 0 c).Φ t.succ ∗ (dats m f 0 c).owesAt none t.succ
    ∗ owns (c : Thread nD τ) (st1_0 t) fullShare ((dats m f 0 c).after 0 t)
    ∗ owns (c : Thread nD τ) (st1_1 t) fullShare ((dats m f 0 c).after 1 t)
    ∗ owns (c : Thread nD τ) (st1_2 t) fullShare ((dats m f 0 c).after 2 t)
    ∗ owns (c : Thread nD τ) (st1_3 t) fullShare ((dats m f 0 c).after 3 t)
    ∗ owns (c : Thread nD τ) (st1_4 t) fullShare ((dats m f 0 c).after 4 t)
    ∗ owns (c : Thread nD τ) (st1_5 t) fullShare ((dats m f 0 c).after 5 t)
    ∗ owns (c : Thread nD τ) (st1_6 t) fullShare ((dats m f 0 c).after 6 t)
    ∗ owns (c : Thread nD τ) (st1_7 t) fullShare ((dats m f 0 c).after 7 t)
    ∗ owns (c : Thread nD τ) (st1_8 t) fullShare ((dats m f 0 c).after 8 t)
    ∗ owns (c : Thread nD τ) (st1_9 t) fullShare ((dats m f 0 c).after 9 t)
    ∗ owns (c : Thread nD τ) (st1_10 t) fullShare ((dats m f 0 c).after 10 t)
    ∗ owns (c : Thread nD τ) (st1_11 t) fullShare ((dats m f 0 c).after 11 t))

/-- The body at the point: the inputs' memrefs hold their blocks, so the body's run applies; the invariant and the core's
    `owes` pass through unread. -/
theorem sound_body (c : Dev nD) (t : Fin cfg1.N) :
    bodyPre m f c t ⊢ wp frame (wpE (defs₀ (F := F)) Variants.none c none) Set.univ (bodyAt1 t) (fun _ => bodyPost m f c t) := by
  unfold bodyPre bodyPost bodyAt1
  simp only [before1_0, before1_1, before1_2, before1_3, before1_4, before1_5, before1_6, before1_7, before1_8, before1_9, before1_10]
  rw [show (dats m f 0 c).Φ t.succ = (dats m f 0 c).Φ t.castSucc from rfl,
    show (dats m f 0 c).owesAt none t.succ = (dats m f 0 c).owesAt none t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid1.coords t) _ _ _ _ _ _ _ _ _ _ _ _ _ _ _ _ _ _ _ _ _ _ _ _
    (iblk m f c 0 t) (iblk m f c 1 t) (iblk m f c 2 t) (iblk m f c 3 t) (iblk m f c 4 t) (iblk m f c 5 t) (iblk m f c 6 t)
    (iblk m f c 7 t) (iblk m f c 8 t) (iblk m f c 9 t) (iblk m f c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at the region's point. -/
theorem body_obligation (c : Dev nD) : BodyObligation (dats (F := F) m f 0 c) (defs₀ (F := F)) Variants.none none Set.univ := fun t => by
  rw [bigSep_W1, bigSep_W1]
  exact sound_body m f c t

end Cert.Kernel.Hist

end
-- ==== Proof.HistBMainRegion.lean ====
/-
  The TensorCore region on the TensorCore of a SparseCore program: the arrays of its twelve windows one by one (the
  SparseCore call's output, staged by two windows, half a share each), what the result's array holds after the one
  write-back — the body's stored value at the arguments' contents and the counts —, the region as the pipeline
  library's record, and its step under the SparseCore program's body table.
-/
import proofs.«210354_g33337536152245_cont_8to1_b_1126_28_alg».proof.Proof.HistBMainDat

set_option maxRecDepth 16384

noncomputable section

namespace Cert.Kernel.Hist

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (T)

variable (m : (ℓ : Loc nD τ sig) → Buf (Elt F) ℓ) (CH : Dev nD → Fin 2 → Fin 10240 → Elt F .f32)
variable (f : (d : Dev nD) → Buf (Elt F) (tLoc d))

/-! ## The windows' arrays, one by one -/

/-- The share each window's array is held at. -/
theorem share1_0 (c : Dev nD) : (dats m f 0 c).share 0 = fullShare := by
  unfold Dat.share; rw [if_neg (by decide)]; rfl
theorem share1_1 (c : Dev nD) : (dats m f 0 c).share 1 = fullShare := by
  unfold Dat.share; rw [if_neg (by decide)]; rfl
theorem share1_2 (c : Dev nD) : (dats m f 0 c).share 2 = fullShare := by
  unfold Dat.share; rw [if_neg (by decide)]; rfl
theorem share1_3 (c : Dev nD) : (dats m f 0 c).share 3 = fullShare := by
  unfold Dat.share; rw [if_neg (by decide)]; rfl
theorem share1_4 (c : Dev nD) : (dats m f 0 c).share 4 = fullShare := by
  unfold Dat.share; rw [if_neg (by decide)]; rfl
theorem share1_5 (c : Dev nD) : (dats m f 0 c).share 5 = fullShare := by
  unfold Dat.share; rw [if_neg (by decide)]; rfl
theorem share1_6 (c : Dev nD) : (dats m f 0 c).share 6 = fullShare := by
  unfold Dat.share; rw [if_neg (by decide)]; rfl
theorem share1_7 (c : Dev nD) : (dats m f 0 c).share 7 = fullShare := by
  unfold Dat.share; rw [if_neg (by decide)]; rfl
theorem share1_8 (c : Dev nD) : (dats m f 0 c).share 8 = fullShare := by
  unfold Dat.share; rw [if_neg (by decide)]; rfl
theorem share1_9 (c : Dev nD) : (dats m f 0 c).share 9 = Transfers.shareDrop fullShare 1 := by
  unfold Dat.share; rw [if_neg (by decide)]; rfl
theorem share1_10 (c : Dev nD) : (dats m f 0 c).share 10 = Transfers.shareTok fullShare 1 0 := by
  unfold Dat.share; rw [if_neg (by decide)]; rfl
theorem share1_11 (c : Dev nD) : (dats m f 0 c).share 11 = fullShare := by
  unfold Dat.share; rw [if_pos (by decide)]

set_option maxHeartbeats 1600000 in
/-- The pipeline's arrays at contents `X`, window by window: whole buffers, the SparseCore call's output twice at half a share. -/
theorem arrays_chain (c : Dev nD) (X : (w : Fin cfg1.W) → Buf (Elt F) ((cfg1.win w).arr.view.loc (c : Thread nD τ))) :
    (dats m f 0 c).arrays X = iprop((((c : Thread nD τ).loc main_arg0) ↦{fullShare} X 0)
      ∗ (((c : Thread nD τ).loc main_arg2) ↦{fullShare} X 1)
      ∗ (((c : Thread nD τ).loc main_arg3) ↦{fullShare} X 2)
      ∗ (((c : Thread nD τ).loc main_v1) ↦{fullShare} X 3)
      ∗ (((c : Thread nD τ).loc main_arg5) ↦{fullShare} X 4)
      ∗ (((c : Thread nD τ).loc main_arg6) ↦{fullShare} X 5)
      ∗ (((c : Thread nD τ).loc main_v2) ↦{fullShare} X 6)
      ∗ (((c : Thread nD τ).loc main_arg8) ↦{fullShare} X 7)
      ∗ (((c : Thread nD τ).loc main_v3) ↦{fullShare} X 8)
      ∗ (((c : Thread nD τ).loc main_v0) ↦{Transfers.shareDrop fullShare 1} X 9)
      ∗ (((c : Thread nD τ).loc main_v0) ↦{Transfers.shareTok fullShare 1 0} X 10)
      ∗ (((c : Thread nD τ).loc main_v4) ↦{fullShare} X 11)) := by
  unfold Dat.arrays
  rw [bigSep_W1, (arr_whole1 0).set_eq_univ, (arr_whole1 1).set_eq_univ, (arr_whole1 2).set_eq_univ, (arr_whole1 3).set_eq_univ, (arr_whole1 4).set_eq_univ,
    (arr_whole1 5).set_eq_univ, (arr_whole1 6).set_eq_univ, (arr_whole1 7).set_eq_univ, (arr_whole1 8).set_eq_univ, (arr_whole1 9).set_eq_univ,
    (arr_whole1 11).set_eq_univ]
  rw [share1_0 m f c, share1_1 m f c, share1_2 m f c, share1_3 m f c, share1_4 m f c, share1_5 m f c, share1_6 m f c, share1_7 m f c, share1_8 m f c,
    share1_9 m f c, share1_10 m f c, share1_11 m f c]

/-! ## The blocks the body finds, and the value it leaves -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_9 : ∀ t : Fin cfg1.N, win1_9.index t (0 : Fin 3) = 0 ∧ win1_9.index t (1 : Fin 3) = 0 ∧ win1_9.index t (2 : Fin 3) = 0 :=
  (by decide +kernel : ∀ t : Fin grid1.N, _)
theorem idx1_10 : ∀ t : Fin cfg1.N, win1_10.index t (0 : Fin 3) = 1 ∧ win1_10.index t (1 : Fin 3) = 0 ∧ win1_10.index t (2 : Fin 3) = 0 :=
  (by decide +kernel : ∀ t : Fin grid1.N, _)

/-- A whole-array window's block is the array. -/
theorem iblk1_0 (c : Dev nD) (t : Fin cfg1.N) : iblk m f c 0 t = entryA m f c 0 := by
  funext j
  show entryA m f c 0 (((cfg1.win 0).blk t).view.emb j) = entryA m f c 0 j
  congr 1; funext a; apply Fin.ext
  obtain ⟨e0, e1⟩ := idx1_0 t
  match a with
  | ⟨0, _⟩ => show win1_0.index t (0 : Fin 2) * 4 + 1 * (j 0).val = (j 0).val; omega
  | ⟨1, _⟩ => show win1_0.index t (1 : Fin 2) * 128 + 1 * (j 1).val = (j 1).val; omega
theorem iblk1_1 (c : Dev nD) (t : Fin cfg1.N) : iblk m f c 1 t = entryA m f c 1 := by
  funext j
  show entryA m f c 1 (((cfg1.win 1).blk t).view.emb j) = entryA m f c 1 j
  congr 1; funext a; apply Fin.ext
  obtain ⟨e0, e1⟩ := idx1_1 t
  match a with
  | ⟨0, _⟩ => show win1_1.index t (0 : Fin 2) * 128 + 1 * (j 0).val = (j 0).val; omega
  | ⟨1, _⟩ => show win1_1.index t (1 : Fin 2) * 64 + 1 * (j 1).val = (j 1).val; omega
theorem iblk1_2 (c : Dev nD) (t : Fin cfg1.N) : iblk m f c 2 t = entryA m f c 2 := by
  funext j
  show entryA m f c 2 (((cfg1.win 2).blk t).view.emb j) = entryA m f c 2 j
  congr 1; funext a; apply Fin.ext
  obtain ⟨e0, e1⟩ := idx1_2 t
  match a with
  | ⟨0, _⟩ => show win1_2.index t (0 : Fin 2) * 128 + 1 * (j 0).val = (j 0).val; omega
  | ⟨1, _⟩ => show win1_2.index t (1 : Fin 2) * 64 + 1 * (j 1).val = (j 1).val; omega
theorem iblk1_3 (c : Dev nD) (t : Fin cfg1.N) : iblk m f c 3 t = entryA m f c 3 := by
  funext j
  show entryA m f c 3 (((cfg1.win 3).blk t).view.emb j) = entryA m f c 3 j
  congr 1; funext a; apply Fin.ext
  obtain ⟨e0, e1⟩ := idx1_3 t
  match a with
  | ⟨0, _⟩ => show win1_3.index t (0 : Fin 2) * 1 + 1 * (j 0).val = (j 0).val; omega
  | ⟨1, _⟩ => show win1_3.index t (1 : Fin 2) * 64 + 1 * (j 1).val = (j 1).val; omega
theorem iblk1_4 (c : Dev nD) (t : Fin cfg1.N) : iblk m f c 4 t = entryA m f c 4 := by
  funext j
  show entryA m f c 4 (((cfg1.win 4).blk t).view.emb j) = entryA m f c 4 j
  congr 1; funext a; apply Fin.ext
  obtain ⟨e0, e1⟩ := idx1_4 t
  match a with
  | ⟨0, _⟩ => show win1_4.index t (0 : Fin 2) * 64 + 1 * (j 0).val = (j 0).val; omega
  | ⟨1, _⟩ => show win1_4.index t (1 : Fin 2) * 64 + 1 * (j 1).val = (j 1).val; omega
theorem iblk1_5 (c : Dev nD) (t : Fin cfg1.N) : iblk m f c 5 t = entryA m f c 5 := by
  funext j
  show entryA m f c 5 (((cfg1.win 5).blk t).view.emb j) = entryA m f c 5 j
  congr 1; funext a; apply Fin.ext
  obtain ⟨e0, e1⟩ := idx1_5 t
  match a with
  | ⟨0, _⟩ => show win1_5.index t (0 : Fin 2) * 64 + 1 * (j 0).val = (j 0).val; omega
  | ⟨1, _⟩ => show win1_5.index t (1 : Fin 2) * 64 + 1 * (j 1).val = (j 1).val; omega
theorem iblk1_6 (c : Dev nD) (t : Fin cfg1.N) : iblk m f c 6 t = entryA m f c 6 := by
  funext j
  show entryA m f c 6 (((cfg1.win 6).blk t).view.emb j) = entryA m f c 6 j
  congr 1; funext a; apply Fin.ext
  obtain ⟨e0, e1⟩ := idx1_6 t
  match a with
  | ⟨0, _⟩ => show win1_6.index t (0 : Fin 2) * 1 + 1 * (j 0).val = (j 0).val; omega
  | ⟨1, _⟩ => show win1_6.index t (1 : Fin 2) * 64 + 1 * (j 1).val = (j 1).val; omega
theorem iblk1_7 (c : Dev nD) (t : Fin cfg1.N) : iblk m f c 7 t = entryA m f c 7 := by
  funext j
  show entryA m f c 7 (((cfg1.win 7).blk t).view.emb j) = entryA m f c 7 j
  congr 1; funext a; apply Fin.ext
  obtain ⟨e0, e1⟩ := idx1_7 t
  match a with
  | ⟨0, _⟩ => show win1_7.index t (0 : Fin 2) * 64 + 1 * (j 0).val = (j 0).val; omega
  | ⟨1, _⟩ => show win1_7.index t (1 : Fin 2) * 2 + 1 * (j 1).val = (j 1).val; omega
theorem iblk1_8 (c : Dev nD) (t : Fin cfg1.N) : iblk m f c 8 t = entryA m f c 8 := by
  funext j
  show entryA m f c 8 (((cfg1.win 8).blk t).view.emb j) = entryA m f c 8 j
  congr 1; funext a; apply Fin.ext
  obtain ⟨e0, e1⟩ := idx1_8 t
  match a with
  | ⟨0, _⟩ => show win1_8.index t (0 : Fin 2) * 1 + 1 * (j 0).val = (j 0).val; omega
  | ⟨1, _⟩ => show win1_8.index t (1 : Fin 2) * 2 + 1 * (j 1).val = (j 1).val; omega

/-- Row 0 of plane 0 of the SparseCore call's output, as the body loads it out of window 9's block, is SparseCore 0's counts; -/
theorem row1_9 (c : Dev nD) (t : Fin cfg1.N) (hf : ∀ (k : Fin 2) (n : Fin 10240), f c (ValueIdx.ix3 k (0 : Fin 8) n) = CH c k n) :
    View.ld (Val := Elt F) (S := S1x8x10240) (e' := .f32) (iblk m f c 9 t) rRow = countRow CH c 0 := by
  funext j
  show f c (((cfg1.win 9).blk t).view.emb (rRow.emb j)) = CH c 0 ⟨(j 2).val, (j 2).isLt⟩
  rw [← hf 0 ⟨(j 2).val, (j 2).isLt⟩]
  congr 1; funext a; apply Fin.ext
  obtain ⟨e0, e1, e2⟩ := idx1_9 t
  have h0 : (j 0).val < 1 := (j 0).isLt
  have h1 : (j 1).val < 1 := (j 1).isLt
  match a with
  | ⟨0, _⟩ => show win1_9.index t (0 : Fin 3) * 1 + 1 * (0 + 1 * (j 0).val) = 0; omega
  | ⟨1, _⟩ => show win1_9.index t (1 : Fin 3) * 8 + 1 * (0 + 1 * (j 1).val) = 0; omega
  | ⟨2, _⟩ => show win1_9.index t (2 : Fin 3) * 10240 + 1 * (0 + 1 * (j 2).val) = (j 2).val; omega

/-- and of plane 1, out of window 10's block, SparseCore 1's. -/
theorem row1_10 (c : Dev nD) (t : Fin cfg1.N) (hf : ∀ (k : Fin 2) (n : Fin 10240), f c (ValueIdx.ix3 k (0 : Fin 8) n) = CH c k n) :
    View.ld (Val := Elt F) (S := S1x8x10240) (e' := .f32) (iblk m f c 10 t) rRow = countRow CH c 1 := by
  funext j
  show f c (((cfg1.win 10).blk t).view.emb (rRow.emb j)) = CH c 1 ⟨(j 2).val, (j 2).isLt⟩
  rw [← hf 1 ⟨(j 2).val, (j 2).isLt⟩]
  congr 1; funext a; apply Fin.ext
  obtain ⟨e0, e1, e2⟩ := idx1_10 t
  have h0 : (j 0).val < 1 := (j 0).isLt
  have h1 : (j 1).val < 1 := (j 1).isLt
  match a with
  | ⟨0, _⟩ => show win1_10.index t (0 : Fin 3) * 1 + 1 * (0 + 1 * (j 0).val) = 1; omega
  | ⟨1, _⟩ => show win1_10.index t (1 : Fin 3) * 8 + 1 * (0 + 1 * (j 1).val) = 0; omega
  | ⟨2, _⟩ => show win1_10.index t (2 : Fin 3) * 10240 + 1 * (0 + 1 * (j 2).val) = (j 2).val; omega

/-- An index of the result is in the one point's block. -/
theorem mem_blk11 (t : Fin cfg1.N) (i : S4x2.Idx) :
    i ∈ ((cfg1.win 11).blk t).view.set ↔ ∀ a : Fin 2, win1_11.index t a * S4x2.size a ≤ (i a).val ∧ (i a).val < win1_11.index t a * S4x2.size a + S4x2.size a := by
  show i ∈ ((View.whole main_v4).slice (win1_11.rect t)).set ↔ _
  rw [View.set_slice_whole, Rect.mem_set_unit]
  exact Iff.rfl

/-- The result's array after the region: the body's stored value at the arguments' contents and the counts. -/
theorem final11 (c : Dev nD) (hf : ∀ (k : Fin 2) (n : Fin 10240), f c (ValueIdx.ix3 k (0 : Fin 8) n) = CH c k n) :
    (dats m f 0 c).arrAt 11 cfg1.N = OUT m CH c := by
  refine (dats m f 0 c).arrAt_eq_of_cover 11 (OUT m CH c) (fun t _ => ?_) (fun i => ⟨t1_0, flush1_11 t1_0, ?_⟩)
  · show (cfg1.win 11).cut (grid1.coords t) ((dats m f 0 c).after 11 t) = _
    rw [after1_11, iblk1_0, iblk1_1, iblk1_2, iblk1_3, iblk1_4, iblk1_5, iblk1_6, iblk1_7, iblk1_8]
    unfold bodyOut
    rw [row1_9 m CH f c t hf, row1_10 m CH f c t hf]
    funext j
    show OUT m CH c j = OUT m CH c (((cfg1.win 11).blk t).view.emb j)
    congr 1; funext a; apply Fin.ext
    obtain ⟨e0, e1⟩ := idx1_11 t
    match a with
    | ⟨0, _⟩ => show (j 0).val = win1_11.index t (0 : Fin 2) * 4 + 1 * (j 0).val; omega
    | ⟨1, _⟩ => show (j 1).val = win1_11.index t (1 : Fin 2) * 2 + 1 * (j 1).val; omega
  · rw [mem_blk11]
    obtain ⟨e0, e1⟩ := idx1_11 t1_0
    have h0 : (i 0).val < 4 := (i 0).isLt
    have h1 : (i 1).val < 2 := (i 1).isLt
    intro a
    match a with
    | ⟨0, _⟩ => show win1_11.index t1_0 (0 : Fin 2) * 4 ≤ (i 0).val ∧ (i 0).val < win1_11.index t1_0 (0 : Fin 2) * 4 + 4; omega
    | ⟨1, _⟩ => show win1_11.index t1_0 (1 : Fin 2) * 2 ≤ (i 1).val ∧ (i 1).val < win1_11.index t1_0 (1 : Fin 2) * 2 + 2; omega

end Cert.Kernel.Hist

end
-- ==== Proof.HistBMainStep.lean ====
/-
  The TensorCore region as one step of @main on the TensorCore of a SparseCore program: the pipeline library's record of the
  region (its layout, the body obligation, no semaphore of the kernel's own, nothing owed at its cells), the library's
  region rule at it, lifted to the SparseCore program's body table, and the step from the arrays held whole by @main to
  the same arrays with the result at its named value.
-/
import proofs.«210354_g33337536152245_cont_8to1_b_1126_28_alg».proof.Proof.HistBMainRegion

set_option maxRecDepth 16384

noncomputable section

namespace Cert.Kernel.Hist

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (T)

variable (m : (ℓ : Loc nD τ sig) → Buf (Elt F) ℓ) (CH : Dev nD → Fin 2 → Fin 10240 → Elt F .f32)
variable (f : (d : Dev nD) → Buf (Elt F) (tLoc d))

abbrev L₁ : GSem nD τ sig → Finset (HIx 1) := (K (F := F)).L
abbrev lv₁ : GSem nD τ sig → HIx 1 → ℕ := (K (F := F)).lev

/-! ## The region, as the pipeline library's record -/

set_option backward.isDefEq.respectTransparency.types false in
/-- The region: entered from its windows' arrays at the entry contents and the core's `owes`, left with the arrays at their
    final contents; nothing enters the invariant, nothing bypasses. -/
def reg1 : Pipeline.RegionSeg (pcfgs (F := F)) adm (dats m f) none defs₀ 𝒱₀ (L₁ (F := F)) (lv₁ (F := F)) 0 where
  win := winFacts₀1
  block_pos := block_pos1
  stage_whole := stage_whole1
  K := PEmpty
  osem := fun k => k.elim
  ho := Pipeline.OwnSemFacts.none _
  hbody c := (body_obligation m f c).loose
  hwaits := Pipeline.hwaits_of_owed_zero _ _ _ _ (L₁ (F := F)) (lv₁ (F := F)) 0 fun _ _ => rfl
  pre c := iprop((dats m f 0 c).arrays ((dats m f 0 c).arrAt · 0) ∗ (dats m f 0 c).owesAt none 0)
  post c := iprop((dats m f 0 c).arrays ((dats m f 0 c).arrAt · cfg1.N) ∗ (dats m f 0 c).owesAt none (Fin.last cfg1.N))
  X c := iprop(emp)
  Y c := iprop(emp)
  Z c := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (dats m f 0 c).Φ 0 = iprop(emp) from rfl]
    iintro -; iempintro
  hout c := by
    rw [Pipeline.ownSems0_none nD τ sig (Elt F) (HIx 1) ℕ UU ℕ c, scopedRest1_eq]
    iintro -
    isplitr; · iempintro
    isplitr <;> iempintro
  hexit c := by
    iintro ⟨Ha, HO, -, -⟩
    imodintro
    isplitl [Ha]; · iexact Ha
    iexact HO

/-! ## The region's step -/

/-- The region's call in the pipeline's own signature is @main's statement in the SparseCore program's. -/
theorem hprog : (Prog.lift (.customCall (SparseCore.inner (Pipeline.entry 0)) ()) : Prog (TpuEff nD τ sig (Elt F) (SparseCore.Sig (ΛP (F := F)) 1) .tc) PUnit)
    = SparseCore.liftProg (Q := 1) (pr := (.tc : Proc τ)) (Prog.op (.customCall (Pipeline.entry 0) ()) Prog.ret : Prog (TpuEff nD τ sig (Elt F) (ΛP (F := F)) .tc) PUnit) := rfl

theorem lift_step0 (c : Dev nD) (Q : PUnit → sProp 𝕄) :
    wp frame (wpE (D (F := F)) 𝒱 (T c) none) Set.univ (Prog.op (.customCall (Pipeline.entry 0) ()) Prog.ret : Prog (TpuEff nD τ sig (Elt F) (ΛP (F := F)) .tc) PUnit) Q
      ⊢ wp frame (wpE ((K (F := F)).defs (D (F := F))) 𝒱 (T c) none) Set.univ
          (SparseCore.liftProg (Q := 1) (pr := (.tc : Proc τ)) (Prog.op (.customCall (Pipeline.entry 0) ()) Prog.ret : Prog (TpuEff nD τ sig (Elt F) (ΛP (F := F)) .tc) PUnit)) Q :=
  (K (F := F)).wp_liftProg (D (F := F)) 𝒱 (T c) Set.univ none _ Q

/-- A proof of the region's call under the pipeline's body table is one of @main's statement under the SparseCore program's. -/
theorem lift_step (c : Dev nD) (Q : PUnit → sProp 𝕄) :
    wp frame (wpE (D (F := F)) 𝒱 (T c) none) Set.univ (Prog.op (.customCall (Pipeline.entry 0) ()) Prog.ret : Prog (TpuEff nD τ sig (Elt F) (ΛP (F := F)) .tc) PUnit) Q
      ⊢ wp frame (wpE ((K (F := F)).defs (D (F := F))) 𝒱 (T c) none) Set.univ (Prog.lift (.customCall (SparseCore.inner (Pipeline.entry 0)) ())) Q :=
  (lift_step0 c Q).trans (Entails.of_eq (congrArg (fun p => wp frame (wpE ((K (F := F)).defs (D (F := F))) 𝒱 (T c) none) Set.univ p Q) hprog.symm))

set_option backward.isDefEq.respectTransparency.types false in
/-- The library's region rule at the record. -/
theorem region_wp0 (c : Dev nD) (Q : PUnit → sProp 𝕄) :
    iprop((iprop(boundary (c : Thread nD τ) ∗ (reg1 m f).post c) -∗ wp frame (wpE (D (F := F)) 𝒱 (c : Thread nD τ) none) Set.univ (Prog.ret ⟨⟩) Q)
        ∗ boundary (c : Thread nD τ) ∗ (reg1 m f).pre c ∗ levAts (L₁ (F := F)) (lv₁ (F := F))
        ∗ Pipeline.cellsGhost cfgs (ER (F := F)) 0 c ∗ Pipeline.toksInit cfgs (ER (F := F)) 0 c)
      ⊢ wp frame (wpE (D (F := F)) 𝒱 (c : Thread nD τ) none) Set.univ (Prog.op (.customCall (Pipeline.entry 0) ()) Prog.ret : Prog (TpuEff nD τ sig (Elt F) (ΛP (F := F)) .tc) PUnit) Q :=
  Pipeline.RegionSeg.wp (pcfgs (F := F)) adm (dats m f) none cellOf_inj (ER (F := F)) defs₀ 𝒱₀ (L₁ (F := F)) (lv₁ (F := F)) (reg1 m f) c none (fun u hu => nomatch hu) Prog.ret Q

/-- The arrays @main holds around the region: the nine inputs that are arguments or reshaped biases, the SparseCore call's
    output, and the result at `out`. -/
def userChain (c : Dev nD) (out : Buf (Elt F) ((c : Thread nD τ).loc main_v4)) : sProp 𝕄 :=
  iprop((((c : Thread nD τ).loc main_arg0) ↦{fullShare} m ((c : Thread nD τ).loc main_arg0))
      ∗ (((c : Thread nD τ).loc main_arg2) ↦{fullShare} m ((c : Thread nD τ).loc main_arg2))
      ∗ (((c : Thread nD τ).loc main_arg3) ↦{fullShare} m ((c : Thread nD τ).loc main_arg3))
      ∗ (((c : Thread nD τ).loc main_v1) ↦{fullShare} rowOf64 (m ((c : Thread nD τ).loc main_arg4)))
      ∗ (((c : Thread nD τ).loc main_arg5) ↦{fullShare} m ((c : Thread nD τ).loc main_arg5))
      ∗ (((c : Thread nD τ).loc main_arg6) ↦{fullShare} m ((c : Thread nD τ).loc main_arg6))
      ∗ (((c : Thread nD τ).loc main_v2) ↦{fullShare} rowOf64 (m ((c : Thread nD τ).loc main_arg7)))
      ∗ (((c : Thread nD τ).loc main_arg8) ↦{fullShare} m ((c : Thread nD τ).loc main_arg8))
      ∗ (((c : Thread nD τ).loc main_v3) ↦{fullShare} rowOf2 (m ((c : Thread nD τ).loc main_arg9)))
      ∗ (((c : Thread nD τ).loc main_v0) ↦{fullShare} f c)
      ∗ (((c : Thread nD τ).loc main_v4) ↦{fullShare} out))

/-- What the core's waits have recorded stays at or below the level bound after the region: the region's own waits are at
    the index of no call. -/
theorem wbelow_of_bound (c : Dev nD) (W' : Waits sig (HIx 1)) (h : (↑W' : Set (SemLoc sig × HIx 1)) ⊆ (dats m f 0 c).bound none (Fin.last cfg1.N)) :
    (K (F := F)).WBelow (T c) W' 8 := by
  intro p hp
  rcases h hp with h1 | ⟨w, s, rfl⟩
  · exact h1
  · exact Nat.zero_le _

set_option maxHeartbeats 4000000 in
/-- THE REGION'S STEP: from the level facts, the region boundary, the staging cells' ghost state, the core owing nothing,
    and the arrays — the SparseCore call's output at contents whose row 0 of each plane is that SparseCore's counts —, the
    region's call runs to the same with the result at its named value. -/
theorem region_step (c : Dev nD) (hf : ∀ (k : Fin 2) (n : Fin 10240), f c (ValueIdx.ix3 k (0 : Fin 8) n) = CH c k n)
    (W : Waits sig (HIx 1)) (hW : (K (F := F)).WBelow (T c) W 8) (Q : PUnit → sProp 𝕄) :
    iprop(levAts (L₁ (F := F)) (lv₁ (F := F)) ∗ boundary (T c) ∗ G c ∗ owes (T c) (0 : CellTallies nD τ sig (HIx 1)) W
        ∗ userChain m f c (m ((c : Thread nD τ).loc main_v4))
        ∗ (iprop(boundary (T c) ∗ userChain m f c (OUT m CH c) ∗ ∃ W', ⌜(K (F := F)).WBelow (T c) W' 8⌝ ∗ owes (T c) (0 : CellTallies nD τ sig (HIx 1)) W') -∗ Q ⟨⟩))
      ⊢ wp frame (wpE ((K (F := F)).defs (D (F := F))) 𝒱 (T c) none) Set.univ (Prog.lift (.customCall (SparseCore.inner (Pipeline.entry 0)) ())) Q := by
  unfold G userChain
  iintro ⟨#Hlev, Hb, ⟨Hg, Ht⟩, HO, ⟨H0, H1, H2, H3, H4, H5, H6, H7, H8, H9, H11⟩, Hk⟩
  ihave Hs := (Transfers.pointsTo_toks_split (ℓ := (c : Thread nD τ).loc main_v0) (S := Finset.univ) (f := f c) fullShare 1) $$ H9
  icases Hs with ⟨H9, H10⟩
  ihave H10 := (Entails.of_eq (bigSep_univ_of_subsingleton (0 : Fin 1))) $$ H10
  iapply (lift_step c Q)
  iapply (region_wp0 m f c Q)
  isplitl [Hk]
  · iintro ⟨Hb, Hpost⟩
    rw [wp_ret]
    imodintro
    iapply Hk
    isplitl [Hb]; · iexact Hb
    ihave Hpost' := (Entails.of_eq (show (reg1 m f).post c = iprop((dats m f 0 c).arrays ((dats m f 0 c).arrAt · cfg1.N) ∗ (dats m f 0 c).owesAt none (Fin.last cfg1.N)) from rfl)) $$ Hpost
    icases Hpost' with ⟨Ha, ⟨%W', %hW', HO⟩⟩
    ihave Ha' := (Entails.of_eq (arrays_chain m f c _)) $$ Ha
    icases Ha' with ⟨H0, H1, H2, H3, H4, H5, H6, H7, H8, H9, H10, H11⟩
    rw [(dats m f 0 c).arrAt_in 0 rfl, (dats m f 0 c).arrAt_in 1 rfl, (dats m f 0 c).arrAt_in 2 rfl, (dats m f 0 c).arrAt_in 3 rfl,
      (dats m f 0 c).arrAt_in 4 rfl, (dats m f 0 c).arrAt_in 5 rfl, (dats m f 0 c).arrAt_in 6 rfl, (dats m f 0 c).arrAt_in 7 rfl,
      (dats m f 0 c).arrAt_in 8 rfl, (dats m f 0 c).arrAt_in 9 rfl, (dats m f 0 c).arrAt_in 10 rfl, final11 m CH f c hf]
    isplitr [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9 H10]
      · iapply (Transfers.pointsTo_toks_join (ℓ := (c : Thread nD τ).loc main_v0) (S := Finset.univ) (f := f c) fullShare 1)
        isplitl [H9]; · iexact H9
        iapply (Entails.of_eq (bigSep_univ_of_subsingleton (0 : Fin 1)).symm); iexact H10
      iexact H11
    · iexists W'
      isplitr; · ipureintro; exact wbelow_of_bound m f c W' hW'
      iexact HO
  isplitl [Hb]; · iexact Hb
  isplitl [H0 H1 H2 H3 H4 H5 H6 H7 H8 H9 H10 H11 HO]
  · iapply (Entails.of_eq (show (reg1 m f).pre c = iprop((dats m f 0 c).arrays ((dats m f 0 c).arrAt · 0) ∗ (dats m f 0 c).owesAt none 0) from rfl).symm)
    isplitr [HO]
    · iapply (Entails.of_eq (arrays_chain m f c _).symm)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iexists W
      isplitr; · ipureintro; exact fun p hp => Or.inl (hW p hp)
      iexact HO
  isplitr; · iexact Hlev
  isplitl [Hg]; · iexact Hg
  iexact Ht

end Cert.Kernel.Hist

end
-- ==== Proof.HistBMain.lean ====
/-
  @main on the TensorCore: the SparseCore call, the three reshapes, and the one pipeline region, from what the launch
  deals the TensorCore to the ten arguments unchanged and the result at its named value.
-/
import proofs.«210354_g33337536152245_cont_8to1_b_1126_28_alg».proof.Proof.HistBMainCall
import proofs.«210354_g33337536152245_cont_8to1_b_1126_28_alg».proof.Proof.HistBMainStep

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32) (ρ : Dev nD → PrngReg)

/-! ## The handshake state after the one call -/

/-- The TensorCore's handshake state after the one call, but for what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After its one call the TensorCore owes nothing. -/
theorem tcSt_one (d : Dev nD) : ((K (F := F)).tcSt EH d 1 : sProp 𝕄)
    = iprop((∃ W, ⌜(K (F := F)).WBelow (SparseCore.T d) W (8 * 1)⌝ ∗ owes (SparseCore.T d) (0 : CellTallies nD τ sig (HIx 1)) W) ∗ tcRest d) := by
  unfold SparseCore.Cfg.tcSt tcRest
  rw [(K (F := F)).Otc_end d le_rfl]

/-- The same, at the index the call's rule leaves the state at. -/
theorem tcSt_one' (d : Dev nD) : ((K (F := F)).tcSt EH d ((0 : Fin 1).val + 1) : sProp 𝕄)
    = iprop((∃ W, ⌜(K (F := F)).WBelow (SparseCore.T d) W (8 * 1)⌝ ∗ owes (SparseCore.T d) (0 : CellTallies nD τ sig (HIx 1)) W) ∗ tcRest d) :=
  tcSt_one d

/-! ## The output's contents on every device, from one device's -/

/-- Contents for every device's output that are `g` on device `d`. -/
def glue (d : Dev nD) (g : Buf (Elt F) (tLoc d)) (d' : Dev nD) : Buf (Elt F) (tLoc d') :=
  if h : d' = d then h ▸ g else m (tLoc d')

theorem glue_self (d : Dev nD) (g : Buf (Elt F) (tLoc d)) : glue m d g d = g := by
  unfold glue; rw [dif_pos rfl]

/-! ## @main -/

/-- @main on device `d`'s TensorCore: from the launch's deal and the staging cells' ghost state to the state after the one
    SparseCore call, the arguments whole at the launch contents and the result whole at `OUT`. -/
theorem hmain (κ : GSem nD τ sig → ℕ) (d : Dev nD) :
    iprop((K (F := F)).ctx EH (P SH m CH) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m (OUT m CH) d) := by
  unfold SparseCore.Cfg.tcRes
  rw [unscopedBufs_eq]
  simp only [main, wp_bind, wp_pure]
  iintro ⟨#Hctx, Hst, ⟨Hb, ⟨Ha0, Ha1, Ha2, Ha3, Ha4, Ha5, Ha6, Ha7, Ha8, Ha9, Hv0, Hv1, Hv2, Hv3, Hv4⟩, -, -⟩, HG⟩
  -- the call's operands: the edge list's two read shares, the output's two planes
  ihave Hei := (Transfers.pointsTo_toks_split (ℓ := eiLoc d) (S := Finset.univ) (f := m (eiLoc d)) fullShare 2) $$ Ha1
  icases Hei with ⟨Heir, Heis⟩
  ihave Heis' := (Entails.of_eq (toks2_eq m d)) $$ Heis
  icases Heis' with ⟨Hei0, Hei1⟩
  ihave Hpl := (planes_split d (m (tLoc d))).1 $$ Hv0
  icases Hpl with ⟨Hp0, Hp1⟩
  iapply ((K (F := F)).wp_run (D (F := F)) 𝒱 (EH := EH) (P := P SH m CH) κ d 0)
  isplitr; · iexact Hctx
  isplitl [Hst]; · iexact Hst
  isplitl [Hei0 Hei1 Hp0 Hp1]
  · rw [st0_eq]
    isplitl [Hei0 Hp0]
    · isplitl [Hei0]; · iexact Hei0
      iexact Hp0
    · isplitl [Hei1]; · iexact Hei1
      iexact Hp1
  iintro ⟨Hst, Hdn⟩
  ihave Hdn' := (Entails.of_eq (dn0_eq SH m CH d)) $$ Hdn
  icases Hdn' with ⟨⟨Hei0, ⟨%g0, %hg0, Hp0⟩⟩, ⟨Hei1, ⟨%g1, %hg1, Hp1⟩⟩⟩
  -- the edge list whole again, the output whole at the counts
  ihave Ha1 := (Transfers.pointsTo_toks_join (ℓ := eiLoc d) (S := Finset.univ) (f := m (eiLoc d)) fullShare 2) $$ [Heir Hei0 Hei1]
  · isplitl [Heir]; · iexact Heir
    iapply (Entails.of_eq (toks2_eq m d).symm)
    isplitl [Hei0]; · iexact Hei0
    iexact Hei1
  ihave Hv0 := (planes_join d g0 g1) $$ [Hp0 Hp1]
  · isplitl [Hp0]; · iexact Hp0
    iexact Hp1
  -- the three reshapes
  iapply (wp_reshape_m m 𝒱 d main_arg4 main_v1 _ _ _ _ (by decide)) $$ [Hb Ha4 Hv1]
  · isplitl [Hb]; · iexact Hb
    isplitl [Ha4]; · iexact Ha4
    iexact Hv1
  iintro ⟨Hb, Ha4, Hv1⟩
  rw [wp_ret]; imodintro
  iapply (wp_reshape_m m 𝒱 d main_arg7 main_v2 _ _ _ _ (by decide)) $$ [Hb Ha7 Hv2]
  · isplitl [Hb]; · iexact Hb
    isplitl [Ha7]; · iexact Ha7
    iexact Hv2
  iintro ⟨Hb, Ha7, Hv2⟩
  rw [wp_ret]; imodintro
  iapply (wp_reshape_m m 𝒱 d main_arg9 main_v3 _ _ _ _ (by decide)) $$ [Hb Ha9 Hv3]
  · isplitl [Hb]; · iexact Hb
    isplitl [Ha9]; · iexact Ha9
    iexact Hv3
  iintro ⟨Hb, Ha9, Hv3⟩
  rw [wp_ret]; imodintro
  -- the region
  ihave Hst' := (Entails.of_eq (tcSt_one' d)) $$ Hst
  icases Hst' with ⟨⟨%W, %hW, HO⟩, Hrest⟩
  ihave Hlev := (SparseCore.Cfg.ctx_levAts (K := K (F := F)) (EH := EH) (P := P SH m CH) κ) $$ Hctx
  iapply (region_step m CH (glue m d ((tCoreSet 1).piecewise g1 g0)) d
    (fun k n => by rw [glue_self]; exact piece_apply CH d g0 g1 hg0 hg1 k n) W hW _)
  isplitl [Hlev]; · iexact Hlev
  isplitl [Hb]; · iexact Hb
  isplitl [HG]; · iexact HG
  isplitl [HO]; · iexact HO
  isplitl [Ha0 Ha2 Ha3 Hv1 Ha5 Ha6 Hv2 Ha8 Hv3 Hv0 Hv4]
  · unfold userChain
    rw [glue_self]
    isplitl [Ha0]; · iexact Ha0
    isplitl [Ha2]; · iexact Ha2
    isplitl [Ha3]; · iexact Ha3
    isplitl [Hv1]; · iexact Hv1
    isplitl [Ha5]; · iexact Ha5
    isplitl [Ha6]; · iexact Ha6
    isplitl [Hv2]; · iexact Hv2
    isplitl [Ha8]; · iexact Ha8
    isplitl [Hv3]; · iexact Hv3
    isplitl [Hv0]; · iexact Hv0
    iexact Hv4
  iintro ⟨Hb, Hch, ⟨%W', %hW', HO⟩⟩
  unfold userChain
  icases Hch with ⟨Ha0, Ha2, Ha3, Hv1, Ha5, Ha6, Hv2, Ha8, Hv3, Hv0, Hv4⟩
  imodintro
  isplitl [HO Hrest]
  · iapply (Entails.of_eq (tcSt_one d).symm)
    isplitl [HO]
    · iexists W'; isplitr; · ipureintro; exact hW'
      iexact HO
    iexact Hrest
  unfold FIN argRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]
  isplitr [Hv4]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    iexact Ha9
  iexact Hv4

end Cert.Kernel.Hist

end
-- ==== Proof.HistBLaunchSets.lean ====
/-
  The pieces of the output's planes and of a SparseCore's shared scratch that the tiles address, as sets of indices:
  which indices each holds, that the sixteen tiles' pieces are pairwise disjoint, and what they cover.
-/
import proofs.«210354_g33337536152245_cont_8to1_b_1126_28_alg».proof.Proof.HistBSetup

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-! ## The sets in coordinates -/

theorem tOutSet_eq (L : grid0.Coords) :
    tOutSet L = (Rect.unit (s := S2x8x10240) (k0_off12 L) S1x1x640.size (k0_off12_inb L)).set := by
  show (((tV).view.slice (Rect.unit (s := S2x8x10240) (k0_off12 L) S1x1x640.size (k0_off12_inb L))).reshape S640 squeezes_S1x1x640_S640.numel_eq).set = _
  rw [View.set_reshape]
  exact View.set_slice_whole main_v0_scv _

/-- Tile `L`'s piece of the output: plane `L 0`, row 0, the 640 columns from `640 · L 1`. -/
theorem mem_tOutSet {L : grid0.Coords} {j : S2x8x10240.Idx} :
    j ∈ tOutSet L ↔ (j 0).val = (L 0).val ∧ (j 1).val = 0 ∧ 640 * (L 1).val ≤ (j 2).val ∧ (j 2).val < 640 * (L 1).val + 640 := by
  rw [tOutSet_eq, Rect.mem_set_unit, k0_off12_eq]
  constructor
  · intro h
    have h0 : (L 0).val ≤ (j 0).val ∧ (j 0).val < (L 0).val + 1 := h 0
    have h1 : 0 ≤ (j 1).val ∧ (j 1).val < 0 + 1 := h 1
    have h2 : 640 * (L 1).val ≤ (j 2).val ∧ (j 2).val < 640 * (L 1).val + 640 := h 2
    omega
  · rintro ⟨h0, h1, h2, h3⟩ a
    match a with
    | 0 => exact (show (L 0).val ≤ (j 0).val ∧ (j 0).val < (L 0).val + 1 by omega)
    | 1 => exact (show 0 ≤ (j 1).val ∧ (j 1).val < 0 + 1 by omega)
    | 2 => exact (show 640 * (L 1).val ≤ (j 2).val ∧ (j 2).val < 640 * (L 1).val + 640 by omega)

theorem shRowSet_eq (L : grid0.Coords) :
    shRowSet L = (Rect.unit (s := S16x10240) (k0_off8 L) S1x10240.size (k0_off8_inb L)).set := by
  show (((shV).view.slice (Rect.unit (s := S16x10240) (k0_off8 L) S1x10240.size (k0_off8_inb L))).reshape S10240 squeezes_S1x10240_S10240.numel_eq).set = _
  rw [View.set_reshape]
  exact View.set_slice_whole cc0_scratch5 _

/-- Tile `L`'s row of the shared scratch: row `L 1`. -/
theorem mem_shRowSet {L : grid0.Coords} {j : S16x10240.Idx} : j ∈ shRowSet L ↔ (j 0).val = (L 1).val := by
  rw [shRowSet_eq, Rect.mem_set_unit, k0_off8_eq]
  constructor
  · intro h
    have h0 : (L 1).val ≤ (j 0).val ∧ (j 0).val < (L 1).val + 1 := h 0
    omega
  · intro h0 a
    have hj : (j 1).val < 10240 := (j 1).isLt
    match a with
    | 0 => exact (show (L 1).val ≤ (j 0).val ∧ (j 0).val < (L 1).val + 1 by omega)
    | 1 => exact (show 0 ≤ (j 1).val ∧ (j 1).val < 0 + 10240 by omega)

theorem shBlkSet_eq (L : grid0.Coords) (t : Fin k0_t7_loop.trips) :
    shBlkSet L t = (Rect.unit (s := S16x10240) (k0_off10 L t) S1x640.size (k0_off10_inb L t)).set := by
  show (((shV).view.slice (Rect.unit (s := S16x10240) (k0_off10 L t) S1x640.size (k0_off10_inb L t))).reshape S640 squeezes_S1x640_S640.numel_eq).set = _
  rw [View.set_reshape]
  exact View.set_slice_whole cc0_scratch5 _

/-- The piece of row `t` of the shared scratch that tile `L` adds up: the 640 columns from `640 · L 1`. -/
theorem mem_shBlkSet {L : grid0.Coords} {t : Fin k0_t7_loop.trips} {j : S16x10240.Idx} :
    j ∈ shBlkSet L t ↔ (j 0).val = t.val ∧ 640 * (L 1).val ≤ (j 1).val ∧ (j 1).val < 640 * (L 1).val + 640 := by
  rw [shBlkSet_eq, Rect.mem_set_unit, k0_off10_eq]
  constructor
  · intro h
    have h0 : t.val ≤ (j 0).val ∧ (j 0).val < t.val + 1 := h 0
    have h1 : 640 * (L 1).val ≤ (j 1).val ∧ (j 1).val < 640 * (L 1).val + 640 := h 1
    omega
  · rintro ⟨h0, h1, h2⟩ a
    match a with
    | 0 => exact (show t.val ≤ (j 0).val ∧ (j 0).val < t.val + 1 by omega)
    | 1 => exact (show 640 * (L 1).val ≤ (j 1).val ∧ (j 1).val < 640 * (L 1).val + 640 by omega)

/-! ## The sixteen tiles' pieces of a plane of the output -/

section Plane

variable (c : Fin 2)

theorem mem_tTile {i : Fin 16} {j : S2x8x10240.Idx} :
    j ∈ tOutSet (coordsV c i) ↔ (j 0).val = c.val ∧ (j 1).val = 0 ∧ 640 * i.val ≤ (j 2).val ∧ (j 2).val < 640 * i.val + 640 :=
  mem_tOutSet

/-- Different tiles write different columns. -/
theorem tTiles_disjoint : ∀ i ∈ (Finset.univ : Finset (Fin 16)), ∀ i' ∈ (Finset.univ : Finset (Fin 16)), i ≠ i' →
    Disjoint (tOutSet (coordsV c i)) (tOutSet (coordsV c i')) := by
  intro i _ i' _ h
  rw [Finset.disjoint_left]
  intro j hj hj'
  rw [mem_tTile] at hj hj'
  exact h (Fin.ext (by omega))

/-- Row 0 of the plane, which the tiles write between them. -/
def tRow0 : Finset S2x8x10240.Idx := (Finset.univ : Finset (Fin 16)).biUnion fun i => tOutSet (coordsV c i)

theorem mem_tRow0 {j : S2x8x10240.Idx} : j ∈ tRow0 c ↔ (j 0).val = c.val ∧ (j 1).val = 0 := by
  unfold tRow0
  rw [Finset.mem_biUnion]
  constructor
  · rintro ⟨i, -, hi⟩
    rw [mem_tTile] at hi
    exact ⟨hi.1, hi.2.1⟩
  · rintro ⟨h0, h1⟩
    have hj : (j 2).val < 10240 := (j 2).isLt
    refine ⟨⟨(j 2).val / 640, by omega⟩, Finset.mem_univ _, ?_⟩
    rw [mem_tTile]
    refine ⟨h0, h1, ?_, ?_⟩
    · show 640 * ((j 2).val / 640) ≤ (j 2).val
      omega
    · show (j 2).val < 640 * ((j 2).val / 640) + 640
      omega

theorem tRow0_subset : tRow0 c ⊆ tCoreSet c := by
  intro j hj
  rw [mem_tRow0] at hj
  exact Finset.mem_filter.mpr ⟨Finset.mem_univ _, hj.1⟩

theorem ix3_mem_tRow0 (n : Fin 10240) : (ix3 c (0 : Fin 8) n : S2x8x10240.Idx) ∈ tRow0 c := by
  rw [mem_tRow0]; exact ⟨rfl, rfl⟩

/-- Column `640 · i + k` of row 0 is tile `i`'s. -/
theorem ix3_mem_tTile (i : Fin 16) (k : Fin 640) (h : i.val * 640 + k.val < 10240) :
    (ix3 c (0 : Fin 8) (⟨i.val * 640 + k.val, h⟩ : Fin 10240) : S2x8x10240.Idx) ∈ tOutSet (coordsV c i) := by
  rw [mem_tTile]
  refine ⟨rfl, rfl, ?_, ?_⟩
  · show 640 * i.val ≤ i.val * 640 + k.val
    omega
  · show i.val * 640 + k.val < 640 * i.val + 640
    have := k.isLt
    omega

end Plane

/-! ## The sixteen rows of a shared scratch, and the 16 × 16 pieces the tiles add up -/

theorem mem_shRow {c : Fin 2} {i : Fin 16} {j : S16x10240.Idx} : j ∈ shRowSet (coordsV c i) ↔ (j 0).val = i.val := mem_shRowSet

theorem shRows_disjoint (c : Fin 2) : ∀ i ∈ (Finset.univ : Finset (Fin 16)), ∀ i' ∈ (Finset.univ : Finset (Fin 16)), i ≠ i' →
    Disjoint (shRowSet (coordsV c i)) (shRowSet (coordsV c i')) := by
  intro i _ i' _ h
  rw [Finset.disjoint_left]
  intro j hj hj'
  rw [mem_shRow] at hj hj'
  exact h (Fin.ext (by omega))

theorem shRows_cover (c : Fin 2) : ((Finset.univ : Finset (Fin 16)).biUnion fun i => shRowSet (coordsV c i)) = Finset.univ := by
  ext j
  simp only [Finset.mem_biUnion, Finset.mem_univ, true_and, iff_true]
  have hj : (j 0).val < 16 := (j 0).isLt
  exact ⟨⟨(j 0).val, hj⟩, mem_shRow.mpr rfl⟩

theorem mem_shBlk {c : Fin 2} {i : Fin 16} {t : Fin k0_t7_loop.trips} {j : S16x10240.Idx} :
    j ∈ shBlkSet (coordsV c i) t ↔ (j 0).val = t.val ∧ 640 * i.val ≤ (j 1).val ∧ (j 1).val < 640 * i.val + 640 := mem_shBlkSet

theorem shBlks_disjoint (c : Fin 2) : ∀ x ∈ (Finset.univ : Finset (Fin 16 × Fin k0_t7_loop.trips)), ∀ x' ∈ (Finset.univ : Finset (Fin 16 × Fin k0_t7_loop.trips)), x ≠ x' →
    Disjoint (shBlkSet (coordsV c x.1) x.2) (shBlkSet (coordsV c x'.1) x'.2) := by
  rintro ⟨i, t⟩ _ ⟨i', t'⟩ _ h
  rw [Finset.disjoint_left]
  intro j hj hj'
  rw [mem_shBlk] at hj hj'
  dsimp only at hj hj'
  exact h (Prod.ext (Fin.ext (by dsimp only; omega)) (Fin.ext (by dsimp only; omega)))

theorem shBlks_cover (c : Fin 2) :
    ((Finset.univ : Finset (Fin 16 × Fin k0_t7_loop.trips)).biUnion fun x => shBlkSet (coordsV c x.1) x.2) = Finset.univ := by
  ext j
  simp only [Finset.mem_biUnion, Finset.mem_univ, true_and, iff_true]
  have h0 : (j 0).val < 16 := (j 0).isLt
  have h1 : (j 1).val < 10240 := (j 1).isLt
  refine ⟨(⟨(j 1).val / 640, by omega⟩, ⟨(j 0).val, by rw [trips7]; exact h0⟩), ?_⟩
  rw [mem_shBlk]
  refine ⟨rfl, ?_, ?_⟩
  · show 640 * ((j 1).val / 640) ≤ (j 1).val
    omega
  · show (j 1).val < 640 * ((j 1).val / 640) + 640
    omega

end Cert.Kernel.Hist

end
-- ==== Proof.HistBLaunchSplit.lean ====
/-
  How a SparseCore's operands split among its sixteen tiles and gather from them: its read share of the edge list into
  sixteen shares of that share and a remainder; its plane of the output into the tiles' 640 columns each of row 0 and the
  other seven rows; its shared scratch into sixteen rows on the way out, and back from the sixteen 640-column strips, each
  in sixteen pieces. The counts a SparseCore leaves in row 0 of its plane are the tiles' counts of their columns.
-/
import proofs.«210354_g33337536152245_cont_8to1_b_1126_28_alg».proof.Proof.HistBSetup
import proofs.«210354_g33337536152245_cont_8to1_b_1126_28_alg».proof.Proof.HistBLaunchSets

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

variable (m : (ℓ : Loc nD τ sig) → Buf (Elt F) ℓ) (CH : Dev nD → Fin 2 → Fin 10240 → Elt F .f32)

theorem col_lt (i : Fin 16) (k : Fin 640) : i.val * 640 + k.val < 10240 := by
  have := i.isLt; have := k.isLt; omega

/-- An index of tile `i`'s piece of plane `c` is column `640 · i + k` of row 0, for some `k` below 640. -/
theorem eq_ix3_of_mem_tTile {c : Fin 2} {i : Fin 16} {j : S2x8x10240.Idx} (hj : j ∈ tOutSet (coordsV c i)) :
    ∃ k : Fin 640, j = ix3 c (0 : Fin 8) (⟨i.val * 640 + k.val, col_lt i k⟩ : Fin 10240) := by
  rw [mem_tTile] at hj
  obtain ⟨h0, h1, h2, h3⟩ := hj
  refine ⟨⟨(j 2).val - 640 * i.val, by omega⟩, ?_⟩
  funext a
  match a with
  | ⟨0, _⟩ => exact Fin.ext h0
  | ⟨1, _⟩ => exact Fin.ext h1
  | ⟨2, _⟩ => exact Fin.ext (show (j 2).val = i.val * 640 + ((j 2).val - 640 * i.val) by omega)

/-! ## The plane of the output -/

/-- SparseCore `c`'s counts laid over the output's shape: the count of node `n` at every index of column `n`. -/
def chBuf (d : Dev nD) (c : Fin 2) : Buf (Elt F) (tLoc d) :=
  show S2x8x10240.Idx → Elt F .f32 from fun j => CH d c ⟨(j 2).val, (j 2).isLt⟩

theorem chBuf_ix3 (d : Dev nD) (c : Fin 2) (a : Fin 2) (b : Fin 8) (n : Fin 10240) : chBuf CH d c (ix3 a b n) = CH d c n := rfl

/-- A plane is the sixteen tiles' pieces of its row 0 and the rest of it. -/
theorem plane_split (d : Dev nD) (c : Fin 2) (f : Buf (Elt F) (tLoc d)) :
    (tLoc d ↦[tCoreSet c]{fullShare} f : sProp 𝕄)
      ⊢ iprop((bigSep Finset.univ fun i : Fin 16 => tLoc d ↦[tOutSet (coordsV c i)]{fullShare} f) ∗ tLoc d ↦[tCoreSet c \ tRow0 c]{fullShare} f) := by
  rw [← pointsTo_biUnion Finset.univ (ℓ := tLoc d) (fun i : Fin 16 => tOutSet (coordsV c i)) (tTiles_disjoint c)]
  exact (pointsTo_split_subset (tRow0_subset c)).1

/-- A tile's piece at contents that are its counts on its columns is its piece at the SparseCore's counts. -/
theorem tile_at_counts (d : Dev nD) (c : Fin 2) (i : Fin 16) :
    (iprop(∃ f : Buf (Elt F) (tLoc d),
        ⌜∀ k : Fin 640, f (ix3 c (0 : Fin 8) ⟨i.val * 640 + k.val, col_lt i k⟩) = CH d c ⟨i.val * 640 + k.val, col_lt i k⟩⌝
          ∗ tLoc d ↦[tOutSet (coordsV c i)]{fullShare} f) : sProp 𝕄)
      ⊢ tLoc d ↦[tOutSet (coordsV c i)]{fullShare} chBuf CH d c := by
  iintro ⟨%f, %hf, H⟩
  rw [← pointsTo_congr (f := f) (g := chBuf CH d c) fun j hj => by
    obtain ⟨k, rfl⟩ := eq_ix3_of_mem_tTile hj
    rw [hf k, chBuf_ix3]]
  iexact H

/-- The sixteen pieces at the tiles' counts and the rest of the plane as it was are the plane, row 0 at the counts. -/
theorem plane_join (d : Dev nD) (c : Fin 2) (f₀ : Buf (Elt F) (tLoc d)) :
    iprop((bigSep Finset.univ fun i : Fin 16 => iprop(∃ f : Buf (Elt F) (tLoc d),
        ⌜∀ k : Fin 640, f (ix3 c (0 : Fin 8) ⟨i.val * 640 + k.val, col_lt i k⟩) = CH d c ⟨i.val * 640 + k.val, col_lt i k⟩⌝
          ∗ tLoc d ↦[tOutSet (coordsV c i)]{fullShare} f))
        ∗ tLoc d ↦[tCoreSet c \ tRow0 c]{fullShare} f₀)
      ⊢ (iprop(∃ f : Buf (Elt F) (tLoc d), ⌜∀ n : Fin 10240, f (ix3 c (0 : Fin 8) n) = CH d c n⌝ ∗ tLoc d ↦[tCoreSet c]{fullShare} f) : sProp 𝕄) := by
  iintro ⟨Ht, Hr⟩
  ihave Ht' := (SparseCore.ent (bigSep_mono (s := (Finset.univ : Finset (Fin 16))) fun i _ => tile_at_counts CH d c i)) $$ Ht
  ihave Ht'' := (Entails.of_eq (pointsTo_biUnion (q := fullShare) (f := chBuf CH d c) Finset.univ (ℓ := tLoc d) (fun i : Fin 16 => tOutSet (coordsV c i)) (tTiles_disjoint c)).symm) $$ Ht'
  ihave H := (pointsTo_join_subset (ℓ := tLoc d) (I := tRow0 c) (S := tCoreSet c) (q := fullShare) (g := chBuf CH d c) (f := f₀) (tRow0_subset c)) $$ [Ht'' Hr]
  · isplitl [Ht'']; · iexact Ht''
    iexact Hr
  iexists (tRow0 c).piecewise (chBuf CH d c) f₀
  isplitr
  · ipureintro
    intro n
    rw [Finset.piecewise_eq_of_mem _ _ _ (ix3_mem_tRow0 c n), chBuf_ix3]
  iexact H

/-! ## The shared scratch -/

/-- A shared scratch whole is its sixteen rows, each at contents of its own. -/
theorem sh_rows (d : Dev nD) (sc : Fin τ.nSC) (c : Fin 2) (f : Buf (Elt F) (shLoc d sc)) :
    (shLoc d sc ↦{fullShare} f : sProp 𝕄) ⊢ bigSep Finset.univ fun i : Fin 16 => iprop(∃ f, shLoc d sc ↦[shRowSet (coordsV c i)]{fullShare} f) := by
  have e : (shLoc d sc ↦{fullShare} f : sProp 𝕄) = bigSep Finset.univ fun i : Fin 16 => shLoc d sc ↦[shRowSet (coordsV c i)]{fullShare} f := by
    rw [← pointsTo_biUnion Finset.univ (ℓ := shLoc d sc) (fun i : Fin 16 => shRowSet (coordsV c i)) (shRows_disjoint c), shRows_cover]; try rfl
  rw [e]
  exact bigSep_mono fun i _ => BI.BIClass.exists_intro (Φ := fun f => (shLoc d sc ↦[shRowSet (coordsV c i)]{fullShare} f : sProp 𝕄)) f

/-- The 16 × 16 pieces the tiles added up, each at contents of its own, are the shared scratch whole at some contents. -/
theorem sh_blks_join (d : Dev nD) (sc : Fin τ.nSC) (c : Fin 2) :
    (bigSep Finset.univ fun i : Fin 16 => bigSep Finset.univ fun t : Fin k0_t7_loop.trips =>
        iprop(∃ f, shLoc d sc ↦[shBlkSet (coordsV c i) t]{fullShare} f))
      ⊢ (iprop(∃ f, shLoc d sc ↦{fullShare} f) : sProp 𝕄) := by
  rw [← bigSep_univ_prod (fun x : Fin 16 × Fin k0_t7_loop.trips => (iprop(∃ f, shLoc d sc ↦[shBlkSet (coordsV c x.1) x.2]{fullShare} f) : sProp 𝕄))]
  refine (bigSep_exists_pi Finset.univ (fun (x : Fin 16 × Fin k0_t7_loop.trips) (f : Buf (Elt F) (shLoc d sc)) =>
    (shLoc d sc ↦[shBlkSet (coordsV c x.1) x.2]{fullShare} f : sProp 𝕄))).trans ?_
  iintro ⟨%fs, H⟩
  ihave H' := (pointsTo_biUnion_join Finset.univ (fun x : Fin 16 × Fin k0_t7_loop.trips => shBlkSet (coordsV c x.1) x.2) fs
    (fs (0, ⟨0, by rw [trips7]; exact Nat.succ_pos _⟩)) (shBlks_disjoint c)) $$ H
  icases H' with ⟨%g, -, Hg⟩
  rw [shBlks_cover]
  iexists g; iexact Hg

end Cert.Kernel.Hist

end
-- ==== Proof.HistBLaunchVecSplit.lean ====
/-
  The split of the SparseCore call's operands among a SparseCore's sixteen tasks and the gathering of its results from
  theirs, in the form the launch theorem asks for.
-/
import proofs.«210354_g33337536152245_cont_8to1_b_1126_28_alg».proof.Proof.HistBSetup
import proofs.«210354_g33337536152245_cont_8to1_b_1126_28_alg».proof.Proof.HistBLaunchSplit

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

variable (SH : (d : Dev nD) → (c : Fin τ.nSC) → Buf (Elt F) (shLoc d c))
  (m : (ℓ : Loc nD τ sig) → Buf (Elt F) ℓ) (CH : Dev nD → Fin 2 → Fin 10240 → Elt F .f32)

/-! ## What the handshakes carry, over the literal index types -/

/-- What SparseCore `c`'s sequencer is handed at the call. -/
abbrev stA (d : Dev nD) (c : Fin 2) : sProp 𝕄 :=
  iprop((eiLoc d ↦{coreShare c} m (eiLoc d)) ∗ tLoc d ↦[tCoreSet c]{fullShare} m (tLoc d))
/-- What it hands back. -/
abbrev dnA (d : Dev nD) (c : Fin 2) : sProp 𝕄 :=
  iprop((eiLoc d ↦{coreShare c} m (eiLoc d))
    ∗ ∃ f : Buf (Elt F) (tLoc d), ⌜∀ n : Fin 10240, f (ix3 c (0 : Fin 8) n) = CH d c n⌝ ∗ tLoc d ↦[tCoreSet c]{fullShare} f)
/-- What tile `i`'s task is handed. -/
abbrev goA (d : Dev nD) (sc : Fin τ.nSC) (c : Fin 2) (i : Fin 16) : sProp 𝕄 :=
  iprop((eiLoc d ↦{tileShare c i} m (eiLoc d)) ∗ (tLoc d ↦[tOutSet (coordsV c i)]{fullShare} m (tLoc d))
    ∗ ∃ f, shLoc d sc ↦[shRowSet (coordsV c i)]{fullShare} f)
/-- What it hands back. -/
abbrev tdA (d : Dev nD) (sc : Fin τ.nSC) (c : Fin 2) (i : Fin 16) : sProp 𝕄 :=
  iprop((eiLoc d ↦{tileShare c i} m (eiLoc d))
    ∗ (∃ f : Buf (Elt F) (tLoc d),
        ⌜∀ k : Fin 640, f (ix3 c (0 : Fin 8) ⟨i.val * 640 + k.val, col_lt i k⟩) = CH d c ⟨i.val * 640 + k.val, col_lt i k⟩⌝
          ∗ tLoc d ↦[tOutSet (coordsV c i)]{fullShare} f)
    ∗ bigSep Finset.univ fun t : Fin k0_t7_loop.trips => iprop(∃ f, shLoc d sc ↦[shBlkSet (coordsV c i) t]{fullShare} f))

theorem P_st (d : Dev nD) (c : Fin ((K (F := F)).nCore 0)) : (P SH m CH).st 0 d c = stA m d (cOf c) := rfl
theorem P_dn (d : Dev nD) (c : Fin ((K (F := F)).nCore 0)) : (P SH m CH).dn 0 d c = dnA m CH d (cOf c) := rfl
theorem P_go (d : Dev nD) (c : Fin ((K (F := F)).nCore 0)) (i : Fin ((K (F := F)).nSub 0)) :
    (P SH m CH).go 0 d c i = goA m d ((K (F := F)).core 0 c) (cOf c) (iOf i) := rfl
theorem P_td (d : Dev nD) (c : Fin ((K (F := F)).nCore 0)) (i : Fin ((K (F := F)).nSub 0)) :
    (P SH m CH).td 0 d c i = tdA m CH d ((K (F := F)).core 0 c) (cOf c) (iOf i) := rfl

theorem go_all (d : Dev nD) (c : Fin ((K (F := F)).nCore 0)) :
    (bigSep Finset.univ fun i : Fin ((K (F := F)).nSub 0) => (P SH m CH).go 0 d c i)
      = bigSep Finset.univ fun i : Fin 16 => goA m d ((K (F := F)).core 0 c) (cOf c) i :=
  bigSep_congr fun i _ => P_go SH m CH d c i
theorem td_all (d : Dev nD) (c : Fin ((K (F := F)).nCore 0)) :
    (bigSep Finset.univ fun i : Fin ((K (F := F)).nSub 0) => (P SH m CH).td 0 d c i)
      = bigSep Finset.univ fun i : Fin 16 => tdA m CH d ((K (F := F)).core 0 c) (cOf c) i :=
  bigSep_congr fun i _ => P_td SH m CH d c i

/-! ## The split -/

/-- A SparseCore's operands and its shared scratch go out to its sixteen tasks, and what they bring back is its results
    and the shared scratch whole. -/
theorem split_core (d : Dev nD) (sc : Fin τ.nSC) (c : Fin 2) :
    iprop(stA m d c ∗ ∃ f, shLoc d sc ↦{fullShare} f)
      ⊢ (iprop((bigSep Finset.univ fun i : Fin 16 => goA m d sc c i)
          ∗ ((bigSep Finset.univ fun i : Fin 16 => tdA m CH d sc c i) -∗ iprop(dnA m CH d c ∗ ∃ f, shLoc d sc ↦{fullShare} f))) : sProp 𝕄) := by
  unfold stA dnA goA tdA
  rw [bigSep_sep', bigSep_sep', bigSep_sep', bigSep_sep']
  iintro ⟨⟨Hei, Ht⟩, ⟨%fsh, Hsh⟩⟩
  ihave Hei' := (Transfers.pointsTo_toks_split (coreShare c) 16) $$ Hei
  icases Hei' with ⟨Heid, Heis⟩
  ihave Ht' := (plane_split d c (m (tLoc d))) $$ Ht
  icases Ht' with ⟨Hts, Htr⟩
  ihave Hsh' := (sh_rows d sc c fsh) $$ Hsh
  isplitl [Heis Hts Hsh']
  · isplitl [Heis]; · iexact Heis
    isplitl [Hts]; · iexact Hts
    iexact Hsh'
  iintro ⟨Heis, Hts, Hblk⟩
  isplitl [Heid Heis Htr Hts]
  · isplitl [Heid Heis]
    · iapply (Transfers.pointsTo_toks_join (coreShare c) 16)
      isplitl [Heid]; · iexact Heid
      iexact Heis
    · iapply (plane_join CH d c (m (tLoc d)))
      isplitl [Hts]; · iexact Hts
      iexact Htr
  · iapply (sh_blks_join d sc c); iexact Hblk

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P SH m CH) 0 := by
  intro d c
  rw [go_all, td_all, P_st, P_dn, ownBufs_S]
  iintro ⟨Hst, Hsh, Hrest⟩
  ihave H := (split_core m CH d ((K (F := F)).core 0 c) (cOf c)) $$ [Hst Hsh]
  · isplitl [Hst]; · iexact Hst
    iexact Hsh
  icases H with ⟨Hgo, Hback⟩
  imodintro
  isplitl [Hgo]; · iexact Hgo
  iintro Htd
  ihave H' := Hback $$ Htd
  icases H' with ⟨Hdn, Hsh⟩
  isplitl [Hdn]; · iexact Hdn
  isplitl [Hsh]; · iexact Hsh
  iexact Hrest

end Cert.Kernel.Hist

end
-- ==== Proof.HistBLaunchElem.lean ====
/-
  The launch element of the ghost state: the handshake cells' rounds go to the launch theorem; the barrier cells of both
  SparseCores are funded, their invariants allocated, and every tile is dealt its barrier kit; the TensorCore region's
  staging cells' element goes to what @main's proof starts from.
-/
import proofs.«210354_g33337536152245_cont_8to1_b_1126_28_alg».proof.Proof.HistBSetup
import proofs.«210354_g33337536152245_cont_8to1_b_1126_28_alg».proof.Proof.HistBLaunchDefs

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
  (m : (ℓ : Loc nD τ sig) → Buf (Elt F) ℓ) (CH : Dev nD → Fin 2 → Fin 10240 → Elt F .f32)

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The element of the ghost state is its three libraries' elements side by side. -/
theorem ownU_split (a : UH) (b : UB) (r : UR) :
    (ownU ((a, (b, (r, 1))) : UU) : sProp 𝕄) ⊢ iprop(BI.own (EH a) ∗ BI.own (EB b) ∗ BI.own (ER (F := F) r)) := by
  have h1 : (ownU ((a, (b, (r, 1))) : UU) : sProp 𝕄)
      ⊢ iprop(BI.own (EH a) ∗ BI.own ((uEmb (nD := nD) (sig := sig) (Ix := HIx 1) (Val := Elt F) (Name := ℕ) (U := UU) (Lvl := ℕ)).toEmb ((1 : UH), (b, (r, (1 : Counters)))))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (r, (1 : Counters))))))
  have h2 : (BI.own ((uEmb (nD := nD) (sig := sig) (Ix := HIx 1) (Val := Elt F) (Name := ℕ) (U := UU) (Lvl := ℕ)).toEmb ((1 : UH), (b, (r, (1 : Counters))))) : sProp 𝕄)
      ⊢ iprop(BI.own (EB b) ∗ BI.own (ER (F := F) r)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op (r, (1 : Counters))))))
  iintro H
  ihave H1 := h1 $$ H
  icases H1 with ⟨HH, HR⟩
  ihave H2 := h2 $$ HR
  icases H2 with ⟨HB, HR⟩
  isplitl [HH]; · iexact HH
  isplitl [HB]; · iexact HB
  iexact HR

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd SH) g 0)
    ⊢ |={Set.univ}=> iprop(∃ κ : GSem nD τ sig → ℕ, bigSep bCells fun g => cellInv EB (bRd SH) (κ g) g) := by
  refine (Rounds.bodies_intro EB (bRd SH) bCells).trans ((inv_alloc_family bCells (Rounds.body EB (bRd SH)) ∅ (E := Set.univ)).trans ?_)
  iintro H
  imod H with ⟨%κ, -, Hinv⟩
  imodintro; iexists κ; iexact Hinv

theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile of the two SparseCores the sixteen units of its own cell. -/
theorem creds_b : ((P SH m CH).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P SH m CH).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P SH m CH).oxFrom 0 (V d c i) = oxV d c := fun i => by
      rw [show (0 : ℕ) = (0 : Fin 1).val from rfl, (P SH m CH).oxFrom_step, (P SH m CH).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P SH m CH).x q (SparseCore.T d)) = iprop(emp) :=
  bigSep_univ_of_subsingleton (0 : Fin 1)
theorem Px_S (d : Dev nD) (c : Fin τ.nSC) : (bigSep Finset.univ fun q : Fin 1 => (P SH m CH).x q (S d c)) = iprop(emp) :=
  bigSep_univ_of_subsingleton (0 : Fin 1)
theorem Px_V (d : Dev nD) (c : Fin τ.nSC) (i : Fin τ.nSub) :
    (bigSep Finset.univ fun q : Fin 1 => (P SH m CH).x q (V d c i)) = if c.val < 2 then bkit SH d c i else iprop(emp) :=
  bigSep_univ_of_subsingleton (0 : Fin 1)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd SH) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's kit out of those. -/
theorem kit_intro (dci : DCI) : iprop(shared SH ∗ mine (F := F) dci) ⊢ (if dci.2.1.val < 2 then bkit SH dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd SH) (κ (bcell₃ x)) (bcell₃ x)) fun j _ =>
          sep_elim_left.trans (bigSep_elim (Φ := fun x : DCI => (cellInv EB (bRd SH) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its kit. -/
theorem kits_deal :
    iprop(shared SH ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P SH m CH).x q thr : sProp 𝕄) := by
  rw [SparseCore.Cfg.bigSep_threads (fun thr : Thread nD τ => bigSep Finset.univ fun q : Fin 1 => (P SH m CH).x q thr)]
  simp only [Px_T, Px_S, Px_V, bigSep_emp']
  iintro ⟨#Hsh, Hat, Htok, Hcred⟩
  isplitr; · iempintro
  isplitr; · iempintro
  iapply (bigSep_mono_frame (R := shared SH) (Φ := mine (F := F)) fun dci _ => kit_intro SH dci)
  isplitr; · iexact Hsh
  unfold mine
  rw [bigSep_sep', bigSep_sep']
  isplitl [Hat]; · iexact Hat
  isplitl [Htok]; · iexact Htok
  iexact Hcred

/-- The launch element: the handshakes' rounds, what @main's proof starts from, and every tile's barrier kit. -/
theorem hu₀ (G : Dev nD → sProp 𝕄) (uR : UR) (hG : BI.own (ER (F := F) uR) ⊢ iprop(|==> bigSep Finset.univ G)) :
    iprop(ownU (u₀ (F := F) uR) ∗ (P SH m CH).oxCred ∗ (K (F := F)).freeSems0)
      ⊢ |={Set.univ}=> iprop(BI.own (EH (initOf (K (F := F)).hsCells (K (F := F)).hsToks)) ∗ (bigSep Finset.univ G)
        ∗ (bigSep Finset.univ fun thr : Thread nD τ => bigSep Finset.univ fun q : Fin 1 => (P SH m CH).x q thr) : sProp 𝕄) := by
  unfold u₀
  iintro ⟨Hu, Hcred, Hfree⟩
  ihave H := (ownU_split _ _ _) $$ Hu
  icases H with ⟨HH, HB, HR⟩
  imod (Rounds.fund EB (bRd SH) bCells bToks) $$ HB with ⟨Hst, #Hr, Hat, Htok⟩
  imod hG $$ HR with HG
  ihave Hsems := (sems_b (F := F)) $$ Hfree
  imod (invs_b SH) $$ [Hsems Hst] with ⟨%κ, #Hinv⟩
  · isplitl [Hsems] <;> iassumption
  ihave Hcred' := (creds_b SH m CH) $$ Hcred
  ihave Hinv' := (Entails.of_eq (bCells_eq (F := F) fun g => cellInv EB (bRd SH) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal SH m CH)
  isplitr
  · isplitl; · iexists κ; iexact Hinv'
    iexact Hr'
  isplitl [Hat']; · iexact Hat'
  isplitl [Htok']; · iexact Htok'
  iexact Hcred'

end Cert.Kernel.Hist

end
-- ==== Proof.HistBLaunchRun.lean ====
/-
  The program's run: the launch theorem applied to the tile's body obligation and @main's proof, and the claim read off the
  final memory — on every device the result is the named value and the ten arguments are the launch's.
-/
import proofs.«210354_g33337536152245_cont_8to1_b_1126_28_alg».proof.Proof.HistBSetup
import proofs.«210354_g33337536152245_cont_8to1_b_1126_28_alg».proof.Proof.HistBLaunchDefs
import proofs.«210354_g33337536152245_cont_8to1_b_1126_28_alg».proof.Proof.HistBLaunchVecSplit
import proofs.«210354_g33337536152245_cont_8to1_b_1126_28_alg».proof.Proof.HistBLaunchElem

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
  (m : (ℓ : Loc nD τ sig) → Buf (Elt F) ℓ) (CH : Dev nD → Fin 2 → Fin 10240 → Elt F .f32) (ρ : Dev nD → PrngReg)
  (OUT : (d : Dev nD) → Buf (Elt F) ((SparseCore.T d).loc main_v4))

/-! ## The final assertions read the claim -/

/-- Arrays held whole at given contents are there in the memory. -/
theorem refs_agree (R : Finset (Ref sig .tc)) (d : Dev nD) (s' : Phys nD τ sig (Elt F)) :
    iprop(SI s' ∗ bigSep R fun b => (SparseCore.T d).loc b ↦{fullShare} m ((SparseCore.T d).loc b))
      ⊢ (⌜∀ b ∈ R, s'.mem.mem ((SparseCore.T d).loc b) = m ((SparseCore.T d).loc b)⌝ : sProp 𝕄) := by
  induction R using Finset.induction_on with
  | empty => iintro -; ipureintro; intro b hb; exact absurd hb (Finset.notMem_empty _)
  | insert a R ha ih =>
    rw [SparseCore.bigSep_insert' ha]
    iintro ⟨HSI, Ha, HR⟩
    ihave %h1 := (SI_pointsTo_agree (st := s') (ℓ := (SparseCore.T d).loc a) (I := Finset.univ) (q := fullShare) (f := m ((SparseCore.T d).loc a))) $$ [HSI Ha]
    · isplitl [HSI] <;> iassumption
    ihave %h2 := ih $$ [HSI HR]
    · isplitl [HSI] <;> iassumption
    ipureintro
    intro b hb
    rcases Finset.mem_insert.mp hb with rfl | hb
    · exact funext fun i => h1 i (Finset.mem_univ i)
    · exact h2 b hb

theorem hfin (d : Dev nD) (s' : Phys nD τ sig (Elt F)) : iprop(FIN m OUT d ∗ SI s') ⊢ (⌜fq m OUT d s'⌝ : sProp 𝕄) := by
  unfold FIN fq
  iintro ⟨⟨Hargs, Hout⟩, HSI⟩
  ihave %hout := (SI_pointsTo_agree (st := s') (ℓ := (SparseCore.T d).loc main_v4) (I := Finset.univ) (q := fullShare) (f := OUT d)) $$ [HSI Hout]
  · isplitl [HSI] <;> iassumption
  ihave %hargs := (refs_agree m argRefs d s') $$ [HSI Hargs]
  · isplitl [HSI] <;> iassumption
  ipureintro
  exact ⟨funext fun i => hout i (Finset.mem_univ i), hargs⟩

/-! ## The run -/

/-- Every weakly fair execution of the program from the memory `m` ends, on every device, with the result at `OUT` and the
    ten arguments as they were: from the tile's body obligation, the TensorCore region's part of the launch element and
    @main's proof. -/
theorem run_main [∀ e, Nonempty (Elt F e)]
    (tileObl : (K (F := F)).TileObl (D (F := F)) 𝒱 (P SH m CH) v₀ 0)
    (G : Dev nD → sProp 𝕄) (uR : UR) (hG : BI.own (ER (F := F) uR) ⊢ iprop(|==> bigSep Finset.univ G))
    (hmain : ∀ (κ : GSem nD τ sig → ℕ) (d : Dev nD),
      iprop((K (F := F)).ctx EH (P SH m CH) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m OUT d)) :
    θ_run (Cert.Kernel.defs (F := F)) (Cert.Kernel.threads (F := F)) ⟨m, fun _ => 0, ρ⟩
      (fun r => ∀ c : Dev nD,
        r.2.mem ((c.tc : Thread nD τ).loc main_v4) = OUT c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  SparseCore.Cfg.θ_run_sc (K := K (F := F)) (D := D (F := F)) (𝒱 := 𝒱) (EH := EH) (P := P SH m CH) facts v₀
    (fun q hq => match q with | 0 => nomatch hq)
    (fun q _ => match q with | 0 => tileObl)
    (fun q _ => match q with | 0 => vecSplit SH m CH)
    m ρ main G (FIN m OUT) (u₀ (F := F) uR) (hu₀ SH m CH G uR hG) hmain (fq m OUT) (hfin m OUT) _
    (fun s' h c => ⟨(h c).1,
      (h c).2 main_arg0 (by unfold argRefs; decide),
      (h c).2 main_arg1 (by unfold argRefs; decide),
      (h c).2 main_arg2 (by unfold argRefs; decide),
      (h c).2 main_arg3 (by unfold argRefs; decide),
      (h c).2 main_arg4 (by unfold argRefs; decide),
      (h c).2 main_arg5 (by unfold argRefs; decide),
      (h c).2 main_arg6 (by unfold argRefs; decide),
      (h c).2 main_arg7 (by unfold argRefs; decide),
      (h c).2 main_arg8 (by unfold argRefs; decide),
      (h c).2 main_arg9 (by unfold argRefs; decide)⟩)

end Cert.Kernel.Hist

end
-- ==== Proof.HistBLaunchObl.lean ====
/-
  The tile's obligation of the launch theorem from the proof of the kernel function's body at a tile: the body table's
  row for a vector subcore is the kernel function at the tile's coordinates, lifted to the extended signature.
-/
import proofs.«210354_g33337536152245_cont_8to1_b_1126_28_alg».proof.Proof.HistBSetup
import proofs.«210354_g33337536152245_cont_8to1_b_1126_28_alg».proof.Proof.HistBLaunchVecSplit

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
  (m : (ℓ : Loc nD τ sig) → Buf (Elt F) ℓ) (CH : Dev nD → Fin 2 → Fin 10240 → Elt F .f32)

/-- The body table's row for a vector subcore: the kernel function at the tile's coordinates, on the tiles of the grid. -/
theorem defs₀_vector (c : Fin τ.nSC) (s : Fin τ.nSub) :
    defs₀ (F := F) (.scVector c s) 0 ()
      = SparseCore.onTile hcore0 hsub0 (fun c s => cc0__sc_histogram (coordsV c s) eiV (Memref.isWhole_whole _) tV (Memref.isWhole_whole _) idxV (Memref.isWhole_whole _) extV (Memref.isWhole_whole _) histV (Memref.isWhole_whole _) accV (Memref.isWhole_whole _) bufV (Memref.isWhole_whole _) shV (Memref.isWhole_whole _) cc0_scratch6 cc0_scoped0 cc0_scoped1 cc0_scoped2 cc0_scoped3) ⟨⟩ c s := rfl

set_option maxRecDepth 16384 in
/-- The obligation, from the body proved at every tile of the grid. -/
theorem tileObl_of_body
    (tile_body : ∀ (d : Dev nD) (c : Fin 2) (i : Fin 16) (hF : (K (F := F)).Facts) (O : CellTallies nD τ sig (HIx 1)) (W : Waits sig (HIx 1))
      (hO : ∀ g, O g none = 0) (hOlev : ∀ g ι, 0 < O g ι → 8 * (0 : Fin 1).val + 6 ≤ (K (F := F)).lev g ι),
      iprop(levAts (K (F := F)).L (K (F := F)).lev ∗ bkit SH d (cV (coordsV c i)) (jV (coordsV c i)) ∗ goA m d (cV (coordsV c i)) c i
          ∗ scopedBufs (V d (cV (coordsV c i)) (jV (coordsV c i))) ∗ scopedSems0 (V d (cV (coordsV c i)) (jV (coordsV c i)))
          ∗ owes (V d (cV (coordsV c i)) (jV (coordsV c i))) (O + oxV d (cV (coordsV c i))) W)
        ⊢ wp frame (wpE (defs₀ (F := F)) 𝒱₀ (V d (cV (coordsV c i)) (jV (coordsV c i))) none) Set.univ
            (cc0__sc_histogram (coordsV c i) eiV (Memref.isWhole_whole _) tV (Memref.isWhole_whole _) idxV (Memref.isWhole_whole _) extV (Memref.isWhole_whole _) histV (Memref.isWhole_whole _) accV (Memref.isWhole_whole _) bufV (Memref.isWhole_whole _) shV (Memref.isWhole_whole _) cc0_scratch6 cc0_scoped0 cc0_scoped1 cc0_scoped2 cc0_scoped3)
            fun _ => iprop(tdA m CH d (cV (coordsV c i)) c i ∗ scopedBufs (V d (cV (coordsV c i)) (jV (coordsV c i))) ∗ scopedSems0 (V d (cV (coordsV c i)) (jV (coordsV c i)))
              ∗ ∃ W', ⌜∀ p ∈ W', p ∈ W ∨ p.2 = none ∨ p.2 = some (0 : Fin 1)⌝ ∗ owes (V d (cV (coordsV c i)) (jV (coordsV c i))) O W')) :
    (K (F := F)).TileObl (D (F := F)) 𝒱 (P SH m CH) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P SH m CH).ox 0 (V d ((K (F := F)).core 0 c) ((K (F := F)).sub 0 i)) = oxV d ((K (F := F)).core 0 c) from if_pos hc,
    show (P SH m CH).x 0 (V d ((K (F := F)).core 0 c) ((K (F := F)).sub 0 i)) = bkit SH d ((K (F := F)).core 0 c) ((K (F := F)).sub 0 i) from if_pos hc,
    P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (cOf c) (iOf i) facts O W hO hOlev

end Cert.Kernel.Hist

end
-- ==== Proof.HistBSteps.lean ====
/-
  What one vector subcore's task computes, as pure terms of the edge list: the stores each loop's trip makes, iterated over
  the trips, and what each local copy lands. The counters of a tile are zeroed, then take one count per entry of the
  tile's columns of the edge list (both rows; sixteen entries at a time, an entry's node naming the counter); a
  SparseCore's sixteen rows of counters, laid in its shared scratch, are added up in 640-column strips, one strip a tile.
-/
import proofs.«210354_g33337536152245_cont_8to1_b_1126_28_alg».proof.Proof.HistBSetup

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

abbrev thrV (d : Dev nD) (L : grid0.Coords) : Thread nD τ := V d (cV L) (jV L)

abbrev HistBuf : Type := Buf (Elt F) ((thrV d L).loc cc0_scratch2)
abbrev IdxBuf : Type := Buf (Elt F) ((thrV d L).loc cc0_scratch0)
abbrev ExtBuf : Type := Buf (Elt F) ((thrV d L).loc cc0_scratch1)
abbrev AccBuf : Type := Buf (Elt F) ((thrV d L).loc cc0_scratch3)
abbrev BufBuf : Type := Buf (Elt F) ((thrV d L).loc cc0_scratch4)
abbrev EiBuf : Type := Buf (Elt F) (eiLoc d)
abbrev ShBuf : Type := Buf (Elt F) (shLoc d (cV L))
abbrev TBuf : Type := Buf (Elt F) (tLoc d)

/-- A trip-indexed step function iterated over the first `k` trips. -/
def iter {n : Nat} {α : Type} (step : Fin n → α → α) : Nat → α → α
  | 0, a => a
  | k + 1, a => if h : k < n then step ⟨k, h⟩ (iter step k a) else iter step k a

theorem iter_succ {n : Nat} {α : Type} (step : Fin n → α → α) (k : Fin n) (a : α) : iter step (k.val + 1) a = step k (iter step k.val a) := by
  show (if h : k.val < n then step ⟨k.val, h⟩ (iter step k.val a) else iter step k.val a) = _
  rw [dif_pos k.isLt]

/-- The float zero the kernel splats. -/
abbrev zeroF : F .f32 := Scalar.ofBits .f32 0x00000000#32

/-- The index words a tile reads name nodes: at most 9999. -/
def NodeWords {S : Shape} (g : S.Idx → BitVec 32) : Prop := ∀ i, (g i).toNat ≤ 9999

/-! ## The counters -/

/-- Trip `k` of the zero-fill: sixteen counters set to zero. -/
def zstep (k : Fin k0_t1_loop.trips) (f : HistBuf (F := F) d L) : HistBuf (F := F) d L :=
  (histV).view.writes (Elt F) f [⟨Rect.unit (s := S10240) (k0_off3 k) S16.size (k0_off3_inb k), k0_pay3⟩]

/-- The sixteen node numbers trip `k` of the first counting loop reads: row 0 of the tile's block of the edge list. -/
def lanes0 (g : IdxBuf (F := F) d L) (k : Fin k0_t2_loop.trips) : IVec S16 32 :=
  shapeCast S16 (View.readAt (Elt F) (idxV).view (Rect.unit (s := S2x4992) (k0_off4 k) S1x16.size (k0_off4_inb k)).toLoadRect g) shapeCasts_S1x16_S16
/-- and of the second: row 1. -/
def lanes1 (g : IdxBuf (F := F) d L) (k : Fin k0_t3_loop.trips) : IVec S16 32 :=
  shapeCast S16 (View.readAt (Elt F) (idxV).view (Rect.unit (s := S2x4992) (k0_off5 k) S1x16.size (k0_off5_inb k)).toLoadRect g) shapeCasts_S1x16_S16

/-- Sixteen node numbers counted: each names a counter, which goes up by one (by as many as name it). -/
def bump (v : IVec S16 32) (f : HistBuf (F := F) d L) : HistBuf (F := F) d L :=
  if h : k0_chk1 v then
    ((histV).access (.whole S10240)).write (Elt F) f
      (storeIdx (((histV).access (.whole S10240)).read (Elt F) f) ![v] (k0_pay2 (F := F)) (fun _ => 1#1) true (k0_idx1_inb v h)) Finset.univ
  else f

section Tail
variable (h2 : k0_cond2 L = 1#1)
/-- The 128 columns the first two tiles read from the tail of the edge list: row 0, -/
def lanesE0 (g : ExtBuf (F := F) d L) (k : Fin k0_t4_loop.trips) : IVec S16 32 :=
  shapeCast S16 (View.readAt (Elt F) (extV).view (Rect.unit (s := S2x128) (k0_off6 k) S1x16.size (k0_off6_inb L k h2)).toLoadRect g) shapeCasts_S1x16_S16
/-- row 1. -/
def lanesE1 (g : ExtBuf (F := F) d L) (k : Fin k0_t5_loop.trips) : IVec S16 32 :=
  shapeCast S16 (View.readAt (Elt F) (extV).view (Rect.unit (s := S2x128) (k0_off7 k) S1x16.size (k0_off7_inb L k h2)).toLoadRect g) shapeCasts_S1x16_S16
end Tail

/-! ## What the local copies land -/

/-- The tile's 4992 columns of the edge list, as the copy lands them over whatever the scratch held. -/
def idxAfter (e : EiBuf (F := F) d) (old : IdxBuf (F := F) d L) : IdxBuf (F := F) d L :=
  View.write (Elt F) (idxV).view old
    (ReadAs.same.apply (View.read (Elt F) ((eiV).slice (Rect.unit (s := S2x160000) (k0_off1 L) S2x4992.size (k0_off1_inb L)) (fun _ => rfl)).view e)) Finset.univ
/-- The 128 columns of the tail, for the first two tiles. -/
def extAfter (h1 : k0_cond1 L = 1#1) (e : EiBuf (F := F) d) (old : ExtBuf (F := F) d L) : ExtBuf (F := F) d L :=
  View.write (Elt F) (extV).view old
    (ReadAs.same.apply (View.read (Elt F) ((eiV).slice (Rect.unit (s := S2x160000) (k0_off2 L) S2x128.size (k0_off2_inb L h1)) (fun _ => rfl)).view e)) Finset.univ
/-- The tile's counters copied into its row of the shared scratch. -/
def rowAfter (H : HistBuf (F := F) d L) (old : ShBuf (F := F) d L) : ShBuf (F := F) d L :=
  (shRowK L).view.writes (Elt F) old [⟨Rect.whole S10240, ReadAs.same.apply (View.read (Elt F) (histV).view H)⟩]
/-- The 640 columns of row `t` of the shared scratch copied into the tile's staging scratch. -/
def blkAfter (SHc : ShBuf (F := F) d L) (t : Fin k0_t7_loop.trips) (old : BufBuf (F := F) d L) : BufBuf (F := F) d L :=
  View.write (Elt F) (bufV).view old (ReadAs.same.apply (View.read (Elt F) (shBlkK L t).view SHc)) Finset.univ
/-- The tile's 640 sums copied out to its columns of row 0 of its SparseCore's plane of the output. -/
def outAfter (A : AccBuf (F := F) d L) (old : TBuf (F := F) d) : TBuf (F := F) d :=
  (tOutK L).view.writes (Elt F) old [⟨Rect.whole S640, ReadAs.same.apply (View.read (Elt F) (accV).view A)⟩]

/-! ## The sums -/

/-- Trip `k` of the accumulator's zero-fill. -/
def zstepA (z : FVec F S16 .f32) (k : Fin k0_t6_loop.trips) (f : AccBuf (F := F) d L) : AccBuf (F := F) d L :=
  (accV).view.writes (Elt F) f [⟨Rect.unit (s := S640) (k0_off9 k) S16.size (k0_off9_inb k), z⟩]

/-- Trip `k` of the inner add: sixteen sums take sixteen more terms. -/
def astep (b : BufBuf (F := F) d L) (k : Fin k0_t8_loop.trips) (a : AccBuf (F := F) d L) : AccBuf (F := F) d L :=
  (accV).view.writes (Elt F) a [⟨Rect.unit (s := S640) (k0_off11 k) S16.size (k0_off11_inb k),
    k0_pay1 (View.readAt (Elt F) (accV).view (Rect.unit (s := S640) (k0_off11 k) S16.size (k0_off11_inb k)).toLoadRect a)
      (View.readAt (Elt F) (bufV).view (Rect.unit (s := S640) (k0_off11 k) S16.size (k0_off11_inb k)).toLoadRect b)⟩]

/-! ## The task's values as closed terms of the edge list -/

/-- Contents that stand for "whatever was there": every closed term below is independent of them. -/
abbrev junkI : IdxBuf (F := F) d L := fun _ => (0#32 : BitVec 32)
abbrev junkE : ExtBuf (F := F) d L := fun _ => (0#32 : BitVec 32)
abbrev junkH : HistBuf (F := F) d L := fun _ => zeroF
abbrev junkA : AccBuf (F := F) d L := fun _ => zeroF
abbrev junkB : BufBuf (F := F) d L := fun _ => zeroF

/-- The tile's counters after its 2·4992 entries: -/
def histMain (e : EiBuf (F := F) d) : HistBuf (F := F) d L :=
  iter (fun k => bump (F := F) d L (lanes1 d L (idxAfter d L e (junkI d L)) k)) k0_t3_loop.trips
    (iter (fun k => bump (F := F) d L (lanes0 d L (idxAfter d L e (junkI d L)) k)) k0_t2_loop.trips
      (iter (zstep (F := F) d L) k0_t1_loop.trips (junkH d L)))
/-- and, for the first two tiles, after the 2·128 entries of the tail. -/
def histTail (h1 : k0_cond1 L = 1#1) (h2 : k0_cond2 L = 1#1) (e : EiBuf (F := F) d) : HistBuf (F := F) d L :=
  iter (fun k => bump (F := F) d L (lanesE1 d L h2 (extAfter d L h1 e (junkE d L)) k)) k0_t5_loop.trips
    (iter (fun k => bump (F := F) d L (lanesE0 d L h2 (extAfter d L h1 e (junkE d L)) k)) k0_t4_loop.trips (histMain (F := F) d L e))
/-- The tile's counters when it copies them out. -/
def histFinal (e : EiBuf (F := F) d) : HistBuf (F := F) d L :=
  if h : k0_cond1 L = 1#1 ∧ k0_cond2 L = 1#1 then histTail (F := F) d L h.1 h.2 e else histMain (F := F) d L e

/-- The sum over the rows before `t`, taking row `t`'s strip in. -/
def cstep (SHc : ShBuf (F := F) d L) (t : Fin k0_t7_loop.trips) (a : AccBuf (F := F) d L) : AccBuf (F := F) d L :=
  iter (astep (F := F) d L (blkAfter d L SHc t (junkB d L))) k0_t8_loop.trips a
/-- The tile's 640 sums over its SparseCore's sixteen rows. -/
def accFinal (SHc : ShBuf (F := F) d L) : AccBuf (F := F) d L :=
  iter (cstep (F := F) d L SHc) k0_t7_loop.trips (iter (zstepA (F := F) d L (k0_pay3 (F := F))) k0_t6_loop.trips (junkA d L))

/-! ## What the launch's payload record is taken at -/

variable (m : (ℓ : Loc nD τ sig) → Buf (Elt F) ℓ)

/-- The contents every row of SparseCore `c`'s shared scratch ends at: row `s` is tile `(c, s)`'s counters. -/
def SHv (d : Dev nD) (c : Fin τ.nSC) : Buf (Elt F) (shLoc d c) :=
  fun j => if hc : c.val < grid0.bound 0 then
      histFinal (F := F) d (coordsV ⟨c.val, hc⟩ ⟨(j 0).val, (j 0).isLt⟩) (m (eiLoc d)) (ValueIdx.ix1 ⟨(j 1).val, (j 1).isLt⟩)
    else zeroF

/-- SparseCore `c`'s count of node `n`: the sum over its sixteen tiles' counters, as the tile that owns column `n` adds them up. -/
def CHv (d : Dev nD) (c : Fin 2) (n : Fin 10240) : Elt F .f32 :=
  accFinal (F := F) d (coordsV c ⟨n.val / 640, by have := n.isLt; show n.val / 640 < 16; omega⟩)
    (SHv (F := F) m d (cV (coordsV c ⟨n.val / 640, by have := n.isLt; show n.val / 640 < 16; omega⟩)))
    (ValueIdx.ix1 ⟨n.val % 640, Nat.mod_lt _ (by decide)⟩)

end Cert.Kernel.Hist

end
-- ==== Proof.HistBFacts.lean ====
/-
  Pure facts about what a tile's task computes (the terms of HistSteps.lean): lanes read out of node numbers are in range
  of the counters; a copy that fills a whole scratch leaves nothing of what was there, and neither does a zero-fill; the
  rows of the shared scratch and the columns of the output are, entry by entry, the closed forms the launch's payload
  record is taken at.
-/
import proofs.«210354_g33337536152245_cont_8to1_b_1126_28_alg».proof.Proof.HistBSteps

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Steps that each overwrite the part of a buffer they cover in a way that does not depend on the buffer, and leave the
    rest of it alone: after the first `m` of them, the buffer at an index that a step below `m` covers does not depend on
    what the buffer held at the start. -/
theorem iter_indep {n : Nat} {I X : Type} (step : Fin n → (I → X) → I → X) (cov : Fin n → I → Prop)
    (hin : ∀ k f f' i, cov k i → step k f i = step k f' i) (hout : ∀ k f i, ¬cov k i → step k f i = f i)
    (f f' : I → X) (i : I) : ∀ m, (∃ k : Fin n, k.val < m ∧ cov k i) → iter step m f i = iter step m f' i
  | 0, h => by obtain ⟨k, hk, _⟩ := h; exact absurd hk (Nat.not_lt_zero _)
  | m + 1, h => by
    show (if hm : m < n then step ⟨m, hm⟩ (iter step m f) else iter step m f) i
      = (if hm : m < n then step ⟨m, hm⟩ (iter step m f') else iter step m f') i
    by_cases hm : m < n
    · rw [dif_pos hm, dif_pos hm]
      by_cases hc : cov ⟨m, hm⟩ i
      · exact hin _ _ _ _ hc
      · rw [hout _ _ _ hc, hout _ _ _ hc]
        obtain ⟨k, hk, hck⟩ := h
        refine iter_indep step cov hin hout f f' i m ⟨k, ?_, hck⟩
        rcases Nat.lt_succ_iff_lt_or_eq.mp hk with h1 | h1
        · exact h1
        · exact absurd (by rw [show (⟨m, hm⟩ : Fin n) = k from Fin.ext h1.symm]; exact hck) hc
    · rw [dif_neg hm, dif_neg hm]
      obtain ⟨k, hk, hck⟩ := h
      exact iter_indep step cov hin hout f f' i m ⟨k, by have := k.isLt; omega, hck⟩

/-- The two tests "this tile is one of the first two" are one test. -/
theorem cond12 : k0_cond1 L = k0_cond2 L := rfl

/-! ## Lanes read out of words that name nodes are in range of the counters -/

theorem chk_lanes0 (g : IdxBuf (F := F) d L) (hg : NodeWords g) (k : Fin k0_t2_loop.trips) : k0_chk1 (lanes0 (F := F) d L g k) := by
  intro a x
  obtain rfl : a = 0 := Subsingleton.elim _ _
  show ((lanes0 (F := F) d L g k) x).toNat < 10240
  exact Nat.lt_of_le_of_lt (hg _) (by decide)
theorem chk_lanes1 (g : IdxBuf (F := F) d L) (hg : NodeWords g) (k : Fin k0_t3_loop.trips) : k0_chk1 (lanes1 (F := F) d L g k) := by
  intro a x
  obtain rfl : a = 0 := Subsingleton.elim _ _
  show ((lanes1 (F := F) d L g k) x).toNat < 10240
  exact Nat.lt_of_le_of_lt (hg _) (by decide)
theorem chk_lanesE0 (h2 : k0_cond2 L = 1#1) (g : ExtBuf (F := F) d L) (hg : NodeWords g) (k : Fin k0_t4_loop.trips) : k0_chk1 (lanesE0 (F := F) d L h2 g k) := by
  intro a x
  obtain rfl : a = 0 := Subsingleton.elim _ _
  show ((lanesE0 (F := F) d L h2 g k) x).toNat < 10240
  exact Nat.lt_of_le_of_lt (hg _) (by decide)
theorem chk_lanesE1 (h2 : k0_cond2 L = 1#1) (g : ExtBuf (F := F) d L) (hg : NodeWords g) (k : Fin k0_t5_loop.trips) : k0_chk1 (lanesE1 (F := F) d L h2 g k) := by
  intro a x
  obtain rfl : a = 0 := Subsingleton.elim _ _
  show ((lanesE1 (F := F) d L h2 g k) x).toNat < 10240
  exact Nat.lt_of_le_of_lt (hg _) (by decide)

/-! ## What a copy lands names nodes when the edge list does -/

theorem nodeWords_idxAfter (e : EiBuf (F := F) d) (he : NodeWords e) (old : IdxBuf (F := F) d L) : NodeWords (idxAfter (F := F) d L e old) := by
  intro i
  rw [show idxAfter (F := F) d L e old = _ from View.write_whole_univ (Val := Elt F) cc0_scratch0 old _]
  exact he _
theorem nodeWords_extAfter (h1 : k0_cond1 L = 1#1) (e : EiBuf (F := F) d) (he : NodeWords e) (old : ExtBuf (F := F) d L) : NodeWords (extAfter (F := F) d L h1 e old) := by
  intro i
  rw [show extAfter (F := F) d L h1 e old = _ from View.write_whole_univ (Val := Elt F) cc0_scratch1 old _]
  exact he _

/-! ## Nothing is left of what a wholly overwritten scratch held -/

theorem idxAfter_junk (e : EiBuf (F := F) d) (old : IdxBuf (F := F) d L) : idxAfter (F := F) d L e old = idxAfter (F := F) d L e (junkI d L) :=
  (View.write_whole_univ (Val := Elt F) cc0_scratch0 old _).trans (View.write_whole_univ (Val := Elt F) cc0_scratch0 (junkI d L) _).symm
theorem extAfter_junk (h1 : k0_cond1 L = 1#1) (e : EiBuf (F := F) d) (old : ExtBuf (F := F) d L) : extAfter (F := F) d L h1 e old = extAfter (F := F) d L h1 e (junkE d L) :=
  (View.write_whole_univ (Val := Elt F) cc0_scratch1 old _).trans (View.write_whole_univ (Val := Elt F) cc0_scratch1 (junkE d L) _).symm
theorem blkAfter_junk (SHc : ShBuf (F := F) d L) (t : Fin k0_t7_loop.trips) (old : BufBuf (F := F) d L) : blkAfter (F := F) d L SHc t old = blkAfter (F := F) d L SHc t (junkB d L) :=
  (View.write_whole_univ (Val := Elt F) cc0_scratch4 old _).trans (View.write_whole_univ (Val := Elt F) cc0_scratch4 (junkB d L) _).symm
/-- The 640 trips of sixteen zeros cover the 10240 counters, -/
theorem zfill_junk (f : HistBuf (F := F) d L) : iter (zstep (F := F) d L) k0_t1_loop.trips f = iter (zstep (F := F) d L) k0_t1_loop.trips (junkH d L) := by
  have ht : k0_t1_loop.trips = 640 := by decide
  funext i
  refine iter_indep (zstep (F := F) d L)
    (fun k i => i ∈ (Rect.unit (s := S10240) (k0_off3 k) S16.size (k0_off3_inb k)).set) ?_ ?_ f (junkH d L) i _ ?_
  · intro k g g' i hi
    have hs : ((histV).view.slice (Rect.unit (s := S10240) (k0_off3 k) S16.size (k0_off3_inb k))).setOn Finset.univ
        = (Rect.unit (s := S10240) (k0_off3 k) S16.size (k0_off3_inb k)).set := by
      rw [View.setOn_univ]; exact View.set_slice_whole cc0_scratch2 _
    show ((histV).view.slice (Rect.unit (s := S10240) (k0_off3 k) S16.size (k0_off3_inb k))).write (Elt F) g
        (k0_pay3 (F := F)) Finset.univ i
      = ((histV).view.slice (Rect.unit (s := S10240) (k0_off3 k) S16.size (k0_off3_inb k))).write (Elt F) g'
        (k0_pay3 (F := F)) Finset.univ i
    rw [View.write_eq_piecewise (v := (histV).view.slice (Rect.unit (s := S10240) (k0_off3 k) S16.size (k0_off3_inb k)))
      (Val := Elt F) g g' _ Finset.univ, Finset.piecewise_eq_of_mem _ _ _ (by rw [hs]; exact hi)]
  · intro k g i hi
    have hs : ((histV).view.slice (Rect.unit (s := S10240) (k0_off3 k) S16.size (k0_off3_inb k))).setOn Finset.univ
        = (Rect.unit (s := S10240) (k0_off3 k) S16.size (k0_off3_inb k)).set := by
      rw [View.setOn_univ]; exact View.set_slice_whole cc0_scratch2 _
    show ((histV).view.slice (Rect.unit (s := S10240) (k0_off3 k) S16.size (k0_off3_inb k))).write (Elt F) g
        (k0_pay3 (F := F)) Finset.univ i = g i
    exact View.write_of_not_mem g _ Finset.univ (by rw [hs]; exact hi)
  · have hi : (i 0).val < 10240 := (i 0).isLt
    have hk : (i 0).val / 16 < k0_t1_loop.trips := by rw [ht]; omega
    refine ⟨⟨(i 0).val / 16, hk⟩, hk, ?_⟩
    rw [Rect.mem_set_unit, k0_off3_eq]
    intro a
    obtain rfl : a = 0 := Subsingleton.elim _ _
    show 16 * ((i 0).val / 16) ≤ (i 0).val ∧ (i 0).val < 16 * ((i 0).val / 16) + 16
    omega
/-- the 40 trips the 640 sums. -/
theorem zfillA_junk (z : FVec F S16 .f32) (f : AccBuf (F := F) d L) : iter (zstepA (F := F) d L z) k0_t6_loop.trips f = iter (zstepA (F := F) d L z) k0_t6_loop.trips (junkA d L) := by
  have ht : k0_t6_loop.trips = 40 := by decide
  funext i
  refine iter_indep (zstepA (F := F) d L z)
    (fun k i => i ∈ (Rect.unit (s := S640) (k0_off9 k) S16.size (k0_off9_inb k)).set) ?_ ?_ f (junkA d L) i _ ?_
  · intro k g g' i hi
    have hs : ((accV).view.slice (Rect.unit (s := S640) (k0_off9 k) S16.size (k0_off9_inb k))).setOn Finset.univ
        = (Rect.unit (s := S640) (k0_off9 k) S16.size (k0_off9_inb k)).set := by
      rw [View.setOn_univ]; exact View.set_slice_whole cc0_scratch3 _
    show ((accV).view.slice (Rect.unit (s := S640) (k0_off9 k) S16.size (k0_off9_inb k))).write (Elt F) g z Finset.univ i
      = ((accV).view.slice (Rect.unit (s := S640) (k0_off9 k) S16.size (k0_off9_inb k))).write (Elt F) g' z Finset.univ i
    rw [View.write_eq_piecewise (v := (accV).view.slice (Rect.unit (s := S640) (k0_off9 k) S16.size (k0_off9_inb k)))
      (Val := Elt F) g g' _ Finset.univ, Finset.piecewise_eq_of_mem _ _ _ (by rw [hs]; exact hi)]
  · intro k g i hi
    have hs : ((accV).view.slice (Rect.unit (s := S640) (k0_off9 k) S16.size (k0_off9_inb k))).setOn Finset.univ
        = (Rect.unit (s := S640) (k0_off9 k) S16.size (k0_off9_inb k)).set := by
      rw [View.setOn_univ]; exact View.set_slice_whole cc0_scratch3 _
    show ((accV).view.slice (Rect.unit (s := S640) (k0_off9 k) S16.size (k0_off9_inb k))).write (Elt F) g z Finset.univ i
      = g i
    exact View.write_of_not_mem g _ Finset.univ (by rw [hs]; exact hi)
  · have hi : (i 0).val < 640 := (i 0).isLt
    have hk : (i 0).val / 16 < k0_t6_loop.trips := by rw [ht]; omega
    refine ⟨⟨(i 0).val / 16, hk⟩, hk, ?_⟩
    rw [Rect.mem_set_unit, k0_off9_eq]
    intro a
    obtain rfl : a = 0 := Subsingleton.elim _ _
    show 16 * ((i 0).val / 16) ≤ (i 0).val ∧ (i 0).val < 16 * ((i 0).val / 16) + 16
    omega

/-! ## The row of the shared scratch and the columns of the output, entry by entry -/

variable (m : (ℓ : Loc nD τ sig) → Buf (Elt F) ℓ)

/-- A tile's counters at an index depend on the tile's coordinates and the index's through their values only. -/
theorem histFinal_at (e : EiBuf (F := F) d) (L' : grid0.Coords) (n n' : Fin 10240) (hL : ∀ a, (L' a).val = (L a).val)
    (hn : n'.val = n.val) :
    histFinal (F := F) d L' e (ValueIdx.ix1 n') = histFinal (F := F) d L e (ValueIdx.ix1 n) := by
  obtain rfl : L' = L := funext fun a => Fin.ext (hL a)
  obtain rfl : n' = n := Fin.ext hn
  rfl

/-- Counter `n` of the tile's row sits in the shared scratch at row `L 1`, column `n`. -/
theorem shRowK_emb (n : Fin 10240) :
    (shRowK L).view.emb (ValueIdx.ix1 n) = (ValueIdx.ix2 (⟨(L 1).val, (L 1).isLt⟩ : Fin 16) n : S16x10240.Idx) := by
  show (Rect.unit (s := S16x10240) (k0_off8 L) S1x10240.size (k0_off8_inb L)).emb
    (Shape.reshapeEquiv squeezes_S1x10240_S10240.numel_eq (ValueIdx.ix1 n)) = _
  rw [show Shape.reshapeEquiv squeezes_S1x10240_S10240.numel_eq (ValueIdx.ix1 n) = (ValueIdx.ix2 (0 : Fin 1) n : S1x10240.Idx) from
    Shape.reshapeEquiv_eq_of_rowMajor _ (by
      rw [Shape.rowMajor_val_two, Shape.rowMajor_val_one]
      show 0 * 10240 + n.val = n.val
      omega)]
  funext a
  refine Fin.ext ?_
  rw [Rect.emb_apply]
  match a with
  | ⟨0, _⟩ =>
    show (k0_off8 L) 0 + 1 * 0 = (L 1).val
    rw [k0_off8_eq]
    show (L 1).val + 1 * 0 = (L 1).val
    omega
  | ⟨1, _⟩ =>
    show (k0_off8 L) 1 + 1 * n.val = n.val
    rw [k0_off8_eq]
    show 0 + 1 * n.val = n.val
    omega

/-- On the tile's row of the shared scratch the copy of its counters is the closed form. -/
theorem rowAfter_at (old : ShBuf (F := F) d L) (j : S16x10240.Idx) (hj : j ∈ shRowSet L) :
    rowAfter (F := F) d L (histFinal (F := F) d L (m (eiLoc d))) old j = SHv (F := F) m d (cV L) j := by
  obtain ⟨x, -, rfl⟩ := Finset.mem_map.mp hj
  obtain ⟨n, rfl⟩ : ∃ n : Fin 10240, x = ValueIdx.ix1 n := ⟨x 0, ValueIdx.eq_ix1 x⟩
  have hl : rowAfter (F := F) d L (histFinal (F := F) d L (m (eiLoc d))) old ((shRowK L).view.emb (ValueIdx.ix1 n))
      = histFinal (F := F) d L (m (eiLoc d)) (ValueIdx.ix1 n) := by
    have h := View.write_emb_of_mem (v := (shRowK L).view.slice (Rect.whole S10240)) (Val := Elt F) old
      (ReadAs.same.apply (View.read (Elt F) (histV).view (histFinal (F := F) d L (m (eiLoc d))))) (M := Finset.univ)
      (x := ValueIdx.ix1 n) (Finset.mem_univ _)
    have he : ((shRowK L).view.slice (Rect.whole S10240)).emb (ValueIdx.ix1 n) = (shRowK L).view.emb (ValueIdx.ix1 n) :=
      congrArg (shRowK L).view.emb (Rect.emb_whole_apply S10240 _)
    rw [he] at h
    exact h
  rw [hl, shRowK_emb]
  unfold SHv
  rw [dif_pos (show (cV L).val < grid0.bound 0 from (L 0).isLt)]
  refine (histFinal_at (F := F) d L (m (eiLoc d)) _ n _ (fun a => ?_) rfl).symm
  match a with
  | ⟨0, _⟩ => rfl
  | ⟨1, _⟩ => rfl

/-- A tile's sums at an index depend on the tile's number and the index through their values only. -/
theorem accFinal_at (c : Fin 2) (i i' : Fin 16) (k k' : Fin 640) (hi : i'.val = i.val) (hk : k'.val = k.val) :
    accFinal (F := F) d (coordsV c i') (SHv (F := F) m d (cV (coordsV c i'))) (ValueIdx.ix1 k')
      = accFinal (F := F) d (coordsV c i) (SHv (F := F) m d (cV (coordsV c i))) (ValueIdx.ix1 k) := by
  obtain rfl : i' = i := Fin.ext hi
  obtain rfl : k' = k := Fin.ext hk
  rfl

/-- Sum `k` of tile `L` sits in the output at plane `L 0`, row 0, column `640 · L 1 + k`. -/
theorem tOutK_emb (k : Fin 640) :
    (tOutK L).view.emb (ValueIdx.ix1 k)
      = (ValueIdx.ix3 (⟨(L 0).val, (L 0).isLt⟩ : Fin 2) (0 : Fin 8)
          (⟨640 * (L 1).val + k.val, by have h1 : (L 1).val < 16 := (L 1).isLt; have := k.isLt; omega⟩ : Fin 10240) : S2x8x10240.Idx) := by
  show (Rect.unit (s := S2x8x10240) (k0_off12 L) S1x1x640.size (k0_off12_inb L)).emb
    (Shape.reshapeEquiv squeezes_S1x1x640_S640.numel_eq (ValueIdx.ix1 k)) = _
  rw [show Shape.reshapeEquiv squeezes_S1x1x640_S640.numel_eq (ValueIdx.ix1 k)
      = (ValueIdx.ix3 (0 : Fin 1) (0 : Fin 1) k : S1x1x640.Idx) from
    Shape.reshapeEquiv_eq_of_rowMajor _ (by
      rw [Shape.rowMajor_val_three, Shape.rowMajor_val_one]
      show (0 * 1 + 0) * 640 + k.val = k.val
      omega)]
  funext a
  refine Fin.ext ?_
  rw [Rect.emb_apply]
  match a with
  | ⟨0, _⟩ =>
    show (k0_off12 L) 0 + 1 * 0 = (L 0).val
    rw [k0_off12_eq]
    show (L 0).val + 1 * 0 = (L 0).val
    omega
  | ⟨1, _⟩ =>
    show (k0_off12 L) 1 + 1 * 0 = 0
    rw [k0_off12_eq]
    rfl
  | ⟨2, _⟩ =>
    show (k0_off12 L) 2 + 1 * k.val = 640 * (L 1).val + k.val
    rw [k0_off12_eq]
    show 640 * (L 1).val + 1 * k.val = 640 * (L 1).val + k.val
    omega

/-- SparseCore `c`'s count of node `n` is sum `n % 640` of its tile `n / 640`. -/
theorem CHv_eq (c : Fin 2) (n : Fin 10240) (i : Fin 16) (k : Fin 640) (hi : n.val / 640 = i.val) (hk : n.val % 640 = k.val) :
    CHv (F := F) m d c n = accFinal (F := F) d (coordsV c i) (SHv (F := F) m d (cV (coordsV c i))) (ValueIdx.ix1 k) := by
  unfold CHv
  exact accFinal_at (F := F) d m c i ⟨n.val / 640, by have := n.isLt; omega⟩ k ⟨n.val % 640, Nat.mod_lt _ (by decide)⟩ hi hk

/-- On the tile's 640 columns of the output the copy of its sums is its SparseCore's count row. -/
theorem outAfter_at (c : Fin 2) (i : Fin 16) (old : TBuf (F := F) d) (k : Fin 640) :
    outAfter (F := F) d (coordsV c i) (accFinal (F := F) d (coordsV c i) (SHv (F := F) m d (cV (coordsV c i)))) old
        (ValueIdx.ix3 c (0 : Fin 8) ⟨i.val * 640 + k.val, by have := i.isLt; have := k.isLt; omega⟩)
      = CHv (F := F) m d c ⟨i.val * 640 + k.val, by have := i.isLt; have := k.isLt; omega⟩ := by
  have he : (ValueIdx.ix3 c (0 : Fin 8) (⟨i.val * 640 + k.val, by have := i.isLt; have := k.isLt; omega⟩ : Fin 10240) : S2x8x10240.Idx)
      = (tOutK (coordsV c i)).view.emb (ValueIdx.ix1 k) := by
    rw [tOutK_emb]
    funext a
    refine Fin.ext ?_
    match a with
    | ⟨0, _⟩ => rfl
    | ⟨1, _⟩ => rfl
    | ⟨2, _⟩ =>
      show i.val * 640 + k.val = 640 * i.val + k.val
      omega
  rw [he]
  have hl : outAfter (F := F) d (coordsV c i) (accFinal (F := F) d (coordsV c i) (SHv (F := F) m d (cV (coordsV c i)))) old
        ((tOutK (coordsV c i)).view.emb (ValueIdx.ix1 k))
      = accFinal (F := F) d (coordsV c i) (SHv (F := F) m d (cV (coordsV c i))) (ValueIdx.ix1 k) := by
    have h := View.write_emb_of_mem (v := (tOutK (coordsV c i)).view.slice (Rect.whole S640)) (Val := Elt F) old
      (ReadAs.same.apply (View.read (Elt F) (accV).view
        (accFinal (F := F) d (coordsV c i) (SHv (F := F) m d (cV (coordsV c i)))))) (M := Finset.univ)
      (x := ValueIdx.ix1 k) (Finset.mem_univ _)
    have he : ((tOutK (coordsV c i)).view.slice (Rect.whole S640)).emb (ValueIdx.ix1 k)
        = (tOutK (coordsV c i)).view.emb (ValueIdx.ix1 k) :=
      congrArg (tOutK (coordsV c i)).view.emb (Rect.emb_whole_apply S640 _)
    rw [he] at h
    exact h
  rw [hl]
  refine (CHv_eq (F := F) d m c _ i k ?_ ?_).symm
  · show (i.val * 640 + k.val) / 640 = i.val
    have := k.isLt
    omega
  · show (i.val * 640 + k.val) % 640 = k.val
    have := k.isLt
    omega

end Cert.Kernel.Hist

end
-- ==== Proof.HistBLaunchBarrier.lean ====
/-
  The barrier step of a tile's task. A tile arrives at the subcore barrier holding its row of the shared scratch at the
  contents every row ends at; the row is the sixteen 640-column pieces its sixteen duties hand over, one to each tile of
  its SparseCore; leaving, it has collected the sixteen duties of its own round: its 640 columns of every row.
-/
import proofs.«210354_g33337536152245_cont_8to1_b_1126_28_alg».proof.Proof.HistBSetup
import proofs.«210354_g33337536152245_cont_8to1_b_1126_28_alg».proof.Proof.HistBLaunchSets

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))

/-- A piece of the shared scratch depends on the tile only through its number, and on the row only through its number. -/
theorem shBlkSet_congr {L L' : grid0.Coords} {t t' : Fin k0_t7_loop.trips} (h1 : (L 1).val = (L' 1).val) (ht : t.val = t'.val) :
    shBlkSet L t = shBlkSet L' t' := by
  ext j; rw [mem_shBlkSet, mem_shBlkSet, h1, ht]

/-- What a duty named `n` in tile `(c, j)`'s round hands over, for a tile of the grid and a row number. -/
theorem bPay_bcell (d : Dev nD) (c : Fin τ.nSC) (j : Fin τ.nSub) (n : ℕ)
    (h : c.val < grid0.bound 0 ∧ j.val < grid0.bound 1 ∧ n < k0_t7_loop.trips) :
    bPay SH (bcell d c j) n = (shLoc d c ↦[shBlkSet (coordsV ⟨c.val, h.1⟩ ⟨j.val, h.2.1⟩) ⟨n, h.2.2⟩]{fullShare} SH d c : sProp 𝕄) := by
  unfold bPay; dsimp only; rw [dif_pos h]

/-- The row numbers are the tile numbers. -/
def tripsEquiv : Fin k0_t7_loop.trips ≃ Fin τ.nSub := finCongr (by rw [trips7])

theorem tripsEquiv_val (t : Fin k0_t7_loop.trips) : (tripsEquiv t).val = t.val := rfl

section Tile

variable (d : Dev nD) (L : grid0.Coords)

theorem row_lt_trips : (L 1).val < k0_t7_loop.trips := by rw [trips7]; exact (L 1).isLt

/-- The 640 columns of tile `L`'s row that tile `j` will add up. -/
abbrev rowPiece (j : Fin (grid0.bound 1)) : Finset S16x10240.Idx := shBlkSet (coordsV (L 0) j) ⟨(L 1).val, row_lt_trips L⟩

theorem mem_rowPiece {j : Fin (grid0.bound 1)} {x : S16x10240.Idx} :
    x ∈ rowPiece L j ↔ (x 0).val = (L 1).val ∧ 640 * j.val ≤ (x 1).val ∧ (x 1).val < 640 * j.val + 640 := mem_shBlkSet

theorem rowPieces_disjoint : ∀ j ∈ (Finset.univ : Finset (Fin (grid0.bound 1))), ∀ j' ∈ (Finset.univ : Finset (Fin (grid0.bound 1))), j ≠ j' →
    Disjoint (rowPiece L j) (rowPiece L j') := by
  intro j _ j' _ h
  rw [Finset.disjoint_left]
  intro x hx hx'
  rw [mem_rowPiece] at hx hx'
  exact h (Fin.ext (by omega))

theorem rowPieces_cover : ((Finset.univ : Finset (Fin (grid0.bound 1))).biUnion (rowPiece L)) = shRowSet L := by
  ext x
  rw [Finset.mem_biUnion, mem_shRowSet]
  constructor
  · rintro ⟨j, -, hj⟩
    rw [mem_rowPiece] at hj
    exact hj.1
  · intro h0
    have h1 : (x 1).val < 10240 := (x 1).isLt
    refine ⟨⟨(x 1).val / 640, show (x 1).val / 640 < 16 by omega⟩, Finset.mem_univ _, ?_⟩
    rw [mem_rowPiece]
    refine ⟨h0, ?_, ?_⟩
    · show 640 * ((x 1).val / 640) ≤ (x 1).val
      omega
    · show (x 1).val < 640 * ((x 1).val / 640) + 640
      omega

/-- Arriving: the tile's row, at the contents every row ends at, is what its sixteen duties hand over. -/
theorem pays_intro : (shLoc d (cV L) ↦[shRowSet L]{fullShare} SH d (cV L) : sProp 𝕄)
    ⊢ bigSep Finset.univ fun j : Fin (grid0.bound 1) => (bRd SH).payload (bcell d (cV L) (j.castLE hsub0)) 0 (jV L).val := by
  have hpay : ∀ j : Fin (grid0.bound 1), (bRd SH).payload (bcell d (cV L) (j.castLE hsub0)) 0 (jV L).val
      = (shLoc d (cV L) ↦[rowPiece L j]{fullShare} SH d (cV L) : sProp 𝕄) := fun j => by
    show bPay SH (bcell d (cV L) (j.castLE hsub0)) (jV L).val = _
    rw [bPay_bcell SH d (cV L) (j.castLE hsub0) (jV L).val ⟨(L 0).isLt, j.isLt, row_lt_trips L⟩]
    exact congrArg (fun I => (shLoc d (cV L) ↦[I]{fullShare} SH d (cV L) : sProp 𝕄)) (shBlkSet_congr rfl rfl)
  refine Entails.of_eq ?_
  rw [bigSep_congr fun j _ => hpay j, ← pointsTo_biUnion Finset.univ (ℓ := shLoc d (cV L)) (rowPiece L) (rowPieces_disjoint L), rowPieces_cover]

/-- Leaving: what the tile's own round collected is its 640 columns of every row, at the contents every row ends at. -/
theorem pays_elim : (bigSep ((bRd SH).duties (bcell d (cV L) (jV L)) 0 \ ∅) fun n => (bRd SH).payload (bcell d (cV L) (jV L)) 0 n)
    ⊢ (bigSep Finset.univ fun t : Fin k0_t7_loop.trips => shLoc d (cV L) ↦[shBlkSet L t]{fullShare} SH d (cV L) : sProp 𝕄) := by
  refine Entails.of_eq ?_
  rw [Finset.sdiff_empty, bRd_duties₀, SparseCore.bigSep_image_of_injOn (fun a _ b _ e => Fin.val_injective e),
    bigSep_univ_equiv tripsEquiv (fun i : Fin τ.nSub => (bRd SH).payload (bcell d (cV L) (jV L)) 0 i.val)]
  refine bigSep_congr fun t _ => ?_
  show bPay SH (bcell d (cV L) (jV L)) (tripsEquiv t).val = _
  rw [bPay_bcell SH d (cV L) (jV L) (tripsEquiv t).val ⟨(L 0).isLt, (L 1).isLt, t.isLt⟩]
  exact congrArg (fun I => (shLoc d (cV L) ↦[I]{fullShare} SH d (cV L) : sProp 𝕄)) (shBlkSet_congr rfl rfl)

/-- The barrier: from the tile's barrier kit, what it owes with the barrier's arrivals among it, and its row of the shared
    scratch at the contents every row ends at, to what it owes without them and its 640 columns of every row. -/
theorem barrier_step (κ : GSem nD τ sig → ℕ) (O : CellTallies nD τ sig (HIx 1)) (W : Waits sig (HIx 1))
    (hOlev : ∀ g ι, 0 < O g ι → 8 * (0 : Fin 1).val + 6 ≤ (K (F := F)).lev g ι)
    {α : Type} (k : PUnit → Prog (TpuEff nD τ sig (Elt F) Λ₀ (.scVector (cV L) (jV L))) α) (Q : α → sProp 𝕄) :
    iprop(levAts (K (F := F)).L (K (F := F)).lev
        ∗ (bigSep Finset.univ fun j : Fin (grid0.bound 1) => cellInv EB (bRd SH) (κ (bcell d (cV L) (j.castLE hsub0))) (bcell d (cV L) (j.castLE hsub0)))
        ∗ (bigSep Finset.univ fun j : Fin (grid0.bound 1) => dutyTok EB (bcell d (cV L) (j.castLE hsub0)) 0 (jV L).val)
        ∗ (bigSep Finset.univ fun j : Fin (grid0.bound 1) => reached EB (bcell d (cV L) (j.castLE hsub0)) 0)
        ∗ atPos EB (bcell d (cV L) (jV L)) 0 ∅ 0
        ∗ cred (tallyAt (bcell d (cV L) (jV L)) (some 0) (grid0.bound 1))
        ∗ owes (V d (cV L) (jV L)) (O + oxV d (cV L)) W
        ∗ (shLoc d (cV L) ↦[shRowSet L]{fullShare} SH d (cV L)))
      ⊢ iprop((iprop((∃ W', ⌜∀ p ∈ W', p ∈ W ∨ p.2 = none ∨ p.2 = some (0 : Fin 1)⌝ ∗ owes (V d (cV L) (jV L)) O W')
              ∗ bigSep Finset.univ fun t : Fin k0_t7_loop.trips => shLoc d (cV L) ↦[shBlkSet L t]{fullShare} SH d (cV L))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (SparseCore.subcoreBarrier sc_bar0 (grid0.bound 1) hsub0 >>= k) Q) := by
  iintro ⟨#Hlv, #Hinv, Htoks, #Hrch, Hat, Hcred, HO, Hsh⟩ Hk
  ihave Hpays := (pays_intro SH d L) $$ Hsh
  iapply (SparseCore.wp_subcoreBarrier 𝒱₀ none EB (bRd SH) d (sc := cV L) (i := jV L) sc_bar0 (grid0.bound 1) hsub0 (L 1) rfl κ (fun _ => 0) (jV L).val
      (fun j => bRd_mem₀ SH d _ _ _) (fun _ => rfl) (bRd_expect SH d _ _) (some 0) O W) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hblk := (pays_elim SH d L) $$ Hgot
  iapply Hk
  isplitl [HO]
  · iexists _; isplitr
    swap; · iexact HO
    ipureintro; intro p hp
    rcases Finset.mem_insert.mp hp with hp | hp; · exact .inr (.inr (hp ▸ rfl))
    exact .inl hp
  iexact Hblk

end Tile

end Cert.Kernel.Hist

end
-- ==== Proof.HistBTileRegions.lean ====
/-
  One vector subcore's task of the histogram kernel: its scratch and semaphores, the arrays as its memrefs address them,
  and every loop's region once at a symbolic trip.
-/
import proofs.«210354_g33337536152245_cont_8to1_b_1126_28_alg».proof.Proof.HistBFacts
import proofs.«210354_g33337536152245_cont_8to1_b_1126_28_alg».proof.Proof.HistBLaunchVecSplit
import proofs.«210354_g33337536152245_cont_8to1_b_1126_28_alg».proof.Proof.HistBLaunchBarrier

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

abbrev semCell (d : Dev nD) (L : grid0.Coords) (s : DmaSems sig S_) : GSem nD τ sig := (thrV d L, .dma s.sem)

/-- No trip taken, nothing changed. -/
theorem iter_zero {n : Nat} {α : Type} (step : Fin n → α → α) (a : α) : iter step 0 a = a := rfl

/-- The tile's five scoped DMA semaphores at zero, and the rest of its scoped cells. -/
theorem ownSems0_V :
    (ownSems0 (thrV d L) : sProp 𝕄)
      = iprop(semVal (semCell d L cc0_scratch6) 0 ∗ semVal (semCell d L cc0_scoped0) 0 ∗ semVal (semCell d L cc0_scoped1) 0
          ∗ semVal (semCell d L cc0_scoped2) 0 ∗ semVal (semCell d L cc0_scoped3) 0
          ∗ bigSep (((((ownCells (thrV d L)).erase (semCell d L cc0_scratch6)).erase (semCell d L cc0_scoped0)).erase (semCell d L cc0_scoped1)).erase (semCell d L cc0_scoped2) |>.erase (semCell d L cc0_scoped3)) fun g => semVal g 0) := by
  unfold SparseCore.Cfg.ownSems0
  have hs : ∀ s : DmaSems sig S_, (SemLoc.dma s.sem : SemLoc sig).isScoped .scVector = true → semCell d L s ∈ ownCells (thrV d L) :=
    fun s h => (mem_ownCells (g := semCell d L s)).mpr ⟨rfl, h⟩
  rw [SparseCore.bigSep_erase' (hs cc0_scratch6 (by decide)),
    SparseCore.bigSep_erase' (Finset.mem_erase.mpr ⟨by simp [semCell] <;> decide, hs cc0_scoped0 (by decide)⟩),
    SparseCore.bigSep_erase' (Finset.mem_erase.mpr ⟨by simp [semCell] <;> decide, Finset.mem_erase.mpr ⟨by simp [semCell] <;> decide, hs cc0_scoped1 (by decide)⟩⟩),
    SparseCore.bigSep_erase' (Finset.mem_erase.mpr ⟨by simp [semCell] <;> decide, Finset.mem_erase.mpr ⟨by simp [semCell] <;> decide, Finset.mem_erase.mpr ⟨by simp [semCell] <;> decide, hs cc0_scoped2 (by decide)⟩⟩⟩),
    SparseCore.bigSep_erase' (Finset.mem_erase.mpr ⟨by simp [semCell] <;> decide, Finset.mem_erase.mpr ⟨by simp [semCell] <;> decide, Finset.mem_erase.mpr ⟨by simp [semCell] <;> decide, Finset.mem_erase.mpr ⟨by simp [semCell] <;> decide, hs cc0_scoped3 (by decide)⟩⟩⟩⟩)]

abbrev scrRef (L : grid0.Coords) (b : Ref sig .scVector) : DevRef τ sig := (Proc.scVector (cV L) (jV L)).devRef b

/-- The tile's five scratch buffers at some contents, and the rest of its own buffers. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f)
          ∗ bigSep (((((ownRefs (τ := τ) (.scVector (cV L) (jV L))).erase (scrRef L cc0_scratch0)).erase (scrRef L cc0_scratch1)).erase (scrRef L cc0_scratch2)).erase (scrRef L cc0_scratch3) |>.erase (scrRef L cc0_scratch4))
              fun b => iprop(∃ f, ((d, b) : Loc nD τ sig) ↦{fullShare} f)) := by
  unfold SparseCore.Cfg.ownBufs
  have hb : ∀ b : Ref sig .scVector, b.space = .vmem → scrRef L b ∈ ownRefs (τ := τ) (.scVector (cV L) (jV L)) :=
    fun b h => SparseCore.Cfg.mem_ownRefs_of_owner (p := Proc.scVector (cV L) (jV L)) (b := scrRef L b) (by cases b; cases h; rfl)
  rw [SparseCore.bigSep_erase' (hb cc0_scratch0 rfl),
    SparseCore.bigSep_erase' (Finset.mem_erase.mpr ⟨by simp [scrRef] <;> decide, hb cc0_scratch1 rfl⟩),
    SparseCore.bigSep_erase' (Finset.mem_erase.mpr ⟨by simp [scrRef] <;> decide, Finset.mem_erase.mpr ⟨by simp [scrRef] <;> decide, hb cc0_scratch2 rfl⟩⟩),
    SparseCore.bigSep_erase' (Finset.mem_erase.mpr ⟨by simp [scrRef] <;> decide, Finset.mem_erase.mpr ⟨by simp [scrRef] <;> decide, Finset.mem_erase.mpr ⟨by simp [scrRef] <;> decide, hb cc0_scratch3 rfl⟩⟩⟩),
    SparseCore.bigSep_erase' (Finset.mem_erase.mpr ⟨by simp [scrRef] <;> decide, Finset.mem_erase.mpr ⟨by simp [scrRef] <;> decide, Finset.mem_erase.mpr ⟨by simp [scrRef] <;> decide, Finset.mem_erase.mpr ⟨by simp [scrRef] <;> decide, hb cc0_scratch4 rfl⟩⟩⟩⟩)]

/-! ## The arrays as the tile's memrefs address them -/

theorem pts_ei (q : PosShare TreeShare) (f : Buf (Elt F) (eiLoc d)) :
    ((eiV).view.loc (thrV d L) ↦{q} f : sProp 𝕄) = eiLoc d ↦{q} f := by
  simp only [Memref.view_whole, View.set_whole]
theorem pts_tOut (f : Buf (Elt F) (tLoc d)) :
    ((tOutK L).view.loc (thrV d L) ↦[(tOutK L).view.set]{fullShare} f : sProp 𝕄) = tLoc d ↦[tOutSet L]{fullShare} f := rfl
theorem pts_shRow (f : Buf (Elt F) (shLoc d (cV L))) :
    ((shRowK L).view.loc (thrV d L) ↦[(shRowK L).view.set]{fullShare} f : sProp 𝕄) = shLoc d (cV L) ↦[shRowSet L]{fullShare} f := rfl
theorem pts_shBlk (t : Fin k0_t7_loop.trips) (f : Buf (Elt F) (shLoc d (cV L))) :
    ((shBlkK L t).view.loc (thrV d L) ↦[(shBlkK L t).view.set]{fullShare} f : sProp 𝕄) = shLoc d (cV L) ↦[shBlkSet L t]{fullShare} f := rfl
theorem pts_idx (f : Buf (Elt F) ((thrV d L).loc cc0_scratch0)) : ((idxV).view.loc (thrV d L) ↦{fullShare} f : sProp 𝕄) = (thrV d L).loc cc0_scratch0 ↦{fullShare} f := rfl
theorem pts_ext (f : Buf (Elt F) ((thrV d L).loc cc0_scratch1)) : ((extV).view.loc (thrV d L) ↦{fullShare} f : sProp 𝕄) = (thrV d L).loc cc0_scratch1 ↦{fullShare} f := rfl
theorem pts_hist (f : Buf (Elt F) ((thrV d L).loc cc0_scratch2)) : ((histV).view.loc (thrV d L) ↦{fullShare} f : sProp 𝕄) = (thrV d L).loc cc0_scratch2 ↦{fullShare} f := rfl
theorem pts_acc (f : Buf (Elt F) ((thrV d L).loc cc0_scratch3)) : ((accV).view.loc (thrV d L) ↦{fullShare} f : sProp 𝕄) = (thrV d L).loc cc0_scratch3 ↦{fullShare} f := rfl
theorem pts_buf (f : Buf (Elt F) ((thrV d L).loc cc0_scratch4)) : ((bufV).view.loc (thrV d L) ↦{fullShare} f : sProp 𝕄) = (thrV d L).loc cc0_scratch4 ↦{fullShare} f := rfl

/-! ## The loops' regions, each once at a symbolic trip

Every loop's invariant holds the buffer it writes at a trip-indexed step function iterated over the trips so far; the
step functions are the stores the trip makes, as terms of what it finds. What the iterates ARE is pure arithmetic,
stated apart. -/

def inv1 (f₀ : HistBuf (F := F) d L) (k : Nat) (_ : BitVec 32) : sProp 𝕄 :=
  iprop((histV).view.loc (thrV d L) ↦{fullShare} iter (zstep (F := F) d L) k f₀)

set_option maxHeartbeats 4000000 in
theorem region1 (f₀ : HistBuf (F := F) d L) (k : Fin k0_t1_loop.trips) (acc : BitVec 32) :
    inv1 (F := F) d L f₀ k.val acc ⊢ wp frame (wpE (defs₀ (F := F)) 𝒱₀ (thrV d L) none) Set.univ
      (k0_t1_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv1 (F := F) d L f₀ (k.val + 1)) := by
  unfold inv1 k0_t1_body
  iintro H
  sl_exec
  sl_step
  rw [iter_succ]
  iexact H

/-- The counters held whole, as the indexed store's rule reads them. -/
theorem pts_hist_whole (f : HistBuf (F := F) d L) :
    ((((histV).access (.whole S10240)).loc (thrV d L) ↦[((histV).access (.whole S10240)).set]{fullShare} f : sProp 𝕄))
      = ((histV).view.loc (thrV d L) ↦{fullShare} f) := by
  rw [show ((histV).access (.whole S10240)).set = Finset.univ from Memref.set_access_whole (cc0_scratch2 : Ref sig .scVector)]

set_option maxHeartbeats 2000000 in
/-- The indexed add at the head of a program, over the counters held whole: they end at `bump`. -/
theorem wp_bump {α : Type} (f : HistBuf (F := F) d L) (v : IVec S16 32) (hv : k0_chk1 v)
    {hs : ((histV).access (.whole S10240)).Stores Finset.univ}
    {k : PUnit → Prog (TpuEff nD τ sig (Elt F) Λ₀ (thrV d L).2) α} {Q : α → sProp 𝕄} :
    ((histV).view.loc (thrV d L) ↦{fullShare} f)
      ⊢ iprop((((histV).view.loc (thrV d L) ↦{fullShare} bump (F := F) d L v f) -∗ wp frame (wpE (defs₀ (F := F)) 𝒱₀ (thrV d L) none) Set.univ (k ⟨⟩) Q)
        -∗ wp frame (wpE (defs₀ (F := F)) 𝒱₀ (thrV d L) none) Set.univ
            (SparseCore.vectorStoreIdx histV ![v] (k0_pay2 (F := F)) (fun _ => 1#1) true (k0_idx1_inb v hv) hs >>= k) Q) := by
  rw [← pts_hist_whole (F := F) d L f, ← pts_hist_whole (F := F) d L (bump (F := F) d L v f)]
  unfold bump
  rw [dif_pos hv]
  exact SparseCore.wp_vectorStoreIdx (defs := defs₀ (F := F)) 𝒱₀ (thrV d L) none Set.univ

def inv2 (g : IdxBuf (F := F) d L) (f₀ : HistBuf (F := F) d L) (k : Nat) (_ : BitVec 32) : sProp 𝕄 :=
  iprop(((idxV).view.loc (thrV d L) ↦{fullShare} g) ∗ (histV).view.loc (thrV d L) ↦{fullShare} iter (fun k => bump (F := F) d L (lanes0 d L g k)) k f₀)

set_option maxHeartbeats 4000000 in
theorem region2 (g : IdxBuf (F := F) d L) (hg : NodeWords g) (f₀ : HistBuf (F := F) d L) (k : Fin k0_t2_loop.trips) (acc : BitVec 32) :
    inv2 (F := F) d L g f₀ k.val acc ⊢ wp frame (wpE (defs₀ (F := F)) 𝒱₀ (thrV d L) none) Set.univ
      (k0_t2_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv2 (F := F) d L g f₀ (k.val + 1)) := by
  unfold inv2 k0_t2_body
  iintro ⟨Hg, Hf⟩
  sl_exec (disch := exact chk_lanes0 (F := F) d L g hg k)
  iapply (wp_bump (F := F) d L (iter (fun k => bump (F := F) d L (lanes0 d L g k)) k.val f₀) (lanes0 (F := F) d L g k) (chk_lanes0 (F := F) d L g hg k)) $$ Hf
  iintro Hf
  sl_step
  rw [iter_succ]
  isplitl [Hg]; · iexact Hg
  iexact Hf

def inv3 (g : IdxBuf (F := F) d L) (f₀ : HistBuf (F := F) d L) (k : Nat) (_ : BitVec 32) : sProp 𝕄 :=
  iprop(((idxV).view.loc (thrV d L) ↦{fullShare} g) ∗ (histV).view.loc (thrV d L) ↦{fullShare} iter (fun k => bump (F := F) d L (lanes1 d L g k)) k f₀)

set_option maxHeartbeats 4000000 in
theorem region3 (g : IdxBuf (F := F) d L) (hg : NodeWords g) (f₀ : HistBuf (F := F) d L) (k : Fin k0_t3_loop.trips) (acc : BitVec 32) :
    inv3 (F := F) d L g f₀ k.val acc ⊢ wp frame (wpE (defs₀ (F := F)) 𝒱₀ (thrV d L) none) Set.univ
      (k0_t3_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv3 (F := F) d L g f₀ (k.val + 1)) := by
  unfold inv3 k0_t3_body
  iintro ⟨Hg, Hf⟩
  sl_exec (disch := exact chk_lanes1 (F := F) d L g hg k)
  iapply (wp_bump (F := F) d L (iter (fun k => bump (F := F) d L (lanes1 d L g k)) k.val f₀) (lanes1 (F := F) d L g k) (chk_lanes1 (F := F) d L g hg k)) $$ Hf
  iintro Hf
  sl_step
  rw [iter_succ]
  isplitl [Hg]; · iexact Hg
  iexact Hf

/-! The 128 columns the first two tiles read from the tail, under the test that they are one of the two. -/

section Tail
variable (h2 : k0_cond2 L = 1#1)

def inv4 (g : ExtBuf (F := F) d L) (f₀ : HistBuf (F := F) d L) (k : Nat) (_ : BitVec 32) : sProp 𝕄 :=
  iprop(((extV).view.loc (thrV d L) ↦{fullShare} g) ∗ (histV).view.loc (thrV d L) ↦{fullShare} iter (fun k => bump (F := F) d L (lanesE0 d L h2 g k)) k f₀)
def inv5 (g : ExtBuf (F := F) d L) (f₀ : HistBuf (F := F) d L) (k : Nat) (_ : BitVec 32) : sProp 𝕄 :=
  iprop(((extV).view.loc (thrV d L) ↦{fullShare} g) ∗ (histV).view.loc (thrV d L) ↦{fullShare} iter (fun k => bump (F := F) d L (lanesE1 d L h2 g k)) k f₀)

set_option maxHeartbeats 4000000 in
theorem region4 (g : ExtBuf (F := F) d L) (hg : NodeWords g) (f₀ : HistBuf (F := F) d L) (k : Fin k0_t4_loop.trips) (acc : BitVec 32) :
    inv4 (F := F) d L h2 g f₀ k.val acc ⊢ wp frame (wpE (defs₀ (F := F)) 𝒱₀ (thrV d L) none) Set.univ
      (k0_t4_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 h2 k acc) (inv4 (F := F) d L h2 g f₀ (k.val + 1)) := by
  unfold inv4 k0_t4_body
  iintro ⟨Hg, Hf⟩
  sl_exec (disch := exact fun _ => chk_lanesE0 (F := F) d L h2 g hg k)
  iapply (wp_bump (F := F) d L (iter (fun k => bump (F := F) d L (lanesE0 d L h2 g k)) k.val f₀) (lanesE0 (F := F) d L h2 g k) (chk_lanesE0 (F := F) d L h2 g hg k)) $$ Hf
  iintro Hf
  sl_step
  rw [iter_succ]
  isplitl [Hg]; · iexact Hg
  iexact Hf

set_option maxHeartbeats 4000000 in
theorem region5 (g : ExtBuf (F := F) d L) (hg : NodeWords g) (f₀ : HistBuf (F := F) d L) (k : Fin k0_t5_loop.trips) (acc : BitVec 32) :
    inv5 (F := F) d L h2 g f₀ k.val acc ⊢ wp frame (wpE (defs₀ (F := F)) 𝒱₀ (thrV d L) none) Set.univ
      (k0_t5_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 h2 k acc) (inv5 (F := F) d L h2 g f₀ (k.val + 1)) := by
  unfold inv5 k0_t5_body
  iintro ⟨Hg, Hf⟩
  sl_exec (disch := exact fun _ => chk_lanesE1 (F := F) d L h2 g hg k)
  iapply (wp_bump (F := F) d L (iter (fun k => bump (F := F) d L (lanesE1 d L h2 g k)) k.val f₀) (lanesE1 (F := F) d L h2 g k) (chk_lanesE1 (F := F) d L h2 g hg k)) $$ Hf
  iintro Hf
  sl_step
  rw [iter_succ]
  isplitl [Hg]; · iexact Hg
  iexact Hf

end Tail

def inv6 (z : FVec F S16 .f32) (f₀ : AccBuf (F := F) d L) (k : Nat) (_ : BitVec 32) : sProp 𝕄 :=
  iprop((accV).view.loc (thrV d L) ↦{fullShare} iter (zstepA (F := F) d L z) k f₀)

set_option maxHeartbeats 4000000 in
theorem region6 (z : FVec F S16 .f32) (f₀ : AccBuf (F := F) d L) (k : Fin k0_t6_loop.trips) (acc : BitVec 32) :
    inv6 (F := F) d L z f₀ k.val acc ⊢ wp frame (wpE (defs₀ (F := F)) 𝒱₀ (thrV d L) none) Set.univ
      (k0_t6_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 z k acc) (inv6 (F := F) d L z f₀ (k.val + 1)) := by
  unfold inv6 k0_t6_body
  iintro H
  sl_exec
  sl_step
  rw [iter_succ]
  iexact H

def inv8 (b : BufBuf (F := F) d L) (a₀ : AccBuf (F := F) d L) (k : Nat) (_ : BitVec 32) : sProp 𝕄 :=
  iprop(((bufV).view.loc (thrV d L) ↦{fullShare} b) ∗ (accV).view.loc (thrV d L) ↦{fullShare} iter (astep (F := F) d L b) k a₀)

set_option maxHeartbeats 4000000 in
theorem region8 (b : BufBuf (F := F) d L) (a₀ : AccBuf (F := F) d L) (k : Fin k0_t8_loop.trips) (acc : BitVec 32) :
    inv8 (F := F) d L b a₀ k.val acc ⊢ wp frame (wpE (defs₀ (F := F)) 𝒱₀ (thrV d L) none) Set.univ
      (k0_t8_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 k acc) (inv8 (F := F) d L b a₀ (k.val + 1)) := by
  unfold inv8 k0_t8_body
  iintro ⟨Hb, Ha⟩
  sl_exec
  sl_step
  rw [iter_succ]
  isplitl [Hb]; · iexact Hb
  iexact Ha

/-- Before trip `t` of the combine: the strip of the shared scratch, the accumulator at the sums over the rows before `t`. -/
def inv7 (SHc : ShBuf (F := F) d L) (O : CellTallies nD τ sig (HIx 1)) (W : Waits sig (HIx 1)) (a₀ : AccBuf (F := F) d L) (t : Nat) (_ : BitVec 32) : sProp 𝕄 :=
  iprop(Transfers.MayWaits (thrV d L) (default : HIx 1) O
    ∗ (bigSep Finset.univ fun t' : Fin k0_t7_loop.trips => (shBlkK L t').view.loc (thrV d L) ↦[(shBlkK L t').view.set]{fullShare} SHc)
    ∗ (∃ b, (bufV).view.loc (thrV d L) ↦{fullShare} b)
    ∗ ((accV).view.loc (thrV d L) ↦{fullShare} iter (cstep (F := F) d L SHc) t a₀)
    ∗ semVal (semCell d L cc0_scoped2) 0
    ∗ ∃ W', ⌜∀ p ∈ W', p ∈ W ∨ p.2 = none⌝ ∗ owes (thrV d L) O W')

set_option maxHeartbeats 4000000 in
theorem region7 (SHc : ShBuf (F := F) d L) (O : CellTallies nD τ sig (HIx 1)) (W : Waits sig (HIx 1))
    (a₀ : AccBuf (F := F) d L) (t : Fin k0_t7_loop.trips) (acc : BitVec 32) :
    inv7 (F := F) d L SHc O W a₀ t.val acc ⊢ wp frame (wpE (defs₀ (F := F)) 𝒱₀ (thrV d L) none) Set.univ
      (k0_t7_body L eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3 t acc) (inv7 (F := F) d L SHc O W a₀ (t.val + 1)) := by
  unfold inv7 k0_t7_body
  rw [SparseCore.bigSep_erase' (Finset.mem_univ t)]
  iintro ⟨#Hmw, ⟨Hsht, Hshr⟩, ⟨%b, Hb⟩, Ha, Hsem, %W', %hW', HO⟩
  sl_exec
  ihave Hb0 : ((bufV).view.loc (thrV d L) ↦{fullShare} blkAfter (F := F) d L SHc t b) $$ [Hb]
  · iexact Hb
  ihave Hb' := (show ((bufV).view.loc (thrV d L) ↦{fullShare} blkAfter (F := F) d L SHc t b : sProp 𝕄)
      ⊢ ((bufV).view.loc (thrV d L) ↦{fullShare} blkAfter (F := F) d L SHc t (junkB d L)) from
    Entails.of_eq (by rw [← blkAfter_junk (F := F) d L SHc t b])) $$ Hb0
  sl_for (inv8 (F := F) d L (blkAfter (F := F) d L SHc t (junkB d L)) (iter (cstep (F := F) d L SHc) t.val a₀)) $$ [Hb' Ha]
  case region =>
    intro k acc
    exact region8 (F := F) d L _ _ k acc
  · unfold inv8
    rw [iter_zero]
    isplitl [Hb']; · iexact Hb'
    iexact Ha
  iintro %_ HI
  unfold inv8
  icases HI with ⟨Hb, Ha⟩
  sl_step
  isplitr; · iexact Hmw
  isplitl [Hsht Hshr]
  · isplitl [Hsht]; · iexact Hsht
    iexact Hshr
  isplitl [Hb]; · iexists _; iexact Hb
  isplitl [Ha]
  · rw [iter_succ]; iexact Ha
  isplitl [Hsem]; · iexact Hsem
  iexists _; isplitr
  swap; · iexact HO
  ipureintro; intro p hp
  rcases Finset.mem_insert.mp hp with hp | hp
  · exact .inr (hp ▸ rfl)
  · exact hW' p hp

end Cert.Kernel.Hist

end
-- ==== Proof.HistBTilePost.lean ====
/-
  The first part of a tile's task — the blocks of the edge list fetched, the counters zeroed and counted up —: what it leaves.
-/
import proofs.«210354_g33337536152245_cont_8to1_b_1126_28_alg».proof.Proof.HistBTileRegions

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

/-! ## The first part of the task: the blocks of the edge list fetched, the counters zeroed and counted up -/

/-- What it leaves: the edge list's share back, the two index scratches at whatever they hold, the counters at their closed
    form, the two semaphores it used back at zero, and only waits at no index recorded. -/
def part1Post (d : Dev nD) (c : Fin 2) (i : Fin 16) (O : CellTallies nD τ sig (HIx 1)) (W : Waits sig (HIx 1))
    (x : Σ' (_ : BitVec 32), FVec F S16 .f32) : sProp 𝕄 :=
  iprop(⌜x = ⟨BitVec.ofNat 32 ((coordsV c i) 1).val, k0_pay3⟩⌝
    ∗ (eiLoc d ↦{tileShare c i} m (eiLoc d))
    ∗ (∃ g, ((thrV d (coordsV c i)).loc cc0_scratch0 ↦{fullShare} g)) ∗ (∃ g, ((thrV d (coordsV c i)).loc cc0_scratch1 ↦{fullShare} g))
    ∗ ((thrV d (coordsV c i)).loc cc0_scratch2 ↦{fullShare} histFinal (F := F) d (coordsV c i) (m (eiLoc d)))
    ∗ semVal (semCell d (coordsV c i) cc0_scratch6) 0 ∗ semVal (semCell d (coordsV c i) cc0_scoped0) 0
    ∗ ∃ W', ⌜∀ p ∈ W', p ∈ W ∨ p.2 = none⌝ ∗ owes (thrV d (coordsV c i)) (O + oxV d (cV (coordsV c i))) W')

end Cert.Kernel.Hist

end
-- ==== Proof.HistBTileRest.lean ====
/-
  The first part of the task on a tile that is not one of the first two: one block of the edge list, two counting loops.
-/
import proofs.«210354_g33337536152245_cont_8to1_b_1126_28_alg».proof.Proof.HistBTilePost

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

set_option maxHeartbeats 8000000 in
theorem part1_rest (he : NodeWords (m (eiLoc d))) (c : Fin 2) (i : Fin 16) (h1 : ¬ k0_cond1 (coordsV c i) = 1#1)
    (O : CellTallies nD τ sig (HIx 1)) (W : Waits sig (HIx 1))
    (f0 : IdxBuf (F := F) d (coordsV c i)) (f1 : ExtBuf (F := F) d (coordsV c i)) (f2 : HistBuf (F := F) d (coordsV c i)) :
    iprop(Transfers.MayWaits (thrV d (coordsV c i)) (default : HIx 1) (O + oxV d (cV (coordsV c i)))
        ∗ (eiLoc d ↦{tileShare c i} m (eiLoc d))
        ∗ ((thrV d (coordsV c i)).loc cc0_scratch0 ↦{fullShare} f0) ∗ ((thrV d (coordsV c i)).loc cc0_scratch1 ↦{fullShare} f1) ∗ ((thrV d (coordsV c i)).loc cc0_scratch2 ↦{fullShare} f2)
        ∗ semVal (semCell d (coordsV c i) cc0_scratch6) 0 ∗ semVal (semCell d (coordsV c i) cc0_scoped0) 0 ∗ owes (thrV d (coordsV c i)) (O + oxV d (cV (coordsV c i))) W)
      ⊢ wp frame (wpE (defs₀ (F := F)) 𝒱₀ (thrV d (coordsV c i)) none) Set.univ
          (k0_part1 (coordsV c i) eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3) (part1Post (F := F) m d c i O W) := by
  have h2 : ¬ k0_cond2 (coordsV c i) = 1#1 := fun h => h1 ((cond12 (coordsV c i)).trans h)
  simp only [k0_part1_eq_skeleton]; unfold k0_part1_skel
  iintro ⟨#Hmw1, Hei, H0, H1, H2, Hs6, Hs0, HO⟩
  ihave Hei' := (Entails.of_eq (pts_ei (F := F) d (coordsV c i) _ _).symm) $$ Hei
  ihave H0' := (Entails.of_eq (pts_idx (F := F) d (coordsV c i) _).symm) $$ H0
  ihave H1' := (Entails.of_eq (pts_ext (F := F) d (coordsV c i) _).symm) $$ H1
  ihave H2' := (Entails.of_eq (pts_hist (F := F) d (coordsV c i) _).symm) $$ H2
  sl_exec
  sl_for (inv1 (F := F) d (coordsV c i) f2) $$ [H2']
  case region =>
    intro k acc
    exact region1 (F := F) d (coordsV c i) f2 k acc
  · unfold inv1; rw [iter_zero]; iexact H2'
  iintro %_ HI
  unfold inv1
  ihave H2' := (Entails.of_eq (congrArg (fun x => ((histV).view.loc (thrV d (coordsV c i)) ↦{fullShare} x : sProp 𝕄)) (zfill_junk (F := F) d (coordsV c i) f2))) $$ HI
  sl_exec
  ihave H0a : ((idxV).view.loc (thrV d (coordsV c i)) ↦{fullShare} idxAfter (F := F) d (coordsV c i) (m (eiLoc d)) f0 : sProp 𝕄) $$ [H0']
  · iexact H0'
  ihave H0b := (Entails.of_eq (congrArg (fun x => ((idxV).view.loc (thrV d (coordsV c i)) ↦{fullShare} x : sProp 𝕄)) (idxAfter_junk (F := F) d (coordsV c i) (m (eiLoc d)) f0))) $$ H0a
  have hg : NodeWords (idxAfter (F := F) d (coordsV c i) (m (eiLoc d)) (junkI d (coordsV c i))) := nodeWords_idxAfter (F := F) d (coordsV c i) (m (eiLoc d)) he _
  sl_for (inv2 (F := F) d (coordsV c i) (idxAfter (F := F) d (coordsV c i) (m (eiLoc d)) (junkI d (coordsV c i))) (iter (zstep (F := F) d (coordsV c i)) k0_t1_loop.trips (junkH d (coordsV c i)))) $$ [H0b H2']
  case region =>
    intro k acc
    exact region2 (F := F) d (coordsV c i) _ hg _ k acc
  · unfold inv2
    rw [iter_zero]
    isplitl [H0b]; · iexact H0b
    iexact H2'
  iintro %_ HI
  unfold inv2
  icases HI with ⟨H0b, H2'⟩
  sl_for (inv3 (F := F) d (coordsV c i) (idxAfter (F := F) d (coordsV c i) (m (eiLoc d)) (junkI d (coordsV c i))) (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i))))) $$ [H0b H2']
  case region =>
    intro k acc
    exact region3 (F := F) d (coordsV c i) _ hg _ k acc
  · unfold inv3
    rw [iter_zero]
    isplitl [H0b]; · iexact H0b
    iexact H2'
  iintro %_ HI
  unfold inv3
  icases HI with ⟨H0b, H2'⟩
  sl_exec
  sl_step
  unfold part1Post
  isplitr; · ipureintro; rfl
  isplitl [Hei']; · iapply (Entails.of_eq (pts_ei (F := F) d (coordsV c i) _ _)); iexact Hei'
  isplitl [H0b]; · iexists _; iexact H0b
  isplitl [H1']; · iexists _; iexact H1'
  isplitl [H2']
  · rw [show histFinal (F := F) d (coordsV c i) (m (eiLoc d)) = _ from (by unfold histFinal; exact dif_neg (fun h => h1 h.1))]
    iexact H2'
  isplitl [Hs6]; · iexact Hs6
  isplitl [Hs0]; · iexact Hs0
  iexists _; isplitr
  swap; · iexact HO
  ipureintro; intro p hp
  rcases Finset.mem_insert.mp hp with hp | hp; · exact .inr (hp ▸ rfl)
  exact .inl hp

end Cert.Kernel.Hist

end
-- ==== Proof.HistBTileFirst.lean ====
/-
  The first part of the task on one of the first two tiles: the block of the edge list and 128 more columns from its tail,
  fetched at once from two halves of the tile's read share, and four counting loops.
-/
import proofs.«210354_g33337536152245_cont_8to1_b_1126_28_alg».proof.Proof.HistBTilePost

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

set_option maxHeartbeats 8000000 in
theorem part1_first (he : NodeWords (m (eiLoc d))) (c : Fin 2) (i : Fin 16) (h1 : k0_cond1 (coordsV c i) = 1#1)
    (O : CellTallies nD τ sig (HIx 1)) (W : Waits sig (HIx 1))
    (f0 : IdxBuf (F := F) d (coordsV c i)) (f1 : ExtBuf (F := F) d (coordsV c i)) (f2 : HistBuf (F := F) d (coordsV c i)) :
    iprop(Transfers.MayWaits (thrV d (coordsV c i)) (default : HIx 1) (O + oxV d (cV (coordsV c i)))
        ∗ (eiLoc d ↦{tileShare c i} m (eiLoc d))
        ∗ ((thrV d (coordsV c i)).loc cc0_scratch0 ↦{fullShare} f0) ∗ ((thrV d (coordsV c i)).loc cc0_scratch1 ↦{fullShare} f1) ∗ ((thrV d (coordsV c i)).loc cc0_scratch2 ↦{fullShare} f2)
        ∗ semVal (semCell d (coordsV c i) cc0_scratch6) 0 ∗ semVal (semCell d (coordsV c i) cc0_scoped0) 0 ∗ owes (thrV d (coordsV c i)) (O + oxV d (cV (coordsV c i))) W)
      ⊢ wp frame (wpE (defs₀ (F := F)) 𝒱₀ (thrV d (coordsV c i)) none) Set.univ
          (k0_part1 (coordsV c i) eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3) (part1Post (F := F) m d c i O W) := by
  have h2 : k0_cond2 (coordsV c i) = 1#1 := (cond12 (coordsV c i)).symm.trans h1
  simp only [k0_part1_eq_skeleton]; unfold k0_part1_skel
  iintro ⟨#Hmw1, Hei, H0, H1, H2, Hs6, Hs0, HO⟩
  ihave Hei' := (Entails.of_eq (pts_ei (F := F) d (coordsV c i) _ _).symm) $$ Hei
  ihave H0' := (Entails.of_eq (pts_idx (F := F) d (coordsV c i) _).symm) $$ H0
  ihave H1' := (Entails.of_eq (pts_ext (F := F) d (coordsV c i) _).symm) $$ H1
  ihave H2' := (Entails.of_eq (pts_hist (F := F) d (coordsV c i) _).symm) $$ H2
  ihave HeiS := (SparseCore.ent (pointsTo_share (PosShare.mem_left_op_right _)).1) $$ Hei'
  icases HeiS with ⟨HeiA, HeiB⟩
  sl_exec
  sl_for (inv1 (F := F) d (coordsV c i) f2) $$ [H2']
  case region =>
    intro k acc
    exact region1 (F := F) d (coordsV c i) f2 k acc
  · unfold inv1; rw [iter_zero]; iexact H2'
  iintro %_ HI
  unfold inv1
  ihave H2' := (Entails.of_eq (congrArg (fun x => ((histV).view.loc (thrV d (coordsV c i)) ↦{fullShare} x : sProp 𝕄)) (zfill_junk (F := F) d (coordsV c i) f2))) $$ HI
  sl_exec
  ihave H0a : ((idxV).view.loc (thrV d (coordsV c i)) ↦{fullShare} idxAfter (F := F) d (coordsV c i) (m (eiLoc d)) f0 : sProp 𝕄) $$ [H0']
  · iexact H0'
  ihave H0b := (Entails.of_eq (congrArg (fun x => ((idxV).view.loc (thrV d (coordsV c i)) ↦{fullShare} x : sProp 𝕄)) (idxAfter_junk (F := F) d (coordsV c i) (m (eiLoc d)) f0))) $$ H0a
  have hg : NodeWords (idxAfter (F := F) d (coordsV c i) (m (eiLoc d)) (junkI d (coordsV c i))) := nodeWords_idxAfter (F := F) d (coordsV c i) (m (eiLoc d)) he _
  sl_for (inv2 (F := F) d (coordsV c i) (idxAfter (F := F) d (coordsV c i) (m (eiLoc d)) (junkI d (coordsV c i))) (iter (zstep (F := F) d (coordsV c i)) k0_t1_loop.trips (junkH d (coordsV c i)))) $$ [H0b H2']
  case region =>
    intro k acc
    exact region2 (F := F) d (coordsV c i) _ hg _ k acc
  · unfold inv2
    rw [iter_zero]
    isplitl [H0b]; · iexact H0b
    iexact H2'
  iintro %_ HI
  unfold inv2
  icases HI with ⟨H0b, H2'⟩
  sl_for (inv3 (F := F) d (coordsV c i) (idxAfter (F := F) d (coordsV c i) (m (eiLoc d)) (junkI d (coordsV c i))) (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i))))) $$ [H0b H2']
  case region =>
    intro k acc
    exact region3 (F := F) d (coordsV c i) _ hg _ k acc
  · unfold inv3
    rw [iter_zero]
    isplitl [H0b]; · iexact H0b
    iexact H2'
  iintro %_ HI
  unfold inv3
  icases HI with ⟨H0b, H2'⟩
  ihave H1a : ((extV).view.loc (thrV d (coordsV c i)) ↦{fullShare} extAfter (F := F) d (coordsV c i) h1 (m (eiLoc d)) f1 : sProp 𝕄) $$ [H1']
  · iexact H1'
  ihave H1b := (Entails.of_eq (congrArg (fun x => ((extV).view.loc (thrV d (coordsV c i)) ↦{fullShare} x : sProp 𝕄)) (extAfter_junk (F := F) d (coordsV c i) h1 (m (eiLoc d)) f1))) $$ H1a
  have hgE : NodeWords (extAfter (F := F) d (coordsV c i) h1 (m (eiLoc d)) (junkE d (coordsV c i))) := nodeWords_extAfter (F := F) d (coordsV c i) h1 (m (eiLoc d)) he _
  sl_exec
  sl_for (inv4 (F := F) d (coordsV c i) h2 (extAfter (F := F) d (coordsV c i) h1 (m (eiLoc d)) (junkE d (coordsV c i))) (iter (fun k => bump (F := F) d (coordsV c i) (lanes1 d (coordsV c i) (idxAfter (F := F) d (coordsV c i) (m (eiLoc d)) (junkI d (coordsV c i))) k)) k0_t3_loop.trips (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i)))))) $$ [H1b H2']
  case region =>
    intro k acc
    exact region4 (F := F) d (coordsV c i) h2 _ hgE _ k acc
  · unfold inv4
    rw [iter_zero]
    isplitl [H1b]; · iexact H1b
    iexact H2'
  iintro %_ HI
  unfold inv4
  icases HI with ⟨H1b, H2'⟩
  sl_for (inv5 (F := F) d (coordsV c i) h2 (extAfter (F := F) d (coordsV c i) h1 (m (eiLoc d)) (junkE d (coordsV c i))) (iter (fun k => bump (F := F) d (coordsV c i) (lanesE0 d (coordsV c i) h2 (extAfter (F := F) d (coordsV c i) h1 (m (eiLoc d)) (junkE d (coordsV c i))) k)) k0_t4_loop.trips (iter (fun k => bump (F := F) d (coordsV c i) (lanes1 d (coordsV c i) (idxAfter (F := F) d (coordsV c i) (m (eiLoc d)) (junkI d (coordsV c i))) k)) k0_t3_loop.trips (iter (fun k => bump (F := F) d (coordsV c i) (lanes0 d (coordsV c i) (idxAfter (F := F) d (coordsV c i) (m (eiLoc d)) (junkI d (coordsV c i))) k)) k0_t2_loop.trips (iter (zstep (F := F) d (coordsV c i)) k0_t1_loop.trips (junkH d (coordsV c i))))))) $$ [H1b H2']
  case region =>
    intro k acc
    exact region5 (F := F) d (coordsV c i) h2 _ hgE _ k acc
  · unfold inv5
    rw [iter_zero]
    isplitl [H1b]; · iexact H1b
    iexact H2'
  iintro %_ HI
  unfold inv5
  icases HI with ⟨H1b, H2'⟩
  sl_exec
  sl_step
  unfold part1Post
  isplitr; · ipureintro; rfl
  isplitl [HeiA HeiB]
  · iapply (Entails.of_eq (pts_ei (F := F) d (coordsV c i) _ _))
    iapply (SparseCore.ent (pointsTo_share (PosShare.mem_left_op_right _)).2)
    isplitl [HeiA]; · iexact HeiA
    iexact HeiB
  isplitl [H0b]; · iexists _; iexact H0b
  isplitl [H1b]; · iexists _; iexact H1b
  isplitl [H2']
  · rw [show histFinal (F := F) d (coordsV c i) (m (eiLoc d)) = _ from (by unfold histFinal; exact dif_pos ⟨h1, h2⟩)]
    iexact H2'
  isplitl [Hs6]; · iexact Hs6
  isplitl [Hs0]; · iexact Hs0
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Kernel.Hist

end
-- ==== Proof.HistBTile.lean ====
/-
  One vector subcore's task of the histogram kernel, at a symbolic place: the first part by cases on the tile, then the
  counters copied into the tile's row of the shared scratch, the subcore barrier handing the rows' pieces round, the strip
  sums, and the copy out.
-/
import proofs.«210354_g33337536152245_cont_8to1_b_1126_28_alg».proof.Proof.HistBTileRest
import proofs.«210354_g33337536152245_cont_8to1_b_1126_28_alg».proof.Proof.HistBTileFirst

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (SH : (d : Dev nD) → (c : Fin τ.nSC) → Buf (Elt F) (shLoc d c))
variable (m : (ℓ : Loc nD τ sig) → Buf (Elt F) ℓ) (CH : Dev nD → Fin 2 → Fin 10240 → Elt F .f32)
variable (d : Dev nD) (L : grid0.Coords)

theorem part1_spec (he : NodeWords (m (eiLoc d))) (c : Fin 2) (i : Fin 16)
    (O : CellTallies nD τ sig (HIx 1)) (W : Waits sig (HIx 1))
    (f0 : IdxBuf (F := F) d (coordsV c i)) (f1 : ExtBuf (F := F) d (coordsV c i)) (f2 : HistBuf (F := F) d (coordsV c i)) :
    iprop(Transfers.MayWaits (thrV d (coordsV c i)) (default : HIx 1) (O + oxV d (cV (coordsV c i)))
        ∗ (eiLoc d ↦{tileShare c i} m (eiLoc d))
        ∗ ((thrV d (coordsV c i)).loc cc0_scratch0 ↦{fullShare} f0) ∗ ((thrV d (coordsV c i)).loc cc0_scratch1 ↦{fullShare} f1) ∗ ((thrV d (coordsV c i)).loc cc0_scratch2 ↦{fullShare} f2)
        ∗ semVal (semCell d (coordsV c i) cc0_scratch6) 0 ∗ semVal (semCell d (coordsV c i) cc0_scoped0) 0 ∗ owes (thrV d (coordsV c i)) (O + oxV d (cV (coordsV c i))) W)
      ⊢ wp frame (wpE (defs₀ (F := F)) 𝒱₀ (thrV d (coordsV c i)) none) Set.univ
          (k0_part1 (coordsV c i) eiV (Memref.isWhole_whole _) tV (Memref.isWhole_whole _) idxV (Memref.isWhole_whole _) extV (Memref.isWhole_whole _)
        histV (Memref.isWhole_whole _) accV (Memref.isWhole_whole _) bufV (Memref.isWhole_whole _) shV (Memref.isWhole_whole _)
        cc0_scratch6 cc0_scoped0 cc0_scoped1 cc0_scoped2 cc0_scoped3) (part1Post (F := F) m d c i O W) := by
  by_cases h1 : k0_cond1 (coordsV c i) = 1#1
  · exact part1_first (F := F) m d he c i h1 O W f0 f1 f2
  · exact part1_rest (F := F) m d he c i h1 O W f0 f1 f2

/-! ## The task -/

set_option maxHeartbeats 8000000 in
theorem tile_body (hN : ∀ d, NodeWords (m (eiLoc d))) (d : Dev nD) (c : Fin 2) (i : Fin 16) (hF : (K (F := F)).Facts)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit (SHv (F := F) m) d (cV (coordsV c i)) (jV (coordsV c i)) ∗ goA m d (cV (coordsV c i)) c i
        ∗ scopedBufs (V d (cV (coordsV c i)) (jV (coordsV c i))) ∗ scopedSems0 (V d (cV (coordsV c i)) (jV (coordsV c i))) ∗ owes (V d (cV (coordsV c i)) (jV (coordsV c i))) (O + oxV d (cV (coordsV c i))) W)
      ⊢ wp frame (wpE (defs₀ (F := F)) 𝒱₀ (V d (cV (coordsV c i)) (jV (coordsV c i))) none) Set.univ
          (cc0__sc_histogram (coordsV c i) eiV (Memref.isWhole_whole _) tV (Memref.isWhole_whole _) idxV (Memref.isWhole_whole _) extV (Memref.isWhole_whole _)
            histV (Memref.isWhole_whole _) accV (Memref.isWhole_whole _) bufV (Memref.isWhole_whole _) shV (Memref.isWhole_whole _)
            cc0_scratch6 cc0_scoped0 cc0_scoped1 cc0_scoped2 cc0_scoped3)
          fun _ => iprop(tdA m (CHv (F := F) m) d (cV (coordsV c i)) c i ∗ scopedBufs (V d (cV (coordsV c i)) (jV (coordsV c i))) ∗ scopedSems0 (V d (cV (coordsV c i)) (jV (coordsV c i)))
            ∗ ∃ W', ⌜∀ p ∈ W', p ∈ W ∨ p.2 = none ∨ p.2 = some (0 : Fin 1)⌝ ∗ owes (V d (cV (coordsV c i)) (jV (coordsV c i))) O W') := by
  have he := hN d
  simp only [cc0__sc_histogram_eq_skeleton]; unfold cc0__sc_histogram_skel
  rw [(K (F := F)).scopedBufs_V hF d (cV (coordsV c i)) (jV (coordsV c i)), SparseCore.Cfg.scopedSems0_V (Val := Elt F) d (cV (coordsV c i)) (jV (coordsV c i)), ownSems0_V, ownBufs_V]
  unfold bkit
  iintro ⟨#Hlv, ⟨⟨%κ, #Hinv⟩, Htoks, #Hreached, Hat, Hcred⟩, ⟨Hei, Ht, ⟨%fsh, Hsh⟩⟩, ⟨⟨%f0, H0⟩, ⟨%f1, H1⟩, ⟨%f2, H2⟩, ⟨%f3, H3⟩, ⟨%f4, H4⟩, Hbufs⟩, ⟨Hs6, Hs0, Hs1, Hs2, Hs3, Hsems⟩, HO⟩
  have hO' : ∀ g, (O + oxV d (cV (coordsV c i))) g none = 0 := fun g => by rw [Pi.add_apply, Finsupp.add_apply, hO g, oxV_none]
  ihave Hmw1 := (show levAts (K (F := F)).L (K (F := F)).lev ⊢ Transfers.MayWaits (thrV d (coordsV c i)) (default : HIx 1) (O + oxV d (cV (coordsV c i))) from
    (K (F := F)).mayWaits_none (thr := (thrV d (coordsV c i))) hO') $$ Hlv
  ihave Hmw2 := (show levAts (K (F := F)).L (K (F := F)).lev ⊢ Transfers.MayWaits (thrV d (coordsV c i)) (default : HIx 1) O from
    (K (F := F)).mayWaits_none (thr := (thrV d (coordsV c i))) hO) $$ Hlv
  rw [wp_bind]
  iapply (wp_wand _ _ _ (Q := part1Post (F := F) m d c i O W)) $$ [Hei H0 H1 H2 Hs6 Hs0 HO]
  · iapply (part1_spec (F := F) m d he c i O W f0 f1 f2)
    isplitr; · iexact Hmw1
    isplitl [Hei]; · iexact Hei
    isplitl [H0]; · iexact H0
    isplitl [H1]; · iexact H1
    isplitl [H2]; · iexact H2
    isplitl [Hs6]; · iexact Hs6
    isplitl [Hs0]; · iexact Hs0
    iexact HO
  iintro %x HP
  unfold part1Post
  icases HP with ⟨%hx, Hei, ⟨%g0, H0⟩, ⟨%g1, H1⟩, H2, Hs6, Hs0, %W0, %hW0, HO⟩
  subst hx
  ihave Hei' := (Entails.of_eq (pts_ei (F := F) d (coordsV c i) _ _).symm) $$ Hei
  ihave Ht' := (Entails.of_eq (pts_tOut (F := F) d (coordsV c i) _).symm) $$ Ht
  ihave Hsh' := (Entails.of_eq (pts_shRow (F := F) d (coordsV c i) _).symm) $$ Hsh
  ihave H0' := (Entails.of_eq (pts_idx (F := F) d (coordsV c i) _).symm) $$ H0
  ihave H1' := (Entails.of_eq (pts_ext (F := F) d (coordsV c i) _).symm) $$ H1
  ihave H2' := (Entails.of_eq (pts_hist (F := F) d (coordsV c i) _).symm) $$ H2
  ihave H3' := (Entails.of_eq (pts_acc (F := F) d (coordsV c i) _).symm) $$ H3
  ihave H4' := (Entails.of_eq (pts_buf (F := F) d (coordsV c i) _).symm) $$ H4
  sl_exec
  ihave Hsh0 : (((shRowK (coordsV c i)).view.loc (thrV d (coordsV c i)) ↦[(shRowK (coordsV c i)).view.set]{fullShare} rowAfter (F := F) d (coordsV c i) (histFinal (F := F) d (coordsV c i) (m (eiLoc d))) fsh : sProp 𝕄)) $$ [Hsh']
  · iexact Hsh'
  ihave Hrow := (show (((shRowK (coordsV c i)).view.loc (thrV d (coordsV c i)) ↦[(shRowK (coordsV c i)).view.set]{fullShare} rowAfter (F := F) d (coordsV c i) (histFinal (F := F) d (coordsV c i) (m (eiLoc d))) fsh : sProp 𝕄))
      ⊢ (shLoc d (cV (coordsV c i)) ↦[shRowSet (coordsV c i)]{fullShare} (SHv (F := F) m d (cV (coordsV c i)))) from
    Entails.of_eq (pointsTo_congr (fun j hj => rowAfter_at (F := F) d (coordsV c i) m fsh j hj))) $$ Hsh0
  iapply (barrier_step (F := F) (SHv (F := F) m) d (coordsV c i) κ O _ hOlev _ _) $$ [Htoks Hat Hcred HO Hrow]
  · isplitr; · iexact Hlv
    isplitr; · iexact Hinv
    isplitl [Htoks]; · iexact Htoks
    isplitr; · iexact Hreached
    isplitl [Hat]; · iexact Hat
    isplitl [Hcred]; · iexact Hcred
    isplitl [HO]; · iexact HO
    iexact Hrow
  iintro ⟨⟨%W1, %hW1, HO⟩, Hblks⟩
  sl_for (inv6 (F := F) d (coordsV c i) (k0_pay3 (F := F)) f3) $$ [H3']
  case region =>
    intro k acc
    exact region6 (F := F) d (coordsV c i) _ f3 k acc
  · unfold inv6; rw [iter_zero]; iexact H3'
  iintro %_ HI
  unfold inv6
  ihave H3' := (Entails.of_eq (congrArg (fun x => ((accV).view.loc (thrV d (coordsV c i)) ↦{fullShare} x : sProp 𝕄)) (zfillA_junk (F := F) d (coordsV c i) (k0_pay3 (F := F)) f3))) $$ HI
  sl_for (inv7 (F := F) d (coordsV c i) (SHv (F := F) m d (cV (coordsV c i))) O W1 (iter (zstepA (F := F) d (coordsV c i) (k0_pay3 (F := F))) k0_t6_loop.trips (junkA d (coordsV c i)))) $$ [Hblks H4' H3' Hs2 HO]
  case region =>
    intro t acc
    exact region7 (F := F) d (coordsV c i) _ O W1 _ t acc
  · unfold inv7
    rw [iter_zero]
    isplitr; · iexact Hmw2
    isplitl [Hblks]; · iexact Hblks
    isplitl [H4']; · iexists _; iexact H4'
    isplitl [H3']; · iexact H3'
    isplitl [Hs2]; · iexact Hs2
    iexists W1; isplitr
    · ipureintro; exact fun p hp => .inl hp
    · iexact HO
  iintro %_ HI
  unfold inv7
  icases HI with ⟨-, Hblks, ⟨%b4, H4'⟩, H3', Hs2, %W2, %hW2, HO⟩
  sl_exec
  sl_step
  isplitl [Hei' Ht' Hblks]
  · isplitl [Hei']; · iapply (Entails.of_eq (pts_ei (F := F) d (coordsV c i) _ _)); iexact Hei'
    isplitl [Ht']
    · iexists (outAfter (F := F) d (coordsV c i) (accFinal (F := F) d (coordsV c i) (SHv (F := F) m d (cV (coordsV c i)))) (m (tLoc d)))
      isplitr
      · ipureintro; intro k; exact outAfter_at (F := F) d m c i (m (tLoc d)) k
      · iexact Ht'
    · iapply (SparseCore.ent (bigSep_mono fun t _ => exists_intro (Φ := fun f => (shLoc d (cV (coordsV c i)) ↦[shBlkSet (coordsV c i) t]{fullShare} f : sProp 𝕄)) (SHv (F := F) m d (cV (coordsV c i)))))
      iexact Hblks
  isplitl [H0' H1' H2' H3' H4' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    iexact Hbufs
  isplitl [Hs6 Hs0 Hs1 Hs2 Hs3 Hsems]
  · isplitl [Hs6]; · iexact Hs6
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp
  · exact .inr (.inl (hp ▸ rfl))
  rcases hW2 p hp with hp | hp
  swap; · exact .inr (.inl hp)
  rcases hW1 p hp with hp | hp | hp
  · rcases Finset.mem_insert.mp hp with hp | hp; · exact .inr (.inl (hp ▸ rfl))
    rcases hW0 p hp with hp | hp
    · exact .inl hp
    · exact .inr (.inl hp)
  · exact .inr (.inl hp)
  · exact .inr (.inr hp)

end Cert.Kernel.Hist

end
-- ==== Proof.HistPreB.lean ====
/-
  What the precondition gives the bit-exact program: every word of every device's edge list is at most 9999.
-/
import proofs.«210354_g33337536152245_cont_8to1_b_1126_28_alg».proof.Proof.HistPre

noncomputable section

namespace Cert.Kernel.Hist

open Idealize.ShloMosaic
open Cert.Kernel

variable [Cert.Pre_input_domain.Facts]

/-- Under the precondition every device's edge list names nodes. -/
theorem nodeWords_of_Pre (m : (ℓ : Loc nD τ sig) → Buf (Elt Bits) ℓ) (h : Cert.Pre_Kernel m) (d : Dev nD) :
    Cert.KernelIdeal.Hist.NodeWords (m ((SparseCore.T d).loc main_arg1)) :=
  Cert.KernelIdeal.Hist.nodeWords_of_pre _ _ _ _ _ _ _ _ _ _ (h d)

/-- The same, word by word. -/
theorem words_le_of_Pre (m : (ℓ : Loc nD τ sig) → Buf (Elt Bits) ℓ) (h : Cert.Pre_Kernel m) (d : Dev nD) (i) :
    (m ((SparseCore.T d).loc main_arg1) i).toNat ≤ 9999 :=
  nodeWords_of_Pre m h d i

end Cert.Kernel.Hist

end
-- ==== Proof.HistBClaims.lean ====
/-
  The word-level program's frame: its run — the launch theorem at the tile's obligation and @main's proof, at the
  bit-exact instance — ends on every device with the ten arguments unchanged; the frame is that run with the result's
  value dropped.
-/
import proofs.«210354_g33337536152245_cont_8to1_b_1126_28_alg».proof.Defs
import proofs.«210354_g33337536152245_cont_8to1_b_1126_28_alg».proof.Proof.HistBMain
import proofs.«210354_g33337536152245_cont_8to1_b_1126_28_alg».proof.Proof.HistBLaunchRun
import proofs.«210354_g33337536152245_cont_8to1_b_1126_28_alg».proof.Proof.HistBLaunchObl
import proofs.«210354_g33337536152245_cont_8to1_b_1126_28_alg».proof.Proof.HistBFacts
import proofs.«210354_g33337536152245_cont_8to1_b_1126_28_alg».proof.Proof.HistBLaunchBarrier
import proofs.«210354_g33337536152245_cont_8to1_b_1126_28_alg».proof.Proof.HistBTile
import proofs.«210354_g33337536152245_cont_8to1_b_1126_28_alg».proof.Proof.HistPreB
import proofs.«210354_g33337536152245_cont_8to1_b_1126_28_alg».proof.Proof.Gen.Pre_input_domain

noncomputable section

namespace Cert.Kernel.Hist

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- THE WORD-LEVEL PROGRAM'S FRAME: every weakly fair execution from a memory the precondition admits ends, on every
    device, with the ten arguments unchanged. -/
theorem frame_p : Cert.frame_Kernel := fun m ρ hpre =>
  (θ_run Cert.Kernel.defs _ _).mono (fun _ h c => (h c).2)
    (run_main (F := Bits) (SHv (F := Bits) m) m (CHv (F := Bits) m) ρ (OUT m (CHv (F := Bits) m))
      (tileObl_of_body (SHv (F := Bits) m) m (CHv (F := Bits) m)
        (tile_body (F := Bits) m (fun d => nodeWords_of_Pre m hpre d)))
      (G (F := Bits)) uR hG (hmain (SHv (F := Bits) m) m (CHv (F := Bits) m) ρ))

end Cert.Kernel.Hist

end
-- ==== Proof.lean ====
/-
  Two graph-convolution layers over four copies of one graph, pooled per copy and read out, computed two ways.

  A batch of four feature rows is laid over four copies of a graph on 10000 nodes.  The copies' edge lists, each
  shifted by 10000 times its copy number, are laid out flat and re-read as two rows of 640000; this re-laying sends every
  edge's source to copy 0 or 1 and every edge's target to copy 2 or 3.  A sum aggregation over such edges therefore gives a
  node of copies 0 and 1 nothing, and gives node n of copy 2 (of copy 3) the row of copy 0 (of copy 1) taken t(n) times,
  where t(n) is the number of occurrences of n among the 2 x 160000 entries of the edge list.  Both layers
  max(agg W_rel + b + h W_root, 0) thus see, at every node, the degree count t(n) times one row: on copies 0 and 1 the
  output is one node-independent row, on copies 2 and 3 it is a function of t(n) alone.  The mean over a copy's nodes is
  that row for copies 0 and 1, and for copies 2 and 3 the sum over the nodes times 1/10000; the read-out is the pooled
  features through the last weights plus the last bias.  This closed form is stated once, on the extended reals, and
  both programs are shown to end with it, entry by entry.

  The reference builds the 40000 repeated rows and the 640000 re-read edges, takes rows by source number and adds
  them into rows by target number, layer after layer.  Read at one entry, the two gathers take rows of copies 0 and 1,
  the two segment sums add up, for node n of copy 2 + c, one and the same row of copy c once per occurrence of n, and
  every node of copies 0 and 1 stays at zero; for real entries a sum of t(n) copies of a row is t(n) times the row, the
  real factor t(n) moves out of the contractions, and the mean of a constant row is the row.

  The kernel computes t on the two SparseCores and the dense head on the TensorCore.  Each of the 32 vector subcores
  (tiles) zeroes 10240 counters and raises, for every entry of its columns of the edge list (4992 columns of both rows,
  and for the first two tiles 128 more from the tail), the counter the entry names; the sixteen tiles of a SparseCore lay
  their counter rows in the SparseCore's shared scratch, meet at a subcore barrier, and each adds up a 640-column strip
  of the sixteen rows, so that a SparseCore's plane of the output holds, at column n, the number of entries in that
  SparseCore's columns that name n.  The 32 column sets partition the 160000 columns, so the two SparseCores' counts add
  up to t.  The head, on the TensorCore, adds the two count rows, forms both layers at each of 10240 node columns from
  the four rows' projections and the count, and pools copies 2 and 3 as a sum over the columns, the 240 columns of
  padding masked off (anything times zero is zero), times the named constant 1/10000; copies 0 and 1 it pools as their
  one row.  The steps that need the inputs to be real numbers (a factor moved across a sum, k copies of v adding up to
  k v, the quotient by 10000 as a product) use the precondition: every float entry is finite, and every edge-list entry
  lies in [0, 9999].

  Each program also runs to its end and leaves its ten arguments as they were; the word-level kernel's run is the same
  run at the bit-exact values with the result's value dropped, and the one constant the idealization names is 1/10000.
-/
import proofs.«210354_g33337536152245_cont_8to1_b_1126_28_alg».proof.Defs
import proofs.«210354_g33337536152245_cont_8to1_b_1126_28_alg».proof.Proof.Gen.Kernel
import proofs.«210354_g33337536152245_cont_8to1_b_1126_28_alg».proof.Proof.Gen.Kernel.Skeleton
import proofs.«210354_g33337536152245_cont_8to1_b_1126_28_alg».proof.Proof.Gen.Kernel.Launch
import proofs.«210354_g33337536152245_cont_8to1_b_1126_28_alg».proof.Proof.Gen.Kernel.Points
import proofs.«210354_g33337536152245_cont_8to1_b_1126_28_alg».proof.Proof.Gen.KernelIdeal
import proofs.«210354_g33337536152245_cont_8to1_b_1126_28_alg».proof.Proof.Gen.KernelIdeal.Skeleton
import proofs.«210354_g33337536152245_cont_8to1_b_1126_28_alg».proof.Proof.Gen.KernelIdeal.Launch
import proofs.«210354_g33337536152245_cont_8to1_b_1126_28_alg».proof.Proof.Gen.KernelIdeal.Points
import proofs.«210354_g33337536152245_cont_8to1_b_1126_28_alg».proof.Proof.Gen.ReferenceIdeal
import proofs.«210354_g33337536152245_cont_8to1_b_1126_28_alg».proof.Proof.Gen.Pre_input_domain
import proofs.«210354_g33337536152245_cont_8to1_b_1126_28_alg».proof.Proof.Gen.ReferenceIdeal.Run
import proofs.«210354_g33337536152245_cont_8to1_b_1126_28_alg».proof.Proof.Gen.ReferenceIdeal.Read
import Idealize.ShloMosaic.Adequacy
import Idealize.ShloMosaic.Init
import proofs.«210354_g33337536152245_cont_8to1_b_1126_28_alg».proof.Proof.HistClaims
import proofs.«210354_g33337536152245_cont_8to1_b_1126_28_alg».proof.Proof.HistTile
import proofs.«210354_g33337536152245_cont_8to1_b_1126_28_alg».proof.Proof.HistCount
import proofs.«210354_g33337536152245_cont_8to1_b_1126_28_alg».proof.Proof.HistBClaims

noncomputable section

namespace Cert.Proof

open Idealize.ShloMosaic Idealize.SL.Sem Cert.Kernel

/-- A tile's obligation at the extended reals: the kernel function's body, proved at every tile of the grid. -/
theorem tileSide : Cert.KernelIdeal.Hist.TileSide := fun m hN =>
  Cert.KernelIdeal.Hist.tileObl_of_body (Cert.KernelIdeal.Hist.SHv (F := Ideal) m) m (Cert.KernelIdeal.Hist.CHv (F := Ideal) m)
    (Cert.KernelIdeal.Hist.tile_body (F := Ideal) m hN)

/-- A SparseCore's count of a node, at the extended reals, is the number of the node's occurrences in its columns. -/
theorem countSide : Cert.KernelIdeal.Hist.CountSide := fun m d he c n => Cert.KernelIdeal.Hist.CHv_ideal m d he c n

theorem claim : Cert.Claim :=
  ⟨Cert.Kernel.Gen.facts, Cert.KernelIdeal.Gen.facts, Cert.ReferenceIdeal.Gen.facts, Cert.Pre_input_domain.Gen.facts,
    Cert.Kernel.Hist.frame_p, Cert.Proof.HistClaims.frame_pi tileSide, Cert.Proof.HistClaims.frame_ri,
    Cert.Proof.HistClaims.preserves, Cert.Proof.HistClaims.algebraic tileSide countSide⟩

end Cert.Proof

end
